-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x2048x2048 : Shape := ⟨3, ![1, 2048, 2048]⟩
abbrev S32768 : Shape := ⟨1, ![32768]⟩
abbrev S2048x16 : Shape := ⟨2, ![2048, 16]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S2048 : S_.BroadcastsInDim S2048 (![] : Fin 0 → Fin S2048.rank)
  reducesTo_S2048_S_d0 : S2048.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg1 : IVec S32768 32) (main_v13 : IVec S_ 1) (main_v15 : IVec S32768 1) (main_c_5 : IVec S_ 32) : IVec S_ 1 :=
  let main_v16 : IVec S32768 32 := broadcastInDim S32768 ![] bcast_S_S32768 main_c_5
  let main_v17 : IVec S32768 1 := cmpi .sle main_arg1 main_v16
  let main_v18 : IVec S32768 1 := andi main_v15 main_v17
  let main_c_6 : IVec S_ 1 := constantI S_ 1 1#1
  let main_v19 : IVec S_ 1 := (fun x v => Host.reduce IntOp.andi x v reducesTo_S32768_S_d0 h_S_) main_v18 main_c_6
  let main_v20 : IVec S_ 1 := andi main_v13 main_v19
  main_v20

def fn {F : FTy → Type} [FloatOps F] (main_arg0 : FVec F S1x2048x2048 .f32) (main_arg1 : IVec S32768 32) (main_arg2 : FVec F S2048x16 .f32) (main_arg3 : FVec F S2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x16 .f32 := Host.absf main_arg2
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 0#32
  let main_v14 : IVec S32768 32 := broadcastInDim S32768 ![] bcast_S_S32768 main_c_4
  let main_v15 : IVec S32768 1 := cmpi .sge main_arg1 main_v14
  let main_c_5 : IVec S_ 32 := constantI S_ 32 2047#32
  fn_part1 (F := F) main_arg1 main_v13 main_v15 main_c_5
-- ==== Kernel.lean ====
abbrev S1x2048x2048 : Shape := ⟨3, ![1, 2048, 2048]⟩
abbrev S32768 : Shape := ⟨1, ![32768]⟩
abbrev S2048x16 : Shape := ⟨2, ![2048, 16]⟩
abbrev S2048 : Shape := ⟨1, ![2048]⟩
abbrev S_ : Shape := ⟨0, ![]⟩
abbrev S2x2048 : Shape := ⟨2, ![2, 2048]⟩
abbrev S2048x2048 : Shape := ⟨2, ![2048, 2048]⟩
abbrev S1024 : Shape := ⟨1, ![1024]⟩
abbrev S64x16 : Shape := ⟨2, ![64, 16]⟩
abbrev S16 : Shape := ⟨1, ![16]⟩
abbrev S1x16 : Shape := ⟨2, ![1, 16]⟩
abbrev S256x2048 : Shape := ⟨2, ![256, 2048]⟩
abbrev S256 : Shape := ⟨1, ![256]⟩
abbrev S1x2048x256 : Shape := ⟨3, ![1, 2048, 256]⟩
abbrev S2048x256 : Shape := ⟨2, ![2048, 256]⟩
abbrev S1x256 : Shape := ⟨2, ![1, 256]⟩

abbrev nBuf : Table → Nat
  | .hbm => 9
  | .local .tc .vmem => 7
  | .local .scVector .vmem => 4
  | _ => 0

abbrev bufTy : (tb : Table) → Fin (nBuf tb) → BufTy
  | .hbm, ⟨0, _⟩ => ⟨S1x2048x2048, .f32⟩
  | .hbm, ⟨1, _⟩ => ⟨S32768, .i32⟩
  | .hbm, ⟨2, _⟩ => ⟨S2048x16, .f32⟩
  | .hbm, ⟨3, _⟩ => ⟨S2048, .f32⟩
  | .hbm, ⟨4, _⟩ => ⟨S_, .f32⟩
  | .hbm, ⟨5, _⟩ => ⟨S2x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .local .tc .vmem, ⟨0, _⟩ => ⟨S2048x2048, .f32⟩
  | .local .tc .vmem, ⟨1, _⟩ => ⟨S256x2048, .f32⟩
  | .local .tc .vmem, ⟨2, _⟩ => ⟨S256x2048, .f32⟩
  | .local .tc .vmem, ⟨3, _⟩ => ⟨S256, .f32⟩
  | .local .tc .vmem, ⟨4, _⟩ => ⟨S256, .f32⟩
  | .local .tc .vmem, ⟨5, _⟩ => ⟨S1x2048x256, .f32⟩
  | .local .tc .vmem, ⟨6, _⟩ => ⟨S1x2048x256, .f32⟩
  | .local .scVector .vmem, ⟨0, _⟩ => ⟨S2x2048, .f32⟩
  | .local .scVector .vmem, ⟨1, _⟩ => ⟨S2x2048, .f32⟩
  | .local .scVector .vmem, ⟨2, _⟩ => ⟨S1024, .i32⟩
  | .local .scVector .vmem, ⟨3, _⟩ => ⟨S64x16, .f32⟩
  | _, _ => ⟨S1x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1_scv : Ref sig .scVector := ⟨.hbm, 1, rfl⟩
abbrev main_arg2_scv : Ref sig .scVector := ⟨.hbm, 2, rfl⟩
abbrev main_v0_scv : Ref sig .scVector := ⟨.hbm, 5, rfl⟩
abbrev main_v1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32 : BitVec 32 := 16#32
  let v3 : BitVec 32 := Scalar.muli v2 c16_i32
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_6_r1 : BitVec 32 := 0#32
  ![v2.toNat, 0]
@[reducible] def k0_t1_loop : Scf.Loop 32 :=
  let c0_i32 : BitVec 32 := 0#32
  let c16_i32_0 : BitVec 32 := 16#32
  let v5 : BitVec 32 := Scalar.addi c0_i32 c16_i32_0
  let c1_i32 : BitVec 32 := 1#32
  ⟨c0_i32, v5, c1_i32⟩
def k0_cond1 (k0_t1 : Fin k0_t1_loop.trips) : BitVec 1 :=
  let c0_i32 : BitVec 32 := 0#32
  let c1_i32 : BitVec 32 := 1#32
  let arg14 : BitVec 32 := Scf.iv c0_i32 c1_i32 k0_t1
  let c0_i32_8 : BitVec 32 := 0#32
  let v14 : BitVec 1 := Scalar.cmpi .sgt arg14 c0_i32_8
  let v15 : BitVec 32 := Scalar.extui v14
  let c0_i32_9 : BitVec 32 := 0#32
  let v16 : BitVec 1 := Scalar.cmpi .ne v15 c0_i32_9
  v16

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_41 : BitVec 32 := 2#32
  let v70 : BitVec 32 := Scalar.subi v13 c2_i32_41
  let c2_i32_42 : BitVec 32 := 2#32
  let v71 : BitVec 32 := Scalar.muli v70 c2_i32_42
  let v72 : BitVec 32 := Scalar.addi v2 v71
  let c0_i32_43 : BitVec 32 := 0#32
  ![v72.toNat, 0]
def k0_off4 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_46 : BitVec 32 := 2#32
  let v75 : BitVec 32 := Scalar.subi v13 c2_i32_46
  let c2_i32_47 : BitVec 32 := 2#32
  let v76 : BitVec 32 := Scalar.muli v75 c2_i32_47
  let c0_i32_45 : BitVec 32 := 0#32
  let v77 : BitVec 32 := Scalar.addi v76 c0_i32_45
  let c16_i32_48 : BitVec 32 := 16#32
  let v78 : BitVec 32 := Scalar.muli v77 c16_i32_48
  let v80 : Index := Scalar.indexCast v78
  ![v80.toNat]

def k0_chk1 (k0_t1 : Fin k0_t1_loop.trips) (v79 : IVec S16 32) (v81 : IVec S16 32) : Prop :=
  (∀ (k0_h1 : k0_cond1 k0_t1 = 1#1), ∀ a x, ((![v79, v81] : Fin 2 → IVec S16 32) a x).toNat < S2x2048.size a)
instance k0_chk1.dec : ∀ (k0_t1 : Fin k0_t1_loop.trips) (v79 : IVec S16 32) (v81 : IVec S16 32), Decidable (k0_chk1 k0_t1 v79 v81) := fun k0_t1 v79 v81 => decidable_of_iff' _ (Iff.of_eq (k0_chk1.eq_1 k0_t1 v79 v81))
theorem k0_idx1_inb : ∀ (k0_t1 : Fin k0_t1_loop.trips) (v79 : IVec S16 32) (v81 : IVec S16 32) (k0_hw1 : k0_chk1 k0_t1 v79 v81), ∀ (k0_h1 : k0_cond1 k0_t1 = 1#1), ∀ a x, ((![v79, v81] : Fin 2 → IVec S16 32) a x).toNat < S2x2048.size a := fun k0_t1 v79 v81 k0_hw1 k0_h1 => k0_hw1 k0_h1
def k0_off5 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_50 : BitVec 32 := 2#32
  let v82 : BitVec 32 := Scalar.subi v13 c2_i32_50
  let c2_i32_51 : BitVec 32 := 2#32
  let v83 : BitVec 32 := Scalar.muli v82 c2_i32_51
  let c1_i32_49 : BitVec 32 := 1#32
  let v84 : BitVec 32 := Scalar.addi v83 c1_i32_49
  let c16_i32_52 : BitVec 32 := 16#32
  let v85 : BitVec 32 := Scalar.muli v84 c16_i32_52
  let v87 : Index := Scalar.indexCast v85
  ![v87.toNat]

def k0_chk2 (k0_t1 : Fin k0_t1_loop.trips) (v86 : IVec S16 32) (v88 : IVec S16 32) : Prop :=
  (∀ (k0_h1 : k0_cond1 k0_t1 = 1#1), ∀ a x, ((![v86, v88] : Fin 2 → IVec S16 32) a x).toNat < S2x2048.size a)
instance k0_chk2.dec : ∀ (k0_t1 : Fin k0_t1_loop.trips) (v86 : IVec S16 32) (v88 : IVec S16 32), Decidable (k0_chk2 k0_t1 v86 v88) := fun k0_t1 v86 v88 => decidable_of_iff' _ (Iff.of_eq (k0_chk2.eq_1 k0_t1 v86 v88))
theorem k0_idx2_inb : ∀ (k0_t1 : Fin k0_t1_loop.trips) (v86 : IVec S16 32) (v88 : IVec S16 32) (k0_hw2 : k0_chk2 k0_t1 v86 v88), ∀ (k0_h1 : k0_cond1 k0_t1 = 1#1), ∀ a x, ((![v86, v88] : Fin 2 → IVec S16 32) a x).toNat < S2x2048.size a := fun k0_t1 v86 v88 k0_hw2 k0_h1 => k0_hw2 k0_h1
def k0_off6 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_11 : BitVec 32 := 2#32
  let v17 : BitVec 32 := Scalar.muli v13 c2_i32_11
  let c0_i32_10 : BitVec 32 := 0#32
  let v18 : BitVec 32 := Scalar.addi v17 c0_i32_10
  let c16_i32_12 : BitVec 32 := 16#32
  let v19 : BitVec 32 := Scalar.muli v18 c16_i32_12
  let v20 : Index := Scalar.indexCast v19
  ![v20.toNat]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_13 : BitVec 32 := 2#32
  let v22 : BitVec 32 := Scalar.muli v13 c2_i32_13
  let c0_i32_10 : BitVec 32 := 0#32
  let v23 : BitVec 32 := Scalar.addi v22 c0_i32_10
  let v24 : Index := Scalar.indexCast v23
  let c0 : Index := 0#32
  ![v24.toNat, 0]

def k0_chk3 (v21 : IVec S16 32) (v26 : IVec S16 32) : Prop :=
  (∀ a x, ((![v26, v21] : Fin 2 → IVec S16 32) a x).toNat < S2x2048.size a)
instance k0_chk3.dec : ∀ (v21 : IVec S16 32) (v26 : IVec S16 32), Decidable (k0_chk3 v21 v26) := fun v21 v26 => decidable_of_iff' _ (Iff.of_eq (k0_chk3.eq_1 v21 v26))
theorem k0_idx3_inb : ∀ (v21 : IVec S16 32) (v26 : IVec S16 32) (k0_hw3 : k0_chk3 v21 v26), ∀ a x, ((![v26, v21] : Fin 2 → IVec S16 32) a x).toNat < S2x2048.size a := fun v21 v26 k0_hw3 => k0_hw3
def k0_off8 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_15 : BitVec 32 := 2#32
  let v27 : BitVec 32 := Scalar.muli v13 c2_i32_15
  let c1_i32_14 : BitVec 32 := 1#32
  let v28 : BitVec 32 := Scalar.addi v27 c1_i32_14
  let c16_i32_16 : BitVec 32 := 16#32
  let v29 : BitVec 32 := Scalar.muli v28 c16_i32_16
  let v30 : Index := Scalar.indexCast v29
  ![v30.toNat]
def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_17 : BitVec 32 := 2#32
  let v32 : BitVec 32 := Scalar.muli v13 c2_i32_17
  let c1_i32_14 : BitVec 32 := 1#32
  let v33 : BitVec 32 := Scalar.addi v32 c1_i32_14
  let v34 : Index := Scalar.indexCast v33
  let c0_18 : Index := 0#32
  ![v34.toNat, 0]

def k0_chk4 (v31 : IVec S16 32) (v36 : IVec S16 32) : Prop :=
  (∀ a x, ((![v36, v31] : Fin 2 → IVec S16 32) a x).toNat < S2x2048.size a)
instance k0_chk4.dec : ∀ (v31 : IVec S16 32) (v36 : IVec S16 32), Decidable (k0_chk4 v31 v36) := fun v31 v36 => decidable_of_iff' _ (Iff.of_eq (k0_chk4.eq_1 v31 v36))
theorem k0_idx4_inb : ∀ (v31 : IVec S16 32) (v36 : IVec S16 32) (k0_hw4 : k0_chk4 v31 v36), ∀ a x, ((![v36, v31] : Fin 2 → IVec S16 32) a x).toNat < S2x2048.size a := fun v31 v36 k0_hw4 => k0_hw4
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  let c1_i32 : BitVec 32 := 1#32
  let arg14 : BitVec 32 := Scf.iv c0_i32 c1_i32 k0_t1
  let c2_i32_6 : BitVec 32 := 2#32
  let v12 : BitVec 32 := Scalar.muli arg14 c2_i32_6
  let c0_i32_7 : BitVec 32 := 0#32
  let v13 : BitVec 32 := Scalar.addi v12 c0_i32_7
  let c2_i32_20 : BitVec 32 := 2#32
  let v37 : BitVec 32 := Scalar.muli v13 c2_i32_20
  let v38 : BitVec 32 := Scalar.addi v2 v37
  let c0_i32_21 : BitVec 32 := 0#32
  ![v38.toNat, 0]
def k0_cond2 (k0_t1 : Fin k0_t1_loop.trips) : BitVec 1 :=
  let c0_i32 : BitVec 32 := 0#32
  let c1_i32 : BitVec 32 := 1#32
  let arg14 : BitVec 32 := Scf.iv c0_i32 c1_i32 k0_t1
  let c0_i32_25 : BitVec 32 := 0#32
  let v43 : BitVec 1 := Scalar.cmpi .sgt arg14 c0_i32_25
  let v44 : BitVec 32 := Scalar.extui v43
  let c0_i32_26 : BitVec 32 := 0#32
  let v45 : BitVec 1 := Scalar.cmpi .ne v44 c0_i32_26
  v45

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_41 : BitVec 32 := 2#32
  let v70 : BitVec 32 := Scalar.subi v42 c2_i32_41
  let c2_i32_42 : BitVec 32 := 2#32
  let v71 : BitVec 32 := Scalar.muli v70 c2_i32_42
  let v72 : BitVec 32 := Scalar.addi v2 v71
  let c0_i32_43 : BitVec 32 := 0#32
  ![v72.toNat, 0]
def k0_off12 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_46 : BitVec 32 := 2#32
  let v75 : BitVec 32 := Scalar.subi v42 c2_i32_46
  let c2_i32_47 : BitVec 32 := 2#32
  let v76 : BitVec 32 := Scalar.muli v75 c2_i32_47
  let c0_i32_45 : BitVec 32 := 0#32
  let v77 : BitVec 32 := Scalar.addi v76 c0_i32_45
  let c16_i32_48 : BitVec 32 := 16#32
  let v78 : BitVec 32 := Scalar.muli v77 c16_i32_48
  let v80 : Index := Scalar.indexCast v78
  ![v80.toNat]

def k0_chk5 (k0_t1 : Fin k0_t1_loop.trips) (v79 : IVec S16 32) (v81 : IVec S16 32) : Prop :=
  (∀ (k0_h2 : k0_cond2 k0_t1 = 1#1), ∀ a x, ((![v79, v81] : Fin 2 → IVec S16 32) a x).toNat < S2x2048.size a)
instance k0_chk5.dec : ∀ (k0_t1 : Fin k0_t1_loop.trips) (v79 : IVec S16 32) (v81 : IVec S16 32), Decidable (k0_chk5 k0_t1 v79 v81) := fun k0_t1 v79 v81 => decidable_of_iff' _ (Iff.of_eq (k0_chk5.eq_1 k0_t1 v79 v81))
theorem k0_idx5_inb : ∀ (k0_t1 : Fin k0_t1_loop.trips) (v79 : IVec S16 32) (v81 : IVec S16 32) (k0_hw5 : k0_chk5 k0_t1 v79 v81), ∀ (k0_h2 : k0_cond2 k0_t1 = 1#1), ∀ a x, ((![v79, v81] : Fin 2 → IVec S16 32) a x).toNat < S2x2048.size a := fun k0_t1 v79 v81 k0_hw5 k0_h2 => k0_hw5 k0_h2
def k0_off13 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_50 : BitVec 32 := 2#32
  let v82 : BitVec 32 := Scalar.subi v42 c2_i32_50
  let c2_i32_51 : BitVec 32 := 2#32
  let v83 : BitVec 32 := Scalar.muli v82 c2_i32_51
  let c1_i32_49 : BitVec 32 := 1#32
  let v84 : BitVec 32 := Scalar.addi v83 c1_i32_49
  let c16_i32_52 : BitVec 32 := 16#32
  let v85 : BitVec 32 := Scalar.muli v84 c16_i32_52
  let v87 : Index := Scalar.indexCast v85
  ![v87.toNat]

def k0_chk6 (k0_t1 : Fin k0_t1_loop.trips) (v86 : IVec S16 32) (v88 : IVec S16 32) : Prop :=
  (∀ (k0_h2 : k0_cond2 k0_t1 = 1#1), ∀ a x, ((![v86, v88] : Fin 2 → IVec S16 32) a x).toNat < S2x2048.size a)
instance k0_chk6.dec : ∀ (k0_t1 : Fin k0_t1_loop.trips) (v86 : IVec S16 32) (v88 : IVec S16 32), Decidable (k0_chk6 k0_t1 v86 v88) := fun k0_t1 v86 v88 => decidable_of_iff' _ (Iff.of_eq (k0_chk6.eq_1 k0_t1 v86 v88))
theorem k0_idx6_inb : ∀ (k0_t1 : Fin k0_t1_loop.trips) (v86 : IVec S16 32) (v88 : IVec S16 32) (k0_hw6 : k0_chk6 k0_t1 v86 v88), ∀ (k0_h2 : k0_cond2 k0_t1 = 1#1), ∀ a x, ((![v86, v88] : Fin 2 → IVec S16 32) a x).toNat < S2x2048.size a := fun k0_t1 v86 v88 k0_hw6 k0_h2 => k0_hw6 k0_h2
def k0_off14 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_28 : BitVec 32 := 2#32
  let v46 : BitVec 32 := Scalar.muli v42 c2_i32_28
  let c0_i32_27 : BitVec 32 := 0#32
  let v47 : BitVec 32 := Scalar.addi v46 c0_i32_27
  let c16_i32_29 : BitVec 32 := 16#32
  let v48 : BitVec 32 := Scalar.muli v47 c16_i32_29
  let v49 : Index := Scalar.indexCast v48
  ![v49.toNat]
def k0_off15 (k0_t1 : Fin k0_t1_loop.trips) : Fin 2 → Nat :=
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_30 : BitVec 32 := 2#32
  let v51 : BitVec 32 := Scalar.muli v42 c2_i32_30
  let c0_i32_27 : BitVec 32 := 0#32
  let v52 : BitVec 32 := Scalar.addi v51 c0_i32_27
  let v53 : Index := Scalar.indexCast v52
  let c0_31 : Index := 0#32
  ![v53.toNat, 0]

def k0_chk7 (v50 : IVec S16 32) (v55 : IVec S16 32) : Prop :=
  (∀ a x, ((![v55, v50] : Fin 2 → IVec S16 32) a x).toNat < S2x2048.size a)
instance k0_chk7.dec : ∀ (v50 : IVec S16 32) (v55 : IVec S16 32), Decidable (k0_chk7 v50 v55) := fun v50 v55 => decidable_of_iff' _ (Iff.of_eq (k0_chk7.eq_1 v50 v55))
theorem k0_idx7_inb : ∀ (v50 : IVec S16 32) (v55 : IVec S16 32) (k0_hw7 : k0_chk7 v50 v55), ∀ a x, ((![v55, v50] : Fin 2 → IVec S16 32) a x).toNat < S2x2048.size a := fun v50 v55 k0_hw7 => k0_hw7
def k0_off16 (k0_t1 : Fin k0_t1_loop.trips) : Fin 1 → Nat :=
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_33 : BitVec 32 := 2#32
  let v56 : BitVec 32 := Scalar.muli v42 c2_i32_33
  let c1_i32_32 : BitVec 32 := 1#32
  let v57 : BitVec 32 := Scalar.addi v56 c1_i32_32
  let c16_i32_34 : BitVec 32 := 16#32
  let v58 : BitVec 32 := Scalar.muli v57 c16_i32_34
  let v59 : Index := Scalar.indexCast v58
  ![v59.toNat]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_35 : BitVec 32 := 2#32
  let v61 : BitVec 32 := Scalar.muli v42 c2_i32_35
  let c1_i32_32 : BitVec 32 := 1#32
  let v62 : BitVec 32 := Scalar.addi v61 c1_i32_32
  let v63 : Index := Scalar.indexCast v62
  let c0_36 : Index := 0#32
  ![v63.toNat, 0]

def k0_chk8 (v60 : IVec S16 32) (v65 : IVec S16 32) : Prop :=
  (∀ a x, ((![v65, v60] : Fin 2 → IVec S16 32) a x).toNat < S2x2048.size a)
instance k0_chk8.dec : ∀ (v60 : IVec S16 32) (v65 : IVec S16 32), Decidable (k0_chk8 v60 v65) := fun v60 v65 => decidable_of_iff' _ (Iff.of_eq (k0_chk8.eq_1 v60 v65))
theorem k0_idx8_inb : ∀ (v60 : IVec S16 32) (v65 : IVec S16 32) (k0_hw8 : k0_chk8 v60 v65), ∀ a x, ((![v65, v60] : Fin 2 → IVec S16 32) a x).toNat < S2x2048.size a := fun v60 v65 k0_hw8 => k0_hw8
def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  let c1_i32 : BitVec 32 := 1#32
  let arg14 : BitVec 32 := Scf.iv c0_i32 c1_i32 k0_t1
  let c2_i32_23 : BitVec 32 := 2#32
  let v41 : BitVec 32 := Scalar.muli arg14 c2_i32_23
  let c1_i32_24 : BitVec 32 := 1#32
  let v42 : BitVec 32 := Scalar.addi v41 c1_i32_24
  let c2_i32_38 : BitVec 32 := 2#32
  let v66 : BitVec 32 := Scalar.muli v42 c2_i32_38
  let v67 : BitVec 32 := Scalar.addi v2 v66
  let c0_i32_39 : BitVec 32 := 0#32
  ![v67.toNat, 0]
def k0_off19 (i : grid0.Coords) (c60_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v6 : BitVec 32 := Scalar.addi v2 c60_i32
  let c0_i32_2 : BitVec 32 := 0#32
  ![v6.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S2x2048 : S_.BroadcastsInDim S2x2048 (![] : Fin 0 → Fin S2x2048.rank)
  h_S16 : 0 < S16.numel
  h_S2x2048 : 0 < S2x2048.numel
  h_S1x16 : 0 < S1x16.numel
  shapeCasts_S1x16_S16 : S1x16.ShapeCasts S16
  shapeCasts_S1x2048x2048_S2048x2048 : S1x2048x2048.ShapeCasts S2048x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S1x2048x256 : S2048x256.ShapeCasts S1x2048x256
  inb_S1x2048x256_S1x2048x256_0_0_0 : ∀ a, (![0, 0, 0] : Fin 3 → Nat) a + S1x2048x256.size a ≤ S1x2048x256.size a
  h_S1x2048x256 : 0 < S1x2048x256.numel
  dot_S2048x2048_S256x2048_S2048x256_1_1_0_0_n_n_wf : DotDims.WF S2048x2048 S256x2048 S2048x256 [1] [1] [0] [0] [] []
  hcc0_scratch4 : 0 + S_.numel ≤ 13
  hcc0_scratch5 : 1 + S_.numel ≤ 13
  hcc0_scratch6 : 2 + S_.numel ≤ 13
  hcc0_scratch7 : 3 + S_.numel ≤ 13
  hcc0_scoped0 : 4 + S_.numel ≤ 13
  hcc0_scoped1 : 5 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S32768.size a
  k0_off2_inb : ∀ i : grid0.Coords, ∀ a, (k0_off2 i) a + S64x16.size a ≤ S2048x16.size a
  k0_t1_ok : k0_t1_loop.OK
  k0_off3_inb : ∀ (i : grid0.Coords) (k0_t1 : Fin k0_t1_loop.trips), ∀ (k0_h1 : k0_cond1 k0_t1 = 1#1), ∀ a, (k0_off3 i k0_t1) a + S2x2048.size a ≤ S2048x2048.size a
  k0_off4_inb : ∀ k0_t1 : Fin k0_t1_loop.trips, ∀ (k0_h1 : k0_cond1 k0_t1 = 1#1), ∀ a, (k0_off4 k0_t1) a + S16.size a ≤ S1024.size a
  k0_off5_inb : ∀ k0_t1 : Fin k0_t1_loop.trips, ∀ (k0_h1 : k0_cond1 k0_t1 = 1#1), ∀ a, (k0_off5 k0_t1) a + S16.size a ≤ S1024.size a
  k0_off6_inb : ∀ k0_t1 : Fin k0_t1_loop.trips, ∀ a, (k0_off6 k0_t1) a + S16.size a ≤ S1024.size a
  k0_off7_inb : ∀ k0_t1 : Fin k0_t1_loop.trips, ∀ a, (k0_off7 k0_t1) a + S1x16.size a ≤ S64x16.size a
  k0_off8_inb : ∀ k0_t1 : Fin k0_t1_loop.trips, ∀ a, (k0_off8 k0_t1) a + S16.size a ≤ S1024.size a
  k0_off9_inb : ∀ k0_t1 : Fin k0_t1_loop.trips, ∀ a, (k0_off9 k0_t1) a + S1x16.size a ≤ S64x16.size a
  k0_off10_inb : ∀ (i : grid0.Coords) (k0_t1 : Fin k0_t1_loop.trips), ∀ a, (k0_off10 i k0_t1) a + S2x2048.size a ≤ S2048x2048.size a
  k0_off11_inb : ∀ (i : grid0.Coords) (k0_t1 : Fin k0_t1_loop.trips), ∀ (k0_h2 : k0_cond2 k0_t1 = 1#1), ∀ a, (k0_off11 i k0_t1) a + S2x2048.size a ≤ S2048x2048.size a
  k0_off12_inb : ∀ k0_t1 : Fin k0_t1_loop.trips, ∀ (k0_h2 : k0_cond2 k0_t1 = 1#1), ∀ a, (k0_off12 k0_t1) a + S16.size a ≤ S1024.size a
  k0_off13_inb : ∀ k0_t1 : Fin k0_t1_loop.trips, ∀ (k0_h2 : k0_cond2 k0_t1 = 1#1), ∀ a, (k0_off13 k0_t1) a + S16.size a ≤ S1024.size a
  k0_off14_inb : ∀ k0_t1 : Fin k0_t1_loop.trips, ∀ a, (k0_off14 k0_t1) a + S16.size a ≤ S1024.size a
  k0_off15_inb : ∀ k0_t1 : Fin k0_t1_loop.trips, ∀ a, (k0_off15 k0_t1) a + S1x16.size a ≤ S64x16.size a
  k0_off16_inb : ∀ k0_t1 : Fin k0_t1_loop.trips, ∀ a, (k0_off16 k0_t1) a + S16.size a ≤ S1024.size a
  k0_off17_inb : ∀ k0_t1 : Fin k0_t1_loop.trips, ∀ a, (k0_off17 k0_t1) a + S1x16.size a ≤ S64x16.size a
  k0_off18_inb : ∀ (i : grid0.Coords) (k0_t1 : Fin k0_t1_loop.trips), ∀ a, (k0_off18 i k0_t1) a + S2x2048.size a ≤ S2048x2048.size a
  k0_off19_inb : ∀ i : grid0.Coords, ∀ (r : Fin 2), ∀ a, (k0_off19 i (BitVec.ofNat 32 (60 + 2 * r.val))) a + S2x2048.size a ≤ S2048x2048.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .f32 = 32 ∨ (Rect.block (s := S2048x2048) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .f32 = 32 ∨ (Rect.block (s := S2048x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S2048.size a
  hwx1_2 : ∀ i : grid1.Coords, EltTy.bits .f32 = 32 ∨ (Rect.block (s := S2048) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x256.size a ≤ S1x2048x2048.size a
  hwx1_3 : ∀ i : grid1.Coords, EltTy.bits .f32 = 32 ∨ (Rect.block (s := S1x2048x2048) S1x2048x256.size (cc1_transform_3 i) (hinb1_3 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1
def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win1_0 : Pipeline.Window sig grid1 :=
  Pipeline.Window.ofSpec (Memref.whole main_v2) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x2048x2048 : Shape := ⟨3, ![1, 2048, 2048]⟩
abbrev S32768 : Shape := ⟨1, ![32768]⟩
abbrev S2048x16 : Shape := ⟨2, ![2048, 16]⟩
abbrev S2048 : Shape := ⟨1, ![2048]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S1x2048x32768 : Shape := ⟨3, ![1, 2048, 32768]⟩
abbrev S1x2048x2048x16 : Shape := ⟨4, ![1, 2048, 2048, 16]⟩
abbrev S2048x1x2048 : Shape := ⟨3, ![2048, 1, 2048]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S32768, .i32⟩
  | .hbm, ⟨2, _⟩ => ⟨S2048x16, .f32⟩
  | .hbm, ⟨3, _⟩ => ⟨S2048, .f32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S1, .i32⟩
  | .hbm, ⟨13, _⟩ => ⟨S_, .i32⟩
  | .hbm, ⟨14, _⟩ => ⟨S32768x1, .i32⟩
  | .hbm, ⟨15, _⟩ => ⟨S32768x1, .i1⟩
  | .hbm, ⟨16, _⟩ => ⟨S1x1, .i32⟩
  | .hbm, ⟨17, _⟩ => ⟨S32768x1, .i32⟩
  | .hbm, ⟨18, _⟩ => ⟨S32768x1, .i1⟩
  | .hbm, ⟨19, _⟩ => ⟨S32768x1, .i1⟩
  | .hbm, ⟨20, _⟩ => ⟨S_, .i1⟩
  | .hbm, ⟨21, _⟩ => ⟨S32768, .i1⟩
  | .hbm, ⟨22, _⟩ => ⟨S1x2048x32768, .f32⟩
  | .hbm, ⟨23, _⟩ => ⟨S1x2048x32768, .i1⟩
  | .hbm, ⟨24, _⟩ => ⟨S_, .f32⟩
  | .hbm, ⟨25, _⟩ => ⟨S1x2048x32768, .f32⟩
  | .hbm, ⟨26, _⟩ => ⟨S1x2048x32768, .f32⟩
  | .hbm, ⟨27, _⟩ => ⟨S1x2048x2048x16, .f32⟩
  | .hbm, ⟨28, _⟩ => ⟨S2048x1x2048, .f32⟩
  | .hbm, ⟨29, _⟩ => ⟨S1x2048x2048, .f32⟩
  | .hbm, ⟨30, _⟩ => ⟨S1x1x2048, .f32⟩
  | .hbm, ⟨31, _⟩ => ⟨S1x2048x2048, .f32⟩
  | .hbm, ⟨32, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S1x2048x32768_2 : S32768.BroadcastsInDim S1x2048x32768 (![2] : Fin 1 → Fin S1x2048x32768.rank)
  bcast_S_S1x2048x32768 : S_.BroadcastsInDim S1x2048x32768 (![] : Fin 0 → Fin S1x2048x32768.rank)
  shapeCasts_S1x2048x32768_S1x2048x2048x16 : S1x2048x32768.ShapeCasts S1x2048x2048x16
  transposes_S2048x1x2048_S1x2048x2048_1_2_0 : S2048x1x2048.Transposes [1, 2, 0] S1x2048x2048
  bcast_S2048_S1x1x2048_2 : S2048.BroadcastsInDim S1x1x2048 (![2] : Fin 1 → Fin S1x1x2048.rank)
  bcast_S1x1x2048_S1x2048x2048_0_1_2 : S1x1x2048.BroadcastsInDim S1x2048x2048 (![0, 1, 2] : Fin 3 → Fin S1x2048x2048.rank)
  gather_S1x2048x2048_S32768x1_S1x2048x32768_01_2_n_n_2_1_120481_wf : GatherDims.WF S1x2048x2048 S32768x1 S1x2048x32768 [0, 1] [2] [] [2] [] 1 ![1, 2048, 1]
  dot_S2048x16_S1x2048x2048x16_S2048x1x2048_1_3_n_01_0_2_wf : DotDims.WF S2048x16 S1x2048x2048x16 S2048x1x2048 [1] [3] [] [0, 1] [0] [2]

variable [Facts₀]

def gather_S1x2048x2048_S32768x1_S1x2048x32768_01_2_n_n_2_1_120481 : GatherDims S1x2048x2048 S32768x1 S1x2048x32768 where
  offsetDims := [0, 1]
  collapsedSliceDims := [2]
  operandBatchingDims := []
  startIndicesBatchingDims := []
  startIndexMap := [2]
  indexVectorDim := 1
  sliceSizes := ![1, 2048, 1]
  wf := gather_S1x2048x2048_S32768x1_S1x2048x32768_01_2_n_n_2_1_120481_wf
def dot_S2048x16_S1x2048x2048x16_S2048x1x2048_1_3_n_01_0_2 : DotDims S2048x16 S1x2048x2048x16 S2048x1x2048 where
  lhsContracting := [1]
  rhsContracting := [3]
  lhsNonContracting := []
  rhsNonContracting := [0, 1]
  lhsBatch := [0]
  rhsBatch := [2]
  wf := dot_S2048x16_S1x2048x2048x16_S2048x1x2048_1_3_n_01_0_2_wf

class Facts : Prop extends Facts₀ where

variable [Facts]
-- ==== Proof.Spec.lean ====
/-
  The two arrays the kernel computes, as pure functions of the argument arrays, for any float instance.

  The first kernel builds a dense matrix `mt` row by row: row `ρ` starts at zero and receives, for each of its
  sixteen connections `k`, the weight `w ρ k` added at column `conn (16 ρ + k)` (lanes taken in ascending order, so
  that repeated columns accumulate).  Rows are produced two at a time in a block of two rows.  The second kernel
  multiplies the activations by the transpose of `mt`, 256 columns of the result at a time, and adds the bias.
-/
import proofs.«207065_g23029614641262_cont_8to1_115_36_alg».proof.KernelIdeal
import proofs.«207065_g23029614641262_cont_8to1_115_36_alg».proof.Proof.Gen.KernelIdeal
import Idealize.ShloMosaic.Lib.ValueIdx

noncomputable section

namespace Cert.KernelIdeal.Hand

open Cert.KernelIdeal
open Idealize.ShloMosaic Idealize.ShloMosaic.ValueIdx

variable {F : FTy → Type} [FloatOps F]

/-- The sixteen connection words of row `ρ`: `conn` at `16 ρ + k`. -/
def idxRow (conn : IVec S32768 32) (ρ : Fin 2048) : IVec S16 32 :=
  fun x => conn (ix1 (⟨16 * ρ.val + (x 0).val, by have h : (x 0).val < 16 := (x 0).isLt; omega⟩ : Fin 32768))

/-- Row `ρ` of the weights as a vector of sixteen lanes. -/
def wRow (w : FVec F S2048x16 .f32) (ρ : Fin 2048) : FVec F S16 .f32 :=
  fun x => w (ix2 ρ (⟨(x 0).val, (x 0).isLt⟩ : Fin 16))

/-- The block of two rows of zeros every pair of rows starts from. -/
def zeroBlk : FVec F S2x2048 .f32 :=
  broadcastInDim S2x2048 ![] Facts₀.bcast_S_S2x2048 (constant (F := F) S_ .f32 0x00000000#32)

/-- The index vectors of one row's scatter: the row number in every lane, and the row's connection words. -/
def rowIdxs (conn : IVec S32768 32) (r : BitVec 32) (ρ : Fin 2048) : Fin S2x2048.rank → IVec S16 32 :=
  ![broadcast S16 r, idxRow conn ρ]

/-- With every connection word below 2048 and the row number below 2, the scatter's indices name cells of the block. -/
theorem rowIdxs_inb (conn : IVec S32768 32) (hconn : ∀ i, (conn i).toNat < 2048) (r : BitVec 32) (hr : r.toNat < 2) (ρ : Fin 2048) :
    ∀ a x, (rowIdxs conn r ρ a x).toNat < S2x2048.size a := by
  intro a x
  match a with
  | ⟨0, _⟩ => exact hr
  | ⟨1, _⟩ => exact hconn _

/-- A block of two rows of `mt`: row 0 receives the weights of row `ρ0`, row 1 those of row `ρ1`. -/
def mtBlk (conn : IVec S32768 32) (hconn : ∀ i, (conn i).toNat < 2048) (w : FVec F S2048x16 .f32) (ρ0 ρ1 : Fin 2048) : FVec F S2x2048 .f32 :=
  storeIdx (F := F) (e := .f32)
    (storeIdx (F := F) (e := .f32) (zeroBlk (F := F)) (rowIdxs conn 0#32 ρ0) (wRow w ρ0) (fun _ => 1#1) true
      (rowIdxs_inb conn hconn 0#32 (by decide) ρ0))
    (rowIdxs conn 1#32 ρ1) (wRow w ρ1) (fun _ => 1#1) true (rowIdxs_inb conn hconn 1#32 (by decide) ρ1)

/-- The whole matrix: row `j` is row `j % 2` of the block of the pair of rows that holds `j`. -/
def mtArr (conn : IVec S32768 32) (hconn : ∀ i, (conn i).toNat < 2048) (w : FVec F S2048x16 .f32) : FVec F S2048x2048 .f32 :=
  fun j =>
    have h0 : (j 0).val < 2048 := (j 0).isLt
    mtBlk conn hconn w ⟨2 * ((j 0).val / 2), by omega⟩ ⟨2 * ((j 0).val / 2) + 1, by omega⟩
      (ix2 (⟨(j 0).val % 2, Nat.mod_lt _ (by decide)⟩ : Fin 2) (⟨(j 1).val, (j 1).isLt⟩ : Fin 2048))

/-- Rows `256 t …` of a matrix of 2048 rows. -/
def mtBlock (mt : FVec F S2048x2048 .f32) (t : Fin 8) : FVec F S256x2048 .f32 :=
  fun y =>
    have h0 : (y 0).val < 256 := (y 0).isLt
    mt (ix2 (⟨256 * t.val + (y 0).val, by omega⟩ : Fin 2048) (⟨(y 1).val, (y 1).isLt⟩ : Fin 2048))

/-- Entries `256 t …` of a vector of 2048 entries. -/
def bBlock (b : FVec F S2048 .f32) (t : Fin 8) : FVec F S256 .f32 :=
  fun y =>
    have h0 : (y 0).val < 256 := (y 0).isLt
    b (ix1 (⟨256 * t.val + (y 0).val, by omega⟩ : Fin 2048))

/-- One block of 256 result columns: the activations times the transpose of 256 rows of `mt`, plus the bias. -/
def tcBlock (x2 : FVec F S2048x2048 .f32) (mtB : FVec F S256x2048 .f32) (bB : FVec F S256 .f32) : FVec F S1x2048x256 .f32 :=
  shapeCast S1x2048x256
    (addf
      (matmul dot_S2048x2048_S256x2048_S2048x256_1_1_0_0_n_n none
        (shapeCast S2048x2048 x2 Facts₀.shapeCasts_S2048x2048_S2048x2048)
        (shapeCast S256x2048 mtB Facts₀.shapeCasts_S256x2048_S256x2048)
        (constant S2048x256 .f32 0x00000000#32))
      (broadcastTo S2048x256 (shapeCast S1x256 bB Facts₀.shapeCasts_S256_S1x256) Facts₀.broadcasts_S1x256_S2048x256))
    Facts₀.shapeCasts_S2048x256_S1x2048x256

/-- The whole result: column `j` is column `j % 256` of block `j / 256`. -/
def outArr (x2 : FVec F S2048x2048 .f32) (mt : FVec F S2048x2048 .f32) (b : FVec F S2048 .f32) : FVec F S1x2048x2048 .f32 :=
  fun j =>
    have h2 : (j 2).val < 2048 := (j 2).isLt
    tcBlock x2 (mtBlock mt ⟨(j 2).val / 256, by omega⟩) (bBlock b ⟨(j 2).val / 256, by omega⟩)
      (ix3 (0 : Fin 1) (⟨(j 1).val, (j 1).isLt⟩ : Fin 2048) (⟨(j 2).val % 256, Nat.mod_lt _ (by decide)⟩ : Fin 256))

/-- The activations as a matrix. -/
def x2Arr (x : FVec F S1x2048x2048 .f32) : FVec F S2048x2048 .f32 :=
  shapeCast S2048x2048 x Facts₀.shapeCasts_S1x2048x2048_S2048x2048

end Cert.KernelIdeal.Hand

end
-- ==== Proof.Setup.lean ====
/-
  The program as the launch theorem sees it, the resource algebra, the arrays' locations, and what the SparseCore
  call hands each vector subcore and takes back.

  Tile `(c, s)` has number `wid = 2 s + c`.  It reads the 1024 connection words and the 64 weight rows of its 64 output
  rows, reads the block of zeros (which every tile reads, so each holds a read share of it), and owns rows
  `64 wid … 64 wid + 63` of the matrix `mt`, which it leaves at the one whole-array function `mtArr`.
-/
import proofs.«207065_g23029614641262_cont_8to1_115_36_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.KernelIdeal.Hand

open Cert.KernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The activations, the connection words, the weights, the bias (the arguments); the block of zeros, the matrix `mt`,
    the activations as a matrix, the result — as locations of device `d`. -/
abbrev aLoc (d : Dev nD) : Loc nD τ sig := (SparseCore.T d).loc main_arg0
abbrev cLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev zLoc (d : Dev nD) : Loc nD τ sig := (SparseCore.T d).loc main_v0
abbrev oLoc (d : Dev nD) : Loc nD τ sig := (SparseCore.T d).loc main_v1
abbrev x2Loc (d : Dev nD) : Loc nD τ sig := (SparseCore.T d).loc main_v2
abbrev rLoc (d : Dev nD) : Loc nD τ sig := (SparseCore.T d).loc main_v3

/-- What the proof asks of the launch memory: every connection word names a column. -/
def PreOK : Prop := ∀ (d : Dev nD) (i : S32768.Idx), ((m (cLoc d) : IVec S32768 32) i).toNat < 2048

variable [FloatOps F]

/-- The arrays as a vector subcore's kernel names them. -/
abbrev connV : Memref sig .scVector .hbm S32768 .i32 := Memref.whole main_arg1_scv
abbrev wV : Memref sig .scVector .hbm S2048x16 .f32 := Memref.whole main_arg2_scv
abbrev zV : Memref sig .scVector .hbm S2x2048 .f32 := Memref.whole main_v0_scv
abbrev oV : Memref sig .scVector .hbm S2048x2048 .f32 := Memref.whole main_v1_scv

/-! ## The tiles -/

abbrev cV (L : grid0.Coords) : Fin τ.nSC := (L 0).castLE Facts₀.hcore0
abbrev jV (L : grid0.Coords) : Fin τ.nSub := (L 1).castLE Facts₀.hsub0
def coordsV (c : Fin (grid0.bound 0)) (s : Fin (grid0.bound 1)) : grid0.Coords :=
  fun | 0 => c | 1 => s | ⟨_ + 2, h⟩ => absurd h (Nat.not_lt.2 (Nat.le_add_left _ _))

/-- The tile's number: twice its subcore index plus its core index. -/
def wid (L : grid0.Coords) : Fin 32 :=
  ⟨2 * (L 1).val + (L 0).val, by have h0 : (L 0).val < 2 := (L 0).isLt; have h1 : (L 1).val < 16 := (L 1).isLt; omega⟩

/-- The tile's 1024 connection words and 64 weight rows, as the kernel slices them. -/
abbrev connSl (L : grid0.Coords) : Memref sig .scVector .hbm S1024 .i32 :=
  (connV).slice (Rect.unit (s := S32768) (k0_off1 L) S1024.size (Facts₀.k0_off1_inb L)) (fun _ => rfl)
abbrev wSl (L : grid0.Coords) : Memref sig .scVector .hbm S64x16 .f32 :=
  (wV).slice (Rect.unit (s := S2048x16) (k0_off2 L) S64x16.size (Facts₀.k0_off2_inb L)) (fun _ => rfl)
abbrev connSet (L : grid0.Coords) : Finset S32768.Idx := (connSl L).view.set
abbrev wSet (L : grid0.Coords) : Finset S2048x16.Idx := (wSl L).view.set

theorem hdiv32 : 32 ∣ S2048x2048.size 0 := ⟨64, rfl⟩
/-- Rows `64 n … 64 n + 63` of the matrix. -/
abbrev rowsRect (n : Fin 32) : Rect S2048x2048 := Rect.part (s := S2048x2048) (a₀ := 0) hdiv32 n
abbrev rowsSet (L : grid0.Coords) : Finset S2048x2048.Idx := ((oV).view.slice (rowsRect (wid L))).set

/-- What a tile is handed: its connection words and weight rows, a read share of the block of zeros, its rows of the
    matrix at some contents; -/
def goRes (d : Dev nD) (L : grid0.Coords) : sProp 𝕄 :=
  iprop((cLoc d ↦[connSet L]{fullShare} m (cLoc d)) ∗ (wLoc d ↦[wSet L]{fullShare} m (wLoc d))
    ∗ (zLoc d ↦{Transfers.shareTok fullShare 32 (wid L)} (zeroBlk (F := F)))
    ∗ ∃ f, oLoc d ↦[rowsSet L]{fullShare} f)

/-- and what it hands back: the same, its rows of the matrix at `mtArr`. -/
def tdRes (hpre : PreOK m) (d : Dev nD) (L : grid0.Coords) : sProp 𝕄 :=
  iprop((cLoc d ↦[connSet L]{fullShare} m (cLoc d)) ∗ (wLoc d ↦[wSet L]{fullShare} m (wLoc d))
    ∗ (zLoc d ↦{Transfers.shareTok fullShare 32 (wid L)} (zeroBlk (F := F)))
    ∗ oLoc d ↦[rowsSet L]{fullShare} (mtArr (F := F) (m (cLoc d)) (hpre d) (m (wLoc d))))

instance goRes_storable (d : Dev nD) (L : grid0.Coords) : BI.Storable (upEmb : UEmb _ 𝕄) (goRes m d L) := by
  unfold goRes; infer_instance
instance tdRes_storable (hpre : PreOK m) (d : Dev nD) (L : grid0.Coords) : BI.Storable (upEmb : UEmb _ 𝕄) (tdRes m hpre d L) := by
  unfold tdRes; infer_instance

/-- The one call hands each SparseCore what its sixteen tiles are handed and takes back what they hand back; the
    kernel has no cells of its own (its transfers are local copies). -/
def P (hpre : PreOK m) : (K (F := F)).Pay (nD := nD) (Val := Elt F) (Name := ℕ) (U := UU) where
  st := fun q d c => match q with
    | 0 => bigSep Finset.univ fun i : Fin ((K (F := F)).nSub 0) => goRes m d (coordsV (Fin.cast nCore_zero c) (Fin.cast nSub_zero i))
  dn := fun q d c => match q with
    | 0 => bigSep Finset.univ fun i : Fin ((K (F := F)).nSub 0) => tdRes m hpre d (coordsV (Fin.cast nCore_zero c) (Fin.cast nSub_zero i))
  go := fun q d c i => match q with | 0 => goRes m d (coordsV (Fin.cast nCore_zero c) (Fin.cast nSub_zero i))
  td := fun q d c i => match q with | 0 => tdRes m hpre d (coordsV (Fin.cast nCore_zero c) (Fin.cast nSub_zero i))
  x := fun _ _ => iprop(emp)

instance P_storable (hpre : PreOK m) : (P (F := F) m hpre).IsStorable where
  st q d c := match q with | 0 => by unfold P; infer_instance
  dn q d c := match q with | 0 => by unfold P; infer_instance
  go q d c i := match q with | 0 => by unfold P; infer_instance
  td q d c i := match q with | 0 => by unfold P; infer_instance

/-- The split of a SparseCore's operands among its tiles is the identity. -/
theorem vecSplit (hpre : PreOK m) : (K (F := F)).VecSplit' (P m hpre) 0 := by
  intro d c
  show (bigSep Finset.univ fun i : Fin ((K (F := F)).nSub 0) => goRes m d (coordsV (Fin.cast nCore_zero c) (Fin.cast nSub_zero i)))
    ⊢ |={Set.univ}=> iprop((bigSep Finset.univ fun i : Fin ((K (F := F)).nSub 0) => goRes m d (coordsV (Fin.cast nCore_zero c) (Fin.cast nSub_zero i)))
      ∗ ((bigSep Finset.univ fun i : Fin ((K (F := F)).nSub 0) => tdRes m hpre d (coordsV (Fin.cast nCore_zero c) (Fin.cast nSub_zero i)))
        -∗ (bigSep Finset.univ fun i : Fin ((K (F := F)).nSub 0) => tdRes m hpre d (coordsV (Fin.cast nCore_zero c) (Fin.cast nSub_zero i)))))
  iintro H; imodintro
  isplitl [H]; · iexact H
  iintro H; iexact H

end Cert.KernelIdeal.Hand

end
-- ==== Proof.TileStore.lean ====
/-
  The indexed store into a block, read one cell at a time.

  A store of a vector at the cells its index vectors name leaves every other cell as it was; a plain store of a
  vector whose lanes all hold one value leaves that value at every named cell.  Hence: a block every cell of which
  holds one value, after two stores with add at two index families and two plain stores of that value at the same
  two families, is the block again.
-/
import proofs.«207065_g23029614641262_cont_8to1_115_36_alg».proof.Proof.Spec

noncomputable section

namespace Cert.KernelIdeal.Hand

open Idealize.ShloMosaic

section StoreIdx

variable {F : FTy → Type} [FloatOps F] {s : Shape} {e : EltTy} {d : Fin 1 → Nat}

/-- Lane `k` of the index vectors names cell `j`. -/
def NamedBy (idxs : Fin s.rank → IVec ⟨1, d⟩ 32) (k : Fin (d 0)) (j : s.Idx) : Prop :=
  ∀ a, (j a).val = (idxs a (Shape.ofLane k)).toNat

/-- A fold of steps none of which touches cell `j` leaves it as it was. -/
theorem foldl_of_not_named {n : Nat} (P : Fin n → Prop) (step : Vec F s e → Fin n → Vec F s e) (j : s.Idx)
    (hstep : ∀ g k, ¬ P k → step g k j = g j) :
    ∀ (l : List (Fin n)) (f : Vec F s e), (∀ k ∈ l, ¬ P k) → l.foldl step f j = f j := by
  intro l
  induction l with
  | nil => intro f _; rfl
  | cons k l ih =>
    intro f hj
    rw [List.foldl_cons, ih _ (fun k' hk' => hj k' (List.mem_cons_of_mem _ hk')), hstep f k (hj k List.mem_cons_self)]

/-- A fold of steps each of which writes `z` at cell `j` or leaves it, one of them writing, leaves `z` there. -/
theorem foldl_const_of_named {n : Nat} (P : Fin n → Prop) (step : Vec F s e → Fin n → Vec F s e) (j : s.Idx) (z : Elt F e)
    (hstep : ∀ g k, ¬ P k → step g k j = g j) (hstep' : ∀ g k, P k → step g k j = z) :
    ∀ (l : List (Fin n)) (f : Vec F s e), (∃ k ∈ l, P k) → l.foldl step f j = z := by
  intro l
  induction l with
  | nil => intro f hj; obtain ⟨k, hk, _⟩ := hj; cases hk
  | cons k l ih =>
    intro f hj
    rw [List.foldl_cons]
    by_cases hl : ∃ k' ∈ l, P k'
    · exact ih _ hl
    · have hk : P k := by
        obtain ⟨k', hk', hn⟩ := hj
        rcases List.mem_cons.mp hk' with rfl | hk'
        · exact hn
        · exact absurd ⟨k', hk', hn⟩ hl
      rw [foldl_of_not_named P step j hstep l _ (fun k' hk' hn => hl ⟨k', hk', hn⟩), hstep' f k hk]

/-- A cell no lane names keeps its value. -/
theorem storeIdx_apply_of_not_named (f : Vec F s e) (idxs : Fin s.rank → IVec ⟨1, d⟩ 32) (v : Vec F ⟨1, d⟩ e) (mask : IVec ⟨1, d⟩ 1) (add : Bool)
    (h : ∀ a x, (idxs a x).toNat < s.size a) (j : s.Idx) (hj : ∀ k, ¬ NamedBy idxs k j) :
    storeIdx f idxs v mask add h j = f j := by
  unfold storeIdx
  refine foldl_of_not_named (fun k => NamedBy idxs k j) _ j (fun g k hk => ?_) _ f (fun k _ => hj k)
  dsimp only
  split
  · exact if_neg hk
  · rfl

/-- A plain store of one value in every lane leaves that value at every named cell. -/
theorem storeIdx_const_apply_of_named (f : Vec F s e) (idxs : Fin s.rank → IVec ⟨1, d⟩ 32) (v : Vec F ⟨1, d⟩ e) (mask : IVec ⟨1, d⟩ 1)
    (h : ∀ a x, (idxs a x).toNat < s.size a) (z : Elt F e) (hv : ∀ x, v x = z) (hm : ∀ x, mask x = 1) (j : s.Idx)
    (hj : ∃ k, NamedBy idxs k j) :
    storeIdx f idxs v mask false h j = z := by
  unfold storeIdx
  obtain ⟨k, hk⟩ := hj
  refine foldl_const_of_named (fun k => NamedBy idxs k j) _ j z (fun g k hk => ?_) (fun g k hk => ?_) _ f ⟨k, List.mem_finRange k, hk⟩
  · dsimp only
    split
    · exact if_neg hk
    · rfl
  · dsimp only
    rw [if_pos (hm _)]
    exact (if_pos hk).trans (hv _)

/-- Two stores with add and then two plain stores of the block's one value, at the same two index families, give the
    block back. -/
theorem storeIdx_restore (f : Vec F s e) (z : Elt F e) (hf : ∀ j, f j = z)
    (I0 I1 : Fin s.rank → IVec ⟨1, d⟩ 32) (w0 w1 zv : Vec F ⟨1, d⟩ e) (mask : IVec ⟨1, d⟩ 1)
    (hz : ∀ x, zv x = z) (hm : ∀ x, mask x = 1)
    (h0 h0' : ∀ a x, (I0 a x).toNat < s.size a) (h1 h1' : ∀ a x, (I1 a x).toNat < s.size a) :
    storeIdx (storeIdx (storeIdx (storeIdx f I0 w0 mask true h0) I1 w1 mask true h1) I0 zv mask false h0') I1 zv mask false h1' = f := by
  funext j
  by_cases hj1 : ∃ k, NamedBy I1 k j
  · rw [storeIdx_const_apply_of_named _ I1 zv mask h1' z hz hm j hj1]; exact (hf j).symm
  · rw [storeIdx_apply_of_not_named _ I1 zv mask false h1' j (fun k hk => hj1 ⟨k, hk⟩)]
    by_cases hj0 : ∃ k, NamedBy I0 k j
    · rw [storeIdx_const_apply_of_named _ I0 zv mask h0' z hz hm j hj0]; exact (hf j).symm
    · rw [storeIdx_apply_of_not_named _ I0 zv mask false h0' j (fun k hk => hj0 ⟨k, hk⟩),
        storeIdx_apply_of_not_named _ I1 w1 mask true h1 j (fun k hk => hj1 ⟨k, hk⟩),
        storeIdx_apply_of_not_named _ I0 w0 mask true h0 j (fun k hk => hj0 ⟨k, hk⟩)]

end StoreIdx

end Cert.KernelIdeal.Hand

end
-- ==== Proof.TileViews.lean ====
/-
  The vector-subcore kernel's memory, as sets of cells and contents.

  A tile's rows of the matrix are tracked as sets of rows `a … b - 1` of its sixty-four (`rowsBetween`): the
  windows the kernel copies blocks of two rows out to are such sets, adjacent ones join, and the tile's whole share is
  rows `0 … 63`.  The tile's two fetched scratches hold its slices of the connection words and the weights; every
  word loaded from the first names a column, so every indexed store's cells lie in its block.  The tile's own
  semaphores and scratch buffers are taken out of the subcore's scoped storage.
-/
import proofs.«207065_g23029614641262_cont_8to1_115_36_alg».proof.Proof.Setup
import proofs.«207065_g23029614641262_cont_8to1_115_36_alg».proof.Proof.Gen.KernelIdeal.Skeleton
import proofs.«207065_g23029614641262_cont_8to1_115_36_alg».proof.Proof.TileStore

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Rows

variable (L : grid0.Coords)

/-- Rows `a … b - 1` of the tile's sixty-four rows of the matrix. -/
def rowsBetween (a b : Nat) : Finset S2048x2048.Idx :=
  Finset.univ.filter fun j => 64 * (wid L).val + a ≤ (j 0).val ∧ (j 0).val < 64 * (wid L).val + b

omit [FloatOps F] in
theorem mem_rowsBetween {a b : Nat} {j : S2048x2048.Idx} :
    j ∈ rowsBetween L a b ↔ 64 * (wid L).val + a ≤ (j 0).val ∧ (j 0).val < 64 * (wid L).val + b := by
  unfold rowsBetween; rw [Finset.mem_filter]; exact and_iff_right (Finset.mem_univ j)

omit [FloatOps F] in
theorem rowsBetween_union {a b c : Nat} (hab : a ≤ b) (hbc : b ≤ c) : rowsBetween L a b ∪ rowsBetween L b c = rowsBetween L a c := by
  ext j; simp only [Finset.mem_union, mem_rowsBetween]; omega
omit [FloatOps F] in
theorem rowsBetween_disjoint (a b c : Nat) : Disjoint (rowsBetween L a b) (rowsBetween L b c) := by
  rw [Finset.disjoint_left]; intro j h1 h2; rw [mem_rowsBetween] at h1 h2; omega
omit [FloatOps F] in
theorem rowsBetween_self (a : Nat) : rowsBetween L a a = ∅ := by
  ext j; simp only [mem_rowsBetween, Finset.notMem_empty, iff_false]; omega

omit [FloatOps F] in
theorem mem_unit2 {off size : Fin 2 → Nat} {inb : ∀ a, off a + size a ≤ S2048x2048.size a} {j : S2048x2048.Idx} :
    j ∈ (Rect.unit (s := S2048x2048) off size inb).set
      ↔ (off 0 ≤ (j 0).val ∧ (j 0).val < off 0 + size 0) ∧ (off 1 ≤ (j 1).val ∧ (j 1).val < off 1 + size 1) := by
  rw [Rect.mem_set_unit]; exact Fin.forall_fin_two

omit [FloatOps F] in
theorem wid_val : (wid L).val = 2 * (L 1).val + (L 0).val := rfl

omit [FloatOps F] in
theorem rowsSet_eq : rowsSet L = rowsBetween L 0 64 := by
  show ((View.whole (main_v1_scv : Ref sig .scVector)).slice (rowsRect (wid L))).set = _
  rw [View.set_slice_whole]
  ext j
  rw [mem_rowsBetween]
  refine (mem_unit2 (j := j)).trans ?_
  have hj1 : (j 1).val < 2048 := (j 1).isLt
  simp only [Shape.partIx, Shape.partSize]
  show ((wid L).val * 64 ≤ (j 0).val ∧ (j 0).val < (wid L).val * 64 + 64) ∧ (0 * 2048 ≤ (j 1).val ∧ (j 1).val < 0 * 2048 + 2048) ↔ _
  omega

omit [FloatOps F] in
theorem set_out0 (k : Fin k0_t1_loop.trips) (h : ∀ a, (k0_off10 L k) a + S2x2048.size a ≤ S2048x2048.size a) :
    ((oV).slice (Rect.unit (s := S2048x2048) (k0_off10 L k) S2x2048.size h) (fun _ => rfl)).view.set = rowsBetween L (4 * k.val) (4 * k.val + 2) := by
  show ((View.whole (main_v1_scv : Ref sig .scVector)).slice (Rect.unit (s := S2048x2048) (k0_off10 L k) S2x2048.size h)).set = _
  rw [View.set_slice_whole]
  ext j
  rw [mem_rowsBetween]
  refine (mem_unit2 (j := j)).trans ?_
  have hj1 : (j 1).val < 2048 := (j 1).isLt
  rw [Gen.k0_off10_eq, wid_val]
  show ((128 * (L 1).val + 64 * (L 0).val + 4 * k.val ≤ (j 0).val ∧ (j 0).val < 128 * (L 1).val + 64 * (L 0).val + 4 * k.val + 2) ∧ (0 ≤ (j 1).val ∧ (j 1).val < 0 + 2048)) ↔ _
  omega

omit [FloatOps F] in
theorem set_out1 (k : Fin k0_t1_loop.trips) (h : ∀ a, (k0_off18 L k) a + S2x2048.size a ≤ S2048x2048.size a) :
    ((oV).slice (Rect.unit (s := S2048x2048) (k0_off18 L k) S2x2048.size h) (fun _ => rfl)).view.set = rowsBetween L (4 * k.val + 2) (4 * k.val + 4) := by
  show ((View.whole (main_v1_scv : Ref sig .scVector)).slice (Rect.unit (s := S2048x2048) (k0_off18 L k) S2x2048.size h)).set = _
  rw [View.set_slice_whole]
  ext j
  rw [mem_rowsBetween]
  refine (mem_unit2 (j := j)).trans ?_
  have hj1 : (j 1).val < 2048 := (j 1).isLt
  rw [Gen.k0_off18_eq, wid_val]
  show ((128 * (L 1).val + 64 * (L 0).val + 4 * k.val + 2 ≤ (j 0).val ∧ (j 0).val < 128 * (L 1).val + 64 * (L 0).val + 4 * k.val + 2 + 2) ∧ (0 ≤ (j 1).val ∧ (j 1).val < 0 + 2048)) ↔ _
  omega

omit [FloatOps F] in
theorem cond1_iff : ∀ k : Fin k0_t1_loop.trips, k0_cond1 k = 1#1 ↔ k.val ≠ 0 := by decide +kernel
omit [FloatOps F] in
theorem cond2_iff : ∀ k : Fin k0_t1_loop.trips, k0_cond2 k = 1#1 ↔ k.val ≠ 0 := by decide +kernel
omit [FloatOps F] in
theorem trips_eq : k0_t1_loop.trips = 16 := by decide +kernel

end Rows

section Contents

variable (d : Dev nD) (L : grid0.Coords)

/-- What the two fetched scratches hold: the tile's connection words and weight rows. -/
def S8 : S1024.Idx → Elt F .i32 := (connSl L).view.read (Elt F) (m (cLoc d))
def S9 : S64x16.Idx → Elt F .f32 := (wSl L).view.read (Elt F) (m (wLoc d))

omit [FloatOps F] in
theorem S8_lt (hpre : PreOK m) (y : S1024.Idx) : (S8 m d L y : BitVec 32).toNat < 2048 := by
  unfold S8; rw [View.read_apply, cast_eq]; exact hpre d _

omit [FloatOps F] in
theorem load8_lt (hpre : PreOK m) (r : LoadRect S1024) (x : r.shape.Idx) :
    (((Memref.whole cc0_scratch2 : Memref sig .scVector .vmem S1024 .i32).view.readAt (Elt F) r (S8 m d L) x : Elt F .i32) : BitVec 32).toNat < 2048 := by
  rw [View.readAt_apply]; exact S8_lt m d L hpre _

omit [FloatOps F] in
theorem chk_words (r : BitVec 32) (hr : r.toNat < 2) (v : IVec S16 32) (hv : ∀ x, (v x).toNat < 2048) :
    ∀ a x, ((![broadcast S16 r, v] : Fin 2 → IVec S16 32) a x).toNat < S2x2048.size a := by
  intro a x
  match a with
  | ⟨0, _⟩ => exact hr
  | ⟨1, _⟩ => exact hv x

omit [FloatOps F] in
theorem pts_blk0_view (q : PosShare TreeShare) (f : Buf (Elt F) ((V d (cV L) (jV L)).loc cc0_scratch0)) :
    ((Memref.whole cc0_scratch0 : Memref sig .scVector .vmem S2x2048 .f32).view.loc (V d (cV L) (jV L)) ↦[(Memref.whole cc0_scratch0 : Memref sig .scVector .vmem S2x2048 .f32).view.set]{q} f : sProp 𝕄) = ((V d (cV L) (jV L)).loc cc0_scratch0 ↦{q} f) := by
  simp only [Memref.view_whole, View.set_whole]

omit [FloatOps F] in
theorem pts_blk1_view (q : PosShare TreeShare) (f : Buf (Elt F) ((V d (cV L) (jV L)).loc cc0_scratch1)) :
    ((Memref.whole cc0_scratch1 : Memref sig .scVector .vmem S2x2048 .f32).view.loc (V d (cV L) (jV L)) ↦[(Memref.whole cc0_scratch1 : Memref sig .scVector .vmem S2x2048 .f32).view.set]{q} f : sProp 𝕄) = ((V d (cV L) (jV L)).loc cc0_scratch1 ↦{q} f) := by
  simp only [Memref.view_whole, View.set_whole]

omit [FloatOps F] in
theorem pts_idxB_view (q : PosShare TreeShare) (f : Buf (Elt F) ((V d (cV L) (jV L)).loc cc0_scratch2)) :
    ((Memref.whole cc0_scratch2 : Memref sig .scVector .vmem S1024 .i32).view.loc (V d (cV L) (jV L)) ↦[(Memref.whole cc0_scratch2 : Memref sig .scVector .vmem S1024 .i32).view.set]{q} f : sProp 𝕄) = ((V d (cV L) (jV L)).loc cc0_scratch2 ↦{q} f) := by
  simp only [Memref.view_whole, View.set_whole]

omit [FloatOps F] in
theorem pts_wB_view (q : PosShare TreeShare) (f : Buf (Elt F) ((V d (cV L) (jV L)).loc cc0_scratch3)) :
    ((Memref.whole cc0_scratch3 : Memref sig .scVector .vmem S64x16 .f32).view.loc (V d (cV L) (jV L)) ↦[(Memref.whole cc0_scratch3 : Memref sig .scVector .vmem S64x16 .f32).view.set]{q} f : sProp 𝕄) = ((V d (cV L) (jV L)).loc cc0_scratch3 ↦{q} f) := by
  simp only [Memref.view_whole, View.set_whole]

omit [FloatOps F] in
theorem pts_z_view (q : PosShare TreeShare) (f : Buf (Elt F) (zLoc d)) :
    ((zV : Memref sig .scVector .hbm S2x2048 .f32).view.loc (V d (cV L) (jV L)) ↦[(zV : Memref sig .scVector .hbm S2x2048 .f32).view.set]{q} f : sProp 𝕄) = (zLoc d ↦{q} f) := by
  simp only [Memref.view_whole, View.set_whole]

omit [FloatOps F] in
theorem pts_blk0_access (f : Buf (Elt F) ((V d (cV L) (jV L)).loc cc0_scratch0)) :
    ((((Memref.whole cc0_scratch0 : Memref sig .scVector .vmem S2x2048 .f32)).access (.whole S2x2048)).loc (V d (cV L) (jV L))
        ↦[(((Memref.whole cc0_scratch0 : Memref sig .scVector .vmem S2x2048 .f32)).access (.whole S2x2048)).set]{fullShare} f : sProp 𝕄)
      = ((V d (cV L) (jV L)).loc cc0_scratch0 ↦{fullShare} f) := by
  rw [show (((Memref.whole cc0_scratch0 : Memref sig .scVector .vmem S2x2048 .f32)).access (.whole S2x2048)).set = Finset.univ from Memref.set_access_whole cc0_scratch0]
omit [FloatOps F] in
theorem pts_blk1_access (f : Buf (Elt F) ((V d (cV L) (jV L)).loc cc0_scratch1)) :
    ((((Memref.whole cc0_scratch1 : Memref sig .scVector .vmem S2x2048 .f32)).access (.whole S2x2048)).loc (V d (cV L) (jV L))
        ↦[(((Memref.whole cc0_scratch1 : Memref sig .scVector .vmem S2x2048 .f32)).access (.whole S2x2048)).set]{fullShare} f : sProp 𝕄)
      = ((V d (cV L) (jV L)).loc cc0_scratch1 ↦{fullShare} f) := by
  rw [show (((Memref.whole cc0_scratch1 : Memref sig .scVector .vmem S2x2048 .f32)).access (.whole S2x2048)).set = Finset.univ from Memref.set_access_whole cc0_scratch1]

omit [FloatOps F] in
theorem load8_unit_lt (hpre : PreOK m) (off : Fin 1 → Nat) (h : ∀ a, off a + S16.size a ≤ S1024.size a) (x : S16.Idx) :
    (((Memref.whole cc0_scratch2 : Memref sig .scVector .vmem S1024 .i32).view.readAt (Elt F) (Rect.unit (s := S1024) off S16.size h).toLoadRect (S8 m d L) x : Elt F .i32) : BitVec 32).toNat < 2048 := by
  rw [View.readAt_apply]; exact S8_lt m d L hpre _

omit [FloatOps F] in
theorem chk_row (hpre : PreOK m) (r : BitVec 32) (hr : r.toNat < 2) (off : Fin 1 → Nat) (h : ∀ a, off a + S16.size a ≤ S1024.size a) :
    ∀ a x, ((![broadcast S16 r, (Memref.whole cc0_scratch2 : Memref sig .scVector .vmem S1024 .i32).view.readAt (Elt F) (Rect.unit (s := S1024) off S16.size h).toLoadRect (S8 m d L)] : Fin 2 → IVec S16 32) a x).toNat < S2x2048.size a :=
  chk_words r hr _ (fun x => load8_unit_lt m d L hpre off h x)

end Contents

section Tile

variable (d : Dev nD) (L : grid0.Coords)

/-- The tile's scratch: two blocks of two rows, its connection words, its weight rows. -/
abbrev blk0 : Memref sig .scVector .vmem S2x2048 .f32 := Memref.whole cc0_scratch0
abbrev blk1 : Memref sig .scVector .vmem S2x2048 .f32 := Memref.whole cc0_scratch1
abbrev idxB : Memref sig .scVector .vmem S1024 .i32 := Memref.whole cc0_scratch2
abbrev wB : Memref sig .scVector .vmem S64x16 .f32 := Memref.whole cc0_scratch3

abbrev cell (sm : DmaSem sig) : GSem nD τ sig := (V d (cV L) (jV L), .dma sm)

omit [FloatOps F] in
theorem mem_cell (sm : DmaSem sig) (h : (SemLoc.dma sm : SemLoc sig).isScoped .scVector = true) :
    cell d L sm ∈ (ownCells (V d (cV L) (jV L)) : Finset (GSem nD τ sig)) := mem_ownCells.mpr ⟨rfl, h⟩
omit [FloatOps F] in
theorem cell_ne {a b : DmaSem sig} (h : a ≠ b) : cell d L a ≠ cell d L b := fun e => h (SemLoc.dma.inj (Prod.mk.inj e).2)

omit [FloatOps F] in
theorem ownSems0_V :
    (ownSems0 (V d (cV L) (jV L)) : sProp 𝕄)
      = iprop(semVal (cell d L cc0_scratch4.sem) 0 ∗ semVal (cell d L cc0_scratch5.sem) 0 ∗ semVal (cell d L cc0_scratch6.sem) 0 ∗ semVal (cell d L cc0_scratch7.sem) 0 ∗ semVal (cell d L cc0_scoped0.sem) 0 ∗ semVal (cell d L cc0_scoped1.sem) 0
          ∗ bigSep (((((((ownCells (V d (cV L) (jV L))).erase (cell d L cc0_scratch4.sem)).erase (cell d L cc0_scratch5.sem)).erase (cell d L cc0_scratch6.sem)).erase (cell d L cc0_scratch7.sem)).erase (cell d L cc0_scoped0.sem)).erase (cell d L cc0_scoped1.sem)) fun g => semVal g 0) := by
  unfold SparseCore.Cfg.ownSems0
  rw [SparseCore.bigSep_erase' (mem_cell d L cc0_scratch4.sem (by decide)),
    SparseCore.bigSep_erase' (Finset.mem_erase.mpr ⟨cell_ne d L (by decide), mem_cell d L cc0_scratch5.sem (by decide)⟩),
    SparseCore.bigSep_erase' (Finset.mem_erase.mpr ⟨cell_ne d L (by decide), Finset.mem_erase.mpr ⟨cell_ne d L (by decide), mem_cell d L cc0_scratch6.sem (by decide)⟩⟩),
    SparseCore.bigSep_erase' (Finset.mem_erase.mpr ⟨cell_ne d L (by decide), Finset.mem_erase.mpr ⟨cell_ne d L (by decide), Finset.mem_erase.mpr ⟨cell_ne d L (by decide), mem_cell d L cc0_scratch7.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), mem_cell d L cc0_scoped0.sem (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_cell d L cc0_scoped1.sem (by decide)⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end Tile

section SpecNames

variable (d : Dev nD) (L : grid0.Coords) (hpre : PreOK m)

/-- Row `r` of the tile's sixty-four, as a row of the matrix. -/
def rowOf (r : Nat) : Fin 2048 := ⟨(64 * (wid L).val + r) % 2048, Nat.mod_lt _ (by decide)⟩

omit [FloatOps F] in
theorem rowOf_val {r : Nat} (hr : r < 64) : (rowOf L r).val = 64 * (wid L).val + r :=
  Nat.mod_eq_of_lt (by have := (wid L).isLt; omega)

/-- The matrix. -/
abbrev MtA : S2048x2048.Idx → Elt F .f32 := mtArr (F := F) (m (cLoc d)) (hpre d) (m (wLoc d))

/-- The block of the tile's chunk `c`: its rows `2 c` and `2 c + 1`. -/
def chunkBlk (c : Nat) : S2x2048.Idx → Elt F .f32 :=
  mtBlk (F := F) (m (cLoc d)) (hpre d) (m (wLoc d)) (rowOf L (2 * c)) (rowOf L (2 * c + 1))

end SpecNames

end Cert.KernelIdeal.Hand
end
-- ==== Proof.TileLoads.lean ====
/-
  What the tile's vector loads read.

  The tile's first fetched scratch holds its 1024 connection words, sixteen per row; a load of sixteen words at offset
  `16 r` reads the connection words of the tile's row `r`.  Its second holds its 64 weight rows; a load of one row at row
  `r` reads the weights of the tile's row `r`.  The offsets the restore steps compute are the previous chunks' rows.
-/
import proofs.«207065_g23029614641262_cont_8to1_115_36_alg».proof.Proof.TileViews
import Idealize.ShloMosaic.Lib.ValueLayout

noncomputable section

namespace Cert.KernelIdeal.Hand

open Cert.KernelIdeal

open Idealize.ShloMosaic Idealize.ShloMosaic.ValueIdx
open Idealize.ShloMosaic.SparseCore (S V T)
open Idealize.SL Idealize.SL.Sem

variable {F : FTy → Type}
variable (m : (ℓ : Loc nD τ sig) → Buf (Elt F) ℓ)
variable [FloatOps F]

omit [FloatOps F] in
/-- Sixteen words loaded at offset `16 r` of the fetched connection words are the connection words of the tile's row `r`. -/
theorem load_idx (d : Dev nD) (L : grid0.Coords) (off : Fin 1 → Nat) (h : ∀ a, off a + S16.size a ≤ S1024.size a) (r : Nat) (hr : r < 64)
    (ho : off 0 = 16 * r) :
    (Memref.whole cc0_scratch2 : Memref sig .scVector .vmem S1024 .i32).view.readAt (Elt F) (Rect.unit (s := S1024) off S16.size h).toLoadRect (S8 m d L)
      = idxRow (m (cLoc d)) (rowOf L r) := by
  funext x
  rw [View.readAt_apply, View.read_apply, cast_eq]
  unfold S8
  rw [View.read_apply, cast_eq]
  show (m (cLoc d) : IVec S32768 32) _ = (m (cLoc d) : IVec S32768 32) _
  refine congrArg _ (funext fun a => Fin.ext ?_)
  have hx : (x 0).val < 16 := (x 0).isLt
  have hw : (wid L).val < 32 := (wid L).isLt
  have hwv := wid_val L
  have hrow := rowOf_val L hr
  match a with
  | ⟨0, _⟩ =>
    show k0_off1 L 0 + 1 * (off 0 + 1 * (x 0).val) = 16 * (rowOf L r).val + (x 0).val
    rw [Gen.k0_off1_eq, hrow, ho]
    show 2048 * (L 1).val + 1024 * (L 0).val + 1 * (16 * r + 1 * (x 0).val) = _
    omega

omit [FloatOps F] in
/-- One row loaded at row `r` of the fetched weight rows, as a vector of sixteen lanes, is the weights of the tile's row `r`. -/
theorem load_w (d : Dev nD) (L : grid0.Coords) (off : Fin 2 → Nat) (h : ∀ a, off a + S1x16.size a ≤ S64x16.size a) (r : Nat) (hr : r < 64)
    (ho0 : off 0 = r) (ho1 : off 1 = 0) (hsc : S1x16.ShapeCasts S16) :
    shapeCast S16 ((Memref.whole cc0_scratch3 : Memref sig .scVector .vmem S64x16 .f32).view.readAt (Elt F) (Rect.unit (s := S64x16) off S1x16.size h).toLoadRect (S9 m d L)) hsc
      = wRow (m (wLoc d)) (rowOf L r) := by
  funext x
  obtain ⟨i, rfl⟩ : ∃ i : Fin 16, x = ix1 i := ⟨x 0, eq_ix1 x⟩
  rw [shapeCast_1a_a_apply, View.readAt_apply, View.read_apply, cast_eq]
  unfold S9
  rw [View.read_apply, cast_eq]
  show (m (wLoc d) : FVec F S2048x16 .f32) _ = (m (wLoc d) : FVec F S2048x16 .f32) _
  refine congrArg _ (funext fun a => Fin.ext ?_)
  have hi : i.val < 16 := i.isLt
  have hw : (wid L).val < 32 := (wid L).isLt
  have hwv := wid_val L
  have hrow := rowOf_val L hr
  match a with
  | ⟨0, _⟩ =>
    show k0_off2 L 0 + 1 * (off 0 + 1 * 0) = (rowOf L r).val
    rw [Gen.k0_off2_eq, hrow, ho0]
    show 128 * (L 1).val + 64 * (L 0).val + 1 * (r + 1 * 0) = _
    omega
  | ⟨1, _⟩ =>
    show k0_off2 L 1 + 1 * (off 1 + 1 * i.val) = i.val
    rw [Gen.k0_off2_eq, ho1]
    show 0 + 1 * (0 + 1 * i.val) = _
    omega

/-- The offsets the restore steps compute are those of the previous trip's four rows. -/
theorem off4_eq : ∀ k : Fin k0_t1_loop.trips, k0_cond1 k = 1#1 → k0_off4 k = ![64 * k.val - 64] := by decide +kernel
theorem off5_eq : ∀ k : Fin k0_t1_loop.trips, k0_cond1 k = 1#1 → k0_off5 k = ![64 * k.val - 48] := by decide +kernel
theorem off12_eq : ∀ k : Fin k0_t1_loop.trips, k0_cond2 k = 1#1 → k0_off12 k = ![64 * k.val - 32] := by decide +kernel
theorem off13_eq : ∀ k : Fin k0_t1_loop.trips, k0_cond2 k = 1#1 → k0_off13 k = ![64 * k.val - 16] := by decide +kernel

end Cert.KernelIdeal.Hand

end
-- ==== Proof.TileValue.lean ====
/-
  What the tile's loads read and what its indexed stores leave, as the rows of the matrix.

  The two stores with add of a chunk's two rows turn the block of zeros into the chunk's block; the two plain stores
  of zero at the same cells turn it back.  Each load of sixteen connection words or of a weight row, at the offsets the
  kernel computes at a trip, reads the row of the specification it stands for.
-/
import proofs.«207065_g23029614641262_cont_8to1_115_36_alg».proof.Proof.Setup
import proofs.«207065_g23029614641262_cont_8to1_115_36_alg».proof.Proof.Gen.KernelIdeal.Skeleton
import proofs.«207065_g23029614641262_cont_8to1_115_36_alg».proof.Proof.TileViews
import proofs.«207065_g23029614641262_cont_8to1_115_36_alg».proof.Proof.TileLoads

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Value

variable (d : Dev nD) (L : grid0.Coords) (hpre : PreOK m)

theorem zeroBlk_apply (j : S2x2048.Idx) : (zeroBlk (F := F)) j = FloatOps.ofBits .f32 0x00000000#32 := rfl
theorem pay1_apply (x : S16.Idx) : (k0_pay1 (F := F)) x = FloatOps.ofBits .f32 0x00000000#32 := rfl

/-- The block of zeros after two stores with add and two plain stores of zero at the same two index families. -/
theorem restore_pure (I0 I1 : Fin 2 → IVec S16 32) (w0 w1 : Vec F S16 .f32)
    (h0 h0' : ∀ a x, (I0 a x).toNat < S2x2048.size a) (h1 h1' : ∀ a x, (I1 a x).toNat < S2x2048.size a) :
    storeIdx (F := F) (e := .f32) (storeIdx (F := F) (e := .f32) (storeIdx (F := F) (e := .f32) (storeIdx (F := F) (e := .f32) (zeroBlk (F := F)) I0 w0 (fun _ => 1#1) true h0) I1 w1 (fun _ => 1#1) true h1) I0 (k0_pay1 (F := F)) (fun _ => 1#1) false h0') I1 (k0_pay1 (F := F)) (fun _ => 1#1) false h1'
      = zeroBlk (F := F) :=
  storeIdx_restore (zeroBlk (F := F)) (FloatOps.ofBits .f32 0x00000000#32) zeroBlk_apply I0 I1 w0 w1 (k0_pay1 (F := F)) (fun _ => 1#1)
    pay1_apply (fun _ => rfl) h0 h0' h1 h1'

theorem chunkBlk_eq (c : Nat) :
    chunkBlk m d L hpre c
      = storeIdx (F := F) (e := .f32)
          (storeIdx (F := F) (e := .f32) (zeroBlk (F := F)) (rowIdxs (m (cLoc d)) 0#32 (rowOf L (2 * c))) (wRow (m (wLoc d)) (rowOf L (2 * c))) (fun _ => 1#1) true
            (rowIdxs_inb (m (cLoc d)) (hpre d) 0#32 (by decide) (rowOf L (2 * c))))
          (rowIdxs (m (cLoc d)) 1#32 (rowOf L (2 * c + 1))) (wRow (m (wLoc d)) (rowOf L (2 * c + 1))) (fun _ => 1#1) true
          (rowIdxs_inb (m (cLoc d)) (hpre d) 1#32 (by decide) (rowOf L (2 * c + 1))) := rfl

omit [FloatOps F] in
theorem A0_write (f w : S2x2048.Idx → Elt F .f32) : ((Memref.whole cc0_scratch0 : Memref sig .scVector .vmem S2x2048 .f32).access (Rect.whole S2x2048)).write (Elt F) f w Finset.univ = w :=
  Memref.write_access_whole_univ (Elt F) cc0_scratch0 f w
omit [FloatOps F] in
theorem A0_read (f : S2x2048.Idx → Elt F .f32) : ((Memref.whole cc0_scratch0 : Memref sig .scVector .vmem S2x2048 .f32).access (Rect.whole S2x2048)).read (Elt F) f = f :=
  Memref.read_access_whole (Elt F) cc0_scratch0 f

/-- Two stores with add, of the two rows of chunk `c`, into the block of zeros held in scratch 0: the chunk's block. -/
theorem adds_blk0 (c : Nat) (v0 v1 : IVec S16 32) (u0 u1 : Vec F S16 .f32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1)))
    (hu0 : u0 = wRow (m (wLoc d)) (rowOf L (2 * c))) (hu1 : u1 = wRow (m (wLoc d)) (rowOf L (2 * c + 1))) :
    ((Memref.whole cc0_scratch0 : Memref sig .scVector .vmem S2x2048 .f32).access (Rect.whole S2x2048)).write (Elt F)
        (((Memref.whole cc0_scratch0 : Memref sig .scVector .vmem S2x2048 .f32).access (Rect.whole S2x2048)).write (Elt F) (zeroBlk (F := F))
          (storeIdx (((Memref.whole cc0_scratch0 : Memref sig .scVector .vmem S2x2048 .f32).access (Rect.whole S2x2048)).read (Elt F) (zeroBlk (F := F))) ![broadcast S16 0#32, v0] u0 (fun _ => 1#1) true hi0) Finset.univ)
        (storeIdx (((Memref.whole cc0_scratch0 : Memref sig .scVector .vmem S2x2048 .f32).access (Rect.whole S2x2048)).read (Elt F) (((Memref.whole cc0_scratch0 : Memref sig .scVector .vmem S2x2048 .f32).access (Rect.whole S2x2048)).write (Elt F) (zeroBlk (F := F))
          (storeIdx (((Memref.whole cc0_scratch0 : Memref sig .scVector .vmem S2x2048 .f32).access (Rect.whole S2x2048)).read (Elt F) (zeroBlk (F := F))) ![broadcast S16 0#32, v0] u0 (fun _ => 1#1) true hi0) Finset.univ))
          ![broadcast S16 1#32, v1] u1 (fun _ => 1#1) true hi1) Finset.univ
      = chunkBlk m d L hpre c := by
  subst hv0 hv1 hu0 hu1
  rw [A0_write, A0_write, A0_read, A0_read]
  rfl

/-- Two plain stores of zero at the cells of chunk `c`'s two rows, into the chunk's block held in scratch 0: the
    block of zeros. -/
theorem restore_blk0 (c : Nat) (v0 v1 : IVec S16 32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1))) :
    ((Memref.whole cc0_scratch0 : Memref sig .scVector .vmem S2x2048 .f32).access (Rect.whole S2x2048)).write (Elt F)
        (((Memref.whole cc0_scratch0 : Memref sig .scVector .vmem S2x2048 .f32).access (Rect.whole S2x2048)).write (Elt F) (chunkBlk m d L hpre c)
          (storeIdx (((Memref.whole cc0_scratch0 : Memref sig .scVector .vmem S2x2048 .f32).access (Rect.whole S2x2048)).read (Elt F) (chunkBlk m d L hpre c)) ![broadcast S16 0#32, v0] (k0_pay1 (F := F)) (fun _ => 1#1) false hi0) Finset.univ)
        (storeIdx (((Memref.whole cc0_scratch0 : Memref sig .scVector .vmem S2x2048 .f32).access (Rect.whole S2x2048)).read (Elt F) (((Memref.whole cc0_scratch0 : Memref sig .scVector .vmem S2x2048 .f32).access (Rect.whole S2x2048)).write (Elt F) (chunkBlk m d L hpre c)
          (storeIdx (((Memref.whole cc0_scratch0 : Memref sig .scVector .vmem S2x2048 .f32).access (Rect.whole S2x2048)).read (Elt F) (chunkBlk m d L hpre c)) ![broadcast S16 0#32, v0] (k0_pay1 (F := F)) (fun _ => 1#1) false hi0) Finset.univ))
          ![broadcast S16 1#32, v1] (k0_pay1 (F := F)) (fun _ => 1#1) false hi1) Finset.univ
      = zeroBlk (F := F) := by
  subst hv0 hv1
  rw [A0_write, A0_write, A0_read, A0_read, chunkBlk_eq]
  exact restore_pure (F := F) (rowIdxs (m (cLoc d)) 0#32 (rowOf L (2 * c))) (rowIdxs (m (cLoc d)) 1#32 (rowOf L (2 * c + 1)))
    (wRow (m (wLoc d)) (rowOf L (2 * c))) (wRow (m (wLoc d)) (rowOf L (2 * c + 1))) _ hi0 _ hi1

omit [FloatOps F] in
theorem A1_write (f w : S2x2048.Idx → Elt F .f32) : ((Memref.whole cc0_scratch1 : Memref sig .scVector .vmem S2x2048 .f32).access (Rect.whole S2x2048)).write (Elt F) f w Finset.univ = w :=
  Memref.write_access_whole_univ (Elt F) cc0_scratch1 f w
omit [FloatOps F] in
theorem A1_read (f : S2x2048.Idx → Elt F .f32) : ((Memref.whole cc0_scratch1 : Memref sig .scVector .vmem S2x2048 .f32).access (Rect.whole S2x2048)).read (Elt F) f = f :=
  Memref.read_access_whole (Elt F) cc0_scratch1 f

/-- Two stores with add, of the two rows of chunk `c`, into the block of zeros held in scratch 1: the chunk's block. -/
theorem adds_blk1 (c : Nat) (v0 v1 : IVec S16 32) (u0 u1 : Vec F S16 .f32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1)))
    (hu0 : u0 = wRow (m (wLoc d)) (rowOf L (2 * c))) (hu1 : u1 = wRow (m (wLoc d)) (rowOf L (2 * c + 1))) :
    ((Memref.whole cc0_scratch1 : Memref sig .scVector .vmem S2x2048 .f32).access (Rect.whole S2x2048)).write (Elt F)
        (((Memref.whole cc0_scratch1 : Memref sig .scVector .vmem S2x2048 .f32).access (Rect.whole S2x2048)).write (Elt F) (zeroBlk (F := F))
          (storeIdx (((Memref.whole cc0_scratch1 : Memref sig .scVector .vmem S2x2048 .f32).access (Rect.whole S2x2048)).read (Elt F) (zeroBlk (F := F))) ![broadcast S16 0#32, v0] u0 (fun _ => 1#1) true hi0) Finset.univ)
        (storeIdx (((Memref.whole cc0_scratch1 : Memref sig .scVector .vmem S2x2048 .f32).access (Rect.whole S2x2048)).read (Elt F) (((Memref.whole cc0_scratch1 : Memref sig .scVector .vmem S2x2048 .f32).access (Rect.whole S2x2048)).write (Elt F) (zeroBlk (F := F))
          (storeIdx (((Memref.whole cc0_scratch1 : Memref sig .scVector .vmem S2x2048 .f32).access (Rect.whole S2x2048)).read (Elt F) (zeroBlk (F := F))) ![broadcast S16 0#32, v0] u0 (fun _ => 1#1) true hi0) Finset.univ))
          ![broadcast S16 1#32, v1] u1 (fun _ => 1#1) true hi1) Finset.univ
      = chunkBlk m d L hpre c := by
  subst hv0 hv1 hu0 hu1
  rw [A1_write, A1_write, A1_read, A1_read]
  rfl

/-- Two plain stores of zero at the cells of chunk `c`'s two rows, into the chunk's block held in scratch 1: the
    block of zeros. -/
theorem restore_blk1 (c : Nat) (v0 v1 : IVec S16 32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1))) :
    ((Memref.whole cc0_scratch1 : Memref sig .scVector .vmem S2x2048 .f32).access (Rect.whole S2x2048)).write (Elt F)
        (((Memref.whole cc0_scratch1 : Memref sig .scVector .vmem S2x2048 .f32).access (Rect.whole S2x2048)).write (Elt F) (chunkBlk m d L hpre c)
          (storeIdx (((Memref.whole cc0_scratch1 : Memref sig .scVector .vmem S2x2048 .f32).access (Rect.whole S2x2048)).read (Elt F) (chunkBlk m d L hpre c)) ![broadcast S16 0#32, v0] (k0_pay1 (F := F)) (fun _ => 1#1) false hi0) Finset.univ)
        (storeIdx (((Memref.whole cc0_scratch1 : Memref sig .scVector .vmem S2x2048 .f32).access (Rect.whole S2x2048)).read (Elt F) (((Memref.whole cc0_scratch1 : Memref sig .scVector .vmem S2x2048 .f32).access (Rect.whole S2x2048)).write (Elt F) (chunkBlk m d L hpre c)
          (storeIdx (((Memref.whole cc0_scratch1 : Memref sig .scVector .vmem S2x2048 .f32).access (Rect.whole S2x2048)).read (Elt F) (chunkBlk m d L hpre c)) ![broadcast S16 0#32, v0] (k0_pay1 (F := F)) (fun _ => 1#1) false hi0) Finset.univ))
          ![broadcast S16 1#32, v1] (k0_pay1 (F := F)) (fun _ => 1#1) false hi1) Finset.univ
      = zeroBlk (F := F) := by
  subst hv0 hv1
  rw [A1_write, A1_write, A1_read, A1_read, chunkBlk_eq]
  exact restore_pure (F := F) (rowIdxs (m (cLoc d)) 0#32 (rowOf L (2 * c))) (rowIdxs (m (cLoc d)) 1#32 (rowOf L (2 * c + 1)))
    (wRow (m (wLoc d)) (rowOf L (2 * c))) (wRow (m (wLoc d)) (rowOf L (2 * c + 1))) _ hi0 _ hi1

end Value

section Sites

variable (d : Dev nD) (L : grid0.Coords)

theorem idx6 (k : Fin k0_t1_loop.trips) (h : ∀ a, (k0_off6 k) a + S16.size a ≤ S1024.size a) :
    (Memref.whole cc0_scratch2 : Memref sig .scVector .vmem S1024 .i32).view.readAt (Elt F) (Rect.unit (s := S1024) (k0_off6 k) S16.size h).toLoadRect (S8 m d L)
      = idxRow (m (cLoc d)) (rowOf L (2 * (2 * k.val))) := by
  have hk16 : k.val < 16 := lt_of_lt_of_eq k.isLt trips_eq

  refine load_idx m d L (k0_off6 k) h (2 * (2 * k.val)) (by omega) ?_
  rw [Gen.k0_off6_eq]
  show 64 * k.val = 16 * (2 * (2 * k.val))
  omega

theorem idx8 (k : Fin k0_t1_loop.trips) (h : ∀ a, (k0_off8 k) a + S16.size a ≤ S1024.size a) :
    (Memref.whole cc0_scratch2 : Memref sig .scVector .vmem S1024 .i32).view.readAt (Elt F) (Rect.unit (s := S1024) (k0_off8 k) S16.size h).toLoadRect (S8 m d L)
      = idxRow (m (cLoc d)) (rowOf L (2 * (2 * k.val) + 1)) := by
  have hk16 : k.val < 16 := lt_of_lt_of_eq k.isLt trips_eq

  refine load_idx m d L (k0_off8 k) h (2 * (2 * k.val) + 1) (by omega) ?_
  rw [Gen.k0_off8_eq]
  show 64 * k.val + 16 = 16 * (2 * (2 * k.val) + 1)
  omega

theorem idx14 (k : Fin k0_t1_loop.trips) (h : ∀ a, (k0_off14 k) a + S16.size a ≤ S1024.size a) :
    (Memref.whole cc0_scratch2 : Memref sig .scVector .vmem S1024 .i32).view.readAt (Elt F) (Rect.unit (s := S1024) (k0_off14 k) S16.size h).toLoadRect (S8 m d L)
      = idxRow (m (cLoc d)) (rowOf L (2 * (2 * k.val + 1))) := by
  have hk16 : k.val < 16 := lt_of_lt_of_eq k.isLt trips_eq

  refine load_idx m d L (k0_off14 k) h (2 * (2 * k.val + 1)) (by omega) ?_
  rw [Gen.k0_off14_eq]
  show 64 * k.val + 32 = 16 * (2 * (2 * k.val + 1))
  omega

theorem idx16 (k : Fin k0_t1_loop.trips) (h : ∀ a, (k0_off16 k) a + S16.size a ≤ S1024.size a) :
    (Memref.whole cc0_scratch2 : Memref sig .scVector .vmem S1024 .i32).view.readAt (Elt F) (Rect.unit (s := S1024) (k0_off16 k) S16.size h).toLoadRect (S8 m d L)
      = idxRow (m (cLoc d)) (rowOf L (2 * (2 * k.val + 1) + 1)) := by
  have hk16 : k.val < 16 := lt_of_lt_of_eq k.isLt trips_eq

  refine load_idx m d L (k0_off16 k) h (2 * (2 * k.val + 1) + 1) (by omega) ?_
  rw [Gen.k0_off16_eq]
  show 64 * k.val + 48 = 16 * (2 * (2 * k.val + 1) + 1)
  omega

theorem idx4 (k : Fin k0_t1_loop.trips) (hc : k0_cond1 k = 1#1) (h : ∀ a, (k0_off4 k) a + S16.size a ≤ S1024.size a) :
    (Memref.whole cc0_scratch2 : Memref sig .scVector .vmem S1024 .i32).view.readAt (Elt F) (Rect.unit (s := S1024) (k0_off4 k) S16.size h).toLoadRect (S8 m d L)
      = idxRow (m (cLoc d)) (rowOf L (2 * (2 * (k.val - 1)))) := by
  have hk16 : k.val < 16 := lt_of_lt_of_eq k.isLt trips_eq
  have hk0 : k.val ≠ 0 := (cond1_iff k).mp hc
  refine load_idx m d L (k0_off4 k) h (2 * (2 * (k.val - 1))) (by omega) ?_
  rw [off4_eq k hc]
  show 64 * k.val - 64 = 16 * (2 * (2 * (k.val - 1)))
  omega

theorem idx5 (k : Fin k0_t1_loop.trips) (hc : k0_cond1 k = 1#1) (h : ∀ a, (k0_off5 k) a + S16.size a ≤ S1024.size a) :
    (Memref.whole cc0_scratch2 : Memref sig .scVector .vmem S1024 .i32).view.readAt (Elt F) (Rect.unit (s := S1024) (k0_off5 k) S16.size h).toLoadRect (S8 m d L)
      = idxRow (m (cLoc d)) (rowOf L (2 * (2 * (k.val - 1)) + 1)) := by
  have hk16 : k.val < 16 := lt_of_lt_of_eq k.isLt trips_eq
  have hk0 : k.val ≠ 0 := (cond1_iff k).mp hc
  refine load_idx m d L (k0_off5 k) h (2 * (2 * (k.val - 1)) + 1) (by omega) ?_
  rw [off5_eq k hc]
  show 64 * k.val - 48 = 16 * (2 * (2 * (k.val - 1)) + 1)
  omega

theorem idx12 (k : Fin k0_t1_loop.trips) (hc : k0_cond2 k = 1#1) (h : ∀ a, (k0_off12 k) a + S16.size a ≤ S1024.size a) :
    (Memref.whole cc0_scratch2 : Memref sig .scVector .vmem S1024 .i32).view.readAt (Elt F) (Rect.unit (s := S1024) (k0_off12 k) S16.size h).toLoadRect (S8 m d L)
      = idxRow (m (cLoc d)) (rowOf L (2 * (2 * (k.val - 1) + 1))) := by
  have hk16 : k.val < 16 := lt_of_lt_of_eq k.isLt trips_eq
  have hk0 : k.val ≠ 0 := (cond2_iff k).mp hc
  refine load_idx m d L (k0_off12 k) h (2 * (2 * (k.val - 1) + 1)) (by omega) ?_
  rw [off12_eq k hc]
  show 64 * k.val - 32 = 16 * (2 * (2 * (k.val - 1) + 1))
  omega

theorem idx13 (k : Fin k0_t1_loop.trips) (hc : k0_cond2 k = 1#1) (h : ∀ a, (k0_off13 k) a + S16.size a ≤ S1024.size a) :
    (Memref.whole cc0_scratch2 : Memref sig .scVector .vmem S1024 .i32).view.readAt (Elt F) (Rect.unit (s := S1024) (k0_off13 k) S16.size h).toLoadRect (S8 m d L)
      = idxRow (m (cLoc d)) (rowOf L (2 * (2 * (k.val - 1) + 1) + 1)) := by
  have hk16 : k.val < 16 := lt_of_lt_of_eq k.isLt trips_eq
  have hk0 : k.val ≠ 0 := (cond2_iff k).mp hc
  refine load_idx m d L (k0_off13 k) h (2 * (2 * (k.val - 1) + 1) + 1) (by omega) ?_
  rw [off13_eq k hc]
  show 64 * k.val - 16 = 16 * (2 * (2 * (k.val - 1) + 1) + 1)
  omega

theorem w7 (k : Fin k0_t1_loop.trips) (h : ∀ a, (k0_off7 k) a + S1x16.size a ≤ S64x16.size a) :
    k0_pay4 (F := F) ((Memref.whole cc0_scratch3 : Memref sig .scVector .vmem S64x16 .f32).view.readAt (Elt F) (Rect.unit (s := S64x16) (k0_off7 k) S1x16.size h).toLoadRect (S9 m d L))
      = wRow (m (wLoc d)) (rowOf L (2 * (2 * k.val))) := by
  have hk16 : k.val < 16 := lt_of_lt_of_eq k.isLt trips_eq
  refine load_w m d L (k0_off7 k) h (2 * (2 * k.val)) (by omega) ?_ ?_ _
  · rw [Gen.k0_off7_eq]
    show 4 * k.val = 2 * (2 * k.val)
    omega
  · rw [Gen.k0_off7_eq]; rfl

theorem w9 (k : Fin k0_t1_loop.trips) (h : ∀ a, (k0_off9 k) a + S1x16.size a ≤ S64x16.size a) :
    k0_pay5 (F := F) ((Memref.whole cc0_scratch3 : Memref sig .scVector .vmem S64x16 .f32).view.readAt (Elt F) (Rect.unit (s := S64x16) (k0_off9 k) S1x16.size h).toLoadRect (S9 m d L))
      = wRow (m (wLoc d)) (rowOf L (2 * (2 * k.val) + 1)) := by
  have hk16 : k.val < 16 := lt_of_lt_of_eq k.isLt trips_eq
  refine load_w m d L (k0_off9 k) h (2 * (2 * k.val) + 1) (by omega) ?_ ?_ _
  · rw [Gen.k0_off9_eq]
    show 4 * k.val + 1 = 2 * (2 * k.val) + 1
    omega
  · rw [Gen.k0_off9_eq]; rfl

theorem w15 (k : Fin k0_t1_loop.trips) (h : ∀ a, (k0_off15 k) a + S1x16.size a ≤ S64x16.size a) :
    k0_pay2 (F := F) ((Memref.whole cc0_scratch3 : Memref sig .scVector .vmem S64x16 .f32).view.readAt (Elt F) (Rect.unit (s := S64x16) (k0_off15 k) S1x16.size h).toLoadRect (S9 m d L))
      = wRow (m (wLoc d)) (rowOf L (2 * (2 * k.val + 1))) := by
  have hk16 : k.val < 16 := lt_of_lt_of_eq k.isLt trips_eq
  refine load_w m d L (k0_off15 k) h (2 * (2 * k.val + 1)) (by omega) ?_ ?_ _
  · rw [Gen.k0_off15_eq]
    show 4 * k.val + 2 = 2 * (2 * k.val + 1)
    omega
  · rw [Gen.k0_off15_eq]; rfl

theorem w17 (k : Fin k0_t1_loop.trips) (h : ∀ a, (k0_off17 k) a + S1x16.size a ≤ S64x16.size a) :
    k0_pay3 (F := F) ((Memref.whole cc0_scratch3 : Memref sig .scVector .vmem S64x16 .f32).view.readAt (Elt F) (Rect.unit (s := S64x16) (k0_off17 k) S1x16.size h).toLoadRect (S9 m d L))
      = wRow (m (wLoc d)) (rowOf L (2 * (2 * k.val + 1) + 1)) := by
  have hk16 : k.val < 16 := lt_of_lt_of_eq k.isLt trips_eq
  refine load_w m d L (k0_off17 k) h (2 * (2 * k.val + 1) + 1) (by omega) ?_ ?_ _
  · rw [Gen.k0_off17_eq]
    show 4 * k.val + 3 = 2 * (2 * k.val + 1) + 1
    omega
  · rw [Gen.k0_off17_eq]; rfl

end Sites

end Cert.KernelIdeal.Hand
end
-- ==== Proof.TileOut.lean ====
/-
  What the tile's copies leave in the matrix.

  The copy at the end of half a trip moves a block of two rows onto two rows of the tile's share of the matrix.  The block
  holds the adds of those two rows into zeros, which is what the whole-array function `mtArr` holds in those rows: row
  `j` of the matrix is row `j % 2` of the block of the pair of rows `2 (j / 2), 2 (j / 2) + 1`, and the tile's chunks are
  such pairs because its first row is even.
-/
import proofs.«207065_g23029614641262_cont_8to1_115_36_alg».proof.Proof.TileViews

noncomputable section

namespace Cert.KernelIdeal.Hand

open Cert.KernelIdeal

open Idealize.ShloMosaic Idealize.ShloMosaic.ValueIdx
open Idealize.ShloMosaic.SparseCore (S V T)
open Idealize.SL Idealize.SL.Sem

variable {F : FTy → Type}
variable (m : (ℓ : Loc nD τ sig) → Buf (Elt F) ℓ)
variable [FloatOps F]

/-- The matrix at row `64 wid + 2 c + p`, column `q`, is the tile's chunk `c` at `(p, q)`. -/
theorem MtA_chunk (d : Dev nD) (L : grid0.Coords) (hpre : PreOK m) (c : Nat) (hc : c < 32) (j : S2048x2048.Idx) (p : Fin 2) (q : Fin 2048)
    (h0 : (j 0).val = 64 * (wid L).val + 2 * c + p.val) (h1 : (j 1).val = q.val) :
    MtA m d hpre j = chunkBlk m d L hpre c (ix2 p q) := by
  have hp : p.val < 2 := p.isLt
  have hr0 := rowOf_val L (r := 2 * c) (by omega)
  have hr1 := rowOf_val L (r := 2 * c + 1) (by omega)
  have e0 : (⟨2 * ((j 0).val / 2), by have := (j 0).isLt; omega⟩ : Fin 2048) = rowOf L (2 * c) := Fin.ext (by rw [hr0]; show 2 * ((j 0).val / 2) = _; omega)
  have e1 : (⟨2 * ((j 0).val / 2) + 1, by have := (j 0).isLt; omega⟩ : Fin 2048) = rowOf L (2 * c + 1) := Fin.ext (by rw [hr1]; show 2 * ((j 0).val / 2) + 1 = _; omega)
  have e2 : (⟨(j 0).val % 2, Nat.mod_lt _ (by decide)⟩ : Fin 2) = p := Fin.ext (by show (j 0).val % 2 = _; omega)
  have e3 : (⟨(j 1).val, (j 1).isLt⟩ : Fin 2048) = q := Fin.ext h1
  show mtBlk (F := F) (m (cLoc d)) (hpre d) (m (wLoc d)) ⟨2 * ((j 0).val / 2), _⟩ ⟨2 * ((j 0).val / 2) + 1, _⟩
      (ix2 (⟨(j 0).val % 2, _⟩ : Fin 2) (⟨(j 1).val, _⟩ : Fin 2048)) = _
  rw [e0, e1, e2, e3]
  rfl

/-- After the copy of the first block of trip `k`, the matrix's rows `4 k, 4 k + 1` of the tile's share hold `mtArr`. -/
theorem out_value0 (d : Dev nD) (L : grid0.Coords) (hpre : PreOK m) (k : Fin k0_t1_loop.trips) (f0 : S2048x2048.Idx → Elt F .f32)
    (h : ∀ a, (k0_off10 L k) a + S2x2048.size a ≤ S2048x2048.size a) :
    ∀ i ∈ rowsBetween L (4 * k.val) (4 * k.val + 2),
      (((oV).slice (Rect.unit (s := S2048x2048) (k0_off10 L k) S2x2048.size h) (fun _ => rfl)).view.write (Elt F) f0 (chunkBlk m d L hpre (2 * k.val)) Finset.univ) i
        = MtA m d hpre i := by
  intro i hi
  rw [← set_out0 L k h] at hi
  obtain ⟨x, -, rfl⟩ := Finset.mem_map.mp hi
  have hk : k.val < 16 := by have := k.isLt; have e := trips_eq; omega
  have hx0 : (x 0).val < 2 := (x 0).isLt
  rw [View.write_emb_of_mem _ _ (Finset.mem_univ x), cast_eq]
  symm
  have hx : x = ix2 (⟨(x 0).val, hx0⟩ : Fin 2) (⟨(x 1).val, (x 1).isLt⟩ : Fin 2048) := eq_ix2 x
  rw [hx]
  refine MtA_chunk m d L hpre (2 * k.val) (by omega) _ _ _ ?_ ?_
  · show k0_off10 L k 0 + 1 * (x 0).val = 64 * (wid L).val + 2 * (2 * k.val) + (x 0).val
    have e10 : k0_off10 L k 0 = 128 * (L 1).val + 64 * (L 0).val + 4 * k.val := congrFun (Gen.k0_off10_eq L k) 0
    have hwv := wid_val L
    omega
  · show k0_off10 L k 1 + 1 * (x 1).val = (x 1).val
    have e10 : k0_off10 L k 1 = 0 := congrFun (Gen.k0_off10_eq L k) 1
    omega

/-- After the copy of the second block of trip `k`, rows `4 k + 2, 4 k + 3` hold `mtArr`. -/
theorem out_value1 (d : Dev nD) (L : grid0.Coords) (hpre : PreOK m) (k : Fin k0_t1_loop.trips) (f0 : S2048x2048.Idx → Elt F .f32)
    (h : ∀ a, (k0_off18 L k) a + S2x2048.size a ≤ S2048x2048.size a) :
    ∀ i ∈ rowsBetween L (4 * k.val + 2) (4 * k.val + 4),
      (((oV).slice (Rect.unit (s := S2048x2048) (k0_off18 L k) S2x2048.size h) (fun _ => rfl)).view.write (Elt F) f0 (chunkBlk m d L hpre (2 * k.val + 1)) Finset.univ) i
        = MtA m d hpre i := by
  intro i hi
  rw [← set_out1 L k h] at hi
  obtain ⟨x, -, rfl⟩ := Finset.mem_map.mp hi
  have hk : k.val < 16 := by have := k.isLt; have e := trips_eq; omega
  have hx0 : (x 0).val < 2 := (x 0).isLt
  rw [View.write_emb_of_mem _ _ (Finset.mem_univ x), cast_eq]
  symm
  have hx : x = ix2 (⟨(x 0).val, hx0⟩ : Fin 2) (⟨(x 1).val, (x 1).isLt⟩ : Fin 2048) := eq_ix2 x
  rw [hx]
  refine MtA_chunk m d L hpre (2 * k.val + 1) (by omega) _ _ _ ?_ ?_
  · show k0_off18 L k 0 + 1 * (x 0).val = 64 * (wid L).val + 2 * (2 * k.val + 1) + (x 0).val
    have e18 : k0_off18 L k 0 = 128 * (L 1).val + 64 * (L 0).val + 4 * k.val + 2 := congrFun (Gen.k0_off18_eq L k) 0
    have hwv := wid_val L
    omega
  · show k0_off18 L k 1 + 1 * (x 1).val = (x 1).val
    have e18 : k0_off18 L k 1 = 0 := congrFun (Gen.k0_off18_eq L k) 1
    omega

end Cert.KernelIdeal.Hand

end
-- ==== Proof.TileTrip.lean ====
/-
  One trip of the tile's loop, at a symbolic trip.

  Between trips each of the two blocks is either the block of zeros with its semaphore free (before the first trip)
  or on its way out: its copy to two rows of the matrix is in flight, to deliver those rows at the matrix's values
  and the block at the chunk's block.  A trip waits for each block's previous copy and restores the block to zero by
  two plain stores at the previous chunk's cells, adds the chunk's two weight rows at its cells, and starts the copy of
  the block out to the chunk's two rows.
-/
import proofs.«207065_g23029614641262_cont_8to1_115_36_alg».proof.Proof.Setup
import proofs.«207065_g23029614641262_cont_8to1_115_36_alg».proof.Proof.Gen.KernelIdeal.Skeleton
import proofs.«207065_g23029614641262_cont_8to1_115_36_alg».proof.Proof.TileValue
import proofs.«207065_g23029614641262_cont_8to1_115_36_alg».proof.Proof.TileOut

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Trip

variable (d : Dev nD) (L : grid0.Coords) (hpre : PreOK m)

/-- The transfers' counters in the machine's algebra. -/
abbrev EC : UEmb Counters (MT nD τ sig (HIx 1) (Elt F) ℕ UU ℕ) := countersEmb (U := UU)

/-- The credit of a copy of two rows out to the matrix. -/
abbrev NO : ℕ := sig.dmaCredit .scVector (Kind.scVector.table .hbm) (main_v1_scv : Ref sig .scVector).idx S2x2048 .f32
omit [FloatOps F] in
theorem NO_pos : 0 < NO := sig.dmaCredit_pos _ _ _ _ _ (by decide)

/-- Before trip `k`: the fetched scratches; the rows not yet written; before the first trip both blocks zero and
    their semaphores free, later the rows of the chunks before the previous trip's written and that trip's two copies
    in flight, each to deliver its two rows and its block. -/
def inv (O : CellTallies nD τ sig (HIx 1)) (W : Waits sig (HIx 1)) (f0 : S2048x2048.Idx → Elt F .f32) (k : Nat) (_ : Unit) : sProp 𝕄 :=
  iprop(Transfers.MayWaits (V d (cV L) (jV L)) (none : HIx 1) O
    ∗ ((V d (cV L) (jV L)).loc cc0_scratch2 ↦{fullShare} S8 m d L)
    ∗ ((V d (cV L) (jV L)).loc cc0_scratch3 ↦{fullShare} S9 m d L)
    ∗ (∃ W', ⌜∀ p ∈ W', p ∈ W ∨ p.2 = none⌝ ∗ owes (V d (cV L) (jV L)) O W')
    ∗ (oLoc d ↦[rowsBetween L (4 * k) 64]{fullShare} f0)
    ∗ (if k = 0 then
        iprop(((V d (cV L) (jV L)).loc cc0_scratch0 ↦{fullShare} (zeroBlk (F := F))) ∗ ((V d (cV L) (jV L)).loc cc0_scratch1 ↦{fullShare} (zeroBlk (F := F)))
          ∗ semVal (cell d L cc0_scratch4.sem) 0 ∗ semVal (cell d L cc0_scratch5.sem) 0)
      else
        iprop((oLoc d ↦[rowsBetween L 0 (4 * (k - 1))]{fullShare} MtA m d hpre)
          ∗ Transfers.Flight (EC (F := F)) (V d (cV L) (jV L)) (.dma cc0_scratch4.sem) (none : HIx 1) NO
              iprop((oLoc d ↦[rowsBetween L (4 * (k - 1)) (4 * (k - 1) + 2)]{fullShare} MtA m d hpre)
                ∗ ((V d (cV L) (jV L)).loc cc0_scratch0 ↦{fullShare} chunkBlk m d L hpre (2 * (k - 1))))
          ∗ Transfers.Flight (EC (F := F)) (V d (cV L) (jV L)) (.dma cc0_scratch5.sem) (none : HIx 1) NO
              iprop((oLoc d ↦[rowsBetween L (4 * (k - 1) + 2) (4 * (k - 1) + 4)]{fullShare} MtA m d hpre)
                ∗ ((V d (cV L) (jV L)).loc cc0_scratch1 ↦{fullShare} chunkBlk m d L hpre (2 * (k - 1) + 1))))))

theorem done_nil {k : Nat} (hk : k = 0) : (emp : sProp 𝕄) ⊢ (oLoc d ↦[rowsBetween L 0 (4 * k)]{fullShare} MtA m d hpre) := by
  rw [hk, show 4 * 0 = 0 from rfl, rowsBetween_self, pointsTo_empty]

omit [FloatOps F] in
theorem pts_eq {ℓ : Loc nD τ sig} {I : Finset (Idx ℓ)} {q : PosShare TreeShare} {f g : Buf (Elt F) ℓ} (h : f = g) :
    (ℓ ↦[I]{q} f : sProp 𝕄) = ℓ ↦[I]{q} g := by rw [h]

omit [FloatOps F] in
theorem pts_out0 (k : Fin k0_t1_loop.trips) (h : ∀ a, (k0_off10 L k) a + S2x2048.size a ≤ S2048x2048.size a) (f : S2048x2048.Idx → Elt F .f32) :
    ((((oV).slice (Rect.unit (s := S2048x2048) (k0_off10 L k) S2x2048.size h) (fun _ => rfl)).view.loc (V d (cV L) (jV L))
        ↦[((oV).slice (Rect.unit (s := S2048x2048) (k0_off10 L k) S2x2048.size h) (fun _ => rfl)).view.set]{fullShare} f) : sProp 𝕄)
      = (oLoc d ↦[rowsBetween L (4 * k.val) (4 * k.val + 2)]{fullShare} f) := by
  rw [set_out0]
omit [FloatOps F] in
theorem pts_out1 (k : Fin k0_t1_loop.trips) (h : ∀ a, (k0_off18 L k) a + S2x2048.size a ≤ S2048x2048.size a) (f : S2048x2048.Idx → Elt F .f32) :
    ((((oV).slice (Rect.unit (s := S2048x2048) (k0_off18 L k) S2x2048.size h) (fun _ => rfl)).view.loc (V d (cV L) (jV L))
        ↦[((oV).slice (Rect.unit (s := S2048x2048) (k0_off18 L k) S2x2048.size h) (fun _ => rfl)).view.set]{fullShare} f) : sProp 𝕄)
      = (oLoc d ↦[rowsBetween L (4 * k.val + 2) (4 * k.val + 4)]{fullShare} f) := by
  rw [set_out1]

theorem out_deliver0 (k : Fin k0_t1_loop.trips) (f0 : S2048x2048.Idx → Elt F .f32) (h : ∀ a, (k0_off10 L k) a + S2x2048.size a ≤ S2048x2048.size a) :
    iprop(((((oV).slice (Rect.unit (s := S2048x2048) (k0_off10 L k) S2x2048.size h) (fun _ => rfl)).view.loc (V d (cV L) (jV L))
        ↦[((oV).slice (Rect.unit (s := S2048x2048) (k0_off10 L k) S2x2048.size h) (fun _ => rfl)).view.set]{fullShare}
          (((oV).slice (Rect.unit (s := S2048x2048) (k0_off10 L k) S2x2048.size h) (fun _ => rfl)).view.write (Elt F) f0
            ((ReadAs.same : ReadAs (Elt F) S2x2048 .f32 S2x2048 .f32).apply ((blk0).view.read (Elt F) (chunkBlk m d L hpre (2 * k.val)))) Finset.univ)) : sProp 𝕄)
      ∗ ((blk0).view.loc (V d (cV L) (jV L)) ↦[(blk0).view.set]{fullShare} chunkBlk m d L hpre (2 * k.val)))
    ⊢ iprop((oLoc d ↦[rowsBetween L (4 * k.val) (4 * k.val + 2)]{fullShare} MtA m d hpre)
        ∗ ((V d (cV L) (jV L)).loc cc0_scratch0 ↦{fullShare} chunkBlk m d L hpre (2 * k.val))) := by
  rw [pts_out0, pts_blk0_view]
  exact sep_mono_left (Entails.of_eq (pointsTo_congr (out_value0 m d L hpre k f0 h)))
theorem out_deliver1 (k : Fin k0_t1_loop.trips) (f0 : S2048x2048.Idx → Elt F .f32) (h : ∀ a, (k0_off18 L k) a + S2x2048.size a ≤ S2048x2048.size a) :
    iprop(((((oV).slice (Rect.unit (s := S2048x2048) (k0_off18 L k) S2x2048.size h) (fun _ => rfl)).view.loc (V d (cV L) (jV L))
        ↦[((oV).slice (Rect.unit (s := S2048x2048) (k0_off18 L k) S2x2048.size h) (fun _ => rfl)).view.set]{fullShare}
          (((oV).slice (Rect.unit (s := S2048x2048) (k0_off18 L k) S2x2048.size h) (fun _ => rfl)).view.write (Elt F) f0
            ((ReadAs.same : ReadAs (Elt F) S2x2048 .f32 S2x2048 .f32).apply ((blk1).view.read (Elt F) (chunkBlk m d L hpre (2 * k.val + 1)))) Finset.univ)) : sProp 𝕄)
      ∗ ((blk1).view.loc (V d (cV L) (jV L)) ↦[(blk1).view.set]{fullShare} chunkBlk m d L hpre (2 * k.val + 1)))
    ⊢ iprop((oLoc d ↦[rowsBetween L (4 * k.val + 2) (4 * k.val + 4)]{fullShare} MtA m d hpre)
        ∗ ((V d (cV L) (jV L)).loc cc0_scratch1 ↦{fullShare} chunkBlk m d L hpre (2 * k.val + 1))) := by
  rw [pts_out1, pts_blk1_view]
  exact sep_mono_left (Entails.of_eq (pointsTo_congr (out_value1 m d L hpre k f0 h)))

theorem trip_spec (O : CellTallies nD τ sig (HIx 1)) (W : Waits sig (HIx 1)) (f0 : S2048x2048.Idx → Elt F .f32) (v2 : BitVec 32)
    (k : Fin k0_t1_loop.trips) (acc : Unit) :
    inv m d L hpre O W f0 k.val acc ⊢ wp frame (wpE (defs₀ (F := F)) 𝒱₀ (V d (cV L) (jV L)) none) Set.univ
      (k0_t1_body L connV (Memref.isWhole_whole _) wV (Memref.isWhole_whole _) zV (Memref.isWhole_whole _) oV (Memref.isWhole_whole _) blk0 (Memref.isWhole_whole _) blk1 (Memref.isWhole_whole _) idxB (Memref.isWhole_whole _) wB (Memref.isWhole_whole _) cc0_scratch4 cc0_scratch5 cc0_scratch6 cc0_scratch7 cc0_scoped0 cc0_scoped1 v2 k acc) (inv m d L hpre O W f0 (k.val + 1)) := by
  have hk16 : k.val < 16 := lt_of_lt_of_eq k.isLt trips_eq
  have e4 : 4 * (k.val + 1) = 4 * k.val + 4 := by omega
  by_cases hk : k.val = 0
  · have h1 : ¬ k0_cond1 k = 1#1 := fun h => (cond1_iff k).mp h hk
    have h2 : ¬ k0_cond2 k = 1#1 := fun h => (cond2_iff k).mp h hk
    unfold k0_t1_body; simp only [k0_part1_eq_skeleton]; unfold k0_part1_skel
    simp only [dif_neg h1, dif_neg h2, Prog.lift, Prog.bind_op, Prog.bind_ret, Prog.pure_eq_ret, Prog.bind_assoc]
    unfold inv
    rw [if_pos hk, if_neg (Nat.succ_ne_zero _)]
    simp only [Nat.add_sub_cancel]
    rw [e4]
    iintro ⟨#Hmw, H8, H9, ⟨%W', %hW', HO⟩, Ho, Hb0, Hb1, Hs10, Hs11⟩
    have hWfin : ∀ p ∈ W', p ∈ W ∨ p.2 = none := hW'

    -- half 0: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb0 := (Entails.of_eq (pts_blk0_access (F := F) d L _).symm) $$ Hb0
    iapply (SparseCore.wp_vectorStoreIdx 𝒱₀ (V d (cV L) (jV L)) none Set.univ) $$ Hb0; iintro Hb0
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb0; iintro Hb0
    ihave Hb0 := (Entails.of_eq (pts_blk0_access (F := F) d L _)) $$ Hb0
    ihave Hb0 := (Entails.of_eq (pts_eq (adds_blk0 m d L hpre (2 * k.val) _ _ _ _ _ _ (idx6 m d L k _) (idx8 m d L k _) (w7 m d L k _) (w9 m d L k _)))) $$ Hb0
    ihave Ho := (Entails.of_eq (congrArg (fun S => (oLoc d ↦[S]{fullShare} f0 : sProp 𝕄)) (rowsBetween_union L (a := 4 * k.val) (b := 4 * k.val + 2) (c := 64) (by omega) (by omega)).symm)) $$ Ho
    ihave Ho := (pointsTo_union (rowsBetween_disjoint L _ _ _)).1 $$ Ho
    icases Ho with ⟨Hw, Ho⟩
    ihave Hw := (Entails.of_eq (pts_out0 (F := F) d L k _ _).symm) $$ Hw
    ihave Hb0 := (Entails.of_eq (pts_blk0_view (F := F) d L fullShare _).symm) $$ Hb0
    iapply (Transfers.wp_dmaLocal (EC (F := F)) 𝒱₀ (V d (cV L) (jV L)) none (none : HIx 1) NO rfl NO_pos subset_rfl) $$ [Hb0 Hw Hs10]
    · isplitl [Hb0]; · iexact Hb0
      isplitl [Hw]; · iexact Hw
      iexact Hs10
    iintro Hf10
    ihave Hf10 := (Transfers.Flight_mono (EC (F := F)) (V d (cV L) (jV L)) (out_deliver0 m d L hpre k f0 _)) $$ Hf10

    -- half 1: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb1 := (Entails.of_eq (pts_blk1_access (F := F) d L _).symm) $$ Hb1
    iapply (SparseCore.wp_vectorStoreIdx 𝒱₀ (V d (cV L) (jV L)) none Set.univ) $$ Hb1; iintro Hb1
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb1; iintro Hb1
    ihave Hb1 := (Entails.of_eq (pts_blk1_access (F := F) d L _)) $$ Hb1
    ihave Hb1 := (Entails.of_eq (pts_eq (adds_blk1 m d L hpre (2 * k.val + 1) _ _ _ _ _ _ (idx14 m d L k _) (idx16 m d L k _) (w15 m d L k _) (w17 m d L k _)))) $$ Hb1
    ihave Ho := (Entails.of_eq (congrArg (fun S => (oLoc d ↦[S]{fullShare} f0 : sProp 𝕄)) (rowsBetween_union L (a := 4 * k.val + 2) (b := 4 * k.val + 4) (c := 64) (by omega) (by omega)).symm)) $$ Ho
    ihave Ho := (pointsTo_union (rowsBetween_disjoint L _ _ _)).1 $$ Ho
    icases Ho with ⟨Hw, Ho⟩
    ihave Hw := (Entails.of_eq (pts_out1 (F := F) d L k _ _).symm) $$ Hw
    ihave Hb1 := (Entails.of_eq (pts_blk1_view (F := F) d L fullShare _).symm) $$ Hb1
    iapply (Transfers.wp_dmaLocal (EC (F := F)) 𝒱₀ (V d (cV L) (jV L)) none (none : HIx 1) NO rfl NO_pos subset_rfl) $$ [Hb1 Hw Hs11]
    · isplitl [Hb1]; · iexact Hb1
      isplitl [Hw]; · iexact Hw
      iexact Hs11
    iintro Hf11
    ihave Hf11 := (Transfers.Flight_mono (EC (F := F)) (V d (cV L) (jV L)) (out_deliver1 m d L hpre k f0 _)) $$ Hf11

    rw [wp_ret]; imodintro
    isplitr; · iexact Hmw
    isplitl [H8]; · iexact H8
    isplitl [H9]; · iexact H9
    isplitl [HO]
    · iexists _; isplitr; rotate_left; · iexact HO
      ipureintro; exact hWfin
    isplitl [Ho]; · iexact Ho
    isplitr
    · iapply (done_nil m d L hpre hk); iempintro
    isplitl [Hf10]; · iexact Hf10
    iexact Hf11
  · have h1 : k0_cond1 k = 1#1 := (cond1_iff k).mpr hk
    have h2 : k0_cond2 k = 1#1 := (cond2_iff k).mpr hk
    unfold k0_t1_body; simp only [k0_part1_eq_skeleton]; unfold k0_part1_skel
    simp only [dif_pos h1, dif_pos h2, Prog.lift, Prog.bind_op, Prog.bind_ret, Prog.pure_eq_ret, Prog.bind_assoc]
    unfold inv
    rw [if_neg hk, if_neg (Nat.succ_ne_zero _)]
    simp only [Nat.add_sub_cancel]
    rw [e4]
    iintro ⟨#Hmw, H8, H9, ⟨%W', %hW', HO⟩, Ho, Hdone, Hf10, Hf11⟩
    have hWfin : ∀ p ∈ insert (SemLoc.dma cc0_scratch5.sem, (none : HIx 1)) (insert (SemLoc.dma cc0_scratch4.sem, (none : HIx 1)) W'), p ∈ W ∨ p.2 = none := by
      intro p hp
      rcases Finset.mem_insert.mp hp with rfl | hp
      · exact .inr rfl
      rcases Finset.mem_insert.mp hp with rfl | hp
      · exact .inr rfl
      exact hW' p hp

    -- half 0: wait for the previous copy-out of the block, restore the block to zero
    iapply (Transfers.wp_waitLocalO (EC (F := F)) 𝒱₀ (V d (cV L) (jV L)) none (none : HIx 1) rfl) $$ [Hf10 HO]
    · isplitl [Hf10]; · iexact Hf10
      isplitl [HO]; · iexact HO
      iapply (Transfers.MayWaits.elim (SemLoc.dma cc0_scratch4.sem)); iexact Hmw
    iintro ⟨⟨Hod, Hb0⟩, Hs10, HO⟩
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 0#32 (by decide) _ _))
    ihave Hb0 := (Entails.of_eq (pts_blk0_access (F := F) d L _).symm) $$ Hb0
    iapply (SparseCore.wp_vectorStoreIdx 𝒱₀ (V d (cV L) (jV L)) none Set.univ) $$ Hb0; iintro Hb0
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 1#32 (by decide) _ _))
    iapply (SparseCore.wp_vectorStoreIdx 𝒱₀ (V d (cV L) (jV L)) none Set.univ) $$ Hb0; iintro Hb0
    ihave Hb0 := (Entails.of_eq (pts_blk0_access (F := F) d L _)) $$ Hb0
    ihave Hb0 := (Entails.of_eq (pts_eq (restore_blk0 m d L hpre (2 * (k.val - 1)) _ _ _ _ (idx4 m d L k h1 _) (idx5 m d L k h1 _)))) $$ Hb0
    ihave Hdone := (pointsTo_union (ℓ := oLoc d) (rowsBetween_disjoint L 0 (4 * (k.val - 1)) (4 * (k.val - 1) + 2))).2 $$ [Hdone Hod]
    · isplitl [Hdone]; · iexact Hdone
      iexact Hod
    ihave Hdone := (Entails.of_eq (congrArg (fun S => (oLoc d ↦[S]{fullShare} MtA m d hpre : sProp 𝕄)) (rowsBetween_union L (a := 0) (b := 4 * (k.val - 1)) (c := 4 * (k.val - 1) + 2) (by omega) (by omega)))) $$ Hdone

    -- half 0: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb0 := (Entails.of_eq (pts_blk0_access (F := F) d L _).symm) $$ Hb0
    iapply (SparseCore.wp_vectorStoreIdx 𝒱₀ (V d (cV L) (jV L)) none Set.univ) $$ Hb0; iintro Hb0
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb0; iintro Hb0
    ihave Hb0 := (Entails.of_eq (pts_blk0_access (F := F) d L _)) $$ Hb0
    ihave Hb0 := (Entails.of_eq (pts_eq (adds_blk0 m d L hpre (2 * k.val) _ _ _ _ _ _ (idx6 m d L k _) (idx8 m d L k _) (w7 m d L k _) (w9 m d L k _)))) $$ Hb0
    ihave Ho := (Entails.of_eq (congrArg (fun S => (oLoc d ↦[S]{fullShare} f0 : sProp 𝕄)) (rowsBetween_union L (a := 4 * k.val) (b := 4 * k.val + 2) (c := 64) (by omega) (by omega)).symm)) $$ Ho
    ihave Ho := (pointsTo_union (rowsBetween_disjoint L _ _ _)).1 $$ Ho
    icases Ho with ⟨Hw, Ho⟩
    ihave Hw := (Entails.of_eq (pts_out0 (F := F) d L k _ _).symm) $$ Hw
    ihave Hb0 := (Entails.of_eq (pts_blk0_view (F := F) d L fullShare _).symm) $$ Hb0
    iapply (Transfers.wp_dmaLocal (EC (F := F)) 𝒱₀ (V d (cV L) (jV L)) none (none : HIx 1) NO rfl NO_pos subset_rfl) $$ [Hb0 Hw Hs10]
    · isplitl [Hb0]; · iexact Hb0
      isplitl [Hw]; · iexact Hw
      iexact Hs10
    iintro Hf10
    ihave Hf10 := (Transfers.Flight_mono (EC (F := F)) (V d (cV L) (jV L)) (out_deliver0 m d L hpre k f0 _)) $$ Hf10

    -- half 1: wait for the previous copy-out of the block, restore the block to zero
    iapply (Transfers.wp_waitLocalO (EC (F := F)) 𝒱₀ (V d (cV L) (jV L)) none (none : HIx 1) rfl) $$ [Hf11 HO]
    · isplitl [Hf11]; · iexact Hf11
      isplitl [HO]; · iexact HO
      iapply (Transfers.MayWaits.elim (SemLoc.dma cc0_scratch5.sem)); iexact Hmw
    iintro ⟨⟨Hod, Hb1⟩, Hs11, HO⟩
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 0#32 (by decide) _ _))
    ihave Hb1 := (Entails.of_eq (pts_blk1_access (F := F) d L _).symm) $$ Hb1
    iapply (SparseCore.wp_vectorStoreIdx 𝒱₀ (V d (cV L) (jV L)) none Set.univ) $$ Hb1; iintro Hb1
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 1#32 (by decide) _ _))
    iapply (SparseCore.wp_vectorStoreIdx 𝒱₀ (V d (cV L) (jV L)) none Set.univ) $$ Hb1; iintro Hb1
    ihave Hb1 := (Entails.of_eq (pts_blk1_access (F := F) d L _)) $$ Hb1
    ihave Hb1 := (Entails.of_eq (pts_eq (restore_blk1 m d L hpre (2 * (k.val - 1) + 1) _ _ _ _ (idx12 m d L k h2 _) (idx13 m d L k h2 _)))) $$ Hb1
    ihave Hdone := (pointsTo_union (ℓ := oLoc d) (rowsBetween_disjoint L 0 (4 * (k.val - 1) + 2) (4 * (k.val - 1) + 4))).2 $$ [Hdone Hod]
    · isplitl [Hdone]; · iexact Hdone
      iexact Hod
    ihave Hdone := (Entails.of_eq (congrArg (fun S => (oLoc d ↦[S]{fullShare} MtA m d hpre : sProp 𝕄)) (rowsBetween_union L (a := 0) (b := 4 * (k.val - 1) + 2) (c := 4 * (k.val - 1) + 4) (by omega) (by omega)))) $$ Hdone

    -- half 1: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb1 := (Entails.of_eq (pts_blk1_access (F := F) d L _).symm) $$ Hb1
    iapply (SparseCore.wp_vectorStoreIdx 𝒱₀ (V d (cV L) (jV L)) none Set.univ) $$ Hb1; iintro Hb1
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb1; iintro Hb1
    ihave Hb1 := (Entails.of_eq (pts_blk1_access (F := F) d L _)) $$ Hb1
    ihave Hb1 := (Entails.of_eq (pts_eq (adds_blk1 m d L hpre (2 * k.val + 1) _ _ _ _ _ _ (idx14 m d L k _) (idx16 m d L k _) (w15 m d L k _) (w17 m d L k _)))) $$ Hb1
    ihave Ho := (Entails.of_eq (congrArg (fun S => (oLoc d ↦[S]{fullShare} f0 : sProp 𝕄)) (rowsBetween_union L (a := 4 * k.val + 2) (b := 4 * k.val + 4) (c := 64) (by omega) (by omega)).symm)) $$ Ho
    ihave Ho := (pointsTo_union (rowsBetween_disjoint L _ _ _)).1 $$ Ho
    icases Ho with ⟨Hw, Ho⟩
    ihave Hw := (Entails.of_eq (pts_out1 (F := F) d L k _ _).symm) $$ Hw
    ihave Hb1 := (Entails.of_eq (pts_blk1_view (F := F) d L fullShare _).symm) $$ Hb1
    iapply (Transfers.wp_dmaLocal (EC (F := F)) 𝒱₀ (V d (cV L) (jV L)) none (none : HIx 1) NO rfl NO_pos subset_rfl) $$ [Hb1 Hw Hs11]
    · isplitl [Hb1]; · iexact Hb1
      isplitl [Hw]; · iexact Hw
      iexact Hs11
    iintro Hf11
    ihave Hf11 := (Transfers.Flight_mono (EC (F := F)) (V d (cV L) (jV L)) (out_deliver1 m d L hpre k f0 _)) $$ Hf11

    ihave Hdone := (Entails.of_eq (congrArg (fun S => (oLoc d ↦[S]{fullShare} MtA m d hpre : sProp 𝕄)) (congrArg (rowsBetween L 0) (show 4 * (k.val - 1) + 4 = 4 * k.val by omega)))) $$ Hdone
    rw [wp_ret]; imodintro
    isplitr; · iexact Hmw
    isplitl [H8]; · iexact H8
    isplitl [H9]; · iexact H9
    isplitl [HO]
    · iexists _; isplitr; rotate_left; · iexact HO
      ipureintro; exact hWfin
    isplitl [Ho]; · iexact Ho
    isplitl [Hdone]; · iexact Hdone
    isplitl [Hf10]; · iexact Hf10
    iexact Hf11

end Trip
end Cert.KernelIdeal.Hand
end
-- ==== Proof.TileObl.lean ====
/-
  The vector-subcore kernel on one tile, and its body obligation for the launch.

  The tile fetches the block of zeros into its two blocks (two copies reading one array: each holds half of the tile's
  read share of it), its connection words and its weight rows; runs the sixteen trips; waits for the last two copies.
  It hands back what it was handed, its sixty-four rows of the matrix at the matrix's values.
-/
import proofs.«207065_g23029614641262_cont_8to1_115_36_alg».proof.Proof.Setup
import proofs.«207065_g23029614641262_cont_8to1_115_36_alg».proof.Proof.Gen.KernelIdeal.Skeleton
import proofs.«207065_g23029614641262_cont_8to1_115_36_alg».proof.Proof.TileTrip

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Body

variable (d : Dev nD) (L : grid0.Coords) (hpre : PreOK m)

omit [FloatOps F] in
theorem fetch8 (f8 : S1024.Idx → Elt F .i32) :
    (idxB).view.write (Elt F) f8 ((ReadAs.same : ReadAs (Elt F) S1024 .i32 S1024 .i32).apply ((connSl L).view.read (Elt F) (m (cLoc d)))) Finset.univ = S8 m d L :=
  View.write_whole_univ _ _ _
omit [FloatOps F] in
theorem fetch9 (f9 : S64x16.Idx → Elt F .f32) :
    (wB).view.write (Elt F) f9 ((ReadAs.same : ReadAs (Elt F) S64x16 .f32 S64x16 .f32).apply ((wSl L).view.read (Elt F) (m (wLoc d)))) Finset.univ = S9 m d L :=
  View.write_whole_univ _ _ _
theorem fetchZ0 (f6 : S2x2048.Idx → Elt F .f32) :
    (blk0).view.write (Elt F) f6 ((ReadAs.same : ReadAs (Elt F) S2x2048 .f32 S2x2048 .f32).apply ((zV).view.read (Elt F) (zeroBlk (F := F)))) Finset.univ = zeroBlk (F := F) :=
  View.write_whole_univ _ _ _
theorem fetchZ1 (f7 : S2x2048.Idx → Elt F .f32) :
    (blk1).view.write (Elt F) f7 ((ReadAs.same : ReadAs (Elt F) S2x2048 .f32 S2x2048 .f32).apply ((zV).view.read (Elt F) (zeroBlk (F := F)))) Finset.univ = zeroBlk (F := F) :=
  View.write_whole_univ _ _ _

/-- After the last trip: every row before the last two chunks written, the last two copies in flight. -/
theorem inv_final (O : CellTallies nD τ sig (HIx 1)) (W : Waits sig (HIx 1)) (f0 : S2048x2048.Idx → Elt F .f32) (acc : Unit) :
    inv m d L hpre O W f0 k0_t1_loop.trips acc ⊢ inv m d L hpre O W f0 16 acc := by
  rw [trips_eq]

/-- The kernel on one vector subcore. -/
theorem tile_body (O : CellTallies nD τ sig (HIx 1)) (W : Waits sig (HIx 1)) (hO : ∀ g, O g none = 0) :
    iprop(levAts (K (F := F)).L (K (F := F)).lev ∗ emp ∗ goRes m d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (cc0_k L connV (Memref.isWhole_whole _) wV (Memref.isWhole_whole _) zV (Memref.isWhole_whole _) oV (Memref.isWhole_whole _) blk0 (Memref.isWhole_whole _) blk1 (Memref.isWhole_whole _) idxB (Memref.isWhole_whole _) wB (Memref.isWhole_whole _) cc0_scratch4 cc0_scratch5 cc0_scratch6 cc0_scratch7 cc0_scoped0 cc0_scoped1)
          fun _ => iprop(tdRes m hpre d L ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0_k_eq_skeleton]; unfold cc0_k_skel
  simp only [Prog.lift, Prog.bind_op, Prog.bind_ret, Prog.pure_eq_ret, Prog.bind_assoc]
  rw [(K (F := F)).scopedBufs_V facts d (cV L) (jV L), SparseCore.Cfg.scopedSems0_V (Val := Elt F) d (cV L) (jV L), ownSems0_V, ownBufs_V]
  unfold goRes tdRes
  iintro ⟨#Hlv, -, ⟨Hc, Hw, Hz, %f0, Ho⟩, ⟨⟨%f6, Hb0⟩, ⟨%f7, Hb1⟩, ⟨%f8, H8⟩, ⟨%f9, H9⟩, Hbufs⟩, ⟨Hs10, Hs11, Hs12, Hs13, Hr0, Hr1, Hsems⟩, HO⟩
  ihave Hmw := ((K (F := F)).mayWaits_none (thr := (V d (cV L) (jV L))) hO) $$ Hlv
  icases Hmw with #Hmw
  -- the two fetches of the block of zeros, each reading half of the tile's share of it
  ihave Hz := (pointsTo_share (PosShare.mem_left_op_right _)).1 $$ Hz
  icases Hz with ⟨Hz1, Hz2⟩
  ihave Hz1 := (Entails.of_eq (pts_z_view (F := F) d L _ _).symm) $$ Hz1
  ihave Hz2 := (Entails.of_eq (pts_z_view (F := F) d L _ _).symm) $$ Hz2

  iapply (Transfers.wp_dmaLocal (EC (F := F)) 𝒱₀ (V d (cV L) (jV L)) none (none : HIx 1) _ rfl (View.amount_pos _ _ (show 0 < S2x2048.numel by decide)) (Finset.subset_univ _)) $$ [Hz1 Hb0 Hs12]
  · isplitl [Hz1]; · iexact Hz1
    isplitl [Hb0]; · iexact Hb0
    iexact Hs12
  iintro Hf12

  iapply (Transfers.wp_dmaLocal (EC (F := F)) 𝒱₀ (V d (cV L) (jV L)) none (none : HIx 1) _ rfl (View.amount_pos _ _ (show 0 < S2x2048.numel by decide)) (Finset.subset_univ _)) $$ [Hz2 Hb1 Hs13]
  · isplitl [Hz2]; · iexact Hz2
    isplitl [Hb1]; · iexact Hb1
    iexact Hs13
  iintro Hf13
  -- the tile's connection words and weight rows, each fetched and waited for at once

  iapply (Transfers.wp_dmaLocal (EC (F := F)) 𝒱₀ (V d (cV L) (jV L)) none (none : HIx 1) _ rfl (View.amount_pos _ _ (show 0 < S1024.numel by decide)) (Finset.subset_univ _)) $$ [Hc H8 Hr0]
  · isplitl [Hc]; · iexact Hc
    isplitl [H8]; · iexact H8
    iexact Hr0
  iintro Hfr0

  iapply (Transfers.wp_waitLocalO (EC (F := F)) 𝒱₀ (V d (cV L) (jV L)) none (none : HIx 1) rfl) $$ [Hfr0 HO]
  · isplitl [Hfr0]; · iexact Hfr0
    isplitl [HO]; · iexact HO
    iapply (Transfers.MayWaits.elim (SemLoc.dma cc0_scoped0.sem)); iexact Hmw
  iintro ⟨⟨H8, Hc⟩, Hr0, HO⟩
  ihave H8 := (Entails.of_eq (pts_eq (fetch8 m d L f8))) $$ H8

  iapply (Transfers.wp_dmaLocal (EC (F := F)) 𝒱₀ (V d (cV L) (jV L)) none (none : HIx 1) _ rfl (View.amount_pos _ _ (show 0 < S64x16.numel by decide)) (Finset.subset_univ _)) $$ [Hw H9 Hr1]
  · isplitl [Hw]; · iexact Hw
    isplitl [H9]; · iexact H9
    iexact Hr1
  iintro Hfr1

  iapply (Transfers.wp_waitLocalO (EC (F := F)) 𝒱₀ (V d (cV L) (jV L)) none (none : HIx 1) rfl) $$ [Hfr1 HO]
  · isplitl [Hfr1]; · iexact Hfr1
    isplitl [HO]; · iexact HO
    iapply (Transfers.MayWaits.elim (SemLoc.dma cc0_scoped1.sem)); iexact Hmw
  iintro ⟨⟨H9, Hw⟩, Hr1, HO⟩
  ihave H9 := (Entails.of_eq (pts_eq (fetch9 m d L f9))) $$ H9

  iapply (Transfers.wp_waitLocalO (EC (F := F)) 𝒱₀ (V d (cV L) (jV L)) none (none : HIx 1) rfl) $$ [Hf12 HO]
  · isplitl [Hf12]; · iexact Hf12
    isplitl [HO]; · iexact HO
    iapply (Transfers.MayWaits.elim (SemLoc.dma cc0_scratch6.sem)); iexact Hmw
  iintro ⟨⟨Hb0, Hz1⟩, Hs12, HO⟩
  ihave Hb0 := (Entails.of_eq (pts_eq (fetchZ0 (F := F) f6))) $$ Hb0

  iapply (Transfers.wp_waitLocalO (EC (F := F)) 𝒱₀ (V d (cV L) (jV L)) none (none : HIx 1) rfl) $$ [Hf13 HO]
  · isplitl [Hf13]; · iexact Hf13
    isplitl [HO]; · iexact HO
    iapply (Transfers.MayWaits.elim (SemLoc.dma cc0_scratch7.sem)); iexact Hmw
  iintro ⟨⟨Hb1, Hz2⟩, Hs13, HO⟩
  ihave Hb1 := (Entails.of_eq (pts_eq (fetchZ1 (F := F) f7))) $$ Hb1
  -- the loop
  ihave Ho := (Entails.of_eq (congrArg (fun S => (oLoc d ↦[S]{fullShare} f0 : sProp 𝕄)) (rowsSet_eq L))) $$ Ho
  sl_for (inv m d L hpre O W f0) $$ [H8 H9 HO Ho Hb0 Hb1 Hs10 Hs11]
  case region =>
    intro k acc
    exact trip_spec m d L hpre O W f0 _ k acc
  · unfold inv
    rw [if_pos rfl]
    isplitr; · iexact Hmw
    isplitl [H8]; · iexact H8
    isplitl [H9]; · iexact H9
    isplitl [HO]
    · iexists _; isplitr; rotate_left; · iexact HO
      ipureintro
      intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact .inl hp
    isplitl [Ho]; · iexact Ho
    isplitl [Hb0]; · iexact Hb0
    isplitl [Hb1]; · iexact Hb1
    isplitl [Hs10]; · iexact Hs10
    iexact Hs11
  iintro %acc HI
  ihave HI := (inv_final m d L hpre O W f0 acc) $$ HI
  unfold inv
  rw [if_neg (by decide : ¬ (16 : Nat) = 0)]
  icases HI with ⟨-, H8, H9, ⟨%W', %hW', HO⟩, Hrest, Hdone, Hf10, Hf11⟩

  iapply (Transfers.wp_waitLocalO (EC (F := F)) 𝒱₀ (V d (cV L) (jV L)) none (none : HIx 1) rfl) $$ [Hf10 HO]
  · isplitl [Hf10]; · iexact Hf10
    isplitl [HO]; · iexact HO
    iapply (Transfers.MayWaits.elim (SemLoc.dma cc0_scratch4.sem)); iexact Hmw
  iintro ⟨⟨Hod0, Hb0⟩, Hs10, HO⟩

  iapply (Transfers.wp_waitLocalO (EC (F := F)) 𝒱₀ (V d (cV L) (jV L)) none (none : HIx 1) rfl) $$ [Hf11 HO]
  · isplitl [Hf11]; · iexact Hf11
    isplitl [HO]; · iexact HO
    iapply (Transfers.MayWaits.elim (SemLoc.dma cc0_scratch5.sem)); iexact Hmw
  iintro ⟨⟨Hod1, Hb1⟩, Hs11, HO⟩
  rw [wp_ret]; imodintro
  ihave Hdone := (pointsTo_union (ℓ := oLoc d) (rowsBetween_disjoint L 0 (4 * (16 - 1)) (4 * (16 - 1) + 2))).2 $$ [Hdone Hod0]
  · isplitl [Hdone]; · iexact Hdone
    iexact Hod0
  ihave Hdone := (Entails.of_eq (congrArg (fun S => (oLoc d ↦[S]{fullShare} MtA m d hpre : sProp 𝕄)) (rowsBetween_union L (a := 0) (b := 4 * (16 - 1)) (c := 4 * (16 - 1) + 2) (by omega) (by omega)))) $$ Hdone
  ihave Hdone := (pointsTo_union (ℓ := oLoc d) (rowsBetween_disjoint L 0 (4 * (16 - 1) + 2) (4 * (16 - 1) + 4))).2 $$ [Hdone Hod1]
  · isplitl [Hdone]; · iexact Hdone
    iexact Hod1
  ihave Hdone := (Entails.of_eq (congrArg (fun S => (oLoc d ↦[S]{fullShare} MtA m d hpre : sProp 𝕄)) ((rowsBetween_union L (a := 0) (b := 4 * (16 - 1) + 2) (c := 4 * (16 - 1) + 4) (by omega) (by omega)).trans (rowsSet_eq L).symm))) $$ Hdone
  ihave Hz1 := (Entails.of_eq (pts_z_view (F := F) d L _ _)) $$ Hz1
  ihave Hz2 := (Entails.of_eq (pts_z_view (F := F) d L _ _)) $$ Hz2
  isplitl [Hc Hw Hz1 Hz2 Hdone]
  · isplitl [Hc]; · iexact Hc
    isplitl [Hw]; · iexact Hw
    isplitl [Hz1 Hz2]
    · iapply (pointsTo_share (PosShare.mem_left_op_right _)).2
      isplitl [Hz1]; · iexact Hz1
      iexact Hz2
    iexact Hdone
  isplitl [Hb0 Hb1 H8 H9 Hbufs]
  · isplitl [Hb0]; · iexists _; iexact Hb0
    isplitl [Hb1]; · iexists _; iexact Hb1
    isplitl [H8]; · iexists _; iexact H8
    isplitl [H9]; · iexists _; iexact H9
    iexact Hbufs
  isplitl [Hs10 Hs11 Hs12 Hs13 Hr0 Hr1 Hsems]
  · isplitl [Hs10]; · iexact Hs10
    isplitl [Hs11]; · iexact Hs11
    isplitl [Hs12]; · iexact Hs12
    isplitl [Hs13]; · iexact Hs13
    isplitl [Hr0]; · iexact Hr0
    isplitl [Hr1]; · iexact Hr1
    iexact Hsems
  iexists _; isplitr; rotate_left; · iexact HO
  ipureintro
  intro p hp
  rcases Finset.mem_insert.mp hp with rfl | hp
  · exact .inr rfl
  rcases Finset.mem_insert.mp hp with rfl | hp
  · exact .inr rfl
  exact hW' p hp

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile Facts₀.hcore0 Facts₀.hsub0 (fun c s => cc0_k (coordsV c s)
          connV (Memref.isWhole_whole _) wV (Memref.isWhole_whole _) zV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0 cc0_scoped1) ⟨⟩ c s := rfl

end Body

/-- The body obligation of the vector-subcore kernel: from what the call hands a tile to what it takes back. -/
theorem tileObl (m : (ℓ : Loc nD τ sig) → Buf (Elt F) ℓ) (hpre : PreOK m) : (K (F := F)).TileObl (D (F := F)) 𝒱 (P m hpre) v₀ 0 := by
  intro d c i O W hO _ _
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

end Cert.KernelIdeal.Hand
end
-- ==== Proof.Split.lean ====
/-
  The whole arrays split among the thirty-two vector subcores, and joined back.

  Tile (c, s) of the grid has number 2 s + c, so the tiles are numbered 0 … 31 exactly once.  Tile n takes connection
  words 1024 n … 1024 n + 1023, weight rows 64 n … 64 n + 63 and rows 64 n … 64 n + 63 of the matrix: three cuts of an
  array into thirty-two consecutive pieces, pairwise disjoint and covering it.  The block of zeros is read by every
  tile, so it is cut by share instead: one read share per tile and a remainder kept aside.
-/
import proofs.«207065_g23029614641262_cont_8to1_115_36_alg».proof.Proof.Setup

noncomputable section

namespace Cert.KernelIdeal.Hand

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles, numbered -/

/-- Tile number n sits on core n % 2, subcore n / 2. -/
def tileOf (n : Fin 32) : grid0.Coords :=
  coordsV ⟨n.val % 2, Nat.mod_lt _ (by decide)⟩ ⟨n.val / 2, by have h := n.isLt; show n.val / 2 < 16; omega⟩

theorem wid_tileOf (n : Fin 32) : wid (tileOf n) = n :=
  Fin.ext (by show 2 * (n.val / 2) + n.val % 2 = n.val; omega)

/-- The numbering as a one-to-one correspondence between the numbers and the grid's (core, subcore) pairs. -/
def tileEquiv : Fin 32 ≃ Fin ((K (F := F)).nCore 0) × Fin ((K (F := F)).nSub 0) where
  toFun n := (⟨n.val % 2, Nat.mod_lt _ (by decide)⟩, ⟨n.val / 2, by have h := n.isLt; show n.val / 2 < 16; omega⟩)
  invFun p := ⟨2 * p.2.val + p.1.val, by
    have h1 : p.1.val < 2 := p.1.isLt
    have h2 : p.2.val < 16 := p.2.isLt
    omega⟩
  left_inv n := Fin.ext (by show 2 * (n.val / 2) + n.val % 2 = n.val; omega)
  right_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega

/-- A product over the cores of products over their subcores is a product over the tile numbers. -/
theorem bigSep_tiles (Φ : grid0.Coords → sProp 𝕄) :
    (bigSep Finset.univ fun c : Fin ((K (F := F)).nCore 0) => bigSep Finset.univ fun i : Fin ((K (F := F)).nSub 0) =>
        Φ (coordsV (Fin.cast nCore_zero c) (Fin.cast nSub_zero i)))
      = bigSep Finset.univ fun n : Fin 32 => Φ (tileOf n) := by
  rw [← bigSep_univ_prod (fun p : Fin ((K (F := F)).nCore 0) × Fin ((K (F := F)).nSub 0) =>
      Φ (coordsV (Fin.cast nCore_zero p.1) (Fin.cast nSub_zero p.2))),
    bigSep_univ_equiv (tileEquiv (F := F))]
  rfl

/-! ## The three cuts into thirty-two consecutive pieces -/

/-- Tile n's connection words are words 1024 n … 1024 n + 1023. -/
theorem mem_connSet (L : grid0.Coords) (x : S32768.Idx) :
    x ∈ connSet L ↔ 1024 * (wid L).val ≤ (x 0).val ∧ (x 0).val < 1024 * (wid L).val + 1024 := by
  show x ∈ ((View.whole (main_arg1_scv : Ref sig .scVector)).slice
    (Rect.unit (s := S32768) (k0_off1 L) S1024.size (Facts₀.k0_off1_inb L))).set ↔ _
  rw [View.set_slice_whole, Rect.mem_set_unit, Gen.k0_off1_eq]
  show (∀ a : Fin 1, _) ↔ _
  rw [Fin.forall_fin_one]
  show (2048 * (L 1).val + 1024 * (L 0).val ≤ (x 0).val ∧ (x 0).val < 2048 * (L 1).val + 1024 * (L 0).val + 1024)
    ↔ (1024 * (2 * (L 1).val + (L 0).val) ≤ (x 0).val ∧ (x 0).val < 1024 * (2 * (L 1).val + (L 0).val) + 1024)
  omega

/-- Tile n's weight rows are rows 64 n … 64 n + 63. -/
theorem mem_wSet (L : grid0.Coords) (x : S2048x16.Idx) :
    x ∈ wSet L ↔ 64 * (wid L).val ≤ (x 0).val ∧ (x 0).val < 64 * (wid L).val + 64 := by
  show x ∈ ((View.whole (main_arg2_scv : Ref sig .scVector)).slice
    (Rect.unit (s := S2048x16) (k0_off2 L) S64x16.size (Facts₀.k0_off2_inb L))).set ↔ _
  rw [View.set_slice_whole, Rect.mem_set_unit, Gen.k0_off2_eq]
  show (∀ a : Fin 2, _) ↔ _
  rw [Fin.forall_fin_two]
  have h1 : (x 1).val < 16 := (x 1).isLt
  show ((128 * (L 1).val + 64 * (L 0).val ≤ (x 0).val ∧ (x 0).val < 128 * (L 1).val + 64 * (L 0).val + 64)
      ∧ (0 ≤ (x 1).val ∧ (x 1).val < 0 + 16))
    ↔ (64 * (2 * (L 1).val + (L 0).val) ≤ (x 0).val ∧ (x 0).val < 64 * (2 * (L 1).val + (L 0).val) + 64)
  omega

theorem rowsSet_eq_rect (L : grid0.Coords) : rowsSet L = (rowsRect (wid L)).set := by
  show ((View.whole (main_v1_scv : Ref sig .scVector)).slice (rowsRect (wid L))).set = _
  exact View.set_slice_whole _ _

theorem conn_disjoint : ∀ n ∈ (Finset.univ : Finset (Fin 32)), ∀ n' ∈ (Finset.univ : Finset (Fin 32)), n ≠ n' →
    Disjoint (connSet (tileOf n)) (connSet (tileOf n')) := fun n _ n' _ hne =>
  Finset.disjoint_left.mpr fun x h h' => by
    rw [mem_connSet, wid_tileOf] at h h'
    have : n.val ≠ n'.val := fun e => hne (Fin.ext e)
    omega

theorem conn_cover : (Finset.univ : Finset (Fin 32)).biUnion (fun n => connSet (tileOf n)) = Finset.univ := by
  ext x
  simp only [Finset.mem_biUnion, Finset.mem_univ, true_and, iff_true]
  have hx : (x 0).val < 32768 := (x 0).isLt
  refine ⟨⟨(x 0).val / 1024, by omega⟩, ?_⟩
  rw [mem_connSet, wid_tileOf]
  show 1024 * ((x 0).val / 1024) ≤ (x 0).val ∧ (x 0).val < 1024 * ((x 0).val / 1024) + 1024
  omega

theorem w_disjoint : ∀ n ∈ (Finset.univ : Finset (Fin 32)), ∀ n' ∈ (Finset.univ : Finset (Fin 32)), n ≠ n' →
    Disjoint (wSet (tileOf n)) (wSet (tileOf n')) := fun n _ n' _ hne =>
  Finset.disjoint_left.mpr fun x h h' => by
    rw [mem_wSet, wid_tileOf] at h h'
    have : n.val ≠ n'.val := fun e => hne (Fin.ext e)
    omega

theorem w_cover : (Finset.univ : Finset (Fin 32)).biUnion (fun n => wSet (tileOf n)) = Finset.univ := by
  ext x
  simp only [Finset.mem_biUnion, Finset.mem_univ, true_and, iff_true]
  have hx : (x 0).val < 2048 := (x 0).isLt
  refine ⟨⟨(x 0).val / 64, by omega⟩, ?_⟩
  rw [mem_wSet, wid_tileOf]
  show 64 * ((x 0).val / 64) ≤ (x 0).val ∧ (x 0).val < 64 * ((x 0).val / 64) + 64
  omega

theorem rows_disjoint : ∀ n ∈ (Finset.univ : Finset (Fin 32)), ∀ n' ∈ (Finset.univ : Finset (Fin 32)), n ≠ n' →
    Disjoint (rowsSet (tileOf n)) (rowsSet (tileOf n')) := fun n _ n' _ hne => by
  rw [rowsSet_eq_rect, rowsSet_eq_rect, wid_tileOf, wid_tileOf]; exact Rect.part_disjoint hdiv32 hne

theorem rows_cover : (Finset.univ : Finset (Fin 32)).biUnion (fun n => rowsSet (tileOf n)) = Finset.univ :=
  (Finset.biUnion_congr rfl fun n _ => by rw [rowsSet_eq_rect, wid_tileOf]).trans (Rect.biUnion_part hdiv32)

/-- Each whole array is the product of its thirty-two pieces. -/
theorem cPts_tiles (d : Dev nD) (f : Buf (Elt F) (cLoc d)) :
    (cLoc d ↦{fullShare} f : sProp 𝕄) = bigSep Finset.univ fun n : Fin 32 => cLoc d ↦[connSet (tileOf n)]{fullShare} f := by
  rw [← pointsTo_biUnion Finset.univ (ℓ := cLoc d) (fun n => connSet (tileOf n)) conn_disjoint, conn_cover]; try rfl
theorem wPts_tiles (d : Dev nD) (f : Buf (Elt F) (wLoc d)) :
    (wLoc d ↦{fullShare} f : sProp 𝕄) = bigSep Finset.univ fun n : Fin 32 => wLoc d ↦[wSet (tileOf n)]{fullShare} f := by
  rw [← pointsTo_biUnion Finset.univ (ℓ := wLoc d) (fun n => wSet (tileOf n)) w_disjoint, w_cover]; try rfl
theorem oPts_tiles (d : Dev nD) (f : Buf (Elt F) (oLoc d)) :
    (oLoc d ↦{fullShare} f : sProp 𝕄) = bigSep Finset.univ fun n : Fin 32 => oLoc d ↦[rowsSet (tileOf n)]{fullShare} f := by
  rw [← pointsTo_biUnion Finset.univ (ℓ := oLoc d) (fun n => rowsSet (tileOf n)) rows_disjoint, rows_cover]; try rfl

/-! ## The split and the join -/

variable (m : (ℓ : Loc nD τ sig) → Buf (Elt F) ℓ) [FloatOps F]

/-- What the call hands the two SparseCores together is what tiles 0 … 31 are handed. -/
theorem st_tiles (hpre : PreOK m) (d : Dev nD) :
    (bigSep Finset.univ fun c : Fin ((K (F := F)).nCore 0) => (P m hpre).st 0 d c)
      = bigSep Finset.univ fun n : Fin 32 => goRes m d (tileOf n) :=
  bigSep_tiles (F := F) (goRes m d)

/-- What the two SparseCores hand back together is what tiles 0 … 31 hand back. -/
theorem dn_tiles (hpre : PreOK m) (d : Dev nD) :
    (bigSep Finset.univ fun c : Fin ((K (F := F)).nCore 0) => (P m hpre).dn 0 d c)
      = bigSep Finset.univ fun n : Fin 32 => tdRes m hpre d (tileOf n) :=
  bigSep_tiles (F := F) (tdRes m hpre d)

omit [FloatOps F] in
/-- The matrix held whole at one function is each tile's rows held at some contents. -/
theorem oRows_some (d : Dev nD) (f : Buf (Elt F) (oLoc d)) :
    (oLoc d ↦{fullShare} f : sProp 𝕄)
      ⊢ (bigSep Finset.univ fun n : Fin 32 => iprop(∃ g, oLoc d ↦[rowsSet (tileOf n)]{fullShare} g) : sProp 𝕄) := by
  rw [oPts_tiles]
  exact bigSep_mono fun n _ =>
    show (oLoc d ↦[rowsSet (tileOf n)]{fullShare} f : sProp 𝕄) ⊢ iprop(∃ g, oLoc d ↦[rowsSet (tileOf n)]{fullShare} g) from by
      iintro H; iexists f; iexact H

/-- The arguments, the block of zeros and the matrix, whole, cut into what each of the thirty-two tiles is handed; a
    remainder of the block of zeros' share stays aside. -/
theorem splitTiles (hpre : PreOK m) (d : Dev nD) :
    iprop((cLoc d ↦{fullShare} m (cLoc d)) ∗ (wLoc d ↦{fullShare} m (wLoc d)) ∗ (zLoc d ↦{fullShare} (zeroBlk (F := F))) ∗ (∃ f, oLoc d ↦{fullShare} f))
      ⊢ (iprop((zLoc d ↦{Transfers.shareDrop fullShare 32} (zeroBlk (F := F))) ∗ bigSep Finset.univ fun c : Fin ((K (F := F)).nCore 0) => (P m hpre).st 0 d c) : sProp 𝕄) := by
  rw [st_tiles]
  unfold goRes
  rw [bigSep_sep', bigSep_sep', bigSep_sep', ← cPts_tiles, ← wPts_tiles]
  simp only [wid_tileOf]
  iintro ⟨Hc, Hw, Hz, %f, Ho⟩
  ihave Hz' := (Transfers.pointsTo_toks_split fullShare 32) $$ Hz
  icases Hz' with ⟨Hz0, Hzt⟩
  isplitl [Hz0]; · iexact Hz0
  isplitl [Hc]; · iexact Hc
  isplitl [Hw]; · iexact Hw
  isplitl [Hzt]; · iexact Hzt
  iapply (oRows_some d f); iexact Ho

/-- What the thirty-two tiles hand back, with the remainder kept aside, is the arguments and the block of zeros whole
    again, and the matrix whole at mtArr: every tile left its rows at that one function. -/
theorem joinTiles (hpre : PreOK m) (d : Dev nD) :
    iprop((zLoc d ↦{Transfers.shareDrop fullShare 32} (zeroBlk (F := F))) ∗ bigSep Finset.univ fun c : Fin ((K (F := F)).nCore 0) => (P m hpre).dn 0 d c)
      ⊢ (iprop((cLoc d ↦{fullShare} m (cLoc d)) ∗ (wLoc d ↦{fullShare} m (wLoc d)) ∗ (zLoc d ↦{fullShare} (zeroBlk (F := F)))
          ∗ (oLoc d ↦{fullShare} (mtArr (F := F) (m (cLoc d)) (hpre d) (m (wLoc d))))) : sProp 𝕄) := by
  rw [dn_tiles]
  unfold tdRes
  rw [bigSep_sep', bigSep_sep', bigSep_sep', ← cPts_tiles, ← wPts_tiles, ← oPts_tiles]
  simp only [wid_tileOf]
  iintro ⟨Hz0, Hc, Hw, Hzt, Ho⟩
  isplitl [Hc]; · iexact Hc
  isplitl [Hw]; · iexact Hw
  isplitl [Hz0 Hzt]
  · iapply (Transfers.pointsTo_toks_join fullShare 32)
    isplitl [Hz0]; · iexact Hz0
    iexact Hzt
  iexact Ho

end Cert.KernelIdeal.Hand

end
-- ==== Proof.MainHost.lean ====
/-
  @main's host operations and the contents of the TensorCore's arrays between them: a constant zero, its broadcast to
  the block of two rows of zeros, (the SparseCore call, which leaves the matrix), and the activations reshaped to a
  matrix.
-/
import proofs.«207065_g23029614641262_cont_8to1_115_36_alg».proof.Proof.Setup
import proofs.«207065_g23029614641262_cont_8to1_115_36_alg».proof.Proof.Gen.KernelIdeal.Launch
import proofs.«207065_g23029614641262_cont_8to1_115_36_alg».proof.Proof.Gen.KernelIdeal.Skeleton
import proofs.«207065_g23029614641262_cont_8to1_115_36_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.Split
set_option maxRecDepth 16384

noncomputable section

namespace Cert.KernelIdeal.Hand

open Cert.KernelIdeal

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ)

/-! ## The TensorCore's arrays -/

abbrev a' : DevRef τ sig := Proc.devRef .tc (main_arg0 : Ref sig .tc)
abbrev c' : DevRef τ sig := Proc.devRef .tc (main_arg1 : Ref sig .tc)
abbrev w' : DevRef τ sig := Proc.devRef .tc (main_arg2 : Ref sig .tc)
abbrev b' : DevRef τ sig := Proc.devRef .tc (main_arg3 : Ref sig .tc)
abbrev k' : DevRef τ sig := Proc.devRef .tc (main_cst : Ref sig .tc)
abbrev z' : DevRef τ sig := Proc.devRef .tc (main_v0 : Ref sig .tc)
abbrev o' : DevRef τ sig := Proc.devRef .tc (main_v1 : Ref sig .tc)
abbrev x' : DevRef τ sig := Proc.devRef .tc (main_v2 : Ref sig .tc)
abbrev r' : DevRef τ sig := Proc.devRef .tc (main_v3 : Ref sig .tc)
abbrev kLoc (d : Dev nD) : Loc nD τ sig := (SparseCore.T d).loc main_cst

/-- The nine arrays of @main. -/
abbrev S9refs : Finset (DevRef τ sig) := {a', c', w', b', k', z', o', x', r'}

/-- The nine, held at a valuation, one by one. -/
theorem held_S9 (d : Dev nD) (Vv : Valuation τ sig (Elt F)) :
    (held (T d) S9refs Vv : sProp 𝕄) = iprop((aLoc d ↦{fullShare} Vv a') ∗ (cLoc d ↦{fullShare} Vv c') ∗ (wLoc d ↦{fullShare} Vv w')
      ∗ (bLoc d ↦{fullShare} Vv b') ∗ (kLoc d ↦{fullShare} Vv k') ∗ (zLoc d ↦{fullShare} Vv z') ∗ (oLoc d ↦{fullShare} Vv o')
      ∗ (x2Loc d ↦{fullShare} Vv x') ∗ (rLoc d ↦{fullShare} Vv r')) := by
  unfold held S9refs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The TensorCore's unscoped buffers are those nine. -/
theorem unscopedBufs_eq (d : Dev nD) (Ww : (b : Ref sig .tc) → Buf (Elt F) ((d.tc : Thread nD τ).loc b)) :
    (unscopedBufs d Ww : sProp 𝕄) = iprop((aLoc d ↦{fullShare} Ww main_arg0) ∗ (cLoc d ↦{fullShare} Ww main_arg1) ∗ (wLoc d ↦{fullShare} Ww main_arg2)
      ∗ (bLoc d ↦{fullShare} Ww main_arg3) ∗ (kLoc d ↦{fullShare} Ww main_cst) ∗ (zLoc d ↦{fullShare} Ww main_v0) ∗ (oLoc d ↦{fullShare} Ww main_v1)
      ∗ (x2Loc d ↦{fullShare} Ww main_v2) ∗ (rLoc d ↦{fullShare} Ww main_v3)) := by
  unfold unscopedBufs
  rw [show (Finset.univ.filter fun b : Ref sig .tc => ¬ b.isScoped) = {main_arg0, main_arg1, main_arg2, main_arg3, main_cst, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- So the unscoped buffers at a valuation's contents are the nine held at it. -/
theorem unscoped_held (d : Dev nD) (Vv : Valuation τ sig (Elt F)) :
    (unscopedBufs d (fun b => Vv (Proc.devRef .tc b)) : sProp 𝕄) = held (T d) S9refs Vv := by
  rw [unscopedBufs_eq, held_S9]

/-! ## The host operations and the arrays' contents between them -/

abbrev opCst : HloOp τ sig (Elt F) := StableHlo.nullary main_cst (constant S_ .f32 0x00000000#32)
abbrev opBc : HloOp τ sig (Elt F) :=
  StableHlo.unary main_cst main_v0 (broadcastInDim S2x2048 ![] Facts₀.bcast_S_S2x2048 : (⟨S_, .f32⟩ : BufTy).Contents (Elt F) → (⟨S2x2048, .f32⟩ : BufTy).Contents (Elt F))
abbrev opRs : HloOp τ sig (Elt F) := StableHlo.reshape main_arg0 main_v2 rfl Facts₀.shapeCasts_S1x2048x2048_S2048x2048

theorem hCst : (opCst (F := F)).bufs ⊆ S9refs := show ({k'} : Finset (DevRef τ sig)) ⊆ S9refs by decide
theorem hBc : (opBc (F := F)).bufs ⊆ S9refs := show ({k', z'} : Finset (DevRef τ sig)) ⊆ S9refs by decide
theorem hRs : (opRs (F := F)).bufs ⊆ S9refs := show ({a', x'} : Finset (DevRef τ sig)) ⊆ S9refs by decide

/-- The arrays at launch; after the constant; after its broadcast; -/
def V0 (d : Dev nD) : Valuation τ sig (Elt F) := fun b => m (d, b)
def V1 (d : Dev nD) : Valuation τ sig (Elt F) := (opCst (F := F)).result (V0 m d)
def V2 (d : Dev nD) : Valuation τ sig (Elt F) := (opBc (F := F)).result (V1 m d)
/-- after the SparseCore call, which leaves the matrix; after the reshape. -/
def V2' (hpre : PreOK m) (d : Dev nD) : Valuation τ sig (Elt F) :=
  Function.update (V2 m d) o' (mtArr (F := F) (m (cLoc d)) (hpre d) (m (wLoc d)))
def V3 (hpre : PreOK m) (d : Dev nD) : Valuation τ sig (Elt F) := (opRs (F := F)).result (V2' m hpre d)

theorem V2_of_ne (d : Dev nD) {r : Ref sig .tc} (h1 : r ≠ main_v0) (h0 : r ≠ main_cst) : V2 m d (Proc.devRef .tc r) = m (d, Proc.devRef .tc r) := by
  unfold V2 V1
  rw [StableHlo.unary_result_ne (h := h1), StableHlo.nullary_result_ne (h := h0)]; rfl
theorem V2_z (d : Dev nD) : V2 m d z' = zeroBlk (F := F) := by
  unfold V2 V1
  rw [StableHlo.unary_result' , StableHlo.nullary_result']; rfl

theorem V2'_o (hpre : PreOK m) (d : Dev nD) : V2' m hpre d o' = mtArr (F := F) (m (cLoc d)) (hpre d) (m (wLoc d)) := Function.update_self _ _ _
theorem V2'_of_ne (hpre : PreOK m) (d : Dev nD) {b : DevRef τ sig} (h : b ≠ o') : V2' m hpre d b = V2 m d b := Function.update_of_ne h _ _

theorem V3_x (hpre : PreOK m) (d : Dev nD) : V3 m hpre d x' = x2Arr (F := F) (m (aLoc d)) := by
  unfold V3
  rw [StableHlo.reshape_result, V2'_of_ne m hpre d (by decide), V2_of_ne m d (by decide) (by decide)]; rfl
theorem V3_of_ne (hpre : PreOK m) (d : Dev nD) {b : DevRef τ sig} (h : b ≠ x') : V3 m hpre d b = V2' m hpre d b :=
  HloOp.result_of_not_mem _ _ (by rw [show (opRs (F := F)).writes = {x'} from rfl, Finset.mem_singleton]; exact h)

theorem V3_a (hpre : PreOK m) (d : Dev nD) : V3 m hpre d a' = m (aLoc d) := by
  rw [V3_of_ne m hpre d (by decide), V2'_of_ne m hpre d (by decide), V2_of_ne m d (by decide) (by decide)]
theorem V3_c (hpre : PreOK m) (d : Dev nD) : V3 m hpre d c' = m (cLoc d) := by
  rw [V3_of_ne m hpre d (by decide), V2'_of_ne m hpre d (by decide), V2_of_ne m d (by decide) (by decide)]
theorem V3_w (hpre : PreOK m) (d : Dev nD) : V3 m hpre d w' = m (wLoc d) := by
  rw [V3_of_ne m hpre d (by decide), V2'_of_ne m hpre d (by decide), V2_of_ne m d (by decide) (by decide)]
theorem V3_b (hpre : PreOK m) (d : Dev nD) : V3 m hpre d b' = m (bLoc d) := by
  rw [V3_of_ne m hpre d (by decide), V2'_of_ne m hpre d (by decide), V2_of_ne m d (by decide) (by decide)]
theorem V3_o (hpre : PreOK m) (d : Dev nD) : V3 m hpre d o' = mtArr (F := F) (m (cLoc d)) (hpre d) (m (wLoc d)) := by
  rw [V3_of_ne m hpre d (by decide), V2'_o]

/-! ## The nine arrays at each of those contents, one by one -/

theorem held_V2 (d : Dev nD) :
    (held (T d) S9refs (V2 m d) : sProp 𝕄) = iprop((aLoc d ↦{fullShare} m (aLoc d)) ∗ (cLoc d ↦{fullShare} m (cLoc d)) ∗ (wLoc d ↦{fullShare} m (wLoc d))
      ∗ (bLoc d ↦{fullShare} m (bLoc d)) ∗ (kLoc d ↦{fullShare} V2 m d k') ∗ (zLoc d ↦{fullShare} zeroBlk (F := F)) ∗ (oLoc d ↦{fullShare} m (oLoc d))
      ∗ (x2Loc d ↦{fullShare} m (x2Loc d)) ∗ (rLoc d ↦{fullShare} m (rLoc d))) := by
  rw [held_S9, V2_of_ne m d (r := main_arg0) (by decide) (by decide), V2_of_ne m d (r := main_arg1) (by decide) (by decide),
    V2_of_ne m d (r := main_arg2) (by decide) (by decide), V2_of_ne m d (r := main_arg3) (by decide) (by decide), V2_z,
    V2_of_ne m d (r := main_v1) (by decide) (by decide), V2_of_ne m d (r := main_v2) (by decide) (by decide),
    V2_of_ne m d (r := main_v3) (by decide) (by decide)]

theorem held_V2' (hpre : PreOK m) (d : Dev nD) :
    (held (T d) S9refs (V2' m hpre d) : sProp 𝕄) = iprop((aLoc d ↦{fullShare} m (aLoc d)) ∗ (cLoc d ↦{fullShare} m (cLoc d)) ∗ (wLoc d ↦{fullShare} m (wLoc d))
      ∗ (bLoc d ↦{fullShare} m (bLoc d)) ∗ (kLoc d ↦{fullShare} V2 m d k') ∗ (zLoc d ↦{fullShare} zeroBlk (F := F))
      ∗ (oLoc d ↦{fullShare} mtArr (F := F) (m (cLoc d)) (hpre d) (m (wLoc d)))
      ∗ (x2Loc d ↦{fullShare} m (x2Loc d)) ∗ (rLoc d ↦{fullShare} m (rLoc d))) := by
  rw [held_S9, V2'_o, V2'_of_ne m hpre d (b := a') (by decide), V2'_of_ne m hpre d (b := c') (by decide), V2'_of_ne m hpre d (b := w') (by decide),
    V2'_of_ne m hpre d (b := b') (by decide), V2'_of_ne m hpre d (b := k') (by decide), V2'_of_ne m hpre d (b := z') (by decide),
    V2'_of_ne m hpre d (b := x') (by decide), V2'_of_ne m hpre d (b := r') (by decide),
    V2_of_ne m d (r := main_arg0) (by decide) (by decide), V2_of_ne m d (r := main_arg1) (by decide) (by decide),
    V2_of_ne m d (r := main_arg2) (by decide) (by decide), V2_of_ne m d (r := main_arg3) (by decide) (by decide), V2_z,
    V2_of_ne m d (r := main_v2) (by decide) (by decide), V2_of_ne m d (r := main_v3) (by decide) (by decide)]

/-- What the TensorCore call finds in each array. -/
abbrev WR (hpre : PreOK m) (d : Dev nD) (b : Ref sig .tc) : Buf (Elt F) ((d.tc : Thread nD τ).loc b) := V3 m hpre d (Proc.devRef .tc b)

end Cert.KernelIdeal.Hand

end
-- ==== Proof.MainBody.lean ====
/-
  The TensorCore call of @main: a grid of eight points, each multiplying the activations by the transpose of 256 rows
  of the matrix and adding 256 entries of the bias into a block of 256 result columns.  The proof data of the
  pipeline that stages the four operands, what the body leaves at a point, and the body's triple.
-/
import proofs.«207065_g23029614641262_cont_8to1_115_36_alg».proof.Proof.Setup
import proofs.«207065_g23029614641262_cont_8to1_115_36_alg».proof.Proof.Gen.KernelIdeal.Launch
import proofs.«207065_g23029614641262_cont_8to1_115_36_alg».proof.Proof.Gen.KernelIdeal.Skeleton
import proofs.«207065_g23029614641262_cont_8to1_115_36_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Hand

open Cert.KernelIdeal

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- What the core's arrays hold when the call is entered: any contents, fixed per device.
variable (W : (d : Dev nD) → (b : Ref sig .tc) → Buf (Elt F) ((d.tc : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-! ## What the body leaves in the result window's buffer -/

abbrev rOut : Rect S1x2048x256 := Rect.unit (s := S1x2048x256) ![0, 0, 0] S1x2048x256.size Gen.inb_S1x2048x256_S1x2048x256_0_0_0
abbrev rX : Rect S2048x2048 := Rect.unit (s := S2048x2048) ![0, 0] S2048x2048.size Gen.inb_S2048x2048_S2048x2048_0_0
abbrev rM : Rect S256x2048 := Rect.unit (s := S256x2048) ![0, 0] S256x2048.size Gen.inb_S256x2048_S256x2048_0_0
abbrev rB : Rect S256 := Rect.unit (s := S256) ![0] S256.size Gen.inb_S256_S256_0

/-- The result window's buffer after the body: its one store, over the three operands' blocks. -/
def outBlk (x0 : Vec F S2048x2048 .f32) (x1 : Vec F S256x2048 .f32) (x2 : Vec F S256 .f32) : Vec F S1x2048x256 .f32 :=
  View.canon [⟨rOut, Gen.k1_pay1 (View.ld x0 rX) (View.ld x1 rM) (View.ld x2 rB)⟩]

/-- The store fills the buffer. -/
theorem outBlk_cover (p0 : Vec F S1x2048x256 .f32) (y : S1x2048x256.Idx) :
    ∃ pc ∈ ([⟨rOut, p0⟩] : List (View.Piece (Elt F) S1x2048x256 .f32)), y ∈ pc.1.set :=
  View.cover_of_tiled [⟨rOut, p0⟩] S1x2048x256.size (by rfl) y

/-! ## The body's triple -/

set_option maxHeartbeats 1000000 in
/-- The body on whole staging buffers, the operands' at given contents and the result's at anything, runs to the
    continuation holding the operands' as they were and the result's at `outBlk` of them. -/
theorem sound_kernel (c : Dev nD) (E : Set ℕ) (i : grid1.Coords) (arg1 : Memref sig .tc .vmem S2048x2048 .f32) (harg1 : arg1.IsWhole)
    (arg2 : Memref sig .tc .vmem S256x2048 .f32) (harg2 : arg2.IsWhole) (arg3 : Memref sig .tc .vmem S256 .f32) (harg3 : arg3.IsWhole)
    (arg4 : Memref sig .tc .vmem S1x2048x256 .f32) (harg4 : arg4.IsWhole)
    (x0 : Vec F S2048x2048 .f32) (x1 : Vec F S256x2048 .f32) (x2 : Vec F S256 .f32) (Kp : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ Kp ⟨⟩))
      ⊢ wp frame (wpE (defs₀ (F := F)) Variants.none c none) E (cc1_body i arg1 harg1 arg2 harg2 arg3 harg3 arg4 harg4) Kp := by
  simp only [Gen.cc1_body_eq_skeleton]; unfold Gen.cc1_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlk_cover _)

end Cert.KernelIdeal.Hand

end
-- ==== Proof.MainRegion.lean ====
/-
  The TensorCore call of @main as a region of the program: the pipeline's proof data (each operand window's buffer at
  its block, the result window's at the body's value of the three blocks), the body obligation at every point, and the
  region's entry and exit around the arrays' contents.
-/
import proofs.«207065_g23029614641262_cont_8to1_115_36_alg».proof.Proof.Setup
import proofs.«207065_g23029614641262_cont_8to1_115_36_alg».proof.Proof.Gen.KernelIdeal.Launch
import proofs.«207065_g23029614641262_cont_8to1_115_36_alg».proof.Proof.Gen.KernelIdeal.Skeleton
import proofs.«207065_g23029614641262_cont_8to1_115_36_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.MainBody
set_option maxRecDepth 16384

noncomputable section

namespace Cert.KernelIdeal.Hand

open Cert.KernelIdeal

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- What the core's arrays hold when the call is entered: any contents, fixed per device.
variable (W : (d : Dev nD) → (b : Ref sig .tc) → Buf (Elt F) ((d.tc : Thread nD τ).loc b))

/-! ## The pipeline's proof data -/

/-- The proof data on core `c`: the arrays as the call finds them; after the body at point `t` each operand's buffer
    at its block and the result's at `outBlk` of the three blocks; the invariant the scoped buffers no window stages;
    nothing owed, and every pair the core's waits have recorded at a level of the first call's; full shares. -/
def dats (_ : Fin 1) (c : Dev nD) : Dat τ (Elt F) (HIx 1) ℕ UU ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => outBlk (iblk W c 0 t) (iblk W c 1 t) (iblk W c 2 t)
  Φ _ := Pipeline.scopedRest (Ix := HIx 1) (Name := ℕ) (U := UU) (Lvl := ℕ) (Val := Elt F) spec1 c
  q _ := fullShare
  owed _ := 0
  recorded _ := {p | (K (F := F)).lev ((c.tc : Thread nD τ), p.1) p.2 ≤ 8}

theorem A_eq (c : Dev nD) (w : Fin cfg1.W) : (dats W 0 c).A w = W c (Pipeline.arrRef spec1 w) := by
  dsimp only [dats]

theorem after_0 (c : Dev nD) (t : Fin cfg1.N) : (dats W 0 c).after 0 t = iblk W c 0 t := by dsimp only [dats]
theorem after_1 (c : Dev nD) (t : Fin cfg1.N) : (dats W 0 c).after 1 t = iblk W c 1 t := by dsimp only [dats]
theorem after_2 (c : Dev nD) (t : Fin cfg1.N) : (dats W 0 c).after 2 t = iblk W c 2 t := by dsimp only [dats]
theorem after_3 (c : Dev nD) (t : Fin cfg1.N) :
    (dats W 0 c).after 3 t = outBlk (iblk W c 0 t) (iblk W c 1 t) (iblk W c 2 t) := by dsimp only [dats]

/-- Each operand's current staging buffer holds its block at every point, fetched there or not. -/
theorem before_0 (c : Dev nD) (t : Fin cfg1.N) (d) : (dats W 0 c).before 0 t d = iblk W c 0 t :=
  ((dats W 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats W 0 c).before 1 t d = iblk W c 1 t :=
  ((dats W 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats W 0 c).before 2 t d = iblk W c 2 t :=
  ((dats W 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dats W 0 c).Φ t.castSucc ∗ (dats W 0 c).owesAt none t.castSucc
    ∗ (∃ d, owns (c : Thread nD τ) (Gen.st1_0 t) fullShare ((dats W 0 c).before 0 t d))
    ∗ (∃ d, owns (c : Thread nD τ) (Gen.st1_1 t) fullShare ((dats W 0 c).before 1 t d))
    ∗ (∃ d, owns (c : Thread nD τ) (Gen.st1_2 t) fullShare ((dats W 0 c).before 2 t d))
    ∗ (∃ d, owns (c : Thread nD τ) (Gen.st1_3 t) fullShare ((dats W 0 c).before 3 t d)))

/-- and what it returns. -/
def bodyPost (c : Dev nD) (t : Fin cfg1.N) : sProp 𝕄 :=
  iprop((dats W 0 c).Φ t.succ ∗ (dats W 0 c).owesAt none t.succ
    ∗ owns (c : Thread nD τ) (Gen.st1_0 t) fullShare ((dats W 0 c).after 0 t)
    ∗ owns (c : Thread nD τ) (Gen.st1_1 t) fullShare ((dats W 0 c).after 1 t)
    ∗ owns (c : Thread nD τ) (Gen.st1_2 t) fullShare ((dats W 0 c).after 2 t)
    ∗ owns (c : Thread nD τ) (Gen.st1_3 t) fullShare ((dats W 0 c).after 3 t))

/-- The body at any point: the operands' buffers hold their blocks, so the body's triple applies; the invariant and
    what the core owes pass through unread. -/
theorem sound_body (c : Dev nD) (t : Fin cfg1.N) :
    bodyPre W c t ⊢ wp frame (wpE (defs₀ (F := F)) Variants.none c none) Set.univ (Gen.bodyAt1 t) (fun _ => bodyPost W c t) := by
  unfold bodyPre bodyPost Gen.bodyAt1
  simp only [before_0, before_1, before_2]
  rw [show (dats W 0 c).Φ t.succ = (dats W 0 c).Φ t.castSucc from rfl,
    show (dats W 0 c).owesAt none t.succ = (dats W 0 c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk W c 0 t) (iblk W c 1 t) (iblk W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) W 0 c) (defs₀ (F := F)) Variants.none (none : HIx 1) Set.univ := fun t => by
  rw [Gen.bigSep_W1, Gen.bigSep_W1]
  exact sound_body W c t

/-! ## The call as a region of @main -/

/-- The pipeline has no prefetched table. -/
abbrev adm : (p : Fin 1) → (pcfgs (F := F) p).Adm := fun p => (cfgs p).toPCfg_adm

/-- What the TensorCore owes when the call is entered and when it is left: nothing, every recorded pair at a level of
    the first call's. -/
abbrev owesDone (c : Dev nD) : sProp 𝕄 :=
  iprop(∃ Wt, ⌜(K (F := F)).WBelow (T c) Wt 8⌝ ∗ owes (T c) (0 : CellTallies nD τ sig (HIx 1)) Wt)

/-- What the call leaves: the four windows' arrays after every write-back, the other arrays as found, nothing owed. -/
abbrev regPost (c : Dev nD) : sProp 𝕄 :=
  iprop((dats W 0 c).arrays ((dats W 0 c).arrAt · cfg1.N) ∗ Pipeline.unscopedRest spec1 c (W c) ∗ owesDone (F := F) c)

theorem prefHeld_emp (c : Dev nD) :
    (Pipeline.prefHeld (Ix := HIx 1) (Name := ℕ) (U := UU) (Lvl := ℕ) (pcfgs (F := F) 0).pre c (fun _ => fullShare) (adm (F := F) 0).1 : sProp 𝕄) = iprop(emp) := by
  unfold Pipeline.prefHeld; rw [show (Finset.univ : Finset (Fin 0)) = ∅ from rfl, BI.bigSep_empty]; rfl

set_option backward.isDefEq.respectTransparency.types false in
/-- THE REGION: the decided layout, no semaphore of the kernel's own, the body obligation; entered from the core's
    arrays at `W` and nothing owed — the four windows' arrays into the pipeline, the others bypassing —, left with
    the arrays after every write-back. -/
def reg : Pipeline.RegionSeg (pcfgs (F := F)) adm (dats W) (none : HIx 1) defs₀ 𝒱₀ (K (F := F)).L (K (F := F)).lev 0 where
  win := Gen.launch1.win.to₀
  block_pos := Gen.launch1.block_pos
  stage_whole := Gen.launch1.stage_whole
  K := PEmpty
  osem := fun k => k.elim
  ho := Pipeline.OwnSemFacts.none _
  hbody c := (body_obligation W c).loose
  hwaits := Pipeline.hwaits_of_owed_zero _ _ _ _ _ _ 0 fun _ _ => rfl
  pre c := iprop(unscopedBufs c (W c) ∗ owesDone (F := F) c)
  post c := regPost W c
  X _ := iprop(emp)
  Y _ := iprop(emp)
  Z c := Pipeline.unscopedRest spec1 c (W c)
  hentry c := by
    have hsplit := Pipeline.arrays_of_unscopedBufs (pcfgs (F := F)) adm (dats W) Gen.launch1.win Gen.launch1.arr_whole c
      ((dats W 0 c).share_full fun _ => rfl) (W c) fun _ => rfl
    beta_reduce
    iintro ⟨⟨Hub, HO⟩, -, -⟩
    ihave H := hsplit $$ Hub
    icases H with ⟨Ha, Hrest⟩
    imodintro
    isplitl [Ha]; · iexact Ha
    isplitr; · rw [prefHeld_emp]; iempintro
    isplitl [HO]
    · unfold Pipeline.Dat.owesAt Pipeline.owesWithin
      icases HO with ⟨%Wt, %hW, HO⟩; iexists Wt; isplitr
      · ipureintro; exact fun p hp => Or.inl (hW p hp)
      iexact HO
    isplitr; · iempintro
    iexact Hrest
  hin c := by
    rw [show (dats W 0 c).Φ 0 = Pipeline.scopedRest (Ix := HIx 1) (Name := ℕ) (U := UU) (Lvl := ℕ) (Val := Elt F) spec1 c from rfl]
    iintro ⟨-, -, Hr⟩; iexact Hr
  hout c := by
    rw [show (dats W 0 c).Φ (Fin.last cfg1.N) = Pipeline.scopedRest (Ix := HIx 1) (Name := ℕ) (U := UU) (Lvl := ℕ) (Val := Elt F) spec1 c from rfl]
    iintro Hr
    isplitr; · iempintro
    isplitr
    · unfold Pipeline.ownSems0; rw [show (Finset.univ : Finset PEmpty) = ∅ from rfl, BI.bigSep_empty]; iempintro
    iexact Hr
  hexit c := by
    beta_reduce
    iintro ⟨Ha, HO, -, HZ⟩
    imodintro
    isplitl [Ha]; · iexact Ha
    isplitl [HZ]; · iexact HZ
    unfold Pipeline.Dat.owesAt Pipeline.owesWithin
    icases HO with ⟨%Wt, %hW, HO⟩; iexists Wt; isplitr
    · ipureintro
      intro p hp
      rcases hW hp with h | ⟨w, s, rfl⟩
      · exact h
      · exact Nat.zero_le _
    iexact HO

end Cert.KernelIdeal.Hand

end
-- ==== Proof.MainCall.lean ====
/-
  The TensorCore call's line of @main: entered from the region boundary with the core's arrays at given contents and
  nothing owed, it runs to the boundary and the arrays after every write-back.
-/
import proofs.«207065_g23029614641262_cont_8to1_115_36_alg».proof.Proof.Setup
import proofs.«207065_g23029614641262_cont_8to1_115_36_alg».proof.Proof.Gen.KernelIdeal.Launch
import proofs.«207065_g23029614641262_cont_8to1_115_36_alg».proof.Proof.Gen.KernelIdeal.Skeleton
import proofs.«207065_g23029614641262_cont_8to1_115_36_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.MainRegion
set_option maxRecDepth 16384

noncomputable section

namespace Cert.KernelIdeal.Hand

open Cert.KernelIdeal

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- What the core's arrays hold when the call is entered: any contents, fixed per device.
variable (W : (d : Dev nD) → (b : Ref sig .tc) → Buf (Elt F) ((d.tc : Thread nD τ).loc b))

/-! ## The call's step in @main -/

/-- What the launch deals the pipeline's staging cells on core `c`. -/
abbrev cellsFund (c : Dev nD) : sProp 𝕄 :=
  iprop(Pipeline.cellsGhost (Pipeline.pin (pcfgs (F := F)) adm) EP 0 c ∗ Pipeline.toksInit (Pipeline.pin (pcfgs (F := F)) adm) EP 0 c)

set_option backward.isDefEq.respectTransparency.types false in
/-- The call under the program's own body table: from the region boundary, the core's arrays at `W`, nothing owed, the
    level facts and the staging cells' ghost state, it runs to the boundary and `regPost`. -/
theorem region_core (d : Dev nD) (Φ : PUnit.{1} → sProp 𝕄) :
    iprop(((boundary (T d) ∗ regPost W d) -∗ Φ ⟨⟩)
        ∗ boundary (T d) ∗ (unscopedBufs d (W d) ∗ owesDone (F := F) d) ∗ levAts (K (F := F)).L (K (F := F)).lev ∗ cellsFund (F := F) d)
      ⊢ wp frame (wpE (D (F := F)) 𝒱 (T d) none) Set.univ
          (Prog.op (.customCall (Pipeline.entry 0) ()) fun _ => .ret ⟨⟩) Φ := by
  have h := Pipeline.RegionSeg.wp (pcfgs (F := F)) adm (dats W) (none : HIx 1) Gen.cellOf_inj EP defs₀ 𝒱₀ (K (F := F)).L (K (F := F)).lev (reg W) d none
    (fun _ h => nomatch h) (fun _ => .ret ⟨⟩) Φ
  have epre : (reg W).pre d = iprop(unscopedBufs d (W d) ∗ owesDone (F := F) d) := rfl
  have epost : (reg W).post d = regPost W d := rfl
  rw [epre, epost] at h
  have h2 : iprop(((boundary (T d) ∗ regPost W d) -∗ Φ ⟨⟩)
        ∗ boundary (T d) ∗ (unscopedBufs d (W d) ∗ owesDone (F := F) d) ∗ levAts (K (F := F)).L (K (F := F)).lev ∗ cellsFund (F := F) d)
      ⊢ iprop((iprop(boundary (T d) ∗ regPost W d) -∗ wp frame (wpE (D (F := F)) 𝒱 (T d) none) Set.univ (Prog.ret PUnit.unit) Φ)
        ∗ boundary (T d) ∗ (unscopedBufs d (W d) ∗ owesDone (F := F) d) ∗ levAts (K (F := F)).L (K (F := F)).lev ∗ cellsFund (F := F) d) := by
    iintro ⟨Hk, Hb, Hpre, Hlv, Hg, Ht⟩
    isplitl [Hk]
    · iintro H; rw [wp_ret]; imodintro; iapply Hk; iexact H
    isplitl [Hb]; · iexact Hb
    isplitl [Hpre]; · iexact Hpre
    isplitl [Hlv]; · iexact Hlv
    isplitl [Hg]; · iexact Hg
    iexact Ht
  exact h2.trans h

/-- The call's line of @main is that call, lifted to the program's extended body table. -/
theorem call_eq_lift :
    (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) fun _ => .ret ⟨⟩) := rfl

/-- The call in @main. -/
theorem region_step (d : Dev nD) (Φ : PUnit.{1} → sProp 𝕄) :
    iprop(((boundary (T d) ∗ regPost W d) -∗ Φ ⟨⟩)
        ∗ boundary (T d) ∗ (unscopedBufs d (W d) ∗ owesDone (F := F) d) ∗ levAts (K (F := F)).L (K (F := F)).lev ∗ cellsFund (F := F) d)
      ⊢ wp frame (wpE ((K (F := F)).defs (D (F := F))) 𝒱 (T d) none) Set.univ
          (Prog.lift (.customCall (SparseCore.inner (Pipeline.entry 0)) ())) Φ := by
  rw [call_eq_lift]
  exact (region_core W d Φ).trans ((K (F := F)).wp_liftProg (D (F := F)) 𝒱 (T d) Set.univ none _ Φ)

/-- The four windows' arrays, one by one. -/
theorem arrays_chain (c : Dev nD) (Fv : (w : Fin cfg1.W) → Buf (Elt F) ((cfg1.win w).arr.view.loc (c.tc : Thread nD τ))) :
    ((dats W 0 c).arrays Fv : sProp 𝕄) = iprop((x2Loc c ↦{fullShare} Fv 0) ∗ (oLoc c ↦{fullShare} Fv 1) ∗ (bLoc c ↦{fullShare} Fv 2) ∗ (rLoc c ↦{fullShare} Fv 3)) := by
  rw [Pipeline.arrays_eq (Pipeline.pin (pcfgs (F := F)) adm) (dats W) 0 c Gen.launch1.arr_whole ((dats W 0 c).share_full fun _ => rfl) Fv, Gen.bigSep_W1]

/-- The operands' arrays are never written. -/
theorem arrAt_x (c : Dev nD) (t : Nat) : (dats W 0 c).arrAt 0 t = W c main_v2 := ((dats W 0 c).arrAt_in 0 rfl t).trans (A_eq W c 0)
theorem arrAt_o (c : Dev nD) (t : Nat) : (dats W 0 c).arrAt 1 t = W c main_v1 := ((dats W 0 c).arrAt_in 1 rfl t).trans (A_eq W c 1)
theorem arrAt_b (c : Dev nD) (t : Nat) : (dats W 0 c).arrAt 2 t = W c main_arg3 := ((dats W 0 c).arrAt_in 2 rfl t).trans (A_eq W c 2)

end Cert.KernelIdeal.Hand

end
-- ==== Proof.MainValue.lean ====
/-
  What the second kernel writes back at a grid point, as a block of ONE whole-array function.

  At point `t` the body sees the whole matrix of activations, rows `256 t …` of `mt` and entries `256 t …` of the bias, and
  stores one block of 256 result columns; that block is block `t` of the whole-array function `outArr`, whose column
  `256 t + q` is column `q` of block `t`.  The eight blocks tile the result.
-/
import proofs.«207065_g23029614641262_cont_8to1_115_36_alg».proof.Proof.MainBody
import proofs.«207065_g23029614641262_cont_8to1_115_36_alg».proof.Proof.Spec
import Idealize.ShloMosaic.Lib.Pipeline.Value

noncomputable section

namespace Cert.KernelIdeal.Hand

open Cert.KernelIdeal

open Idealize.ShloMosaic Idealize.ShloMosaic.TcCoe Idealize.ShloMosaic.ValueIdx
open Idealize.SL Idealize.SL.Sem

variable {F : FTy → Type} [FloatOps F]

variable (W : (d : Dev nD) → (b : Ref sig .tc) → Buf (Elt F) ((d.tc : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's stored value is the block function of its three loaded blocks. -/
theorem pay_eq (x0 : Vec F S2048x2048 .f32) (x1 : Vec F S256x2048 .f32) (x2 : Vec F S256 .f32) :
    Gen.k1_pay1 x0 x1 x2 = tcBlock x0 x1 x2 := rfl

/-- The printed index maps, decided over the grid: the activations' block is always block (0, 0), and the other three
    windows move with the point along their blocked axis. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 3) = 0 ∧ win1_3.index t (1 : Fin 3) = 0 ∧ win1_3.index t (2 : Fin 3) = t.val :=
  (by decide +kernel : ∀ t : Fin grid1.N, _)

theorem N_eq : cfg1.N = 8 := rfl

/-- Column `256 t + q` of the whole result is column `q` of block `t`. -/
theorem outArr_block (x2 mt : FVec F S2048x2048 .f32) (b : FVec F S2048 .f32) (t : Fin 8) (a : Fin 2048) (q : Fin 256) :
    outArr x2 mt b (ix3 (0 : Fin 1) a (⟨256 * t.val + q.val, by omega⟩ : Fin 2048))
      = tcBlock x2 (mtBlock mt t) (bBlock b t) (ix3 (0 : Fin 1) a q) := by
  have h1 : (256 * t.val + q.val) / 256 = t.val := by omega
  have h2 : (256 * t.val + q.val) % 256 = q.val := by omega
  have e1 : (⟨(256 * t.val + q.val) / 256, by omega⟩ : Fin 8) = t := Fin.ext h1
  have e2 : (⟨(256 * t.val + q.val) % 256, Nat.mod_lt _ (by decide)⟩ : Fin 256) = q := Fin.ext h2
  show tcBlock x2 (mtBlock mt ⟨(256 * t.val + q.val) / 256, _⟩) (bBlock b ⟨(256 * t.val + q.val) / 256, _⟩)
      (ix3 (0 : Fin 1) (⟨a.val, _⟩ : Fin 2048) (⟨(256 * t.val + q.val) % 256, _⟩ : Fin 256)) = _
  rw [e1, e2]

/-- The activations' window is the whole matrix at every point. -/
theorem iblk0_eq (c : Dev nD) (t : Fin cfg1.N) : iblk W c 0 t = W c main_v2 := by
  obtain ⟨e0, e1, -⟩ := idx_facts t
  funext y
  show W c main_v2 (((cfg1.win 0).blk t).view.emb y) = W c main_v2 y
  refine congrArg _ (funext fun a => Fin.ext ?_)
  match a with
  | ⟨0, _⟩ => show win1_0.index t (0 : Fin 2) * 2048 + 1 * (y 0).val = (y 0).val; omega
  | ⟨1, _⟩ => show win1_0.index t (1 : Fin 2) * 2048 + 1 * (y 1).val = (y 1).val; omega

/-- The window on `mt` at point `t` holds rows `256 t …`. -/
theorem iblk1_eq (c : Dev nD) (t : Fin cfg1.N) : iblk W c 1 t = mtBlock (W c main_v1) (Fin.cast N_eq t) := by
  obtain ⟨-, -, e2, e3, -⟩ := idx_facts t
  funext y
  show W c main_v1 (((cfg1.win 1).blk t).view.emb y) = W c main_v1 (ix2 (⟨256 * t.val + (y 0).val, _⟩ : Fin 2048) (⟨(y 1).val, _⟩ : Fin 2048))
  refine congrArg _ (funext fun a => Fin.ext ?_)
  match a with
  | ⟨0, _⟩ => show win1_1.index t (0 : Fin 2) * 256 + 1 * (y 0).val = 256 * t.val + (y 0).val; omega
  | ⟨1, _⟩ => show win1_1.index t (1 : Fin 2) * 2048 + 1 * (y 1).val = (y 1).val; omega

/-- The window on the bias at point `t` holds entries `256 t …`. -/
theorem iblk2_eq (c : Dev nD) (t : Fin cfg1.N) : iblk W c 2 t = bBlock (W c main_arg3) (Fin.cast N_eq t) := by
  obtain ⟨-, -, -, -, e4, -⟩ := idx_facts t
  funext y
  show W c main_arg3 (((cfg1.win 2).blk t).view.emb y) = W c main_arg3 (ix1 (⟨256 * t.val + (y 0).val, _⟩ : Fin 2048))
  refine congrArg _ (funext fun a => Fin.ext ?_)
  match a with
  | ⟨0, _⟩ => show win1_2.index t (0 : Fin 1) * 256 + 1 * (y 0).val = 256 * t.val + (y 0).val; omega

/-- WHAT POINT `t` WRITES BACK is block `t` of `outArr` of the arrays as the call finds them. -/
theorem blk3_eq (c : Dev nD) (t : Fin cfg1.N) :
    (cfg1.win 3).cut (grid1.coords t) (outBlk (iblk W c 0 t) (iblk W c 1 t) (iblk W c 2 t))
      = ((cfg1.win 3).blk t).view.read (Elt F) (outArr (F := F) (W c main_v2) (W c main_v1) (W c main_arg3)) := by
  unfold outBlk
  rw [View.canon_unit_zero hz3]
  simp only [View.ld_unit_zero (S := S2048x2048) hz2, View.ld_unit_zero (S := S256x2048) hz2, View.ld_unit_zero (S := S256) hz1]
  rw [pay_eq, iblk0_eq, iblk1_eq, iblk2_eq]
  obtain ⟨-, -, -, -, -, e5, e6, e7⟩ := idx_facts t
  funext y
  show tcBlock (W c main_v2) (mtBlock (W c main_v1) (Fin.cast N_eq t)) (bBlock (W c main_arg3) (Fin.cast N_eq t)) y
    = outArr (F := F) (W c main_v2) (W c main_v1) (W c main_arg3) (((cfg1.win 3).blk t).view.emb y)
  have hy2 : (y 2).val < 256 := (y 2).isLt
  have hy1 : (y 1).val < 2048 := (y 1).isLt
  have hy0 : (y 0).val < 1 := (y 0).isLt
  have ht : t.val < 8 := t.isLt
  have hemb : ((cfg1.win 3).blk t).view.emb y
      = ix3 (0 : Fin 1) (⟨(y 1).val, hy1⟩ : Fin 2048) (⟨256 * (Fin.cast N_eq t).val + (⟨(y 2).val, hy2⟩ : Fin 256).val, by show 256 * t.val + (y 2).val < 2048; omega⟩ : Fin 2048) := by
    funext a; apply Fin.ext
    match a with
    | ⟨0, _⟩ => show win1_3.index t (0 : Fin 3) * 1 + 1 * (y 0).val = 0; omega
    | ⟨1, _⟩ => show win1_3.index t (1 : Fin 3) * 2048 + 1 * (y 1).val = (y 1).val; omega
    | ⟨2, _⟩ => show win1_3.index t (2 : Fin 3) * 256 + 1 * (y 2).val = 256 * t.val + (y 2).val; omega
  rw [hemb, outArr_block]
  refine congrArg _ (funext fun a => Fin.ext ?_)
  match a with
  | ⟨0, _⟩ => show (y 0).val = 0; omega
  | ⟨1, _⟩ => rfl
  | ⟨2, _⟩ => rfl

/-- An index of the result is in point `t`'s block iff each coordinate is in the block's range on its axis. -/
theorem mem_blk3 (t : Fin cfg1.N) (i : S1x2048x2048.Idx) :
    i ∈ ((cfg1.win 3).blk t).view.set ↔ ∀ a : Fin 3, win1_3.index t a * S1x2048x256.size a ≤ (i a).val ∧ (i a).val < win1_3.index t a * S1x2048x256.size a + S1x2048x256.size a := by
  show i ∈ ((View.whole main_v3).slice (win1_3.rect t)).set ↔ _
  rw [View.set_slice_whole, Rect.mem_set_unit]
  exact Iff.rfl

/-- The eight blocks cover the result: column `j` is in the block of point `j / 256`. -/
theorem covered3 (i : S1x2048x2048.Idx) : ∃ t : Fin cfg1.N, (cfg1.win 3).flush t = true ∧ i ∈ ((cfg1.win 3).blk t).view.set := by
  have hi0 : (i 0).val < 1 := (i 0).isLt
  have hi1 : (i 1).val < 2048 := (i 1).isLt
  have hi2 : (i 2).val < 2048 := (i 2).isLt
  refine ⟨(⟨(i 2).val / 256, by show (i 2).val / 256 < 8; omega⟩ : Fin cfg1.N), Gen.flush1_3 _, ?_⟩
  obtain ⟨-, -, -, -, -, e5, e6, e7⟩ := idx_facts (⟨(i 2).val / 256, by show (i 2).val / 256 < 8; omega⟩ : Fin cfg1.N)
  rw [mem_blk3]
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 2048 ≤ (i 1).val ∧ (i 1).val < win1_3.index _ (1 : Fin 3) * 2048 + 2048; omega
  | ⟨2, _⟩ =>
    show win1_3.index _ (2 : Fin 3) * 256 ≤ (i 2).val ∧ (i 2).val < win1_3.index _ (2 : Fin 3) * 256 + 256
    have e7' : win1_3.index (⟨(i 2).val / 256, by show (i 2).val / 256 < 8; omega⟩ : Fin cfg1.N) (2 : Fin 3) = (i 2).val / 256 := e7
    omega

end Cert.KernelIdeal.Hand

end
-- ==== Proof.MainLaunch.lean ====
/-
  The launch: the element of the ghost state the program starts from, @main on the TensorCore — two host operations,
  the SparseCore call, a reshape, the TensorCore call —, what the final memory holds, and the program's run.
-/
import proofs.«207065_g23029614641262_cont_8to1_115_36_alg».proof.Proof.Setup
import proofs.«207065_g23029614641262_cont_8to1_115_36_alg».proof.Proof.Gen.KernelIdeal.Launch
import proofs.«207065_g23029614641262_cont_8to1_115_36_alg».proof.Proof.Gen.KernelIdeal.Skeleton
import proofs.«207065_g23029614641262_cont_8to1_115_36_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.MainHost
import proofs.«207065_g23029614641262_cont_8to1_115_36_alg».proof.Proof.MainCall
import proofs.«207065_g23029614641262_cont_8to1_115_36_alg».proof.Proof.MainValue
set_option maxRecDepth 16384

noncomputable section

namespace Cert.KernelIdeal.Hand

open Cert.KernelIdeal

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## The launch element: the handshakes' rounds, the pipeline's cells' rounds, no counter yet -/

def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

theorem bigSep_emp' {I : Type} (s : Finset I) : (bigSep s fun _ => iprop(emp)) = (iprop(emp) : sProp 𝕄) := bigSep_emp_const s

set_option backward.isDefEq.respectTransparency.types false in
theorem fund_deal :
    iprop((bigSep Finset.univ fun c : Dev nD => bigSep Finset.univ fun p : Fin 1 => (Pipeline.cellsGhost cfgs (EP (F := F)) p c : sProp 𝕄))
        ∗ (bigSep Finset.univ fun c : Dev nD => bigSep Finset.univ fun p : Fin 1 => (Pipeline.toksInit cfgs (EP (F := F)) p c : sProp 𝕄)))
      ⊢ (bigSep Finset.univ fun d : Dev nD => cellsFund (F := F) d : sProp 𝕄) := by
  have e1 : ∀ c : Dev nD, (bigSep Finset.univ fun p : Fin 1 => (Pipeline.cellsGhost cfgs (EP (F := F)) p c : sProp 𝕄)) = Pipeline.cellsGhost cfgs (EP (F := F)) 0 c :=
    fun c => bigSep_univ_of_subsingleton (0 : Fin 1)
  have e2 : ∀ c : Dev nD, (bigSep Finset.univ fun p : Fin 1 => (Pipeline.toksInit cfgs (EP (F := F)) p c : sProp 𝕄)) = Pipeline.toksInit cfgs (EP (F := F)) 0 c :=
    fun c => bigSep_univ_of_subsingleton (0 : Fin 1)
  rw [bigSep_congr fun c _ => e1 c, bigSep_congr fun c _ => e2 c, ← bigSep_sep']

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => cellsFund (F := F) d)
        ∗ bigSep Finset.univ fun thr : Thread nD τ => bigSep Finset.univ fun q : Fin 1 => (P m hpre).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  imod (Pipeline.fund_ghost (nD := nD) (τ := τ) cfgs (EP (F := F)) Gen.cellOf_inj) $$ [HP] with ⟨Hg, Ht⟩
  · iexact HP
  imodintro
  isplitl [HH]; · iexact HH
  isplitl [Hg Ht]
  · iapply (fund_deal (F := F)); isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (hpre : PreOK m)

/-- What @main leaves the claim: the four arguments as launched, the result at what the call's eight points wrote. -/
abbrev FINr (d : Dev nD) : sProp 𝕄 :=
  iprop((aLoc d ↦{fullShare} m (aLoc d)) ∗ (cLoc d ↦{fullShare} m (cLoc d)) ∗ (wLoc d ↦{fullShare} m (wLoc d)) ∗ (bLoc d ↦{fullShare} m (bLoc d))
    ∗ (rLoc d ↦{fullShare} (dats (WR m hpre) 0 d).arrAt 3 cfg1.N))

/-- After the one SparseCore call the TensorCore owes nothing: that, taken out of its state and put back. -/
theorem tcSt_open (d : Dev nD) :
    ((K (F := F)).tcSt EH d 1 : sProp 𝕄) ⊢ iprop(owesDone (F := F) d ∗ (owesDone (F := F) d -∗ (K (F := F)).tcSt EH d 1)) := by
  unfold SparseCore.Cfg.tcSt
  rw [(K (F := F)).Otc_end d (n := 1) (le_refl 1)]
  iintro ⟨HO, Hrest⟩
  isplitl [HO]; · iexact HO
  iintro HO
  isplitl [HO]; · iexact HO
  iexact Hrest

/-- The arrays the call leaves, read at the launch contents. -/
theorem fin_of_parts (d : Dev nD) :
    iprop((aLoc d ↦{fullShare} WR m hpre d main_arg0) ∗ (cLoc d ↦{fullShare} WR m hpre d main_arg1) ∗ (wLoc d ↦{fullShare} WR m hpre d main_arg2)
        ∗ (bLoc d ↦{fullShare} (dats (WR m hpre) 0 d).arrAt 2 cfg1.N) ∗ (rLoc d ↦{fullShare} (dats (WR m hpre) 0 d).arrAt 3 cfg1.N))
      ⊢ (FINr m hpre d : sProp 𝕄) := by
  rw [arrAt_b]
  show iprop((aLoc d ↦{fullShare} V3 m hpre d a') ∗ (cLoc d ↦{fullShare} V3 m hpre d c') ∗ (wLoc d ↦{fullShare} V3 m hpre d w')
        ∗ (bLoc d ↦{fullShare} V3 m hpre d b') ∗ (rLoc d ↦{fullShare} (dats (WR m hpre) 0 d).arrAt 3 cfg1.N)) ⊢ _
  rw [V3_a, V3_c, V3_w, V3_b]

theorem hmain (κ : GSem nD τ sig → ℕ) (d : Dev nD) :
    iprop((K (F := F)).ctx EH (P m hpre) κ ∗ (K (F := F)).tcSt EH d 0 ∗ (K (F := F)).tcRes m ρ d ∗ cellsFund (F := F) d)
      ⊢ wp frame (wpE ((K (F := F)).defs (D (F := F))) 𝒱 (SparseCore.T d) none) Set.univ (main d)
          fun _ => iprop((K (F := F)).tcSt EH d 1 ∗ FINr m hpre d) := by
  unfold SparseCore.Cfg.tcRes
  have e0 : (unscopedBufs d (fun b => m ((SparseCore.T d).loc b)) : sProp 𝕄) = held (T d) S9refs (V0 m d) := unscoped_held d (V0 m d)
  rw [e0]
  simp only [main, wp_bind, wp_pure]
  iintro ⟨#Hctx, Hst, ⟨Hb, Hheld, -, -⟩, Hfund⟩
  -- the constant zero
  iapply (wp_hlo_within 𝒱 (SparseCore.T d) none Set.univ (op := opCst) (S := S9refs) hCst (V := V0 m d)) $$ [Hb Hheld]
  · isplitl [Hb]; · iexact Hb
    iexact Hheld
  iintro ⟨Hb, Hheld⟩
  rw [wp_ret]; imodintro
  -- its broadcast to the block of zeros
  iapply (wp_hlo_within 𝒱 (SparseCore.T d) none Set.univ (op := opBc) (S := S9refs) hBc (V := V1 m d)) $$ [Hb Hheld]
  · isplitl [Hb]; · iexact Hb
    iexact Hheld
  iintro ⟨Hb, Hheld⟩
  rw [wp_ret]; imodintro
  ihave Hh := (Entails.of_eq ((congrArg (held (T d) S9refs) (show (opBc (F := F)).result (V1 m d) = V2 m d from rfl)).trans (held_V2 (F := F) m d))) $$ Hheld
  icases Hh with ⟨Ha, Hc, Hw, Hbb, Hk, Hz, Ho, Hx, Hr⟩
  -- the SparseCore call: the arrays dealt to the thirty-two tiles, and back with the matrix
  ihave Hs := (splitTiles m hpre d) $$ [Hc Hw Hz Ho]
  · isplitl [Hc]; · iexact Hc
    isplitl [Hw]; · iexact Hw
    isplitl [Hz]; · iexact Hz
    iexists _; iexact Ho
  icases Hs with ⟨Hzr, Hst0⟩
  iapply ((K (F := F)).wp_run (D (F := F)) 𝒱 (EH := EH) (P := P m hpre) κ d 0) $$ [Hst Hst0 Hzr Ha Hbb Hk Hx Hr Hb Hfund]
  isplitr; · iexact Hctx
  isplitl [Hst]; · iexact Hst
  isplitl [Hst0]; · iexact Hst0
  iintro ⟨Hst, Hdn⟩
  ihave Hj := (joinTiles m hpre d) $$ [Hzr Hdn]
  · isplitl [Hzr]; · iexact Hzr
    iexact Hdn
  icases Hj with ⟨Hc, Hw, Hz, Ho⟩
  -- the activations reshaped to a matrix
  ihave Hheld := (Entails.of_eq (held_V2' (F := F) m hpre d).symm) $$ [Ha Hc Hw Hbb Hk Hz Ho Hx Hr]
  · isplitl [Ha]; · iexact Ha
    isplitl [Hc]; · iexact Hc
    isplitl [Hw]; · iexact Hw
    isplitl [Hbb]; · iexact Hbb
    isplitl [Hk]; · iexact Hk
    isplitl [Hz]; · iexact Hz
    isplitl [Ho]; · iexact Ho
    isplitl [Hx]; · iexact Hx
    iexact Hr
  iapply (wp_hlo_within 𝒱 (SparseCore.T d) none Set.univ (op := opRs) (S := S9refs) hRs (V := V2' m hpre d)) $$ [Hb Hheld]
  · isplitl [Hb]; · iexact Hb
    iexact Hheld
  iintro ⟨Hb, Hheld⟩
  rw [wp_ret]; imodintro
  -- the TensorCore call
  ihave Hub := (Entails.of_eq ((congrArg (held (T d) S9refs) (show (opRs (F := F)).result (V2' m hpre d) = V3 m hpre d from rfl)).trans (unscoped_held (F := F) d (V3 m hpre d)).symm)) $$ Hheld
  ihave HO := (show ((K (F := F)).tcSt EH d ((0 : Fin 1).val + 1) : sProp 𝕄) ⊢ iprop(owesDone (F := F) d ∗ (owesDone (F := F) d -∗ (K (F := F)).tcSt EH d 1)) from tcSt_open (F := F) d) $$ Hst
  icases HO with ⟨HO, Hclose⟩
  ihave Hlv := (SparseCore.Cfg.ctx_levAts κ) $$ Hctx
  iapply (region_step (WR m hpre) d _) $$ [Hb Hub HO Hlv Hfund Hclose]
  isplitl [Hclose]
  swap
  · isplitl [Hb]; · iexact Hb
    isplitl [Hub HO]
    · isplitl [Hub]; · iexact Hub
      iexact HO
    isplitl [Hlv]; · iexact Hlv
    iexact Hfund
  iintro ⟨Hb, Harr, Hrest, HO⟩
  ihave Harr' := (Entails.of_eq (arrays_chain (WR m hpre) d _)) $$ Harr
  icases Harr' with ⟨-, -, Hbb, Hr⟩
  ihave Hrest' := (Entails.of_eq (Gen.unscopedRest1_eq d (WR m hpre d))) $$ Hrest
  icases Hrest' with ⟨Ha, Hc, Hw, -, -⟩
  imodintro
  isplitl [Hclose HO]
  · iapply Hclose; iexact HO
  iapply (fin_of_parts m hpre d)
  isplitl [Ha]; · iexact Ha
  isplitl [Hc]; · iexact Hc
  isplitl [Hw]; · iexact Hw
  isplitl [Hbb]; · iexact Hbb
  iexact Hr

/-! ## The result array, from its eight blocks -/

/-- Every point writes back its block of the one whole-array function, and the eight blocks cover the array. -/
theorem out_final (W : (d : Dev nD) → (b : Ref sig .tc) → Buf (Elt F) ((d.tc : Thread nD τ).loc b)) (c : Dev nD) :
    (dats W 0 c).arrAt 3 cfg1.N = outArr (F := F) (W c main_v2) (W c main_v1) (W c main_arg3) :=
  (dats W 0 c).arrAt_eq_of_cover 3 _
    (fun t _ => by
      show (cfg1.win 3).cut (grid1.coords t) ((dats W 0 c).after 3 t) = _
      rw [after_3]; exact blk3_eq W c t)
    covered3

/-- The result, as a function of the launch contents of the arguments. -/
theorem result_eq (d : Dev nD) :
    (dats (WR m hpre) 0 d).arrAt 3 cfg1.N
      = outArr (F := F) (x2Arr (F := F) (m (aLoc d))) (mtArr (F := F) (m (cLoc d)) (hpre d) (m (wLoc d))) (m (bLoc d)) := by
  rw [out_final]
  show outArr (F := F) (V3 m hpre d x') (V3 m hpre d o') (V3 m hpre d b') = _
  rw [V3_x, V3_o, V3_b]

/-! ## What the final memory holds -/

def fq (d : Dev nD) (s' : Phys nD τ sig (Elt F)) : Prop :=
  s'.mem.mem (rLoc d) = (dats (WR m hpre) 0 d).arrAt 3 cfg1.N ∧ s'.mem.mem (aLoc d) = m (aLoc d) ∧ s'.mem.mem (cLoc d) = m (cLoc d)
    ∧ s'.mem.mem (wLoc d) = m (wLoc d) ∧ s'.mem.mem (bLoc d) = m (bLoc d)

theorem hfin (d : Dev nD) (s' : Phys nD τ sig (Elt F)) : iprop(FINr m hpre d ∗ SI s') ⊢ (⌜fq m hpre d s'⌝ : sProp 𝕄) := by
  iintro ⟨⟨Ha, Hc, Hw, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (SI_pointsTo_agree (st := s') (ℓ := rLoc d) (I := Finset.univ) (q := fullShare) (f := (dats (WR m hpre) 0 d).arrAt 3 cfg1.N)) $$ [HSI Hr]
  · isplitl [HSI] <;> iassumption
  icases H with %hr
  ipureintro
  exact ⟨funext fun i => hr i (Finset.mem_univ i), funext fun i => ha i (Finset.mem_univ i), funext fun i => hc i (Finset.mem_univ i),
    funext fun i => hw i (Finset.mem_univ i), funext fun i => hb i (Finset.mem_univ i)⟩

/-! ## The program's run -/

/-- The result at its function of the arguments, the four arguments unchanged, on every device. -/
def QC : PUnit × MemSt nD τ sig (Elt F) → Prop := fun r => ∀ c : Dev nD,
  r.2.mem (rLoc c) = outArr (F := F) (x2Arr (F := F) (m (aLoc c))) (mtArr (F := F) (m (cLoc c)) (hpre c) (m (wLoc c))) (m (bLoc c))
    ∧ r.2.mem (aLoc c) = m (aLoc c) ∧ r.2.mem (cLoc c) = m (cLoc c) ∧ r.2.mem (wLoc c) = m (wLoc c) ∧ r.2.mem (bLoc c) = m (bLoc c)

theorem run_main [∀ e, Nonempty (Elt F e)] (htile : (K (F := F)).TileObl (D (F := F)) 𝒱 (P m hpre) v₀ 0) :
    θ_run (Cert.KernelIdeal.defs (F := F)) (Cert.KernelIdeal.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => htile)
    (fun q _ => match q with | 0 => SparseCore.Cfg.VecSplit.of_plain (vecSplit m hpre))
    m ρ main (fun d => cellsFund (F := F) d) (FINr m hpre) (u₀ (F := F)) (sep_elim_left.trans (hu₀ m hpre)) (hmain m ρ hpre) (fq m hpre) (hfin m hpre) (QC m hpre)
    (fun _ h c => ⟨(h c).1.trans (result_eq m hpre c), (h c).2⟩)

end Cert.KernelIdeal.Hand

end
-- ==== Proof.BitsSpec.lean ====
/-
  The two arrays the kernel computes, as pure functions of the argument arrays, for any float instance.

  The first kernel builds a dense matrix `mt` row by row: row `ρ` starts at zero and receives, for each of its
  sixteen connections `k`, the weight `w ρ k` added at column `conn (16 ρ + k)` (lanes taken in ascending order, so
  that repeated columns accumulate).  Rows are produced two at a time in a block of two rows.  The second kernel
  multiplies the activations by the transpose of `mt`, 256 columns of the result at a time, and adds the bias.
-/
import proofs.«207065_g23029614641262_cont_8to1_115_36_alg».proof.Kernel
import proofs.«207065_g23029614641262_cont_8to1_115_36_alg».proof.Proof.Gen.Kernel
import Idealize.ShloMosaic.Lib.ValueIdx

noncomputable section

namespace Cert.Kernel.Hand

open Cert.Kernel
open Idealize.ShloMosaic Idealize.ShloMosaic.ValueIdx

variable {F : FTy → Type} [FloatOps F]

/-- The sixteen connection words of row `ρ`: `conn` at `16 ρ + k`. -/
def idxRow (conn : IVec S32768 32) (ρ : Fin 2048) : IVec S16 32 :=
  fun x => conn (ix1 (⟨16 * ρ.val + (x 0).val, by have h : (x 0).val < 16 := (x 0).isLt; omega⟩ : Fin 32768))

/-- Row `ρ` of the weights as a vector of sixteen lanes. -/
def wRow (w : FVec F S2048x16 .f32) (ρ : Fin 2048) : FVec F S16 .f32 :=
  fun x => w (ix2 ρ (⟨(x 0).val, (x 0).isLt⟩ : Fin 16))

/-- The block of two rows of zeros every pair of rows starts from. -/
def zeroBlk : FVec F S2x2048 .f32 :=
  broadcastInDim S2x2048 ![] Facts₀.bcast_S_S2x2048 (constant (F := F) S_ .f32 0x00000000#32)

/-- The index vectors of one row's scatter: the row number in every lane, and the row's connection words. -/
def rowIdxs (conn : IVec S32768 32) (r : BitVec 32) (ρ : Fin 2048) : Fin S2x2048.rank → IVec S16 32 :=
  ![broadcast S16 r, idxRow conn ρ]

/-- With every connection word below 2048 and the row number below 2, the scatter's indices name cells of the block. -/
theorem rowIdxs_inb (conn : IVec S32768 32) (hconn : ∀ i, (conn i).toNat < 2048) (r : BitVec 32) (hr : r.toNat < 2) (ρ : Fin 2048) :
    ∀ a x, (rowIdxs conn r ρ a x).toNat < S2x2048.size a := by
  intro a x
  match a with
  | ⟨0, _⟩ => exact hr
  | ⟨1, _⟩ => exact hconn _

/-- A block of two rows of `mt`: row 0 receives the weights of row `ρ0`, row 1 those of row `ρ1`. -/
def mtBlk (conn : IVec S32768 32) (hconn : ∀ i, (conn i).toNat < 2048) (w : FVec F S2048x16 .f32) (ρ0 ρ1 : Fin 2048) : FVec F S2x2048 .f32 :=
  storeIdx (F := F) (e := .f32)
    (storeIdx (F := F) (e := .f32) (zeroBlk (F := F)) (rowIdxs conn 0#32 ρ0) (wRow w ρ0) (fun _ => 1#1) true
      (rowIdxs_inb conn hconn 0#32 (by decide) ρ0))
    (rowIdxs conn 1#32 ρ1) (wRow w ρ1) (fun _ => 1#1) true (rowIdxs_inb conn hconn 1#32 (by decide) ρ1)

/-- The whole matrix: row `j` is row `j % 2` of the block of the pair of rows that holds `j`. -/
def mtArr (conn : IVec S32768 32) (hconn : ∀ i, (conn i).toNat < 2048) (w : FVec F S2048x16 .f32) : FVec F S2048x2048 .f32 :=
  fun j =>
    have h0 : (j 0).val < 2048 := (j 0).isLt
    mtBlk conn hconn w ⟨2 * ((j 0).val / 2), by omega⟩ ⟨2 * ((j 0).val / 2) + 1, by omega⟩
      (ix2 (⟨(j 0).val % 2, Nat.mod_lt _ (by decide)⟩ : Fin 2) (⟨(j 1).val, (j 1).isLt⟩ : Fin 2048))

/-- Rows `256 t …` of a matrix of 2048 rows. -/
def mtBlock (mt : FVec F S2048x2048 .f32) (t : Fin 8) : FVec F S256x2048 .f32 :=
  fun y =>
    have h0 : (y 0).val < 256 := (y 0).isLt
    mt (ix2 (⟨256 * t.val + (y 0).val, by omega⟩ : Fin 2048) (⟨(y 1).val, (y 1).isLt⟩ : Fin 2048))

/-- Entries `256 t …` of a vector of 2048 entries. -/
def bBlock (b : FVec F S2048 .f32) (t : Fin 8) : FVec F S256 .f32 :=
  fun y =>
    have h0 : (y 0).val < 256 := (y 0).isLt
    b (ix1 (⟨256 * t.val + (y 0).val, by omega⟩ : Fin 2048))

/-- One block of 256 result columns: the activations times the transpose of 256 rows of `mt`, plus the bias. -/
def tcBlock (x2 : FVec F S2048x2048 .f32) (mtB : FVec F S256x2048 .f32) (bB : FVec F S256 .f32) : FVec F S1x2048x256 .f32 :=
  shapeCast S1x2048x256
    (addf
      (matmul dot_S2048x2048_S256x2048_S2048x256_1_1_0_0_n_n none
        (shapeCast S2048x2048 x2 Facts₀.shapeCasts_S2048x2048_S2048x2048)
        (shapeCast S256x2048 mtB Facts₀.shapeCasts_S256x2048_S256x2048)
        (constant S2048x256 .f32 0x00000000#32))
      (broadcastTo S2048x256 (shapeCast S1x256 bB Facts₀.shapeCasts_S256_S1x256) Facts₀.broadcasts_S1x256_S2048x256))
    Facts₀.shapeCasts_S2048x256_S1x2048x256

/-- The whole result: column `j` is column `j % 256` of block `j / 256`. -/
def outArr (x2 : FVec F S2048x2048 .f32) (mt : FVec F S2048x2048 .f32) (b : FVec F S2048 .f32) : FVec F S1x2048x2048 .f32 :=
  fun j =>
    have h2 : (j 2).val < 2048 := (j 2).isLt
    tcBlock x2 (mtBlock mt ⟨(j 2).val / 256, by omega⟩) (bBlock b ⟨(j 2).val / 256, by omega⟩)
      (ix3 (0 : Fin 1) (⟨(j 1).val, (j 1).isLt⟩ : Fin 2048) (⟨(j 2).val % 256, Nat.mod_lt _ (by decide)⟩ : Fin 256))

/-- The activations as a matrix. -/
def x2Arr (x : FVec F S1x2048x2048 .f32) : FVec F S2048x2048 .f32 :=
  shapeCast S2048x2048 x Facts₀.shapeCasts_S1x2048x2048_S2048x2048

end Cert.Kernel.Hand

end
-- ==== Proof.BitsSetup.lean ====
/-
  The program as the launch theorem sees it, the resource algebra, the arrays' locations, and what the SparseCore
  call hands each vector subcore and takes back.

  Tile `(c, s)` has number `wid = 2 s + c`.  It reads the 1024 connection words and the 64 weight rows of its 64 output
  rows, reads the block of zeros (which every tile reads, so each holds a read share of it), and owns rows
  `64 wid … 64 wid + 63` of the matrix `mt`, which it leaves at the one whole-array function `mtArr`.
-/
import proofs.«207065_g23029614641262_cont_8to1_115_36_alg».proof.Proof.BitsSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Kernel.Hand

open Cert.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The activations, the connection words, the weights, the bias (the arguments); the block of zeros, the matrix `mt`,
    the activations as a matrix, the result — as locations of device `d`. -/
abbrev aLoc (d : Dev nD) : Loc nD τ sig := (SparseCore.T d).loc main_arg0
abbrev cLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev zLoc (d : Dev nD) : Loc nD τ sig := (SparseCore.T d).loc main_v0
abbrev oLoc (d : Dev nD) : Loc nD τ sig := (SparseCore.T d).loc main_v1
abbrev x2Loc (d : Dev nD) : Loc nD τ sig := (SparseCore.T d).loc main_v2
abbrev rLoc (d : Dev nD) : Loc nD τ sig := (SparseCore.T d).loc main_v3

/-- What the proof asks of the launch memory: every connection word names a column. -/
def PreOK : Prop := ∀ (d : Dev nD) (i : S32768.Idx), ((m (cLoc d) : IVec S32768 32) i).toNat < 2048

variable [FloatOps F]

/-- The arrays as a vector subcore's kernel names them. -/
abbrev connV : Memref sig .scVector .hbm S32768 .i32 := Memref.whole main_arg1_scv
abbrev wV : Memref sig .scVector .hbm S2048x16 .f32 := Memref.whole main_arg2_scv
abbrev zV : Memref sig .scVector .hbm S2x2048 .f32 := Memref.whole main_v0_scv
abbrev oV : Memref sig .scVector .hbm S2048x2048 .f32 := Memref.whole main_v1_scv

/-! ## The tiles -/

abbrev cV (L : grid0.Coords) : Fin τ.nSC := (L 0).castLE Facts₀.hcore0
abbrev jV (L : grid0.Coords) : Fin τ.nSub := (L 1).castLE Facts₀.hsub0
def coordsV (c : Fin (grid0.bound 0)) (s : Fin (grid0.bound 1)) : grid0.Coords :=
  fun | 0 => c | 1 => s | ⟨_ + 2, h⟩ => absurd h (Nat.not_lt.2 (Nat.le_add_left _ _))

/-- The tile's number: twice its subcore index plus its core index. -/
def wid (L : grid0.Coords) : Fin 32 :=
  ⟨2 * (L 1).val + (L 0).val, by have h0 : (L 0).val < 2 := (L 0).isLt; have h1 : (L 1).val < 16 := (L 1).isLt; omega⟩

/-- The tile's 1024 connection words and 64 weight rows, as the kernel slices them. -/
abbrev connSl (L : grid0.Coords) : Memref sig .scVector .hbm S1024 .i32 :=
  (connV).slice (Rect.unit (s := S32768) (k0_off1 L) S1024.size (Facts₀.k0_off1_inb L)) (fun _ => rfl)
abbrev wSl (L : grid0.Coords) : Memref sig .scVector .hbm S64x16 .f32 :=
  (wV).slice (Rect.unit (s := S2048x16) (k0_off2 L) S64x16.size (Facts₀.k0_off2_inb L)) (fun _ => rfl)
abbrev connSet (L : grid0.Coords) : Finset S32768.Idx := (connSl L).view.set
abbrev wSet (L : grid0.Coords) : Finset S2048x16.Idx := (wSl L).view.set

theorem hdiv32 : 32 ∣ S2048x2048.size 0 := ⟨64, rfl⟩
/-- Rows `64 n … 64 n + 63` of the matrix. -/
abbrev rowsRect (n : Fin 32) : Rect S2048x2048 := Rect.part (s := S2048x2048) (a₀ := 0) hdiv32 n
abbrev rowsSet (L : grid0.Coords) : Finset S2048x2048.Idx := ((oV).view.slice (rowsRect (wid L))).set

/-- What a tile is handed: its connection words and weight rows, a read share of the block of zeros, its rows of the
    matrix at some contents; -/
def goRes (d : Dev nD) (L : grid0.Coords) : sProp 𝕄 :=
  iprop((cLoc d ↦[connSet L]{fullShare} m (cLoc d)) ∗ (wLoc d ↦[wSet L]{fullShare} m (wLoc d))
    ∗ (zLoc d ↦{Transfers.shareTok fullShare 32 (wid L)} (zeroBlk (F := F)))
    ∗ ∃ f, oLoc d ↦[rowsSet L]{fullShare} f)

/-- and what it hands back: the same, its rows of the matrix at `mtArr`. -/
def tdRes (hpre : PreOK m) (d : Dev nD) (L : grid0.Coords) : sProp 𝕄 :=
  iprop((cLoc d ↦[connSet L]{fullShare} m (cLoc d)) ∗ (wLoc d ↦[wSet L]{fullShare} m (wLoc d))
    ∗ (zLoc d ↦{Transfers.shareTok fullShare 32 (wid L)} (zeroBlk (F := F)))
    ∗ oLoc d ↦[rowsSet L]{fullShare} (mtArr (F := F) (m (cLoc d)) (hpre d) (m (wLoc d))))

instance goRes_storable (d : Dev nD) (L : grid0.Coords) : BI.Storable (upEmb : UEmb _ 𝕄) (goRes m d L) := by
  unfold goRes; infer_instance
instance tdRes_storable (hpre : PreOK m) (d : Dev nD) (L : grid0.Coords) : BI.Storable (upEmb : UEmb _ 𝕄) (tdRes m hpre d L) := by
  unfold tdRes; infer_instance

/-- The one call hands each SparseCore what its sixteen tiles are handed and takes back what they hand back; the
    kernel has no cells of its own (its transfers are local copies). -/
def P (hpre : PreOK m) : (K (F := F)).Pay (nD := nD) (Val := Elt F) (Name := ℕ) (U := UU) where
  st := fun q d c => match q with
    | 0 => bigSep Finset.univ fun i : Fin ((K (F := F)).nSub 0) => goRes m d (coordsV (Fin.cast nCore_zero c) (Fin.cast nSub_zero i))
  dn := fun q d c => match q with
    | 0 => bigSep Finset.univ fun i : Fin ((K (F := F)).nSub 0) => tdRes m hpre d (coordsV (Fin.cast nCore_zero c) (Fin.cast nSub_zero i))
  go := fun q d c i => match q with | 0 => goRes m d (coordsV (Fin.cast nCore_zero c) (Fin.cast nSub_zero i))
  td := fun q d c i => match q with | 0 => tdRes m hpre d (coordsV (Fin.cast nCore_zero c) (Fin.cast nSub_zero i))
  x := fun _ _ => iprop(emp)

instance P_storable (hpre : PreOK m) : (P (F := F) m hpre).IsStorable where
  st q d c := match q with | 0 => by unfold P; infer_instance
  dn q d c := match q with | 0 => by unfold P; infer_instance
  go q d c i := match q with | 0 => by unfold P; infer_instance
  td q d c i := match q with | 0 => by unfold P; infer_instance

/-- The split of a SparseCore's operands among its tiles is the identity. -/
theorem vecSplit (hpre : PreOK m) : (K (F := F)).VecSplit' (P m hpre) 0 := by
  intro d c
  show (bigSep Finset.univ fun i : Fin ((K (F := F)).nSub 0) => goRes m d (coordsV (Fin.cast nCore_zero c) (Fin.cast nSub_zero i)))
    ⊢ |={Set.univ}=> iprop((bigSep Finset.univ fun i : Fin ((K (F := F)).nSub 0) => goRes m d (coordsV (Fin.cast nCore_zero c) (Fin.cast nSub_zero i)))
      ∗ ((bigSep Finset.univ fun i : Fin ((K (F := F)).nSub 0) => tdRes m hpre d (coordsV (Fin.cast nCore_zero c) (Fin.cast nSub_zero i)))
        -∗ (bigSep Finset.univ fun i : Fin ((K (F := F)).nSub 0) => tdRes m hpre d (coordsV (Fin.cast nCore_zero c) (Fin.cast nSub_zero i)))))
  iintro H; imodintro
  isplitl [H]; · iexact H
  iintro H; iexact H

end Cert.Kernel.Hand

end
-- ==== Proof.BitsTileStore.lean ====
/-
  The indexed store into a block, read one cell at a time.

  A store of a vector at the cells its index vectors name leaves every other cell as it was; a plain store of a
  vector whose lanes all hold one value leaves that value at every named cell.  Hence: a block every cell of which
  holds one value, after two stores with add at two index families and two plain stores of that value at the same
  two families, is the block again.
-/
import proofs.«207065_g23029614641262_cont_8to1_115_36_alg».proof.Proof.BitsSpec

noncomputable section

namespace Cert.Kernel.Hand

open Idealize.ShloMosaic

section StoreIdx

variable {F : FTy → Type} [FloatOps F] {s : Shape} {e : EltTy} {d : Fin 1 → Nat}

/-- Lane `k` of the index vectors names cell `j`. -/
def NamedBy (idxs : Fin s.rank → IVec ⟨1, d⟩ 32) (k : Fin (d 0)) (j : s.Idx) : Prop :=
  ∀ a, (j a).val = (idxs a (Shape.ofLane k)).toNat

/-- A fold of steps none of which touches cell `j` leaves it as it was. -/
theorem foldl_of_not_named {n : Nat} (P : Fin n → Prop) (step : Vec F s e → Fin n → Vec F s e) (j : s.Idx)
    (hstep : ∀ g k, ¬ P k → step g k j = g j) :
    ∀ (l : List (Fin n)) (f : Vec F s e), (∀ k ∈ l, ¬ P k) → l.foldl step f j = f j := by
  intro l
  induction l with
  | nil => intro f _; rfl
  | cons k l ih =>
    intro f hj
    rw [List.foldl_cons, ih _ (fun k' hk' => hj k' (List.mem_cons_of_mem _ hk')), hstep f k (hj k List.mem_cons_self)]

/-- A fold of steps each of which writes `z` at cell `j` or leaves it, one of them writing, leaves `z` there. -/
theorem foldl_const_of_named {n : Nat} (P : Fin n → Prop) (step : Vec F s e → Fin n → Vec F s e) (j : s.Idx) (z : Elt F e)
    (hstep : ∀ g k, ¬ P k → step g k j = g j) (hstep' : ∀ g k, P k → step g k j = z) :
    ∀ (l : List (Fin n)) (f : Vec F s e), (∃ k ∈ l, P k) → l.foldl step f j = z := by
  intro l
  induction l with
  | nil => intro f hj; obtain ⟨k, hk, _⟩ := hj; cases hk
  | cons k l ih =>
    intro f hj
    rw [List.foldl_cons]
    by_cases hl : ∃ k' ∈ l, P k'
    · exact ih _ hl
    · have hk : P k := by
        obtain ⟨k', hk', hn⟩ := hj
        rcases List.mem_cons.mp hk' with rfl | hk'
        · exact hn
        · exact absurd ⟨k', hk', hn⟩ hl
      rw [foldl_of_not_named P step j hstep l _ (fun k' hk' hn => hl ⟨k', hk', hn⟩), hstep' f k hk]

/-- A cell no lane names keeps its value. -/
theorem storeIdx_apply_of_not_named (f : Vec F s e) (idxs : Fin s.rank → IVec ⟨1, d⟩ 32) (v : Vec F ⟨1, d⟩ e) (mask : IVec ⟨1, d⟩ 1) (add : Bool)
    (h : ∀ a x, (idxs a x).toNat < s.size a) (j : s.Idx) (hj : ∀ k, ¬ NamedBy idxs k j) :
    storeIdx f idxs v mask add h j = f j := by
  unfold storeIdx
  refine foldl_of_not_named (fun k => NamedBy idxs k j) _ j (fun g k hk => ?_) _ f (fun k _ => hj k)
  dsimp only
  split
  · exact if_neg hk
  · rfl

/-- A plain store of one value in every lane leaves that value at every named cell. -/
theorem storeIdx_const_apply_of_named (f : Vec F s e) (idxs : Fin s.rank → IVec ⟨1, d⟩ 32) (v : Vec F ⟨1, d⟩ e) (mask : IVec ⟨1, d⟩ 1)
    (h : ∀ a x, (idxs a x).toNat < s.size a) (z : Elt F e) (hv : ∀ x, v x = z) (hm : ∀ x, mask x = 1) (j : s.Idx)
    (hj : ∃ k, NamedBy idxs k j) :
    storeIdx f idxs v mask false h j = z := by
  unfold storeIdx
  obtain ⟨k, hk⟩ := hj
  refine foldl_const_of_named (fun k => NamedBy idxs k j) _ j z (fun g k hk => ?_) (fun g k hk => ?_) _ f ⟨k, List.mem_finRange k, hk⟩
  · dsimp only
    split
    · exact if_neg hk
    · rfl
  · dsimp only
    rw [if_pos (hm _)]
    exact (if_pos hk).trans (hv _)

/-- Two stores with add and then two plain stores of the block's one value, at the same two index families, give the
    block back. -/
theorem storeIdx_restore (f : Vec F s e) (z : Elt F e) (hf : ∀ j, f j = z)
    (I0 I1 : Fin s.rank → IVec ⟨1, d⟩ 32) (w0 w1 zv : Vec F ⟨1, d⟩ e) (mask : IVec ⟨1, d⟩ 1)
    (hz : ∀ x, zv x = z) (hm : ∀ x, mask x = 1)
    (h0 h0' : ∀ a x, (I0 a x).toNat < s.size a) (h1 h1' : ∀ a x, (I1 a x).toNat < s.size a) :
    storeIdx (storeIdx (storeIdx (storeIdx f I0 w0 mask true h0) I1 w1 mask true h1) I0 zv mask false h0') I1 zv mask false h1' = f := by
  funext j
  by_cases hj1 : ∃ k, NamedBy I1 k j
  · rw [storeIdx_const_apply_of_named _ I1 zv mask h1' z hz hm j hj1]; exact (hf j).symm
  · rw [storeIdx_apply_of_not_named _ I1 zv mask false h1' j (fun k hk => hj1 ⟨k, hk⟩)]
    by_cases hj0 : ∃ k, NamedBy I0 k j
    · rw [storeIdx_const_apply_of_named _ I0 zv mask h0' z hz hm j hj0]; exact (hf j).symm
    · rw [storeIdx_apply_of_not_named _ I0 zv mask false h0' j (fun k hk => hj0 ⟨k, hk⟩),
        storeIdx_apply_of_not_named _ I1 w1 mask true h1 j (fun k hk => hj1 ⟨k, hk⟩),
        storeIdx_apply_of_not_named _ I0 w0 mask true h0 j (fun k hk => hj0 ⟨k, hk⟩)]

end StoreIdx

end Cert.Kernel.Hand

end
-- ==== Proof.BitsTileViews.lean ====
/-
  The vector-subcore kernel's memory, as sets of cells and contents.

  A tile's rows of the matrix are tracked as sets of rows `a … b - 1` of its sixty-four (`rowsBetween`): the
  windows the kernel copies blocks of two rows out to are such sets, adjacent ones join, and the tile's whole share is
  rows `0 … 63`.  The tile's two fetched scratches hold its slices of the connection words and the weights; every
  word loaded from the first names a column, so every indexed store's cells lie in its block.  The tile's own
  semaphores and scratch buffers are taken out of the subcore's scoped storage.
-/
import proofs.«207065_g23029614641262_cont_8to1_115_36_alg».proof.Proof.BitsSetup
import proofs.«207065_g23029614641262_cont_8to1_115_36_alg».proof.Proof.Gen.Kernel.Skeleton
import proofs.«207065_g23029614641262_cont_8to1_115_36_alg».proof.Proof.BitsTileStore

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Rows

variable (L : grid0.Coords)

/-- Rows `a … b - 1` of the tile's sixty-four rows of the matrix. -/
def rowsBetween (a b : Nat) : Finset S2048x2048.Idx :=
  Finset.univ.filter fun j => 64 * (wid L).val + a ≤ (j 0).val ∧ (j 0).val < 64 * (wid L).val + b

omit [FloatOps F] in
theorem mem_rowsBetween {a b : Nat} {j : S2048x2048.Idx} :
    j ∈ rowsBetween L a b ↔ 64 * (wid L).val + a ≤ (j 0).val ∧ (j 0).val < 64 * (wid L).val + b := by
  unfold rowsBetween; rw [Finset.mem_filter]; exact and_iff_right (Finset.mem_univ j)

omit [FloatOps F] in
theorem rowsBetween_union {a b c : Nat} (hab : a ≤ b) (hbc : b ≤ c) : rowsBetween L a b ∪ rowsBetween L b c = rowsBetween L a c := by
  ext j; simp only [Finset.mem_union, mem_rowsBetween]; omega
omit [FloatOps F] in
theorem rowsBetween_disjoint (a b c : Nat) : Disjoint (rowsBetween L a b) (rowsBetween L b c) := by
  rw [Finset.disjoint_left]; intro j h1 h2; rw [mem_rowsBetween] at h1 h2; omega
omit [FloatOps F] in
theorem rowsBetween_self (a : Nat) : rowsBetween L a a = ∅ := by
  ext j; simp only [mem_rowsBetween, Finset.notMem_empty, iff_false]; omega

omit [FloatOps F] in
theorem mem_unit2 {off size : Fin 2 → Nat} {inb : ∀ a, off a + size a ≤ S2048x2048.size a} {j : S2048x2048.Idx} :
    j ∈ (Rect.unit (s := S2048x2048) off size inb).set
      ↔ (off 0 ≤ (j 0).val ∧ (j 0).val < off 0 + size 0) ∧ (off 1 ≤ (j 1).val ∧ (j 1).val < off 1 + size 1) := by
  rw [Rect.mem_set_unit]; exact Fin.forall_fin_two

omit [FloatOps F] in
theorem wid_val : (wid L).val = 2 * (L 1).val + (L 0).val := rfl

omit [FloatOps F] in
theorem rowsSet_eq : rowsSet L = rowsBetween L 0 64 := by
  show ((View.whole (main_v1_scv : Ref sig .scVector)).slice (rowsRect (wid L))).set = _
  rw [View.set_slice_whole]
  ext j
  rw [mem_rowsBetween]
  refine (mem_unit2 (j := j)).trans ?_
  have hj1 : (j 1).val < 2048 := (j 1).isLt
  simp only [Shape.partIx, Shape.partSize]
  show ((wid L).val * 64 ≤ (j 0).val ∧ (j 0).val < (wid L).val * 64 + 64) ∧ (0 * 2048 ≤ (j 1).val ∧ (j 1).val < 0 * 2048 + 2048) ↔ _
  omega

omit [FloatOps F] in
theorem set_out0 (k : Fin k0_t1_loop.trips) (h : ∀ a, (k0_off10 L k) a + S2x2048.size a ≤ S2048x2048.size a) :
    ((oV).slice (Rect.unit (s := S2048x2048) (k0_off10 L k) S2x2048.size h) (fun _ => rfl)).view.set = rowsBetween L (4 * k.val) (4 * k.val + 2) := by
  show ((View.whole (main_v1_scv : Ref sig .scVector)).slice (Rect.unit (s := S2048x2048) (k0_off10 L k) S2x2048.size h)).set = _
  rw [View.set_slice_whole]
  ext j
  rw [mem_rowsBetween]
  refine (mem_unit2 (j := j)).trans ?_
  have hj1 : (j 1).val < 2048 := (j 1).isLt
  rw [Gen.k0_off10_eq, wid_val]
  show ((128 * (L 1).val + 64 * (L 0).val + 4 * k.val ≤ (j 0).val ∧ (j 0).val < 128 * (L 1).val + 64 * (L 0).val + 4 * k.val + 2) ∧ (0 ≤ (j 1).val ∧ (j 1).val < 0 + 2048)) ↔ _
  omega

omit [FloatOps F] in
theorem set_out1 (k : Fin k0_t1_loop.trips) (h : ∀ a, (k0_off18 L k) a + S2x2048.size a ≤ S2048x2048.size a) :
    ((oV).slice (Rect.unit (s := S2048x2048) (k0_off18 L k) S2x2048.size h) (fun _ => rfl)).view.set = rowsBetween L (4 * k.val + 2) (4 * k.val + 4) := by
  show ((View.whole (main_v1_scv : Ref sig .scVector)).slice (Rect.unit (s := S2048x2048) (k0_off18 L k) S2x2048.size h)).set = _
  rw [View.set_slice_whole]
  ext j
  rw [mem_rowsBetween]
  refine (mem_unit2 (j := j)).trans ?_
  have hj1 : (j 1).val < 2048 := (j 1).isLt
  rw [Gen.k0_off18_eq, wid_val]
  show ((128 * (L 1).val + 64 * (L 0).val + 4 * k.val + 2 ≤ (j 0).val ∧ (j 0).val < 128 * (L 1).val + 64 * (L 0).val + 4 * k.val + 2 + 2) ∧ (0 ≤ (j 1).val ∧ (j 1).val < 0 + 2048)) ↔ _
  omega

omit [FloatOps F] in
theorem cond1_iff : ∀ k : Fin k0_t1_loop.trips, k0_cond1 k = 1#1 ↔ k.val ≠ 0 := by decide +kernel
omit [FloatOps F] in
theorem cond2_iff : ∀ k : Fin k0_t1_loop.trips, k0_cond2 k = 1#1 ↔ k.val ≠ 0 := by decide +kernel
omit [FloatOps F] in
theorem trips_eq : k0_t1_loop.trips = 16 := by decide +kernel

end Rows

section Contents

variable (d : Dev nD) (L : grid0.Coords)

/-- What the two fetched scratches hold: the tile's connection words and weight rows. -/
def S8 : S1024.Idx → Elt F .i32 := (connSl L).view.read (Elt F) (m (cLoc d))
def S9 : S64x16.Idx → Elt F .f32 := (wSl L).view.read (Elt F) (m (wLoc d))

omit [FloatOps F] in
theorem S8_lt (hpre : PreOK m) (y : S1024.Idx) : (S8 m d L y : BitVec 32).toNat < 2048 := by
  unfold S8; rw [View.read_apply, cast_eq]; exact hpre d _

omit [FloatOps F] in
theorem load8_lt (hpre : PreOK m) (r : LoadRect S1024) (x : r.shape.Idx) :
    (((Memref.whole cc0_scratch2 : Memref sig .scVector .vmem S1024 .i32).view.readAt (Elt F) r (S8 m d L) x : Elt F .i32) : BitVec 32).toNat < 2048 := by
  rw [View.readAt_apply]; exact S8_lt m d L hpre _

omit [FloatOps F] in
theorem chk_words (r : BitVec 32) (hr : r.toNat < 2) (v : IVec S16 32) (hv : ∀ x, (v x).toNat < 2048) :
    ∀ a x, ((![broadcast S16 r, v] : Fin 2 → IVec S16 32) a x).toNat < S2x2048.size a := by
  intro a x
  match a with
  | ⟨0, _⟩ => exact hr
  | ⟨1, _⟩ => exact hv x

omit [FloatOps F] in
theorem pts_blk0_view (q : PosShare TreeShare) (f : Buf (Elt F) ((V d (cV L) (jV L)).loc cc0_scratch0)) :
    ((Memref.whole cc0_scratch0 : Memref sig .scVector .vmem S2x2048 .f32).view.loc (V d (cV L) (jV L)) ↦[(Memref.whole cc0_scratch0 : Memref sig .scVector .vmem S2x2048 .f32).view.set]{q} f : sProp 𝕄) = ((V d (cV L) (jV L)).loc cc0_scratch0 ↦{q} f) := by
  simp only [Memref.view_whole, View.set_whole]

omit [FloatOps F] in
theorem pts_blk1_view (q : PosShare TreeShare) (f : Buf (Elt F) ((V d (cV L) (jV L)).loc cc0_scratch1)) :
    ((Memref.whole cc0_scratch1 : Memref sig .scVector .vmem S2x2048 .f32).view.loc (V d (cV L) (jV L)) ↦[(Memref.whole cc0_scratch1 : Memref sig .scVector .vmem S2x2048 .f32).view.set]{q} f : sProp 𝕄) = ((V d (cV L) (jV L)).loc cc0_scratch1 ↦{q} f) := by
  simp only [Memref.view_whole, View.set_whole]

omit [FloatOps F] in
theorem pts_idxB_view (q : PosShare TreeShare) (f : Buf (Elt F) ((V d (cV L) (jV L)).loc cc0_scratch2)) :
    ((Memref.whole cc0_scratch2 : Memref sig .scVector .vmem S1024 .i32).view.loc (V d (cV L) (jV L)) ↦[(Memref.whole cc0_scratch2 : Memref sig .scVector .vmem S1024 .i32).view.set]{q} f : sProp 𝕄) = ((V d (cV L) (jV L)).loc cc0_scratch2 ↦{q} f) := by
  simp only [Memref.view_whole, View.set_whole]

omit [FloatOps F] in
theorem pts_wB_view (q : PosShare TreeShare) (f : Buf (Elt F) ((V d (cV L) (jV L)).loc cc0_scratch3)) :
    ((Memref.whole cc0_scratch3 : Memref sig .scVector .vmem S64x16 .f32).view.loc (V d (cV L) (jV L)) ↦[(Memref.whole cc0_scratch3 : Memref sig .scVector .vmem S64x16 .f32).view.set]{q} f : sProp 𝕄) = ((V d (cV L) (jV L)).loc cc0_scratch3 ↦{q} f) := by
  simp only [Memref.view_whole, View.set_whole]

omit [FloatOps F] in
theorem pts_z_view (q : PosShare TreeShare) (f : Buf (Elt F) (zLoc d)) :
    ((zV : Memref sig .scVector .hbm S2x2048 .f32).view.loc (V d (cV L) (jV L)) ↦[(zV : Memref sig .scVector .hbm S2x2048 .f32).view.set]{q} f : sProp 𝕄) = (zLoc d ↦{q} f) := by
  simp only [Memref.view_whole, View.set_whole]

omit [FloatOps F] in
theorem pts_blk0_access (f : Buf (Elt F) ((V d (cV L) (jV L)).loc cc0_scratch0)) :
    ((((Memref.whole cc0_scratch0 : Memref sig .scVector .vmem S2x2048 .f32)).access (.whole S2x2048)).loc (V d (cV L) (jV L))
        ↦[(((Memref.whole cc0_scratch0 : Memref sig .scVector .vmem S2x2048 .f32)).access (.whole S2x2048)).set]{fullShare} f : sProp 𝕄)
      = ((V d (cV L) (jV L)).loc cc0_scratch0 ↦{fullShare} f) := by
  rw [show (((Memref.whole cc0_scratch0 : Memref sig .scVector .vmem S2x2048 .f32)).access (.whole S2x2048)).set = Finset.univ from Memref.set_access_whole cc0_scratch0]
omit [FloatOps F] in
theorem pts_blk1_access (f : Buf (Elt F) ((V d (cV L) (jV L)).loc cc0_scratch1)) :
    ((((Memref.whole cc0_scratch1 : Memref sig .scVector .vmem S2x2048 .f32)).access (.whole S2x2048)).loc (V d (cV L) (jV L))
        ↦[(((Memref.whole cc0_scratch1 : Memref sig .scVector .vmem S2x2048 .f32)).access (.whole S2x2048)).set]{fullShare} f : sProp 𝕄)
      = ((V d (cV L) (jV L)).loc cc0_scratch1 ↦{fullShare} f) := by
  rw [show (((Memref.whole cc0_scratch1 : Memref sig .scVector .vmem S2x2048 .f32)).access (.whole S2x2048)).set = Finset.univ from Memref.set_access_whole cc0_scratch1]

omit [FloatOps F] in
theorem load8_unit_lt (hpre : PreOK m) (off : Fin 1 → Nat) (h : ∀ a, off a + S16.size a ≤ S1024.size a) (x : S16.Idx) :
    (((Memref.whole cc0_scratch2 : Memref sig .scVector .vmem S1024 .i32).view.readAt (Elt F) (Rect.unit (s := S1024) off S16.size h).toLoadRect (S8 m d L) x : Elt F .i32) : BitVec 32).toNat < 2048 := by
  rw [View.readAt_apply]; exact S8_lt m d L hpre _

omit [FloatOps F] in
theorem chk_row (hpre : PreOK m) (r : BitVec 32) (hr : r.toNat < 2) (off : Fin 1 → Nat) (h : ∀ a, off a + S16.size a ≤ S1024.size a) :
    ∀ a x, ((![broadcast S16 r, (Memref.whole cc0_scratch2 : Memref sig .scVector .vmem S1024 .i32).view.readAt (Elt F) (Rect.unit (s := S1024) off S16.size h).toLoadRect (S8 m d L)] : Fin 2 → IVec S16 32) a x).toNat < S2x2048.size a :=
  chk_words r hr _ (fun x => load8_unit_lt m d L hpre off h x)

end Contents

section Tile

variable (d : Dev nD) (L : grid0.Coords)

/-- The tile's scratch: two blocks of two rows, its connection words, its weight rows. -/
abbrev blk0 : Memref sig .scVector .vmem S2x2048 .f32 := Memref.whole cc0_scratch0
abbrev blk1 : Memref sig .scVector .vmem S2x2048 .f32 := Memref.whole cc0_scratch1
abbrev idxB : Memref sig .scVector .vmem S1024 .i32 := Memref.whole cc0_scratch2
abbrev wB : Memref sig .scVector .vmem S64x16 .f32 := Memref.whole cc0_scratch3

abbrev cell (sm : DmaSem sig) : GSem nD τ sig := (V d (cV L) (jV L), .dma sm)

omit [FloatOps F] in
theorem mem_cell (sm : DmaSem sig) (h : (SemLoc.dma sm : SemLoc sig).isScoped .scVector = true) :
    cell d L sm ∈ (ownCells (V d (cV L) (jV L)) : Finset (GSem nD τ sig)) := mem_ownCells.mpr ⟨rfl, h⟩
omit [FloatOps F] in
theorem cell_ne {a b : DmaSem sig} (h : a ≠ b) : cell d L a ≠ cell d L b := fun e => h (SemLoc.dma.inj (Prod.mk.inj e).2)

omit [FloatOps F] in
theorem ownSems0_V :
    (ownSems0 (V d (cV L) (jV L)) : sProp 𝕄)
      = iprop(semVal (cell d L cc0_scratch4.sem) 0 ∗ semVal (cell d L cc0_scratch5.sem) 0 ∗ semVal (cell d L cc0_scratch6.sem) 0 ∗ semVal (cell d L cc0_scratch7.sem) 0 ∗ semVal (cell d L cc0_scoped0.sem) 0 ∗ semVal (cell d L cc0_scoped1.sem) 0
          ∗ bigSep (((((((ownCells (V d (cV L) (jV L))).erase (cell d L cc0_scratch4.sem)).erase (cell d L cc0_scratch5.sem)).erase (cell d L cc0_scratch6.sem)).erase (cell d L cc0_scratch7.sem)).erase (cell d L cc0_scoped0.sem)).erase (cell d L cc0_scoped1.sem)) fun g => semVal g 0) := by
  unfold SparseCore.Cfg.ownSems0
  rw [SparseCore.bigSep_erase' (mem_cell d L cc0_scratch4.sem (by decide)),
    SparseCore.bigSep_erase' (Finset.mem_erase.mpr ⟨cell_ne d L (by decide), mem_cell d L cc0_scratch5.sem (by decide)⟩),
    SparseCore.bigSep_erase' (Finset.mem_erase.mpr ⟨cell_ne d L (by decide), Finset.mem_erase.mpr ⟨cell_ne d L (by decide), mem_cell d L cc0_scratch6.sem (by decide)⟩⟩),
    SparseCore.bigSep_erase' (Finset.mem_erase.mpr ⟨cell_ne d L (by decide), Finset.mem_erase.mpr ⟨cell_ne d L (by decide), Finset.mem_erase.mpr ⟨cell_ne d L (by decide), mem_cell d L cc0_scratch7.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), mem_cell d L cc0_scoped0.sem (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_cell d L cc0_scoped1.sem (by decide)⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end Tile

section SpecNames

variable (d : Dev nD) (L : grid0.Coords) (hpre : PreOK m)

/-- Row `r` of the tile's sixty-four, as a row of the matrix. -/
def rowOf (r : Nat) : Fin 2048 := ⟨(64 * (wid L).val + r) % 2048, Nat.mod_lt _ (by decide)⟩

omit [FloatOps F] in
theorem rowOf_val {r : Nat} (hr : r < 64) : (rowOf L r).val = 64 * (wid L).val + r :=
  Nat.mod_eq_of_lt (by have := (wid L).isLt; omega)

/-- The matrix. -/
abbrev MtA : S2048x2048.Idx → Elt F .f32 := mtArr (F := F) (m (cLoc d)) (hpre d) (m (wLoc d))

/-- The block of the tile's chunk `c`: its rows `2 c` and `2 c + 1`. -/
def chunkBlk (c : Nat) : S2x2048.Idx → Elt F .f32 :=
  mtBlk (F := F) (m (cLoc d)) (hpre d) (m (wLoc d)) (rowOf L (2 * c)) (rowOf L (2 * c + 1))

end SpecNames

end Cert.Kernel.Hand
end
-- ==== Proof.BitsTileLoads.lean ====
/-
  What the tile's vector loads read.

  The tile's first fetched scratch holds its 1024 connection words, sixteen per row; a load of sixteen words at offset
  `16 r` reads the connection words of the tile's row `r`.  Its second holds its 64 weight rows; a load of one row at row
  `r` reads the weights of the tile's row `r`.  The offsets the restore steps compute are the previous chunks' rows.
-/
import proofs.«207065_g23029614641262_cont_8to1_115_36_alg».proof.Proof.BitsTileViews
import Idealize.ShloMosaic.Lib.ValueLayout

noncomputable section

namespace Cert.Kernel.Hand

open Cert.Kernel

open Idealize.ShloMosaic Idealize.ShloMosaic.ValueIdx
open Idealize.ShloMosaic.SparseCore (S V T)
open Idealize.SL Idealize.SL.Sem

variable {F : FTy → Type}
variable (m : (ℓ : Loc nD τ sig) → Buf (Elt F) ℓ)
variable [FloatOps F]

omit [FloatOps F] in
/-- Sixteen words loaded at offset `16 r` of the fetched connection words are the connection words of the tile's row `r`. -/
theorem load_idx (d : Dev nD) (L : grid0.Coords) (off : Fin 1 → Nat) (h : ∀ a, off a + S16.size a ≤ S1024.size a) (r : Nat) (hr : r < 64)
    (ho : off 0 = 16 * r) :
    (Memref.whole cc0_scratch2 : Memref sig .scVector .vmem S1024 .i32).view.readAt (Elt F) (Rect.unit (s := S1024) off S16.size h).toLoadRect (S8 m d L)
      = idxRow (m (cLoc d)) (rowOf L r) := by
  funext x
  rw [View.readAt_apply, View.read_apply, cast_eq]
  unfold S8
  rw [View.read_apply, cast_eq]
  show (m (cLoc d) : IVec S32768 32) _ = (m (cLoc d) : IVec S32768 32) _
  refine congrArg _ (funext fun a => Fin.ext ?_)
  have hx : (x 0).val < 16 := (x 0).isLt
  have hw : (wid L).val < 32 := (wid L).isLt
  have hwv := wid_val L
  have hrow := rowOf_val L hr
  match a with
  | ⟨0, _⟩ =>
    show k0_off1 L 0 + 1 * (off 0 + 1 * (x 0).val) = 16 * (rowOf L r).val + (x 0).val
    rw [Gen.k0_off1_eq, hrow, ho]
    show 2048 * (L 1).val + 1024 * (L 0).val + 1 * (16 * r + 1 * (x 0).val) = _
    omega

omit [FloatOps F] in
/-- One row loaded at row `r` of the fetched weight rows, as a vector of sixteen lanes, is the weights of the tile's row `r`. -/
theorem load_w (d : Dev nD) (L : grid0.Coords) (off : Fin 2 → Nat) (h : ∀ a, off a + S1x16.size a ≤ S64x16.size a) (r : Nat) (hr : r < 64)
    (ho0 : off 0 = r) (ho1 : off 1 = 0) (hsc : S1x16.ShapeCasts S16) :
    shapeCast S16 ((Memref.whole cc0_scratch3 : Memref sig .scVector .vmem S64x16 .f32).view.readAt (Elt F) (Rect.unit (s := S64x16) off S1x16.size h).toLoadRect (S9 m d L)) hsc
      = wRow (m (wLoc d)) (rowOf L r) := by
  funext x
  obtain ⟨i, rfl⟩ : ∃ i : Fin 16, x = ix1 i := ⟨x 0, eq_ix1 x⟩
  rw [shapeCast_1a_a_apply, View.readAt_apply, View.read_apply, cast_eq]
  unfold S9
  rw [View.read_apply, cast_eq]
  show (m (wLoc d) : FVec F S2048x16 .f32) _ = (m (wLoc d) : FVec F S2048x16 .f32) _
  refine congrArg _ (funext fun a => Fin.ext ?_)
  have hi : i.val < 16 := i.isLt
  have hw : (wid L).val < 32 := (wid L).isLt
  have hwv := wid_val L
  have hrow := rowOf_val L hr
  match a with
  | ⟨0, _⟩ =>
    show k0_off2 L 0 + 1 * (off 0 + 1 * 0) = (rowOf L r).val
    rw [Gen.k0_off2_eq, hrow, ho0]
    show 128 * (L 1).val + 64 * (L 0).val + 1 * (r + 1 * 0) = _
    omega
  | ⟨1, _⟩ =>
    show k0_off2 L 1 + 1 * (off 1 + 1 * i.val) = i.val
    rw [Gen.k0_off2_eq, ho1]
    show 0 + 1 * (0 + 1 * i.val) = _
    omega

/-- The offsets the restore steps compute are those of the previous trip's four rows. -/
theorem off4_eq : ∀ k : Fin k0_t1_loop.trips, k0_cond1 k = 1#1 → k0_off4 k = ![64 * k.val - 64] := by decide +kernel
theorem off5_eq : ∀ k : Fin k0_t1_loop.trips, k0_cond1 k = 1#1 → k0_off5 k = ![64 * k.val - 48] := by decide +kernel
theorem off12_eq : ∀ k : Fin k0_t1_loop.trips, k0_cond2 k = 1#1 → k0_off12 k = ![64 * k.val - 32] := by decide +kernel
theorem off13_eq : ∀ k : Fin k0_t1_loop.trips, k0_cond2 k = 1#1 → k0_off13 k = ![64 * k.val - 16] := by decide +kernel

end Cert.Kernel.Hand

end
-- ==== Proof.BitsTileValue.lean ====
/-
  What the tile's loads read and what its indexed stores leave, as the rows of the matrix.

  The two stores with add of a chunk's two rows turn the block of zeros into the chunk's block; the two plain stores
  of zero at the same cells turn it back.  Each load of sixteen connection words or of a weight row, at the offsets the
  kernel computes at a trip, reads the row of the specification it stands for.
-/
import proofs.«207065_g23029614641262_cont_8to1_115_36_alg».proof.Proof.BitsSetup
import proofs.«207065_g23029614641262_cont_8to1_115_36_alg».proof.Proof.Gen.Kernel.Skeleton
import proofs.«207065_g23029614641262_cont_8to1_115_36_alg».proof.Proof.BitsTileViews
import proofs.«207065_g23029614641262_cont_8to1_115_36_alg».proof.Proof.BitsTileLoads

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Value

variable (d : Dev nD) (L : grid0.Coords) (hpre : PreOK m)

theorem zeroBlk_apply (j : S2x2048.Idx) : (zeroBlk (F := F)) j = FloatOps.ofBits .f32 0x00000000#32 := rfl
theorem pay1_apply (x : S16.Idx) : (k0_pay1 (F := F)) x = FloatOps.ofBits .f32 0x00000000#32 := rfl

/-- The block of zeros after two stores with add and two plain stores of zero at the same two index families. -/
theorem restore_pure (I0 I1 : Fin 2 → IVec S16 32) (w0 w1 : Vec F S16 .f32)
    (h0 h0' : ∀ a x, (I0 a x).toNat < S2x2048.size a) (h1 h1' : ∀ a x, (I1 a x).toNat < S2x2048.size a) :
    storeIdx (F := F) (e := .f32) (storeIdx (F := F) (e := .f32) (storeIdx (F := F) (e := .f32) (storeIdx (F := F) (e := .f32) (zeroBlk (F := F)) I0 w0 (fun _ => 1#1) true h0) I1 w1 (fun _ => 1#1) true h1) I0 (k0_pay1 (F := F)) (fun _ => 1#1) false h0') I1 (k0_pay1 (F := F)) (fun _ => 1#1) false h1'
      = zeroBlk (F := F) :=
  storeIdx_restore (zeroBlk (F := F)) (FloatOps.ofBits .f32 0x00000000#32) zeroBlk_apply I0 I1 w0 w1 (k0_pay1 (F := F)) (fun _ => 1#1)
    pay1_apply (fun _ => rfl) h0 h0' h1 h1'

theorem chunkBlk_eq (c : Nat) :
    chunkBlk m d L hpre c
      = storeIdx (F := F) (e := .f32)
          (storeIdx (F := F) (e := .f32) (zeroBlk (F := F)) (rowIdxs (m (cLoc d)) 0#32 (rowOf L (2 * c))) (wRow (m (wLoc d)) (rowOf L (2 * c))) (fun _ => 1#1) true
            (rowIdxs_inb (m (cLoc d)) (hpre d) 0#32 (by decide) (rowOf L (2 * c))))
          (rowIdxs (m (cLoc d)) 1#32 (rowOf L (2 * c + 1))) (wRow (m (wLoc d)) (rowOf L (2 * c + 1))) (fun _ => 1#1) true
          (rowIdxs_inb (m (cLoc d)) (hpre d) 1#32 (by decide) (rowOf L (2 * c + 1))) := rfl

omit [FloatOps F] in
theorem A0_write (f w : S2x2048.Idx → Elt F .f32) : ((Memref.whole cc0_scratch0 : Memref sig .scVector .vmem S2x2048 .f32).access (Rect.whole S2x2048)).write (Elt F) f w Finset.univ = w :=
  Memref.write_access_whole_univ (Elt F) cc0_scratch0 f w
omit [FloatOps F] in
theorem A0_read (f : S2x2048.Idx → Elt F .f32) : ((Memref.whole cc0_scratch0 : Memref sig .scVector .vmem S2x2048 .f32).access (Rect.whole S2x2048)).read (Elt F) f = f :=
  Memref.read_access_whole (Elt F) cc0_scratch0 f

/-- Two stores with add, of the two rows of chunk `c`, into the block of zeros held in scratch 0: the chunk's block. -/
theorem adds_blk0 (c : Nat) (v0 v1 : IVec S16 32) (u0 u1 : Vec F S16 .f32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1)))
    (hu0 : u0 = wRow (m (wLoc d)) (rowOf L (2 * c))) (hu1 : u1 = wRow (m (wLoc d)) (rowOf L (2 * c + 1))) :
    ((Memref.whole cc0_scratch0 : Memref sig .scVector .vmem S2x2048 .f32).access (Rect.whole S2x2048)).write (Elt F)
        (((Memref.whole cc0_scratch0 : Memref sig .scVector .vmem S2x2048 .f32).access (Rect.whole S2x2048)).write (Elt F) (zeroBlk (F := F))
          (storeIdx (((Memref.whole cc0_scratch0 : Memref sig .scVector .vmem S2x2048 .f32).access (Rect.whole S2x2048)).read (Elt F) (zeroBlk (F := F))) ![broadcast S16 0#32, v0] u0 (fun _ => 1#1) true hi0) Finset.univ)
        (storeIdx (((Memref.whole cc0_scratch0 : Memref sig .scVector .vmem S2x2048 .f32).access (Rect.whole S2x2048)).read (Elt F) (((Memref.whole cc0_scratch0 : Memref sig .scVector .vmem S2x2048 .f32).access (Rect.whole S2x2048)).write (Elt F) (zeroBlk (F := F))
          (storeIdx (((Memref.whole cc0_scratch0 : Memref sig .scVector .vmem S2x2048 .f32).access (Rect.whole S2x2048)).read (Elt F) (zeroBlk (F := F))) ![broadcast S16 0#32, v0] u0 (fun _ => 1#1) true hi0) Finset.univ))
          ![broadcast S16 1#32, v1] u1 (fun _ => 1#1) true hi1) Finset.univ
      = chunkBlk m d L hpre c := by
  subst hv0 hv1 hu0 hu1
  rw [A0_write, A0_write, A0_read, A0_read]
  rfl

/-- Two plain stores of zero at the cells of chunk `c`'s two rows, into the chunk's block held in scratch 0: the
    block of zeros. -/
theorem restore_blk0 (c : Nat) (v0 v1 : IVec S16 32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1))) :
    ((Memref.whole cc0_scratch0 : Memref sig .scVector .vmem S2x2048 .f32).access (Rect.whole S2x2048)).write (Elt F)
        (((Memref.whole cc0_scratch0 : Memref sig .scVector .vmem S2x2048 .f32).access (Rect.whole S2x2048)).write (Elt F) (chunkBlk m d L hpre c)
          (storeIdx (((Memref.whole cc0_scratch0 : Memref sig .scVector .vmem S2x2048 .f32).access (Rect.whole S2x2048)).read (Elt F) (chunkBlk m d L hpre c)) ![broadcast S16 0#32, v0] (k0_pay1 (F := F)) (fun _ => 1#1) false hi0) Finset.univ)
        (storeIdx (((Memref.whole cc0_scratch0 : Memref sig .scVector .vmem S2x2048 .f32).access (Rect.whole S2x2048)).read (Elt F) (((Memref.whole cc0_scratch0 : Memref sig .scVector .vmem S2x2048 .f32).access (Rect.whole S2x2048)).write (Elt F) (chunkBlk m d L hpre c)
          (storeIdx (((Memref.whole cc0_scratch0 : Memref sig .scVector .vmem S2x2048 .f32).access (Rect.whole S2x2048)).read (Elt F) (chunkBlk m d L hpre c)) ![broadcast S16 0#32, v0] (k0_pay1 (F := F)) (fun _ => 1#1) false hi0) Finset.univ))
          ![broadcast S16 1#32, v1] (k0_pay1 (F := F)) (fun _ => 1#1) false hi1) Finset.univ
      = zeroBlk (F := F) := by
  subst hv0 hv1
  rw [A0_write, A0_write, A0_read, A0_read, chunkBlk_eq]
  exact restore_pure (F := F) (rowIdxs (m (cLoc d)) 0#32 (rowOf L (2 * c))) (rowIdxs (m (cLoc d)) 1#32 (rowOf L (2 * c + 1)))
    (wRow (m (wLoc d)) (rowOf L (2 * c))) (wRow (m (wLoc d)) (rowOf L (2 * c + 1))) _ hi0 _ hi1

omit [FloatOps F] in
theorem A1_write (f w : S2x2048.Idx → Elt F .f32) : ((Memref.whole cc0_scratch1 : Memref sig .scVector .vmem S2x2048 .f32).access (Rect.whole S2x2048)).write (Elt F) f w Finset.univ = w :=
  Memref.write_access_whole_univ (Elt F) cc0_scratch1 f w
omit [FloatOps F] in
theorem A1_read (f : S2x2048.Idx → Elt F .f32) : ((Memref.whole cc0_scratch1 : Memref sig .scVector .vmem S2x2048 .f32).access (Rect.whole S2x2048)).read (Elt F) f = f :=
  Memref.read_access_whole (Elt F) cc0_scratch1 f

/-- Two stores with add, of the two rows of chunk `c`, into the block of zeros held in scratch 1: the chunk's block. -/
theorem adds_blk1 (c : Nat) (v0 v1 : IVec S16 32) (u0 u1 : Vec F S16 .f32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1)))
    (hu0 : u0 = wRow (m (wLoc d)) (rowOf L (2 * c))) (hu1 : u1 = wRow (m (wLoc d)) (rowOf L (2 * c + 1))) :
    ((Memref.whole cc0_scratch1 : Memref sig .scVector .vmem S2x2048 .f32).access (Rect.whole S2x2048)).write (Elt F)
        (((Memref.whole cc0_scratch1 : Memref sig .scVector .vmem S2x2048 .f32).access (Rect.whole S2x2048)).write (Elt F) (zeroBlk (F := F))
          (storeIdx (((Memref.whole cc0_scratch1 : Memref sig .scVector .vmem S2x2048 .f32).access (Rect.whole S2x2048)).read (Elt F) (zeroBlk (F := F))) ![broadcast S16 0#32, v0] u0 (fun _ => 1#1) true hi0) Finset.univ)
        (storeIdx (((Memref.whole cc0_scratch1 : Memref sig .scVector .vmem S2x2048 .f32).access (Rect.whole S2x2048)).read (Elt F) (((Memref.whole cc0_scratch1 : Memref sig .scVector .vmem S2x2048 .f32).access (Rect.whole S2x2048)).write (Elt F) (zeroBlk (F := F))
          (storeIdx (((Memref.whole cc0_scratch1 : Memref sig .scVector .vmem S2x2048 .f32).access (Rect.whole S2x2048)).read (Elt F) (zeroBlk (F := F))) ![broadcast S16 0#32, v0] u0 (fun _ => 1#1) true hi0) Finset.univ))
          ![broadcast S16 1#32, v1] u1 (fun _ => 1#1) true hi1) Finset.univ
      = chunkBlk m d L hpre c := by
  subst hv0 hv1 hu0 hu1
  rw [A1_write, A1_write, A1_read, A1_read]
  rfl

/-- Two plain stores of zero at the cells of chunk `c`'s two rows, into the chunk's block held in scratch 1: the
    block of zeros. -/
theorem restore_blk1 (c : Nat) (v0 v1 : IVec S16 32)
    (hi0 : ∀ a x, ((![broadcast S16 0#32, v0] : Fin 2 → IVec S16 32) a x).toNat < S2x2048.size a)
    (hi1 : ∀ a x, ((![broadcast S16 1#32, v1] : Fin 2 → IVec S16 32) a x).toNat < S2x2048.size a)
    (hv0 : v0 = idxRow (m (cLoc d)) (rowOf L (2 * c))) (hv1 : v1 = idxRow (m (cLoc d)) (rowOf L (2 * c + 1))) :
    ((Memref.whole cc0_scratch1 : Memref sig .scVector .vmem S2x2048 .f32).access (Rect.whole S2x2048)).write (Elt F)
        (((Memref.whole cc0_scratch1 : Memref sig .scVector .vmem S2x2048 .f32).access (Rect.whole S2x2048)).write (Elt F) (chunkBlk m d L hpre c)
          (storeIdx (((Memref.whole cc0_scratch1 : Memref sig .scVector .vmem S2x2048 .f32).access (Rect.whole S2x2048)).read (Elt F) (chunkBlk m d L hpre c)) ![broadcast S16 0#32, v0] (k0_pay1 (F := F)) (fun _ => 1#1) false hi0) Finset.univ)
        (storeIdx (((Memref.whole cc0_scratch1 : Memref sig .scVector .vmem S2x2048 .f32).access (Rect.whole S2x2048)).read (Elt F) (((Memref.whole cc0_scratch1 : Memref sig .scVector .vmem S2x2048 .f32).access (Rect.whole S2x2048)).write (Elt F) (chunkBlk m d L hpre c)
          (storeIdx (((Memref.whole cc0_scratch1 : Memref sig .scVector .vmem S2x2048 .f32).access (Rect.whole S2x2048)).read (Elt F) (chunkBlk m d L hpre c)) ![broadcast S16 0#32, v0] (k0_pay1 (F := F)) (fun _ => 1#1) false hi0) Finset.univ))
          ![broadcast S16 1#32, v1] (k0_pay1 (F := F)) (fun _ => 1#1) false hi1) Finset.univ
      = zeroBlk (F := F) := by
  subst hv0 hv1
  rw [A1_write, A1_write, A1_read, A1_read, chunkBlk_eq]
  exact restore_pure (F := F) (rowIdxs (m (cLoc d)) 0#32 (rowOf L (2 * c))) (rowIdxs (m (cLoc d)) 1#32 (rowOf L (2 * c + 1)))
    (wRow (m (wLoc d)) (rowOf L (2 * c))) (wRow (m (wLoc d)) (rowOf L (2 * c + 1))) _ hi0 _ hi1

end Value

section Sites

variable (d : Dev nD) (L : grid0.Coords)

theorem idx6 (k : Fin k0_t1_loop.trips) (h : ∀ a, (k0_off6 k) a + S16.size a ≤ S1024.size a) :
    (Memref.whole cc0_scratch2 : Memref sig .scVector .vmem S1024 .i32).view.readAt (Elt F) (Rect.unit (s := S1024) (k0_off6 k) S16.size h).toLoadRect (S8 m d L)
      = idxRow (m (cLoc d)) (rowOf L (2 * (2 * k.val))) := by
  have hk16 : k.val < 16 := lt_of_lt_of_eq k.isLt trips_eq

  refine load_idx m d L (k0_off6 k) h (2 * (2 * k.val)) (by omega) ?_
  rw [Gen.k0_off6_eq]
  show 64 * k.val = 16 * (2 * (2 * k.val))
  omega

theorem idx8 (k : Fin k0_t1_loop.trips) (h : ∀ a, (k0_off8 k) a + S16.size a ≤ S1024.size a) :
    (Memref.whole cc0_scratch2 : Memref sig .scVector .vmem S1024 .i32).view.readAt (Elt F) (Rect.unit (s := S1024) (k0_off8 k) S16.size h).toLoadRect (S8 m d L)
      = idxRow (m (cLoc d)) (rowOf L (2 * (2 * k.val) + 1)) := by
  have hk16 : k.val < 16 := lt_of_lt_of_eq k.isLt trips_eq

  refine load_idx m d L (k0_off8 k) h (2 * (2 * k.val) + 1) (by omega) ?_
  rw [Gen.k0_off8_eq]
  show 64 * k.val + 16 = 16 * (2 * (2 * k.val) + 1)
  omega

theorem idx14 (k : Fin k0_t1_loop.trips) (h : ∀ a, (k0_off14 k) a + S16.size a ≤ S1024.size a) :
    (Memref.whole cc0_scratch2 : Memref sig .scVector .vmem S1024 .i32).view.readAt (Elt F) (Rect.unit (s := S1024) (k0_off14 k) S16.size h).toLoadRect (S8 m d L)
      = idxRow (m (cLoc d)) (rowOf L (2 * (2 * k.val + 1))) := by
  have hk16 : k.val < 16 := lt_of_lt_of_eq k.isLt trips_eq

  refine load_idx m d L (k0_off14 k) h (2 * (2 * k.val + 1)) (by omega) ?_
  rw [Gen.k0_off14_eq]
  show 64 * k.val + 32 = 16 * (2 * (2 * k.val + 1))
  omega

theorem idx16 (k : Fin k0_t1_loop.trips) (h : ∀ a, (k0_off16 k) a + S16.size a ≤ S1024.size a) :
    (Memref.whole cc0_scratch2 : Memref sig .scVector .vmem S1024 .i32).view.readAt (Elt F) (Rect.unit (s := S1024) (k0_off16 k) S16.size h).toLoadRect (S8 m d L)
      = idxRow (m (cLoc d)) (rowOf L (2 * (2 * k.val + 1) + 1)) := by
  have hk16 : k.val < 16 := lt_of_lt_of_eq k.isLt trips_eq

  refine load_idx m d L (k0_off16 k) h (2 * (2 * k.val + 1) + 1) (by omega) ?_
  rw [Gen.k0_off16_eq]
  show 64 * k.val + 48 = 16 * (2 * (2 * k.val + 1) + 1)
  omega

theorem idx4 (k : Fin k0_t1_loop.trips) (hc : k0_cond1 k = 1#1) (h : ∀ a, (k0_off4 k) a + S16.size a ≤ S1024.size a) :
    (Memref.whole cc0_scratch2 : Memref sig .scVector .vmem S1024 .i32).view.readAt (Elt F) (Rect.unit (s := S1024) (k0_off4 k) S16.size h).toLoadRect (S8 m d L)
      = idxRow (m (cLoc d)) (rowOf L (2 * (2 * (k.val - 1)))) := by
  have hk16 : k.val < 16 := lt_of_lt_of_eq k.isLt trips_eq
  have hk0 : k.val ≠ 0 := (cond1_iff k).mp hc
  refine load_idx m d L (k0_off4 k) h (2 * (2 * (k.val - 1))) (by omega) ?_
  rw [off4_eq k hc]
  show 64 * k.val - 64 = 16 * (2 * (2 * (k.val - 1)))
  omega

theorem idx5 (k : Fin k0_t1_loop.trips) (hc : k0_cond1 k = 1#1) (h : ∀ a, (k0_off5 k) a + S16.size a ≤ S1024.size a) :
    (Memref.whole cc0_scratch2 : Memref sig .scVector .vmem S1024 .i32).view.readAt (Elt F) (Rect.unit (s := S1024) (k0_off5 k) S16.size h).toLoadRect (S8 m d L)
      = idxRow (m (cLoc d)) (rowOf L (2 * (2 * (k.val - 1)) + 1)) := by
  have hk16 : k.val < 16 := lt_of_lt_of_eq k.isLt trips_eq
  have hk0 : k.val ≠ 0 := (cond1_iff k).mp hc
  refine load_idx m d L (k0_off5 k) h (2 * (2 * (k.val - 1)) + 1) (by omega) ?_
  rw [off5_eq k hc]
  show 64 * k.val - 48 = 16 * (2 * (2 * (k.val - 1)) + 1)
  omega

theorem idx12 (k : Fin k0_t1_loop.trips) (hc : k0_cond2 k = 1#1) (h : ∀ a, (k0_off12 k) a + S16.size a ≤ S1024.size a) :
    (Memref.whole cc0_scratch2 : Memref sig .scVector .vmem S1024 .i32).view.readAt (Elt F) (Rect.unit (s := S1024) (k0_off12 k) S16.size h).toLoadRect (S8 m d L)
      = idxRow (m (cLoc d)) (rowOf L (2 * (2 * (k.val - 1) + 1))) := by
  have hk16 : k.val < 16 := lt_of_lt_of_eq k.isLt trips_eq
  have hk0 : k.val ≠ 0 := (cond2_iff k).mp hc
  refine load_idx m d L (k0_off12 k) h (2 * (2 * (k.val - 1) + 1)) (by omega) ?_
  rw [off12_eq k hc]
  show 64 * k.val - 32 = 16 * (2 * (2 * (k.val - 1) + 1))
  omega

theorem idx13 (k : Fin k0_t1_loop.trips) (hc : k0_cond2 k = 1#1) (h : ∀ a, (k0_off13 k) a + S16.size a ≤ S1024.size a) :
    (Memref.whole cc0_scratch2 : Memref sig .scVector .vmem S1024 .i32).view.readAt (Elt F) (Rect.unit (s := S1024) (k0_off13 k) S16.size h).toLoadRect (S8 m d L)
      = idxRow (m (cLoc d)) (rowOf L (2 * (2 * (k.val - 1) + 1) + 1)) := by
  have hk16 : k.val < 16 := lt_of_lt_of_eq k.isLt trips_eq
  have hk0 : k.val ≠ 0 := (cond2_iff k).mp hc
  refine load_idx m d L (k0_off13 k) h (2 * (2 * (k.val - 1) + 1) + 1) (by omega) ?_
  rw [off13_eq k hc]
  show 64 * k.val - 16 = 16 * (2 * (2 * (k.val - 1) + 1) + 1)
  omega

theorem w7 (k : Fin k0_t1_loop.trips) (h : ∀ a, (k0_off7 k) a + S1x16.size a ≤ S64x16.size a) :
    k0_pay4 (F := F) ((Memref.whole cc0_scratch3 : Memref sig .scVector .vmem S64x16 .f32).view.readAt (Elt F) (Rect.unit (s := S64x16) (k0_off7 k) S1x16.size h).toLoadRect (S9 m d L))
      = wRow (m (wLoc d)) (rowOf L (2 * (2 * k.val))) := by
  have hk16 : k.val < 16 := lt_of_lt_of_eq k.isLt trips_eq
  refine load_w m d L (k0_off7 k) h (2 * (2 * k.val)) (by omega) ?_ ?_ _
  · rw [Gen.k0_off7_eq]
    show 4 * k.val = 2 * (2 * k.val)
    omega
  · rw [Gen.k0_off7_eq]; rfl

theorem w9 (k : Fin k0_t1_loop.trips) (h : ∀ a, (k0_off9 k) a + S1x16.size a ≤ S64x16.size a) :
    k0_pay5 (F := F) ((Memref.whole cc0_scratch3 : Memref sig .scVector .vmem S64x16 .f32).view.readAt (Elt F) (Rect.unit (s := S64x16) (k0_off9 k) S1x16.size h).toLoadRect (S9 m d L))
      = wRow (m (wLoc d)) (rowOf L (2 * (2 * k.val) + 1)) := by
  have hk16 : k.val < 16 := lt_of_lt_of_eq k.isLt trips_eq
  refine load_w m d L (k0_off9 k) h (2 * (2 * k.val) + 1) (by omega) ?_ ?_ _
  · rw [Gen.k0_off9_eq]
    show 4 * k.val + 1 = 2 * (2 * k.val) + 1
    omega
  · rw [Gen.k0_off9_eq]; rfl

theorem w15 (k : Fin k0_t1_loop.trips) (h : ∀ a, (k0_off15 k) a + S1x16.size a ≤ S64x16.size a) :
    k0_pay2 (F := F) ((Memref.whole cc0_scratch3 : Memref sig .scVector .vmem S64x16 .f32).view.readAt (Elt F) (Rect.unit (s := S64x16) (k0_off15 k) S1x16.size h).toLoadRect (S9 m d L))
      = wRow (m (wLoc d)) (rowOf L (2 * (2 * k.val + 1))) := by
  have hk16 : k.val < 16 := lt_of_lt_of_eq k.isLt trips_eq
  refine load_w m d L (k0_off15 k) h (2 * (2 * k.val + 1)) (by omega) ?_ ?_ _
  · rw [Gen.k0_off15_eq]
    show 4 * k.val + 2 = 2 * (2 * k.val + 1)
    omega
  · rw [Gen.k0_off15_eq]; rfl

theorem w17 (k : Fin k0_t1_loop.trips) (h : ∀ a, (k0_off17 k) a + S1x16.size a ≤ S64x16.size a) :
    k0_pay3 (F := F) ((Memref.whole cc0_scratch3 : Memref sig .scVector .vmem S64x16 .f32).view.readAt (Elt F) (Rect.unit (s := S64x16) (k0_off17 k) S1x16.size h).toLoadRect (S9 m d L))
      = wRow (m (wLoc d)) (rowOf L (2 * (2 * k.val + 1) + 1)) := by
  have hk16 : k.val < 16 := lt_of_lt_of_eq k.isLt trips_eq
  refine load_w m d L (k0_off17 k) h (2 * (2 * k.val + 1) + 1) (by omega) ?_ ?_ _
  · rw [Gen.k0_off17_eq]
    show 4 * k.val + 3 = 2 * (2 * k.val + 1) + 1
    omega
  · rw [Gen.k0_off17_eq]; rfl

end Sites

end Cert.Kernel.Hand
end
-- ==== Proof.BitsTileOut.lean ====
/-
  What the tile's copies leave in the matrix.

  The copy at the end of half a trip moves a block of two rows onto two rows of the tile's share of the matrix.  The block
  holds the adds of those two rows into zeros, which is what the whole-array function `mtArr` holds in those rows: row
  `j` of the matrix is row `j % 2` of the block of the pair of rows `2 (j / 2), 2 (j / 2) + 1`, and the tile's chunks are
  such pairs because its first row is even.
-/
import proofs.«207065_g23029614641262_cont_8to1_115_36_alg».proof.Proof.BitsTileViews

noncomputable section

namespace Cert.Kernel.Hand

open Cert.Kernel

open Idealize.ShloMosaic Idealize.ShloMosaic.ValueIdx
open Idealize.ShloMosaic.SparseCore (S V T)
open Idealize.SL Idealize.SL.Sem

variable {F : FTy → Type}
variable (m : (ℓ : Loc nD τ sig) → Buf (Elt F) ℓ)
variable [FloatOps F]

/-- The matrix at row `64 wid + 2 c + p`, column `q`, is the tile's chunk `c` at `(p, q)`. -/
theorem MtA_chunk (d : Dev nD) (L : grid0.Coords) (hpre : PreOK m) (c : Nat) (hc : c < 32) (j : S2048x2048.Idx) (p : Fin 2) (q : Fin 2048)
    (h0 : (j 0).val = 64 * (wid L).val + 2 * c + p.val) (h1 : (j 1).val = q.val) :
    MtA m d hpre j = chunkBlk m d L hpre c (ix2 p q) := by
  have hp : p.val < 2 := p.isLt
  have hr0 := rowOf_val L (r := 2 * c) (by omega)
  have hr1 := rowOf_val L (r := 2 * c + 1) (by omega)
  have e0 : (⟨2 * ((j 0).val / 2), by have := (j 0).isLt; omega⟩ : Fin 2048) = rowOf L (2 * c) := Fin.ext (by rw [hr0]; show 2 * ((j 0).val / 2) = _; omega)
  have e1 : (⟨2 * ((j 0).val / 2) + 1, by have := (j 0).isLt; omega⟩ : Fin 2048) = rowOf L (2 * c + 1) := Fin.ext (by rw [hr1]; show 2 * ((j 0).val / 2) + 1 = _; omega)
  have e2 : (⟨(j 0).val % 2, Nat.mod_lt _ (by decide)⟩ : Fin 2) = p := Fin.ext (by show (j 0).val % 2 = _; omega)
  have e3 : (⟨(j 1).val, (j 1).isLt⟩ : Fin 2048) = q := Fin.ext h1
  show mtBlk (F := F) (m (cLoc d)) (hpre d) (m (wLoc d)) ⟨2 * ((j 0).val / 2), _⟩ ⟨2 * ((j 0).val / 2) + 1, _⟩
      (ix2 (⟨(j 0).val % 2, _⟩ : Fin 2) (⟨(j 1).val, _⟩ : Fin 2048)) = _
  rw [e0, e1, e2, e3]
  rfl

/-- After the copy of the first block of trip `k`, the matrix's rows `4 k, 4 k + 1` of the tile's share hold `mtArr`. -/
theorem out_value0 (d : Dev nD) (L : grid0.Coords) (hpre : PreOK m) (k : Fin k0_t1_loop.trips) (f0 : S2048x2048.Idx → Elt F .f32)
    (h : ∀ a, (k0_off10 L k) a + S2x2048.size a ≤ S2048x2048.size a) :
    ∀ i ∈ rowsBetween L (4 * k.val) (4 * k.val + 2),
      (((oV).slice (Rect.unit (s := S2048x2048) (k0_off10 L k) S2x2048.size h) (fun _ => rfl)).view.write (Elt F) f0 (chunkBlk m d L hpre (2 * k.val)) Finset.univ) i
        = MtA m d hpre i := by
  intro i hi
  rw [← set_out0 L k h] at hi
  obtain ⟨x, -, rfl⟩ := Finset.mem_map.mp hi
  have hk : k.val < 16 := by have := k.isLt; have e := trips_eq; omega
  have hx0 : (x 0).val < 2 := (x 0).isLt
  rw [View.write_emb_of_mem _ _ (Finset.mem_univ x), cast_eq]
  symm
  have hx : x = ix2 (⟨(x 0).val, hx0⟩ : Fin 2) (⟨(x 1).val, (x 1).isLt⟩ : Fin 2048) := eq_ix2 x
  rw [hx]
  refine MtA_chunk m d L hpre (2 * k.val) (by omega) _ _ _ ?_ ?_
  · show k0_off10 L k 0 + 1 * (x 0).val = 64 * (wid L).val + 2 * (2 * k.val) + (x 0).val
    have e10 : k0_off10 L k 0 = 128 * (L 1).val + 64 * (L 0).val + 4 * k.val := congrFun (Gen.k0_off10_eq L k) 0
    have hwv := wid_val L
    omega
  · show k0_off10 L k 1 + 1 * (x 1).val = (x 1).val
    have e10 : k0_off10 L k 1 = 0 := congrFun (Gen.k0_off10_eq L k) 1
    omega

/-- After the copy of the second block of trip `k`, rows `4 k + 2, 4 k + 3` hold `mtArr`. -/
theorem out_value1 (d : Dev nD) (L : grid0.Coords) (hpre : PreOK m) (k : Fin k0_t1_loop.trips) (f0 : S2048x2048.Idx → Elt F .f32)
    (h : ∀ a, (k0_off18 L k) a + S2x2048.size a ≤ S2048x2048.size a) :
    ∀ i ∈ rowsBetween L (4 * k.val + 2) (4 * k.val + 4),
      (((oV).slice (Rect.unit (s := S2048x2048) (k0_off18 L k) S2x2048.size h) (fun _ => rfl)).view.write (Elt F) f0 (chunkBlk m d L hpre (2 * k.val + 1)) Finset.univ) i
        = MtA m d hpre i := by
  intro i hi
  rw [← set_out1 L k h] at hi
  obtain ⟨x, -, rfl⟩ := Finset.mem_map.mp hi
  have hk : k.val < 16 := by have := k.isLt; have e := trips_eq; omega
  have hx0 : (x 0).val < 2 := (x 0).isLt
  rw [View.write_emb_of_mem _ _ (Finset.mem_univ x), cast_eq]
  symm
  have hx : x = ix2 (⟨(x 0).val, hx0⟩ : Fin 2) (⟨(x 1).val, (x 1).isLt⟩ : Fin 2048) := eq_ix2 x
  rw [hx]
  refine MtA_chunk m d L hpre (2 * k.val + 1) (by omega) _ _ _ ?_ ?_
  · show k0_off18 L k 0 + 1 * (x 0).val = 64 * (wid L).val + 2 * (2 * k.val + 1) + (x 0).val
    have e18 : k0_off18 L k 0 = 128 * (L 1).val + 64 * (L 0).val + 4 * k.val + 2 := congrFun (Gen.k0_off18_eq L k) 0
    have hwv := wid_val L
    omega
  · show k0_off18 L k 1 + 1 * (x 1).val = (x 1).val
    have e18 : k0_off18 L k 1 = 0 := congrFun (Gen.k0_off18_eq L k) 1
    omega

end Cert.Kernel.Hand

end
-- ==== Proof.BitsTileTrip.lean ====
/-
  One trip of the tile's loop, at a symbolic trip.

  Between trips each of the two blocks is either the block of zeros with its semaphore free (before the first trip)
  or on its way out: its copy to two rows of the matrix is in flight, to deliver those rows at the matrix's values
  and the block at the chunk's block.  A trip waits for each block's previous copy and restores the block to zero by
  two plain stores at the previous chunk's cells, adds the chunk's two weight rows at its cells, and starts the copy of
  the block out to the chunk's two rows.
-/
import proofs.«207065_g23029614641262_cont_8to1_115_36_alg».proof.Proof.BitsSetup
import proofs.«207065_g23029614641262_cont_8to1_115_36_alg».proof.Proof.Gen.Kernel.Skeleton
import proofs.«207065_g23029614641262_cont_8to1_115_36_alg».proof.Proof.BitsTileValue
import proofs.«207065_g23029614641262_cont_8to1_115_36_alg».proof.Proof.BitsTileOut

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Trip

variable (d : Dev nD) (L : grid0.Coords) (hpre : PreOK m)

/-- The transfers' counters in the machine's algebra. -/
abbrev EC : UEmb Counters (MT nD τ sig (HIx 1) (Elt F) ℕ UU ℕ) := countersEmb (U := UU)

/-- The credit of a copy of two rows out to the matrix. -/
abbrev NO : ℕ := sig.dmaCredit .scVector (Kind.scVector.table .hbm) (main_v1_scv : Ref sig .scVector).idx S2x2048 .f32
omit [FloatOps F] in
theorem NO_pos : 0 < NO := sig.dmaCredit_pos _ _ _ _ _ (by decide)

/-- Before trip `k`: the fetched scratches; the rows not yet written; before the first trip both blocks zero and
    their semaphores free, later the rows of the chunks before the previous trip's written and that trip's two copies
    in flight, each to deliver its two rows and its block. -/
def inv (O : CellTallies nD τ sig (HIx 1)) (W : Waits sig (HIx 1)) (f0 : S2048x2048.Idx → Elt F .f32) (k : Nat) (_ : Unit) : sProp 𝕄 :=
  iprop(Transfers.MayWaits (V d (cV L) (jV L)) (none : HIx 1) O
    ∗ ((V d (cV L) (jV L)).loc cc0_scratch2 ↦{fullShare} S8 m d L)
    ∗ ((V d (cV L) (jV L)).loc cc0_scratch3 ↦{fullShare} S9 m d L)
    ∗ (∃ W', ⌜∀ p ∈ W', p ∈ W ∨ p.2 = none⌝ ∗ owes (V d (cV L) (jV L)) O W')
    ∗ (oLoc d ↦[rowsBetween L (4 * k) 64]{fullShare} f0)
    ∗ (if k = 0 then
        iprop(((V d (cV L) (jV L)).loc cc0_scratch0 ↦{fullShare} (zeroBlk (F := F))) ∗ ((V d (cV L) (jV L)).loc cc0_scratch1 ↦{fullShare} (zeroBlk (F := F)))
          ∗ semVal (cell d L cc0_scratch4.sem) 0 ∗ semVal (cell d L cc0_scratch5.sem) 0)
      else
        iprop((oLoc d ↦[rowsBetween L 0 (4 * (k - 1))]{fullShare} MtA m d hpre)
          ∗ Transfers.Flight (EC (F := F)) (V d (cV L) (jV L)) (.dma cc0_scratch4.sem) (none : HIx 1) NO
              iprop((oLoc d ↦[rowsBetween L (4 * (k - 1)) (4 * (k - 1) + 2)]{fullShare} MtA m d hpre)
                ∗ ((V d (cV L) (jV L)).loc cc0_scratch0 ↦{fullShare} chunkBlk m d L hpre (2 * (k - 1))))
          ∗ Transfers.Flight (EC (F := F)) (V d (cV L) (jV L)) (.dma cc0_scratch5.sem) (none : HIx 1) NO
              iprop((oLoc d ↦[rowsBetween L (4 * (k - 1) + 2) (4 * (k - 1) + 4)]{fullShare} MtA m d hpre)
                ∗ ((V d (cV L) (jV L)).loc cc0_scratch1 ↦{fullShare} chunkBlk m d L hpre (2 * (k - 1) + 1))))))

theorem done_nil {k : Nat} (hk : k = 0) : (emp : sProp 𝕄) ⊢ (oLoc d ↦[rowsBetween L 0 (4 * k)]{fullShare} MtA m d hpre) := by
  rw [hk, show 4 * 0 = 0 from rfl, rowsBetween_self, pointsTo_empty]

omit [FloatOps F] in
theorem pts_eq {ℓ : Loc nD τ sig} {I : Finset (Idx ℓ)} {q : PosShare TreeShare} {f g : Buf (Elt F) ℓ} (h : f = g) :
    (ℓ ↦[I]{q} f : sProp 𝕄) = ℓ ↦[I]{q} g := by rw [h]

omit [FloatOps F] in
theorem pts_out0 (k : Fin k0_t1_loop.trips) (h : ∀ a, (k0_off10 L k) a + S2x2048.size a ≤ S2048x2048.size a) (f : S2048x2048.Idx → Elt F .f32) :
    ((((oV).slice (Rect.unit (s := S2048x2048) (k0_off10 L k) S2x2048.size h) (fun _ => rfl)).view.loc (V d (cV L) (jV L))
        ↦[((oV).slice (Rect.unit (s := S2048x2048) (k0_off10 L k) S2x2048.size h) (fun _ => rfl)).view.set]{fullShare} f) : sProp 𝕄)
      = (oLoc d ↦[rowsBetween L (4 * k.val) (4 * k.val + 2)]{fullShare} f) := by
  rw [set_out0]
omit [FloatOps F] in
theorem pts_out1 (k : Fin k0_t1_loop.trips) (h : ∀ a, (k0_off18 L k) a + S2x2048.size a ≤ S2048x2048.size a) (f : S2048x2048.Idx → Elt F .f32) :
    ((((oV).slice (Rect.unit (s := S2048x2048) (k0_off18 L k) S2x2048.size h) (fun _ => rfl)).view.loc (V d (cV L) (jV L))
        ↦[((oV).slice (Rect.unit (s := S2048x2048) (k0_off18 L k) S2x2048.size h) (fun _ => rfl)).view.set]{fullShare} f) : sProp 𝕄)
      = (oLoc d ↦[rowsBetween L (4 * k.val + 2) (4 * k.val + 4)]{fullShare} f) := by
  rw [set_out1]

theorem out_deliver0 (k : Fin k0_t1_loop.trips) (f0 : S2048x2048.Idx → Elt F .f32) (h : ∀ a, (k0_off10 L k) a + S2x2048.size a ≤ S2048x2048.size a) :
    iprop(((((oV).slice (Rect.unit (s := S2048x2048) (k0_off10 L k) S2x2048.size h) (fun _ => rfl)).view.loc (V d (cV L) (jV L))
        ↦[((oV).slice (Rect.unit (s := S2048x2048) (k0_off10 L k) S2x2048.size h) (fun _ => rfl)).view.set]{fullShare}
          (((oV).slice (Rect.unit (s := S2048x2048) (k0_off10 L k) S2x2048.size h) (fun _ => rfl)).view.write (Elt F) f0
            ((ReadAs.same : ReadAs (Elt F) S2x2048 .f32 S2x2048 .f32).apply ((blk0).view.read (Elt F) (chunkBlk m d L hpre (2 * k.val)))) Finset.univ)) : sProp 𝕄)
      ∗ ((blk0).view.loc (V d (cV L) (jV L)) ↦[(blk0).view.set]{fullShare} chunkBlk m d L hpre (2 * k.val)))
    ⊢ iprop((oLoc d ↦[rowsBetween L (4 * k.val) (4 * k.val + 2)]{fullShare} MtA m d hpre)
        ∗ ((V d (cV L) (jV L)).loc cc0_scratch0 ↦{fullShare} chunkBlk m d L hpre (2 * k.val))) := by
  rw [pts_out0, pts_blk0_view]
  exact sep_mono_left (Entails.of_eq (pointsTo_congr (out_value0 m d L hpre k f0 h)))
theorem out_deliver1 (k : Fin k0_t1_loop.trips) (f0 : S2048x2048.Idx → Elt F .f32) (h : ∀ a, (k0_off18 L k) a + S2x2048.size a ≤ S2048x2048.size a) :
    iprop(((((oV).slice (Rect.unit (s := S2048x2048) (k0_off18 L k) S2x2048.size h) (fun _ => rfl)).view.loc (V d (cV L) (jV L))
        ↦[((oV).slice (Rect.unit (s := S2048x2048) (k0_off18 L k) S2x2048.size h) (fun _ => rfl)).view.set]{fullShare}
          (((oV).slice (Rect.unit (s := S2048x2048) (k0_off18 L k) S2x2048.size h) (fun _ => rfl)).view.write (Elt F) f0
            ((ReadAs.same : ReadAs (Elt F) S2x2048 .f32 S2x2048 .f32).apply ((blk1).view.read (Elt F) (chunkBlk m d L hpre (2 * k.val + 1)))) Finset.univ)) : sProp 𝕄)
      ∗ ((blk1).view.loc (V d (cV L) (jV L)) ↦[(blk1).view.set]{fullShare} chunkBlk m d L hpre (2 * k.val + 1)))
    ⊢ iprop((oLoc d ↦[rowsBetween L (4 * k.val + 2) (4 * k.val + 4)]{fullShare} MtA m d hpre)
        ∗ ((V d (cV L) (jV L)).loc cc0_scratch1 ↦{fullShare} chunkBlk m d L hpre (2 * k.val + 1))) := by
  rw [pts_out1, pts_blk1_view]
  exact sep_mono_left (Entails.of_eq (pointsTo_congr (out_value1 m d L hpre k f0 h)))

theorem trip_spec (O : CellTallies nD τ sig (HIx 1)) (W : Waits sig (HIx 1)) (f0 : S2048x2048.Idx → Elt F .f32) (v2 : BitVec 32)
    (k : Fin k0_t1_loop.trips) (acc : Unit) :
    inv m d L hpre O W f0 k.val acc ⊢ wp frame (wpE (defs₀ (F := F)) 𝒱₀ (V d (cV L) (jV L)) none) Set.univ
      (k0_t1_body L connV (Memref.isWhole_whole _) wV (Memref.isWhole_whole _) zV (Memref.isWhole_whole _) oV (Memref.isWhole_whole _) blk0 (Memref.isWhole_whole _) blk1 (Memref.isWhole_whole _) idxB (Memref.isWhole_whole _) wB (Memref.isWhole_whole _) cc0_scratch4 cc0_scratch5 cc0_scratch6 cc0_scratch7 cc0_scoped0 cc0_scoped1 v2 k acc) (inv m d L hpre O W f0 (k.val + 1)) := by
  have hk16 : k.val < 16 := lt_of_lt_of_eq k.isLt trips_eq
  have e4 : 4 * (k.val + 1) = 4 * k.val + 4 := by omega
  by_cases hk : k.val = 0
  · have h1 : ¬ k0_cond1 k = 1#1 := fun h => (cond1_iff k).mp h hk
    have h2 : ¬ k0_cond2 k = 1#1 := fun h => (cond2_iff k).mp h hk
    unfold k0_t1_body; simp only [k0_part1_eq_skeleton]; unfold k0_part1_skel
    simp only [dif_neg h1, dif_neg h2, Prog.lift, Prog.bind_op, Prog.bind_ret, Prog.pure_eq_ret, Prog.bind_assoc]
    unfold inv
    rw [if_pos hk, if_neg (Nat.succ_ne_zero _)]
    simp only [Nat.add_sub_cancel]
    rw [e4]
    iintro ⟨#Hmw, H8, H9, ⟨%W', %hW', HO⟩, Ho, Hb0, Hb1, Hs10, Hs11⟩
    have hWfin : ∀ p ∈ W', p ∈ W ∨ p.2 = none := hW'

    -- half 0: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb0 := (Entails.of_eq (pts_blk0_access (F := F) d L _).symm) $$ Hb0
    iapply (SparseCore.wp_vectorStoreIdx 𝒱₀ (V d (cV L) (jV L)) none Set.univ) $$ Hb0; iintro Hb0
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb0; iintro Hb0
    ihave Hb0 := (Entails.of_eq (pts_blk0_access (F := F) d L _)) $$ Hb0
    ihave Hb0 := (Entails.of_eq (pts_eq (adds_blk0 m d L hpre (2 * k.val) _ _ _ _ _ _ (idx6 m d L k _) (idx8 m d L k _) (w7 m d L k _) (w9 m d L k _)))) $$ Hb0
    ihave Ho := (Entails.of_eq (congrArg (fun S => (oLoc d ↦[S]{fullShare} f0 : sProp 𝕄)) (rowsBetween_union L (a := 4 * k.val) (b := 4 * k.val + 2) (c := 64) (by omega) (by omega)).symm)) $$ Ho
    ihave Ho := (pointsTo_union (rowsBetween_disjoint L _ _ _)).1 $$ Ho
    icases Ho with ⟨Hw, Ho⟩
    ihave Hw := (Entails.of_eq (pts_out0 (F := F) d L k _ _).symm) $$ Hw
    ihave Hb0 := (Entails.of_eq (pts_blk0_view (F := F) d L fullShare _).symm) $$ Hb0
    iapply (Transfers.wp_dmaLocal (EC (F := F)) 𝒱₀ (V d (cV L) (jV L)) none (none : HIx 1) NO rfl NO_pos subset_rfl) $$ [Hb0 Hw Hs10]
    · isplitl [Hb0]; · iexact Hb0
      isplitl [Hw]; · iexact Hw
      iexact Hs10
    iintro Hf10
    ihave Hf10 := (Transfers.Flight_mono (EC (F := F)) (V d (cV L) (jV L)) (out_deliver0 m d L hpre k f0 _)) $$ Hf10

    -- half 1: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb1 := (Entails.of_eq (pts_blk1_access (F := F) d L _).symm) $$ Hb1
    iapply (SparseCore.wp_vectorStoreIdx 𝒱₀ (V d (cV L) (jV L)) none Set.univ) $$ Hb1; iintro Hb1
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb1; iintro Hb1
    ihave Hb1 := (Entails.of_eq (pts_blk1_access (F := F) d L _)) $$ Hb1
    ihave Hb1 := (Entails.of_eq (pts_eq (adds_blk1 m d L hpre (2 * k.val + 1) _ _ _ _ _ _ (idx14 m d L k _) (idx16 m d L k _) (w15 m d L k _) (w17 m d L k _)))) $$ Hb1
    ihave Ho := (Entails.of_eq (congrArg (fun S => (oLoc d ↦[S]{fullShare} f0 : sProp 𝕄)) (rowsBetween_union L (a := 4 * k.val + 2) (b := 4 * k.val + 4) (c := 64) (by omega) (by omega)).symm)) $$ Ho
    ihave Ho := (pointsTo_union (rowsBetween_disjoint L _ _ _)).1 $$ Ho
    icases Ho with ⟨Hw, Ho⟩
    ihave Hw := (Entails.of_eq (pts_out1 (F := F) d L k _ _).symm) $$ Hw
    ihave Hb1 := (Entails.of_eq (pts_blk1_view (F := F) d L fullShare _).symm) $$ Hb1
    iapply (Transfers.wp_dmaLocal (EC (F := F)) 𝒱₀ (V d (cV L) (jV L)) none (none : HIx 1) NO rfl NO_pos subset_rfl) $$ [Hb1 Hw Hs11]
    · isplitl [Hb1]; · iexact Hb1
      isplitl [Hw]; · iexact Hw
      iexact Hs11
    iintro Hf11
    ihave Hf11 := (Transfers.Flight_mono (EC (F := F)) (V d (cV L) (jV L)) (out_deliver1 m d L hpre k f0 _)) $$ Hf11

    rw [wp_ret]; imodintro
    isplitr; · iexact Hmw
    isplitl [H8]; · iexact H8
    isplitl [H9]; · iexact H9
    isplitl [HO]
    · iexists _; isplitr; rotate_left; · iexact HO
      ipureintro; exact hWfin
    isplitl [Ho]; · iexact Ho
    isplitr
    · iapply (done_nil m d L hpre hk); iempintro
    isplitl [Hf10]; · iexact Hf10
    iexact Hf11
  · have h1 : k0_cond1 k = 1#1 := (cond1_iff k).mpr hk
    have h2 : k0_cond2 k = 1#1 := (cond2_iff k).mpr hk
    unfold k0_t1_body; simp only [k0_part1_eq_skeleton]; unfold k0_part1_skel
    simp only [dif_pos h1, dif_pos h2, Prog.lift, Prog.bind_op, Prog.bind_ret, Prog.pure_eq_ret, Prog.bind_assoc]
    unfold inv
    rw [if_neg hk, if_neg (Nat.succ_ne_zero _)]
    simp only [Nat.add_sub_cancel]
    rw [e4]
    iintro ⟨#Hmw, H8, H9, ⟨%W', %hW', HO⟩, Ho, Hdone, Hf10, Hf11⟩
    have hWfin : ∀ p ∈ insert (SemLoc.dma cc0_scratch5.sem, (none : HIx 1)) (insert (SemLoc.dma cc0_scratch4.sem, (none : HIx 1)) W'), p ∈ W ∨ p.2 = none := by
      intro p hp
      rcases Finset.mem_insert.mp hp with rfl | hp
      · exact .inr rfl
      rcases Finset.mem_insert.mp hp with rfl | hp
      · exact .inr rfl
      exact hW' p hp

    -- half 0: wait for the previous copy-out of the block, restore the block to zero
    iapply (Transfers.wp_waitLocalO (EC (F := F)) 𝒱₀ (V d (cV L) (jV L)) none (none : HIx 1) rfl) $$ [Hf10 HO]
    · isplitl [Hf10]; · iexact Hf10
      isplitl [HO]; · iexact HO
      iapply (Transfers.MayWaits.elim (SemLoc.dma cc0_scratch4.sem)); iexact Hmw
    iintro ⟨⟨Hod, Hb0⟩, Hs10, HO⟩
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 0#32 (by decide) _ _))
    ihave Hb0 := (Entails.of_eq (pts_blk0_access (F := F) d L _).symm) $$ Hb0
    iapply (SparseCore.wp_vectorStoreIdx 𝒱₀ (V d (cV L) (jV L)) none Set.univ) $$ Hb0; iintro Hb0
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 1#32 (by decide) _ _))
    iapply (SparseCore.wp_vectorStoreIdx 𝒱₀ (V d (cV L) (jV L)) none Set.univ) $$ Hb0; iintro Hb0
    ihave Hb0 := (Entails.of_eq (pts_blk0_access (F := F) d L _)) $$ Hb0
    ihave Hb0 := (Entails.of_eq (pts_eq (restore_blk0 m d L hpre (2 * (k.val - 1)) _ _ _ _ (idx4 m d L k h1 _) (idx5 m d L k h1 _)))) $$ Hb0
    ihave Hdone := (pointsTo_union (ℓ := oLoc d) (rowsBetween_disjoint L 0 (4 * (k.val - 1)) (4 * (k.val - 1) + 2))).2 $$ [Hdone Hod]
    · isplitl [Hdone]; · iexact Hdone
      iexact Hod
    ihave Hdone := (Entails.of_eq (congrArg (fun S => (oLoc d ↦[S]{fullShare} MtA m d hpre : sProp 𝕄)) (rowsBetween_union L (a := 0) (b := 4 * (k.val - 1)) (c := 4 * (k.val - 1) + 2) (by omega) (by omega)))) $$ Hdone

    -- half 0: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb0 := (Entails.of_eq (pts_blk0_access (F := F) d L _).symm) $$ Hb0
    iapply (SparseCore.wp_vectorStoreIdx 𝒱₀ (V d (cV L) (jV L)) none Set.univ) $$ Hb0; iintro Hb0
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb0; iintro Hb0
    ihave Hb0 := (Entails.of_eq (pts_blk0_access (F := F) d L _)) $$ Hb0
    ihave Hb0 := (Entails.of_eq (pts_eq (adds_blk0 m d L hpre (2 * k.val) _ _ _ _ _ _ (idx6 m d L k _) (idx8 m d L k _) (w7 m d L k _) (w9 m d L k _)))) $$ Hb0
    ihave Ho := (Entails.of_eq (congrArg (fun S => (oLoc d ↦[S]{fullShare} f0 : sProp 𝕄)) (rowsBetween_union L (a := 4 * k.val) (b := 4 * k.val + 2) (c := 64) (by omega) (by omega)).symm)) $$ Ho
    ihave Ho := (pointsTo_union (rowsBetween_disjoint L _ _ _)).1 $$ Ho
    icases Ho with ⟨Hw, Ho⟩
    ihave Hw := (Entails.of_eq (pts_out0 (F := F) d L k _ _).symm) $$ Hw
    ihave Hb0 := (Entails.of_eq (pts_blk0_view (F := F) d L fullShare _).symm) $$ Hb0
    iapply (Transfers.wp_dmaLocal (EC (F := F)) 𝒱₀ (V d (cV L) (jV L)) none (none : HIx 1) NO rfl NO_pos subset_rfl) $$ [Hb0 Hw Hs10]
    · isplitl [Hb0]; · iexact Hb0
      isplitl [Hw]; · iexact Hw
      iexact Hs10
    iintro Hf10
    ihave Hf10 := (Transfers.Flight_mono (EC (F := F)) (V d (cV L) (jV L)) (out_deliver0 m d L hpre k f0 _)) $$ Hf10

    -- half 1: wait for the previous copy-out of the block, restore the block to zero
    iapply (Transfers.wp_waitLocalO (EC (F := F)) 𝒱₀ (V d (cV L) (jV L)) none (none : HIx 1) rfl) $$ [Hf11 HO]
    · isplitl [Hf11]; · iexact Hf11
      isplitl [HO]; · iexact HO
      iapply (Transfers.MayWaits.elim (SemLoc.dma cc0_scratch5.sem)); iexact Hmw
    iintro ⟨⟨Hod, Hb1⟩, Hs11, HO⟩
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 0#32 (by decide) _ _))
    ihave Hb1 := (Entails.of_eq (pts_blk1_access (F := F) d L _).symm) $$ Hb1
    iapply (SparseCore.wp_vectorStoreIdx 𝒱₀ (V d (cV L) (jV L)) none Set.univ) $$ Hb1; iintro Hb1
    iapply (wp_load 𝒱₀ (V d (cV L) (jV L)) none Set.univ (m := idxB) (S := Finset.univ) (Finset.subset_univ _)) $$ H8; iintro H8
    iapply (wp_assume 𝒱₀ (V d (cV L) (jV L)) none Set.univ (fun _ => chk_row m d L hpre 1#32 (by decide) _ _))
    iapply (SparseCore.wp_vectorStoreIdx 𝒱₀ (V d (cV L) (jV L)) none Set.univ) $$ Hb1; iintro Hb1
    ihave Hb1 := (Entails.of_eq (pts_blk1_access (F := F) d L _)) $$ Hb1
    ihave Hb1 := (Entails.of_eq (pts_eq (restore_blk1 m d L hpre (2 * (k.val - 1) + 1) _ _ _ _ (idx12 m d L k h2 _) (idx13 m d L k h2 _)))) $$ Hb1
    ihave Hdone := (pointsTo_union (ℓ := oLoc d) (rowsBetween_disjoint L 0 (4 * (k.val - 1) + 2) (4 * (k.val - 1) + 4))).2 $$ [Hdone Hod]
    · isplitl [Hdone]; · iexact Hdone
      iexact Hod
    ihave Hdone := (Entails.of_eq (congrArg (fun S => (oLoc d ↦[S]{fullShare} MtA m d hpre : sProp 𝕄)) (rowsBetween_union L (a := 0) (b := 4 * (k.val - 1) + 2) (c := 4 * (k.val - 1) + 4) (by omega) (by omega)))) $$ Hdone

    -- half 1: two stores with add, then the copy-out
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 0#32 (by decide) _ _))
    ihave Hb1 := (Entails.of_eq (pts_blk1_access (F := F) d L _).symm) $$ Hb1
    iapply (SparseCore.wp_vectorStoreIdx 𝒱₀ (V d (cV L) (jV L)) none Set.univ) $$ Hb1; iintro Hb1
    iapply (wp_load 𝒱₀ (V d (cV L) (jV L)) none Set.univ (m := idxB) (S := Finset.univ) (Finset.subset_univ _)) $$ H8; iintro H8
    iapply (wp_load 𝒱₀ (V d (cV L) (jV L)) none Set.univ (m := wB) (S := Finset.univ) (Finset.subset_univ _)) $$ H9; iintro H9
    iapply (wp_assume 𝒱₀ (V d (cV L) (jV L)) none Set.univ (chk_row m d L hpre 1#32 (by decide) _ _))
    iapply (SparseCore.wp_vectorStoreIdx 𝒱₀ (V d (cV L) (jV L)) none Set.univ) $$ Hb1; iintro Hb1
    ihave Hb1 := (Entails.of_eq (pts_blk1_access (F := F) d L _)) $$ Hb1
    ihave Hb1 := (Entails.of_eq (pts_eq (adds_blk1 m d L hpre (2 * k.val + 1) _ _ _ _ _ _ (idx14 m d L k _) (idx16 m d L k _) (w15 m d L k _) (w17 m d L k _)))) $$ Hb1
    ihave Ho := (Entails.of_eq (congrArg (fun S => (oLoc d ↦[S]{fullShare} f0 : sProp 𝕄)) (rowsBetween_union L (a := 4 * k.val + 2) (b := 4 * k.val + 4) (c := 64) (by omega) (by omega)).symm)) $$ Ho
    ihave Ho := (pointsTo_union (rowsBetween_disjoint L _ _ _)).1 $$ Ho
    icases Ho with ⟨Hw, Ho⟩
    ihave Hw := (Entails.of_eq (pts_out1 (F := F) d L k _ _).symm) $$ Hw
    ihave Hb1 := (Entails.of_eq (pts_blk1_view (F := F) d L fullShare _).symm) $$ Hb1
    iapply (Transfers.wp_dmaLocal (EC (F := F)) 𝒱₀ (V d (cV L) (jV L)) none (none : HIx 1) NO rfl NO_pos subset_rfl) $$ [Hb1 Hw Hs11]
    · isplitl [Hb1]; · iexact Hb1
      isplitl [Hw]; · iexact Hw
      iexact Hs11
    iintro Hf11
    ihave Hf11 := (Transfers.Flight_mono (EC (F := F)) (V d (cV L) (jV L)) (out_deliver1 m d L hpre k f0 _)) $$ Hf11

    ihave Hdone := (Entails.of_eq (congrArg (fun S => (oLoc d ↦[S]{fullShare} MtA m d hpre : sProp 𝕄)) (congrArg (rowsBetween L 0) (show 4 * (k.val - 1) + 4 = 4 * k.val by omega)))) $$ Hdone
    rw [wp_ret]; imodintro
    isplitr; · iexact Hmw
    isplitl [H8]; · iexact H8
    isplitl [H9]; · iexact H9
    isplitl [HO]
    · iexists _; isplitr; rotate_left; · iexact HO
      ipureintro; exact hWfin
    isplitl [Ho]; · iexact Ho
    isplitl [Hdone]; · iexact Hdone
    isplitl [Hf10]; · iexact Hf10
    iexact Hf11

end Trip
end Cert.Kernel.Hand
end
-- ==== Proof.BitsTileObl.lean ====
/-
  The vector-subcore kernel on one tile, and its body obligation for the launch.

  The tile fetches the block of zeros into its two blocks (two copies reading one array: each holds half of the tile's
  read share of it), its connection words and its weight rows; runs the sixteen trips; waits for the last two copies.
  It hands back what it was handed, its sixty-four rows of the matrix at the matrix's values.
-/
import proofs.«207065_g23029614641262_cont_8to1_115_36_alg».proof.Proof.BitsSetup
import proofs.«207065_g23029614641262_cont_8to1_115_36_alg».proof.Proof.Gen.Kernel.Skeleton
import proofs.«207065_g23029614641262_cont_8to1_115_36_alg».proof.Proof.BitsTileTrip

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Body

variable (d : Dev nD) (L : grid0.Coords) (hpre : PreOK m)

omit [FloatOps F] in
theorem fetch8 (f8 : S1024.Idx → Elt F .i32) :
    (idxB).view.write (Elt F) f8 ((ReadAs.same : ReadAs (Elt F) S1024 .i32 S1024 .i32).apply ((connSl L).view.read (Elt F) (m (cLoc d)))) Finset.univ = S8 m d L :=
  View.write_whole_univ _ _ _
omit [FloatOps F] in
theorem fetch9 (f9 : S64x16.Idx → Elt F .f32) :
    (wB).view.write (Elt F) f9 ((ReadAs.same : ReadAs (Elt F) S64x16 .f32 S64x16 .f32).apply ((wSl L).view.read (Elt F) (m (wLoc d)))) Finset.univ = S9 m d L :=
  View.write_whole_univ _ _ _
theorem fetchZ0 (f6 : S2x2048.Idx → Elt F .f32) :
    (blk0).view.write (Elt F) f6 ((ReadAs.same : ReadAs (Elt F) S2x2048 .f32 S2x2048 .f32).apply ((zV).view.read (Elt F) (zeroBlk (F := F)))) Finset.univ = zeroBlk (F := F) :=
  View.write_whole_univ _ _ _
theorem fetchZ1 (f7 : S2x2048.Idx → Elt F .f32) :
    (blk1).view.write (Elt F) f7 ((ReadAs.same : ReadAs (Elt F) S2x2048 .f32 S2x2048 .f32).apply ((zV).view.read (Elt F) (zeroBlk (F := F)))) Finset.univ = zeroBlk (F := F) :=
  View.write_whole_univ _ _ _

/-- After the last trip: every row before the last two chunks written, the last two copies in flight. -/
theorem inv_final (O : CellTallies nD τ sig (HIx 1)) (W : Waits sig (HIx 1)) (f0 : S2048x2048.Idx → Elt F .f32) (acc : Unit) :
    inv m d L hpre O W f0 k0_t1_loop.trips acc ⊢ inv m d L hpre O W f0 16 acc := by
  rw [trips_eq]

/-- The kernel on one vector subcore. -/
theorem tile_body (O : CellTallies nD τ sig (HIx 1)) (W : Waits sig (HIx 1)) (hO : ∀ g, O g none = 0) :
    iprop(levAts (K (F := F)).L (K (F := F)).lev ∗ emp ∗ goRes m d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (cc0_k L connV (Memref.isWhole_whole _) wV (Memref.isWhole_whole _) zV (Memref.isWhole_whole _) oV (Memref.isWhole_whole _) blk0 (Memref.isWhole_whole _) blk1 (Memref.isWhole_whole _) idxB (Memref.isWhole_whole _) wB (Memref.isWhole_whole _) cc0_scratch4 cc0_scratch5 cc0_scratch6 cc0_scratch7 cc0_scoped0 cc0_scoped1)
          fun _ => iprop(tdRes m hpre d L ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0_k_eq_skeleton]; unfold cc0_k_skel
  simp only [Prog.lift, Prog.bind_op, Prog.bind_ret, Prog.pure_eq_ret, Prog.bind_assoc]
  rw [(K (F := F)).scopedBufs_V facts d (cV L) (jV L), SparseCore.Cfg.scopedSems0_V (Val := Elt F) d (cV L) (jV L), ownSems0_V, ownBufs_V]
  unfold goRes tdRes
  iintro ⟨#Hlv, -, ⟨Hc, Hw, Hz, %f0, Ho⟩, ⟨⟨%f6, Hb0⟩, ⟨%f7, Hb1⟩, ⟨%f8, H8⟩, ⟨%f9, H9⟩, Hbufs⟩, ⟨Hs10, Hs11, Hs12, Hs13, Hr0, Hr1, Hsems⟩, HO⟩
  ihave Hmw := ((K (F := F)).mayWaits_none (thr := (V d (cV L) (jV L))) hO) $$ Hlv
  icases Hmw with #Hmw
  -- the two fetches of the block of zeros, each reading half of the tile's share of it
  ihave Hz := (pointsTo_share (PosShare.mem_left_op_right _)).1 $$ Hz
  icases Hz with ⟨Hz1, Hz2⟩
  ihave Hz1 := (Entails.of_eq (pts_z_view (F := F) d L _ _).symm) $$ Hz1
  ihave Hz2 := (Entails.of_eq (pts_z_view (F := F) d L _ _).symm) $$ Hz2

  iapply (Transfers.wp_dmaLocal (EC (F := F)) 𝒱₀ (V d (cV L) (jV L)) none (none : HIx 1) _ rfl (View.amount_pos _ _ (show 0 < S2x2048.numel by decide)) (Finset.subset_univ _)) $$ [Hz1 Hb0 Hs12]
  · isplitl [Hz1]; · iexact Hz1
    isplitl [Hb0]; · iexact Hb0
    iexact Hs12
  iintro Hf12

  iapply (Transfers.wp_dmaLocal (EC (F := F)) 𝒱₀ (V d (cV L) (jV L)) none (none : HIx 1) _ rfl (View.amount_pos _ _ (show 0 < S2x2048.numel by decide)) (Finset.subset_univ _)) $$ [Hz2 Hb1 Hs13]
  · isplitl [Hz2]; · iexact Hz2
    isplitl [Hb1]; · iexact Hb1
    iexact Hs13
  iintro Hf13
  -- the tile's connection words and weight rows, each fetched and waited for at once

  iapply (Transfers.wp_dmaLocal (EC (F := F)) 𝒱₀ (V d (cV L) (jV L)) none (none : HIx 1) _ rfl (View.amount_pos _ _ (show 0 < S1024.numel by decide)) (Finset.subset_univ _)) $$ [Hc H8 Hr0]
  · isplitl [Hc]; · iexact Hc
    isplitl [H8]; · iexact H8
    iexact Hr0
  iintro Hfr0

  iapply (Transfers.wp_waitLocalO (EC (F := F)) 𝒱₀ (V d (cV L) (jV L)) none (none : HIx 1) rfl) $$ [Hfr0 HO]
  · isplitl [Hfr0]; · iexact Hfr0
    isplitl [HO]; · iexact HO
    iapply (Transfers.MayWaits.elim (SemLoc.dma cc0_scoped0.sem)); iexact Hmw
  iintro ⟨⟨H8, Hc⟩, Hr0, HO⟩
  ihave H8 := (Entails.of_eq (pts_eq (fetch8 m d L f8))) $$ H8

  iapply (Transfers.wp_dmaLocal (EC (F := F)) 𝒱₀ (V d (cV L) (jV L)) none (none : HIx 1) _ rfl (View.amount_pos _ _ (show 0 < S64x16.numel by decide)) (Finset.subset_univ _)) $$ [Hw H9 Hr1]
  · isplitl [Hw]; · iexact Hw
    isplitl [H9]; · iexact H9
    iexact Hr1
  iintro Hfr1

  iapply (Transfers.wp_waitLocalO (EC (F := F)) 𝒱₀ (V d (cV L) (jV L)) none (none : HIx 1) rfl) $$ [Hfr1 HO]
  · isplitl [Hfr1]; · iexact Hfr1
    isplitl [HO]; · iexact HO
    iapply (Transfers.MayWaits.elim (SemLoc.dma cc0_scoped1.sem)); iexact Hmw
  iintro ⟨⟨H9, Hw⟩, Hr1, HO⟩
  ihave H9 := (Entails.of_eq (pts_eq (fetch9 m d L f9))) $$ H9

  iapply (Transfers.wp_waitLocalO (EC (F := F)) 𝒱₀ (V d (cV L) (jV L)) none (none : HIx 1) rfl) $$ [Hf12 HO]
  · isplitl [Hf12]; · iexact Hf12
    isplitl [HO]; · iexact HO
    iapply (Transfers.MayWaits.elim (SemLoc.dma cc0_scratch6.sem)); iexact Hmw
  iintro ⟨⟨Hb0, Hz1⟩, Hs12, HO⟩
  ihave Hb0 := (Entails.of_eq (pts_eq (fetchZ0 (F := F) f6))) $$ Hb0

  iapply (Transfers.wp_waitLocalO (EC (F := F)) 𝒱₀ (V d (cV L) (jV L)) none (none : HIx 1) rfl) $$ [Hf13 HO]
  · isplitl [Hf13]; · iexact Hf13
    isplitl [HO]; · iexact HO
    iapply (Transfers.MayWaits.elim (SemLoc.dma cc0_scratch7.sem)); iexact Hmw
  iintro ⟨⟨Hb1, Hz2⟩, Hs13, HO⟩
  ihave Hb1 := (Entails.of_eq (pts_eq (fetchZ1 (F := F) f7))) $$ Hb1
  -- the loop
  ihave Ho := (Entails.of_eq (congrArg (fun S => (oLoc d ↦[S]{fullShare} f0 : sProp 𝕄)) (rowsSet_eq L))) $$ Ho
  sl_for (inv m d L hpre O W f0) $$ [H8 H9 HO Ho Hb0 Hb1 Hs10 Hs11]
  case region =>
    intro k acc
    exact trip_spec m d L hpre O W f0 _ k acc
  · unfold inv
    rw [if_pos rfl]
    isplitr; · iexact Hmw
    isplitl [H8]; · iexact H8
    isplitl [H9]; · iexact H9
    isplitl [HO]
    · iexists _; isplitr; rotate_left; · iexact HO
      ipureintro
      intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact .inl hp
    isplitl [Ho]; · iexact Ho
    isplitl [Hb0]; · iexact Hb0
    isplitl [Hb1]; · iexact Hb1
    isplitl [Hs10]; · iexact Hs10
    iexact Hs11
  iintro %acc HI
  ihave HI := (inv_final m d L hpre O W f0 acc) $$ HI
  unfold inv
  rw [if_neg (by decide : ¬ (16 : Nat) = 0)]
  icases HI with ⟨-, H8, H9, ⟨%W', %hW', HO⟩, Hrest, Hdone, Hf10, Hf11⟩

  iapply (Transfers.wp_waitLocalO (EC (F := F)) 𝒱₀ (V d (cV L) (jV L)) none (none : HIx 1) rfl) $$ [Hf10 HO]
  · isplitl [Hf10]; · iexact Hf10
    isplitl [HO]; · iexact HO
    iapply (Transfers.MayWaits.elim (SemLoc.dma cc0_scratch4.sem)); iexact Hmw
  iintro ⟨⟨Hod0, Hb0⟩, Hs10, HO⟩

  iapply (Transfers.wp_waitLocalO (EC (F := F)) 𝒱₀ (V d (cV L) (jV L)) none (none : HIx 1) rfl) $$ [Hf11 HO]
  · isplitl [Hf11]; · iexact Hf11
    isplitl [HO]; · iexact HO
    iapply (Transfers.MayWaits.elim (SemLoc.dma cc0_scratch5.sem)); iexact Hmw
  iintro ⟨⟨Hod1, Hb1⟩, Hs11, HO⟩
  rw [wp_ret]; imodintro
  ihave Hdone := (pointsTo_union (ℓ := oLoc d) (rowsBetween_disjoint L 0 (4 * (16 - 1)) (4 * (16 - 1) + 2))).2 $$ [Hdone Hod0]
  · isplitl [Hdone]; · iexact Hdone
    iexact Hod0
  ihave Hdone := (Entails.of_eq (congrArg (fun S => (oLoc d ↦[S]{fullShare} MtA m d hpre : sProp 𝕄)) (rowsBetween_union L (a := 0) (b := 4 * (16 - 1)) (c := 4 * (16 - 1) + 2) (by omega) (by omega)))) $$ Hdone
  ihave Hdone := (pointsTo_union (ℓ := oLoc d) (rowsBetween_disjoint L 0 (4 * (16 - 1) + 2) (4 * (16 - 1) + 4))).2 $$ [Hdone Hod1]
  · isplitl [Hdone]; · iexact Hdone
    iexact Hod1
  ihave Hdone := (Entails.of_eq (congrArg (fun S => (oLoc d ↦[S]{fullShare} MtA m d hpre : sProp 𝕄)) ((rowsBetween_union L (a := 0) (b := 4 * (16 - 1) + 2) (c := 4 * (16 - 1) + 4) (by omega) (by omega)).trans (rowsSet_eq L).symm))) $$ Hdone
  ihave Hz1 := (Entails.of_eq (pts_z_view (F := F) d L _ _)) $$ Hz1
  ihave Hz2 := (Entails.of_eq (pts_z_view (F := F) d L _ _)) $$ Hz2
  isplitl [Hc Hw Hz1 Hz2 Hdone]
  · isplitl [Hc]; · iexact Hc
    isplitl [Hw]; · iexact Hw
    isplitl [Hz1 Hz2]
    · iapply (pointsTo_share (PosShare.mem_left_op_right _)).2
      isplitl [Hz1]; · iexact Hz1
      iexact Hz2
    iexact Hdone
  isplitl [Hb0 Hb1 H8 H9 Hbufs]
  · isplitl [Hb0]; · iexists _; iexact Hb0
    isplitl [Hb1]; · iexists _; iexact Hb1
    isplitl [H8]; · iexists _; iexact H8
    isplitl [H9]; · iexists _; iexact H9
    iexact Hbufs
  isplitl [Hs10 Hs11 Hs12 Hs13 Hr0 Hr1 Hsems]
  · isplitl [Hs10]; · iexact Hs10
    isplitl [Hs11]; · iexact Hs11
    isplitl [Hs12]; · iexact Hs12
    isplitl [Hs13]; · iexact Hs13
    isplitl [Hr0]; · iexact Hr0
    isplitl [Hr1]; · iexact Hr1
    iexact Hsems
  iexists _; isplitr; rotate_left; · iexact HO
  ipureintro
  intro p hp
  rcases Finset.mem_insert.mp hp with rfl | hp
  · exact .inr rfl
  rcases Finset.mem_insert.mp hp with rfl | hp
  · exact .inr rfl
  exact hW' p hp

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile Facts₀.hcore0 Facts₀.hsub0 (fun c s => cc0_k (coordsV c s)
          connV (Memref.isWhole_whole _) wV (Memref.isWhole_whole _) zV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0 cc0_scoped1) ⟨⟩ c s := rfl

end Body

/-- The body obligation of the vector-subcore kernel: from what the call hands a tile to what it takes back. -/
theorem tileObl (m : (ℓ : Loc nD τ sig) → Buf (Elt F) ℓ) (hpre : PreOK m) : (K (F := F)).TileObl (D (F := F)) 𝒱 (P m hpre) v₀ 0 := by
  intro d c i O W hO _ _
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

end Cert.Kernel.Hand
end
-- ==== Proof.BitsSplit.lean ====
/-
  The whole arrays split among the thirty-two vector subcores, and joined back.

  Tile (c, s) of the grid has number 2 s + c, so the tiles are numbered 0 … 31 exactly once.  Tile n takes connection
  words 1024 n … 1024 n + 1023, weight rows 64 n … 64 n + 63 and rows 64 n … 64 n + 63 of the matrix: three cuts of an
  array into thirty-two consecutive pieces, pairwise disjoint and covering it.  The block of zeros is read by every
  tile, so it is cut by share instead: one read share per tile and a remainder kept aside.
-/
import proofs.«207065_g23029614641262_cont_8to1_115_36_alg».proof.Proof.BitsSetup

noncomputable section

namespace Cert.Kernel.Hand

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles, numbered -/

/-- Tile number n sits on core n % 2, subcore n / 2. -/
def tileOf (n : Fin 32) : grid0.Coords :=
  coordsV ⟨n.val % 2, Nat.mod_lt _ (by decide)⟩ ⟨n.val / 2, by have h := n.isLt; show n.val / 2 < 16; omega⟩

theorem wid_tileOf (n : Fin 32) : wid (tileOf n) = n :=
  Fin.ext (by show 2 * (n.val / 2) + n.val % 2 = n.val; omega)

/-- The numbering as a one-to-one correspondence between the numbers and the grid's (core, subcore) pairs. -/
def tileEquiv : Fin 32 ≃ Fin ((K (F := F)).nCore 0) × Fin ((K (F := F)).nSub 0) where
  toFun n := (⟨n.val % 2, Nat.mod_lt _ (by decide)⟩, ⟨n.val / 2, by have h := n.isLt; show n.val / 2 < 16; omega⟩)
  invFun p := ⟨2 * p.2.val + p.1.val, by
    have h1 : p.1.val < 2 := p.1.isLt
    have h2 : p.2.val < 16 := p.2.isLt
    omega⟩
  left_inv n := Fin.ext (by show 2 * (n.val / 2) + n.val % 2 = n.val; omega)
  right_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega

/-- A product over the cores of products over their subcores is a product over the tile numbers. -/
theorem bigSep_tiles (Φ : grid0.Coords → sProp 𝕄) :
    (bigSep Finset.univ fun c : Fin ((K (F := F)).nCore 0) => bigSep Finset.univ fun i : Fin ((K (F := F)).nSub 0) =>
        Φ (coordsV (Fin.cast nCore_zero c) (Fin.cast nSub_zero i)))
      = bigSep Finset.univ fun n : Fin 32 => Φ (tileOf n) := by
  rw [← bigSep_univ_prod (fun p : Fin ((K (F := F)).nCore 0) × Fin ((K (F := F)).nSub 0) =>
      Φ (coordsV (Fin.cast nCore_zero p.1) (Fin.cast nSub_zero p.2))),
    bigSep_univ_equiv (tileEquiv (F := F))]
  rfl

/-! ## The three cuts into thirty-two consecutive pieces -/

/-- Tile n's connection words are words 1024 n … 1024 n + 1023. -/
theorem mem_connSet (L : grid0.Coords) (x : S32768.Idx) :
    x ∈ connSet L ↔ 1024 * (wid L).val ≤ (x 0).val ∧ (x 0).val < 1024 * (wid L).val + 1024 := by
  show x ∈ ((View.whole (main_arg1_scv : Ref sig .scVector)).slice
    (Rect.unit (s := S32768) (k0_off1 L) S1024.size (Facts₀.k0_off1_inb L))).set ↔ _
  rw [View.set_slice_whole, Rect.mem_set_unit, Gen.k0_off1_eq]
  show (∀ a : Fin 1, _) ↔ _
  rw [Fin.forall_fin_one]
  show (2048 * (L 1).val + 1024 * (L 0).val ≤ (x 0).val ∧ (x 0).val < 2048 * (L 1).val + 1024 * (L 0).val + 1024)
    ↔ (1024 * (2 * (L 1).val + (L 0).val) ≤ (x 0).val ∧ (x 0).val < 1024 * (2 * (L 1).val + (L 0).val) + 1024)
  omega

/-- Tile n's weight rows are rows 64 n … 64 n + 63. -/
theorem mem_wSet (L : grid0.Coords) (x : S2048x16.Idx) :
    x ∈ wSet L ↔ 64 * (wid L).val ≤ (x 0).val ∧ (x 0).val < 64 * (wid L).val + 64 := by
  show x ∈ ((View.whole (main_arg2_scv : Ref sig .scVector)).slice
    (Rect.unit (s := S2048x16) (k0_off2 L) S64x16.size (Facts₀.k0_off2_inb L))).set ↔ _
  rw [View.set_slice_whole, Rect.mem_set_unit, Gen.k0_off2_eq]
  show (∀ a : Fin 2, _) ↔ _
  rw [Fin.forall_fin_two]
  have h1 : (x 1).val < 16 := (x 1).isLt
  show ((128 * (L 1).val + 64 * (L 0).val ≤ (x 0).val ∧ (x 0).val < 128 * (L 1).val + 64 * (L 0).val + 64)
      ∧ (0 ≤ (x 1).val ∧ (x 1).val < 0 + 16))
    ↔ (64 * (2 * (L 1).val + (L 0).val) ≤ (x 0).val ∧ (x 0).val < 64 * (2 * (L 1).val + (L 0).val) + 64)
  omega

theorem rowsSet_eq_rect (L : grid0.Coords) : rowsSet L = (rowsRect (wid L)).set := by
  show ((View.whole (main_v1_scv : Ref sig .scVector)).slice (rowsRect (wid L))).set = _
  exact View.set_slice_whole _ _

theorem conn_disjoint : ∀ n ∈ (Finset.univ : Finset (Fin 32)), ∀ n' ∈ (Finset.univ : Finset (Fin 32)), n ≠ n' →
    Disjoint (connSet (tileOf n)) (connSet (tileOf n')) := fun n _ n' _ hne =>
  Finset.disjoint_left.mpr fun x h h' => by
    rw [mem_connSet, wid_tileOf] at h h'
    have : n.val ≠ n'.val := fun e => hne (Fin.ext e)
    omega

theorem conn_cover : (Finset.univ : Finset (Fin 32)).biUnion (fun n => connSet (tileOf n)) = Finset.univ := by
  ext x
  simp only [Finset.mem_biUnion, Finset.mem_univ, true_and, iff_true]
  have hx : (x 0).val < 32768 := (x 0).isLt
  refine ⟨⟨(x 0).val / 1024, by omega⟩, ?_⟩
  rw [mem_connSet, wid_tileOf]
  show 1024 * ((x 0).val / 1024) ≤ (x 0).val ∧ (x 0).val < 1024 * ((x 0).val / 1024) + 1024
  omega

theorem w_disjoint : ∀ n ∈ (Finset.univ : Finset (Fin 32)), ∀ n' ∈ (Finset.univ : Finset (Fin 32)), n ≠ n' →
    Disjoint (wSet (tileOf n)) (wSet (tileOf n')) := fun n _ n' _ hne =>
  Finset.disjoint_left.mpr fun x h h' => by
    rw [mem_wSet, wid_tileOf] at h h'
    have : n.val ≠ n'.val := fun e => hne (Fin.ext e)
    omega

theorem w_cover : (Finset.univ : Finset (Fin 32)).biUnion (fun n => wSet (tileOf n)) = Finset.univ := by
  ext x
  simp only [Finset.mem_biUnion, Finset.mem_univ, true_and, iff_true]
  have hx : (x 0).val < 2048 := (x 0).isLt
  refine ⟨⟨(x 0).val / 64, by omega⟩, ?_⟩
  rw [mem_wSet, wid_tileOf]
  show 64 * ((x 0).val / 64) ≤ (x 0).val ∧ (x 0).val < 64 * ((x 0).val / 64) + 64
  omega

theorem rows_disjoint : ∀ n ∈ (Finset.univ : Finset (Fin 32)), ∀ n' ∈ (Finset.univ : Finset (Fin 32)), n ≠ n' →
    Disjoint (rowsSet (tileOf n)) (rowsSet (tileOf n')) := fun n _ n' _ hne => by
  rw [rowsSet_eq_rect, rowsSet_eq_rect, wid_tileOf, wid_tileOf]; exact Rect.part_disjoint hdiv32 hne

theorem rows_cover : (Finset.univ : Finset (Fin 32)).biUnion (fun n => rowsSet (tileOf n)) = Finset.univ :=
  (Finset.biUnion_congr rfl fun n _ => by rw [rowsSet_eq_rect, wid_tileOf]).trans (Rect.biUnion_part hdiv32)

/-- Each whole array is the product of its thirty-two pieces. -/
theorem cPts_tiles (d : Dev nD) (f : Buf (Elt F) (cLoc d)) :
    (cLoc d ↦{fullShare} f : sProp 𝕄) = bigSep Finset.univ fun n : Fin 32 => cLoc d ↦[connSet (tileOf n)]{fullShare} f := by
  rw [← pointsTo_biUnion Finset.univ (ℓ := cLoc d) (fun n => connSet (tileOf n)) conn_disjoint, conn_cover]; try rfl
theorem wPts_tiles (d : Dev nD) (f : Buf (Elt F) (wLoc d)) :
    (wLoc d ↦{fullShare} f : sProp 𝕄) = bigSep Finset.univ fun n : Fin 32 => wLoc d ↦[wSet (tileOf n)]{fullShare} f := by
  rw [← pointsTo_biUnion Finset.univ (ℓ := wLoc d) (fun n => wSet (tileOf n)) w_disjoint, w_cover]; try rfl
theorem oPts_tiles (d : Dev nD) (f : Buf (Elt F) (oLoc d)) :
    (oLoc d ↦{fullShare} f : sProp 𝕄) = bigSep Finset.univ fun n : Fin 32 => oLoc d ↦[rowsSet (tileOf n)]{fullShare} f := by
  rw [← pointsTo_biUnion Finset.univ (ℓ := oLoc d) (fun n => rowsSet (tileOf n)) rows_disjoint, rows_cover]; try rfl

/-! ## The split and the join -/

variable (m : (ℓ : Loc nD τ sig) → Buf (Elt F) ℓ) [FloatOps F]

/-- What the call hands the two SparseCores together is what tiles 0 … 31 are handed. -/
theorem st_tiles (hpre : PreOK m) (d : Dev nD) :
    (bigSep Finset.univ fun c : Fin ((K (F := F)).nCore 0) => (P m hpre).st 0 d c)
      = bigSep Finset.univ fun n : Fin 32 => goRes m d (tileOf n) :=
  bigSep_tiles (F := F) (goRes m d)

/-- What the two SparseCores hand back together is what tiles 0 … 31 hand back. -/
theorem dn_tiles (hpre : PreOK m) (d : Dev nD) :
    (bigSep Finset.univ fun c : Fin ((K (F := F)).nCore 0) => (P m hpre).dn 0 d c)
      = bigSep Finset.univ fun n : Fin 32 => tdRes m hpre d (tileOf n) :=
  bigSep_tiles (F := F) (tdRes m hpre d)

omit [FloatOps F] in
/-- The matrix held whole at one function is each tile's rows held at some contents. -/
theorem oRows_some (d : Dev nD) (f : Buf (Elt F) (oLoc d)) :
    (oLoc d ↦{fullShare} f : sProp 𝕄)
      ⊢ (bigSep Finset.univ fun n : Fin 32 => iprop(∃ g, oLoc d ↦[rowsSet (tileOf n)]{fullShare} g) : sProp 𝕄) := by
  rw [oPts_tiles]
  exact bigSep_mono fun n _ =>
    show (oLoc d ↦[rowsSet (tileOf n)]{fullShare} f : sProp 𝕄) ⊢ iprop(∃ g, oLoc d ↦[rowsSet (tileOf n)]{fullShare} g) from by
      iintro H; iexists f; iexact H

/-- The arguments, the block of zeros and the matrix, whole, cut into what each of the thirty-two tiles is handed; a
    remainder of the block of zeros' share stays aside. -/
theorem splitTiles (hpre : PreOK m) (d : Dev nD) :
    iprop((cLoc d ↦{fullShare} m (cLoc d)) ∗ (wLoc d ↦{fullShare} m (wLoc d)) ∗ (zLoc d ↦{fullShare} (zeroBlk (F := F))) ∗ (∃ f, oLoc d ↦{fullShare} f))
      ⊢ (iprop((zLoc d ↦{Transfers.shareDrop fullShare 32} (zeroBlk (F := F))) ∗ bigSep Finset.univ fun c : Fin ((K (F := F)).nCore 0) => (P m hpre).st 0 d c) : sProp 𝕄) := by
  rw [st_tiles]
  unfold goRes
  rw [bigSep_sep', bigSep_sep', bigSep_sep', ← cPts_tiles, ← wPts_tiles]
  simp only [wid_tileOf]
  iintro ⟨Hc, Hw, Hz, %f, Ho⟩
  ihave Hz' := (Transfers.pointsTo_toks_split fullShare 32) $$ Hz
  icases Hz' with ⟨Hz0, Hzt⟩
  isplitl [Hz0]; · iexact Hz0
  isplitl [Hc]; · iexact Hc
  isplitl [Hw]; · iexact Hw
  isplitl [Hzt]; · iexact Hzt
  iapply (oRows_some d f); iexact Ho

/-- What the thirty-two tiles hand back, with the remainder kept aside, is the arguments and the block of zeros whole
    again, and the matrix whole at mtArr: every tile left its rows at that one function. -/
theorem joinTiles (hpre : PreOK m) (d : Dev nD) :
    iprop((zLoc d ↦{Transfers.shareDrop fullShare 32} (zeroBlk (F := F))) ∗ bigSep Finset.univ fun c : Fin ((K (F := F)).nCore 0) => (P m hpre).dn 0 d c)
      ⊢ (iprop((cLoc d ↦{fullShare} m (cLoc d)) ∗ (wLoc d ↦{fullShare} m (wLoc d)) ∗ (zLoc d ↦{fullShare} (zeroBlk (F := F)))
          ∗ (oLoc d ↦{fullShare} (mtArr (F := F) (m (cLoc d)) (hpre d) (m (wLoc d))))) : sProp 𝕄) := by
  rw [dn_tiles]
  unfold tdRes
  rw [bigSep_sep', bigSep_sep', bigSep_sep', ← cPts_tiles, ← wPts_tiles, ← oPts_tiles]
  simp only [wid_tileOf]
  iintro ⟨Hz0, Hc, Hw, Hzt, Ho⟩
  isplitl [Hc]; · iexact Hc
  isplitl [Hw]; · iexact Hw
  isplitl [Hz0 Hzt]
  · iapply (Transfers.pointsTo_toks_join fullShare 32)
    isplitl [Hz0]; · iexact Hz0
    iexact Hzt
  iexact Ho

end Cert.Kernel.Hand

end
-- ==== Proof.BitsMainHost.lean ====
/-
  @main's host operations and the contents of the TensorCore's arrays between them: a constant zero, its broadcast to
  the block of two rows of zeros, (the SparseCore call, which leaves the matrix), and the activations reshaped to a
  matrix.
-/
import proofs.«207065_g23029614641262_cont_8to1_115_36_alg».proof.Proof.BitsSetup
import proofs.«207065_g23029614641262_cont_8to1_115_36_alg».proof.Proof.Gen.Kernel.Launch
import proofs.«207065_g23029614641262_cont_8to1_115_36_alg».proof.Proof.Gen.Kernel.Skeleton
import proofs.«207065_g23029614641262_cont_8to1_115_36_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.BitsSplit
set_option maxRecDepth 16384

noncomputable section

namespace Cert.Kernel.Hand

open Cert.Kernel

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ)

/-! ## The TensorCore's arrays -/

abbrev a' : DevRef τ sig := Proc.devRef .tc (main_arg0 : Ref sig .tc)
abbrev c' : DevRef τ sig := Proc.devRef .tc (main_arg1 : Ref sig .tc)
abbrev w' : DevRef τ sig := Proc.devRef .tc (main_arg2 : Ref sig .tc)
abbrev b' : DevRef τ sig := Proc.devRef .tc (main_arg3 : Ref sig .tc)
abbrev k' : DevRef τ sig := Proc.devRef .tc (main_cst : Ref sig .tc)
abbrev z' : DevRef τ sig := Proc.devRef .tc (main_v0 : Ref sig .tc)
abbrev o' : DevRef τ sig := Proc.devRef .tc (main_v1 : Ref sig .tc)
abbrev x' : DevRef τ sig := Proc.devRef .tc (main_v2 : Ref sig .tc)
abbrev r' : DevRef τ sig := Proc.devRef .tc (main_v3 : Ref sig .tc)
abbrev kLoc (d : Dev nD) : Loc nD τ sig := (SparseCore.T d).loc main_cst

/-- The nine arrays of @main. -/
abbrev S9refs : Finset (DevRef τ sig) := {a', c', w', b', k', z', o', x', r'}

/-- The nine, held at a valuation, one by one. -/
theorem held_S9 (d : Dev nD) (Vv : Valuation τ sig (Elt F)) :
    (held (T d) S9refs Vv : sProp 𝕄) = iprop((aLoc d ↦{fullShare} Vv a') ∗ (cLoc d ↦{fullShare} Vv c') ∗ (wLoc d ↦{fullShare} Vv w')
      ∗ (bLoc d ↦{fullShare} Vv b') ∗ (kLoc d ↦{fullShare} Vv k') ∗ (zLoc d ↦{fullShare} Vv z') ∗ (oLoc d ↦{fullShare} Vv o')
      ∗ (x2Loc d ↦{fullShare} Vv x') ∗ (rLoc d ↦{fullShare} Vv r')) := by
  unfold held S9refs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The TensorCore's unscoped buffers are those nine. -/
theorem unscopedBufs_eq (d : Dev nD) (Ww : (b : Ref sig .tc) → Buf (Elt F) ((d.tc : Thread nD τ).loc b)) :
    (unscopedBufs d Ww : sProp 𝕄) = iprop((aLoc d ↦{fullShare} Ww main_arg0) ∗ (cLoc d ↦{fullShare} Ww main_arg1) ∗ (wLoc d ↦{fullShare} Ww main_arg2)
      ∗ (bLoc d ↦{fullShare} Ww main_arg3) ∗ (kLoc d ↦{fullShare} Ww main_cst) ∗ (zLoc d ↦{fullShare} Ww main_v0) ∗ (oLoc d ↦{fullShare} Ww main_v1)
      ∗ (x2Loc d ↦{fullShare} Ww main_v2) ∗ (rLoc d ↦{fullShare} Ww main_v3)) := by
  unfold unscopedBufs
  rw [show (Finset.univ.filter fun b : Ref sig .tc => ¬ b.isScoped) = {main_arg0, main_arg1, main_arg2, main_arg3, main_cst, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- So the unscoped buffers at a valuation's contents are the nine held at it. -/
theorem unscoped_held (d : Dev nD) (Vv : Valuation τ sig (Elt F)) :
    (unscopedBufs d (fun b => Vv (Proc.devRef .tc b)) : sProp 𝕄) = held (T d) S9refs Vv := by
  rw [unscopedBufs_eq, held_S9]

/-! ## The host operations and the arrays' contents between them -/

abbrev opCst : HloOp τ sig (Elt F) := StableHlo.nullary main_cst (constant S_ .f32 0x00000000#32)
abbrev opBc : HloOp τ sig (Elt F) :=
  StableHlo.unary main_cst main_v0 (broadcastInDim S2x2048 ![] Facts₀.bcast_S_S2x2048 : (⟨S_, .f32⟩ : BufTy).Contents (Elt F) → (⟨S2x2048, .f32⟩ : BufTy).Contents (Elt F))
abbrev opRs : HloOp τ sig (Elt F) := StableHlo.reshape main_arg0 main_v2 rfl Facts₀.shapeCasts_S1x2048x2048_S2048x2048

theorem hCst : (opCst (F := F)).bufs ⊆ S9refs := show ({k'} : Finset (DevRef τ sig)) ⊆ S9refs by decide
theorem hBc : (opBc (F := F)).bufs ⊆ S9refs := show ({k', z'} : Finset (DevRef τ sig)) ⊆ S9refs by decide
theorem hRs : (opRs (F := F)).bufs ⊆ S9refs := show ({a', x'} : Finset (DevRef τ sig)) ⊆ S9refs by decide

/-- The arrays at launch; after the constant; after its broadcast; -/
def V0 (d : Dev nD) : Valuation τ sig (Elt F) := fun b => m (d, b)
def V1 (d : Dev nD) : Valuation τ sig (Elt F) := (opCst (F := F)).result (V0 m d)
def V2 (d : Dev nD) : Valuation τ sig (Elt F) := (opBc (F := F)).result (V1 m d)
/-- after the SparseCore call, which leaves the matrix; after the reshape. -/
def V2' (hpre : PreOK m) (d : Dev nD) : Valuation τ sig (Elt F) :=
  Function.update (V2 m d) o' (mtArr (F := F) (m (cLoc d)) (hpre d) (m (wLoc d)))
def V3 (hpre : PreOK m) (d : Dev nD) : Valuation τ sig (Elt F) := (opRs (F := F)).result (V2' m hpre d)

theorem V2_of_ne (d : Dev nD) {r : Ref sig .tc} (h1 : r ≠ main_v0) (h0 : r ≠ main_cst) : V2 m d (Proc.devRef .tc r) = m (d, Proc.devRef .tc r) := by
  unfold V2 V1
  rw [StableHlo.unary_result_ne (h := h1), StableHlo.nullary_result_ne (h := h0)]; rfl
theorem V2_z (d : Dev nD) : V2 m d z' = zeroBlk (F := F) := by
  unfold V2 V1
  rw [StableHlo.unary_result' , StableHlo.nullary_result']; rfl

theorem V2'_o (hpre : PreOK m) (d : Dev nD) : V2' m hpre d o' = mtArr (F := F) (m (cLoc d)) (hpre d) (m (wLoc d)) := Function.update_self _ _ _
theorem V2'_of_ne (hpre : PreOK m) (d : Dev nD) {b : DevRef τ sig} (h : b ≠ o') : V2' m hpre d b = V2 m d b := Function.update_of_ne h _ _

theorem V3_x (hpre : PreOK m) (d : Dev nD) : V3 m hpre d x' = x2Arr (F := F) (m (aLoc d)) := by
  unfold V3
  rw [StableHlo.reshape_result, V2'_of_ne m hpre d (by decide), V2_of_ne m d (by decide) (by decide)]; rfl
theorem V3_of_ne (hpre : PreOK m) (d : Dev nD) {b : DevRef τ sig} (h : b ≠ x') : V3 m hpre d b = V2' m hpre d b :=
  HloOp.result_of_not_mem _ _ (by rw [show (opRs (F := F)).writes = {x'} from rfl, Finset.mem_singleton]; exact h)

theorem V3_a (hpre : PreOK m) (d : Dev nD) : V3 m hpre d a' = m (aLoc d) := by
  rw [V3_of_ne m hpre d (by decide), V2'_of_ne m hpre d (by decide), V2_of_ne m d (by decide) (by decide)]
theorem V3_c (hpre : PreOK m) (d : Dev nD) : V3 m hpre d c' = m (cLoc d) := by
  rw [V3_of_ne m hpre d (by decide), V2'_of_ne m hpre d (by decide), V2_of_ne m d (by decide) (by decide)]
theorem V3_w (hpre : PreOK m) (d : Dev nD) : V3 m hpre d w' = m (wLoc d) := by
  rw [V3_of_ne m hpre d (by decide), V2'_of_ne m hpre d (by decide), V2_of_ne m d (by decide) (by decide)]
theorem V3_b (hpre : PreOK m) (d : Dev nD) : V3 m hpre d b' = m (bLoc d) := by
  rw [V3_of_ne m hpre d (by decide), V2'_of_ne m hpre d (by decide), V2_of_ne m d (by decide) (by decide)]
theorem V3_o (hpre : PreOK m) (d : Dev nD) : V3 m hpre d o' = mtArr (F := F) (m (cLoc d)) (hpre d) (m (wLoc d)) := by
  rw [V3_of_ne m hpre d (by decide), V2'_o]

/-! ## The nine arrays at each of those contents, one by one -/

theorem held_V2 (d : Dev nD) :
    (held (T d) S9refs (V2 m d) : sProp 𝕄) = iprop((aLoc d ↦{fullShare} m (aLoc d)) ∗ (cLoc d ↦{fullShare} m (cLoc d)) ∗ (wLoc d ↦{fullShare} m (wLoc d))
      ∗ (bLoc d ↦{fullShare} m (bLoc d)) ∗ (kLoc d ↦{fullShare} V2 m d k') ∗ (zLoc d ↦{fullShare} zeroBlk (F := F)) ∗ (oLoc d ↦{fullShare} m (oLoc d))
      ∗ (x2Loc d ↦{fullShare} m (x2Loc d)) ∗ (rLoc d ↦{fullShare} m (rLoc d))) := by
  rw [held_S9, V2_of_ne m d (r := main_arg0) (by decide) (by decide), V2_of_ne m d (r := main_arg1) (by decide) (by decide),
    V2_of_ne m d (r := main_arg2) (by decide) (by decide), V2_of_ne m d (r := main_arg3) (by decide) (by decide), V2_z,
    V2_of_ne m d (r := main_v1) (by decide) (by decide), V2_of_ne m d (r := main_v2) (by decide) (by decide),
    V2_of_ne m d (r := main_v3) (by decide) (by decide)]

theorem held_V2' (hpre : PreOK m) (d : Dev nD) :
    (held (T d) S9refs (V2' m hpre d) : sProp 𝕄) = iprop((aLoc d ↦{fullShare} m (aLoc d)) ∗ (cLoc d ↦{fullShare} m (cLoc d)) ∗ (wLoc d ↦{fullShare} m (wLoc d))
      ∗ (bLoc d ↦{fullShare} m (bLoc d)) ∗ (kLoc d ↦{fullShare} V2 m d k') ∗ (zLoc d ↦{fullShare} zeroBlk (F := F))
      ∗ (oLoc d ↦{fullShare} mtArr (F := F) (m (cLoc d)) (hpre d) (m (wLoc d)))
      ∗ (x2Loc d ↦{fullShare} m (x2Loc d)) ∗ (rLoc d ↦{fullShare} m (rLoc d))) := by
  rw [held_S9, V2'_o, V2'_of_ne m hpre d (b := a') (by decide), V2'_of_ne m hpre d (b := c') (by decide), V2'_of_ne m hpre d (b := w') (by decide),
    V2'_of_ne m hpre d (b := b') (by decide), V2'_of_ne m hpre d (b := k') (by decide), V2'_of_ne m hpre d (b := z') (by decide),
    V2'_of_ne m hpre d (b := x') (by decide), V2'_of_ne m hpre d (b := r') (by decide),
    V2_of_ne m d (r := main_arg0) (by decide) (by decide), V2_of_ne m d (r := main_arg1) (by decide) (by decide),
    V2_of_ne m d (r := main_arg2) (by decide) (by decide), V2_of_ne m d (r := main_arg3) (by decide) (by decide), V2_z,
    V2_of_ne m d (r := main_v2) (by decide) (by decide), V2_of_ne m d (r := main_v3) (by decide) (by decide)]

/-- What the TensorCore call finds in each array. -/
abbrev WR (hpre : PreOK m) (d : Dev nD) (b : Ref sig .tc) : Buf (Elt F) ((d.tc : Thread nD τ).loc b) := V3 m hpre d (Proc.devRef .tc b)

end Cert.Kernel.Hand

end
-- ==== Proof.BitsMainBody.lean ====
/-
  The TensorCore call of @main: a grid of eight points, each multiplying the activations by the transpose of 256 rows
  of the matrix and adding 256 entries of the bias into a block of 256 result columns.  The proof data of the
  pipeline that stages the four operands, what the body leaves at a point, and the body's triple.
-/
import proofs.«207065_g23029614641262_cont_8to1_115_36_alg».proof.Proof.BitsSetup
import proofs.«207065_g23029614641262_cont_8to1_115_36_alg».proof.Proof.Gen.Kernel.Launch
import proofs.«207065_g23029614641262_cont_8to1_115_36_alg».proof.Proof.Gen.Kernel.Skeleton
import proofs.«207065_g23029614641262_cont_8to1_115_36_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Hand

open Cert.Kernel

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- What the core's arrays hold when the call is entered: any contents, fixed per device.
variable (W : (d : Dev nD) → (b : Ref sig .tc) → Buf (Elt F) ((d.tc : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-! ## What the body leaves in the result window's buffer -/

abbrev rOut : Rect S1x2048x256 := Rect.unit (s := S1x2048x256) ![0, 0, 0] S1x2048x256.size Gen.inb_S1x2048x256_S1x2048x256_0_0_0
abbrev rX : Rect S2048x2048 := Rect.unit (s := S2048x2048) ![0, 0] S2048x2048.size Gen.inb_S2048x2048_S2048x2048_0_0
abbrev rM : Rect S256x2048 := Rect.unit (s := S256x2048) ![0, 0] S256x2048.size Gen.inb_S256x2048_S256x2048_0_0
abbrev rB : Rect S256 := Rect.unit (s := S256) ![0] S256.size Gen.inb_S256_S256_0

/-- The result window's buffer after the body: its one store, over the three operands' blocks. -/
def outBlk (x0 : Vec F S2048x2048 .f32) (x1 : Vec F S256x2048 .f32) (x2 : Vec F S256 .f32) : Vec F S1x2048x256 .f32 :=
  View.canon [⟨rOut, Gen.k1_pay1 (View.ld x0 rX) (View.ld x1 rM) (View.ld x2 rB)⟩]

/-- The store fills the buffer. -/
theorem outBlk_cover (p0 : Vec F S1x2048x256 .f32) (y : S1x2048x256.Idx) :
    ∃ pc ∈ ([⟨rOut, p0⟩] : List (View.Piece (Elt F) S1x2048x256 .f32)), y ∈ pc.1.set :=
  View.cover_of_tiled [⟨rOut, p0⟩] S1x2048x256.size (by rfl) y

/-! ## The body's triple -/

set_option maxHeartbeats 1000000 in
/-- The body on whole staging buffers, the operands' at given contents and the result's at anything, runs to the
    continuation holding the operands' as they were and the result's at `outBlk` of them. -/
theorem sound_kernel (c : Dev nD) (E : Set ℕ) (i : grid1.Coords) (arg1 : Memref sig .tc .vmem S2048x2048 .f32) (harg1 : arg1.IsWhole)
    (arg2 : Memref sig .tc .vmem S256x2048 .f32) (harg2 : arg2.IsWhole) (arg3 : Memref sig .tc .vmem S256 .f32) (harg3 : arg3.IsWhole)
    (arg4 : Memref sig .tc .vmem S1x2048x256 .f32) (harg4 : arg4.IsWhole)
    (x0 : Vec F S2048x2048 .f32) (x1 : Vec F S256x2048 .f32) (x2 : Vec F S256 .f32) (Kp : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ Kp ⟨⟩))
      ⊢ wp frame (wpE (defs₀ (F := F)) Variants.none c none) E (cc1_body i arg1 harg1 arg2 harg2 arg3 harg3 arg4 harg4) Kp := by
  simp only [Gen.cc1_body_eq_skeleton]; unfold Gen.cc1_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlk_cover _)

end Cert.Kernel.Hand

end
-- ==== Proof.BitsMainRegion.lean ====
/-
  The TensorCore call of @main as a region of the program: the pipeline's proof data (each operand window's buffer at
  its block, the result window's at the body's value of the three blocks), the body obligation at every point, and the
  region's entry and exit around the arrays' contents.
-/
import proofs.«207065_g23029614641262_cont_8to1_115_36_alg».proof.Proof.BitsSetup
import proofs.«207065_g23029614641262_cont_8to1_115_36_alg».proof.Proof.Gen.Kernel.Launch
import proofs.«207065_g23029614641262_cont_8to1_115_36_alg».proof.Proof.Gen.Kernel.Skeleton
import proofs.«207065_g23029614641262_cont_8to1_115_36_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.BitsMainBody
set_option maxRecDepth 16384

noncomputable section

namespace Cert.Kernel.Hand

open Cert.Kernel

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- What the core's arrays hold when the call is entered: any contents, fixed per device.
variable (W : (d : Dev nD) → (b : Ref sig .tc) → Buf (Elt F) ((d.tc : Thread nD τ).loc b))

/-! ## The pipeline's proof data -/

/-- The proof data on core `c`: the arrays as the call finds them; after the body at point `t` each operand's buffer
    at its block and the result's at `outBlk` of the three blocks; the invariant the scoped buffers no window stages;
    nothing owed, and every pair the core's waits have recorded at a level of the first call's; full shares. -/
def dats (_ : Fin 1) (c : Dev nD) : Dat τ (Elt F) (HIx 1) ℕ UU ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => outBlk (iblk W c 0 t) (iblk W c 1 t) (iblk W c 2 t)
  Φ _ := Pipeline.scopedRest (Ix := HIx 1) (Name := ℕ) (U := UU) (Lvl := ℕ) (Val := Elt F) spec1 c
  q _ := fullShare
  owed _ := 0
  recorded _ := {p | (K (F := F)).lev ((c.tc : Thread nD τ), p.1) p.2 ≤ 8}

theorem A_eq (c : Dev nD) (w : Fin cfg1.W) : (dats W 0 c).A w = W c (Pipeline.arrRef spec1 w) := by
  dsimp only [dats]

theorem after_0 (c : Dev nD) (t : Fin cfg1.N) : (dats W 0 c).after 0 t = iblk W c 0 t := by dsimp only [dats]
theorem after_1 (c : Dev nD) (t : Fin cfg1.N) : (dats W 0 c).after 1 t = iblk W c 1 t := by dsimp only [dats]
theorem after_2 (c : Dev nD) (t : Fin cfg1.N) : (dats W 0 c).after 2 t = iblk W c 2 t := by dsimp only [dats]
theorem after_3 (c : Dev nD) (t : Fin cfg1.N) :
    (dats W 0 c).after 3 t = outBlk (iblk W c 0 t) (iblk W c 1 t) (iblk W c 2 t) := by dsimp only [dats]

/-- Each operand's current staging buffer holds its block at every point, fetched there or not. -/
theorem before_0 (c : Dev nD) (t : Fin cfg1.N) (d) : (dats W 0 c).before 0 t d = iblk W c 0 t :=
  ((dats W 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats W 0 c).before 1 t d = iblk W c 1 t :=
  ((dats W 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats W 0 c).before 2 t d = iblk W c 2 t :=
  ((dats W 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dats W 0 c).Φ t.castSucc ∗ (dats W 0 c).owesAt none t.castSucc
    ∗ (∃ d, owns (c : Thread nD τ) (Gen.st1_0 t) fullShare ((dats W 0 c).before 0 t d))
    ∗ (∃ d, owns (c : Thread nD τ) (Gen.st1_1 t) fullShare ((dats W 0 c).before 1 t d))
    ∗ (∃ d, owns (c : Thread nD τ) (Gen.st1_2 t) fullShare ((dats W 0 c).before 2 t d))
    ∗ (∃ d, owns (c : Thread nD τ) (Gen.st1_3 t) fullShare ((dats W 0 c).before 3 t d)))

/-- and what it returns. -/
def bodyPost (c : Dev nD) (t : Fin cfg1.N) : sProp 𝕄 :=
  iprop((dats W 0 c).Φ t.succ ∗ (dats W 0 c).owesAt none t.succ
    ∗ owns (c : Thread nD τ) (Gen.st1_0 t) fullShare ((dats W 0 c).after 0 t)
    ∗ owns (c : Thread nD τ) (Gen.st1_1 t) fullShare ((dats W 0 c).after 1 t)
    ∗ owns (c : Thread nD τ) (Gen.st1_2 t) fullShare ((dats W 0 c).after 2 t)
    ∗ owns (c : Thread nD τ) (Gen.st1_3 t) fullShare ((dats W 0 c).after 3 t))

/-- The body at any point: the operands' buffers hold their blocks, so the body's triple applies; the invariant and
    what the core owes pass through unread. -/
theorem sound_body (c : Dev nD) (t : Fin cfg1.N) :
    bodyPre W c t ⊢ wp frame (wpE (defs₀ (F := F)) Variants.none c none) Set.univ (Gen.bodyAt1 t) (fun _ => bodyPost W c t) := by
  unfold bodyPre bodyPost Gen.bodyAt1
  simp only [before_0, before_1, before_2]
  rw [show (dats W 0 c).Φ t.succ = (dats W 0 c).Φ t.castSucc from rfl,
    show (dats W 0 c).owesAt none t.succ = (dats W 0 c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk W c 0 t) (iblk W c 1 t) (iblk W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) W 0 c) (defs₀ (F := F)) Variants.none (none : HIx 1) Set.univ := fun t => by
  rw [Gen.bigSep_W1, Gen.bigSep_W1]
  exact sound_body W c t

/-! ## The call as a region of @main -/

/-- The pipeline has no prefetched table. -/
abbrev adm : (p : Fin 1) → (pcfgs (F := F) p).Adm := fun p => (cfgs p).toPCfg_adm

/-- What the TensorCore owes when the call is entered and when it is left: nothing, every recorded pair at a level of
    the first call's. -/
abbrev owesDone (c : Dev nD) : sProp 𝕄 :=
  iprop(∃ Wt, ⌜(K (F := F)).WBelow (T c) Wt 8⌝ ∗ owes (T c) (0 : CellTallies nD τ sig (HIx 1)) Wt)

/-- What the call leaves: the four windows' arrays after every write-back, the other arrays as found, nothing owed. -/
abbrev regPost (c : Dev nD) : sProp 𝕄 :=
  iprop((dats W 0 c).arrays ((dats W 0 c).arrAt · cfg1.N) ∗ Pipeline.unscopedRest spec1 c (W c) ∗ owesDone (F := F) c)

theorem prefHeld_emp (c : Dev nD) :
    (Pipeline.prefHeld (Ix := HIx 1) (Name := ℕ) (U := UU) (Lvl := ℕ) (pcfgs (F := F) 0).pre c (fun _ => fullShare) (adm (F := F) 0).1 : sProp 𝕄) = iprop(emp) := by
  unfold Pipeline.prefHeld; rw [show (Finset.univ : Finset (Fin 0)) = ∅ from rfl, BI.bigSep_empty]; rfl

set_option backward.isDefEq.respectTransparency.types false in
/-- THE REGION: the decided layout, no semaphore of the kernel's own, the body obligation; entered from the core's
    arrays at `W` and nothing owed — the four windows' arrays into the pipeline, the others bypassing —, left with
    the arrays after every write-back. -/
def reg : Pipeline.RegionSeg (pcfgs (F := F)) adm (dats W) (none : HIx 1) defs₀ 𝒱₀ (K (F := F)).L (K (F := F)).lev 0 where
  win := Gen.launch1.win.to₀
  block_pos := Gen.launch1.block_pos
  stage_whole := Gen.launch1.stage_whole
  K := PEmpty
  osem := fun k => k.elim
  ho := Pipeline.OwnSemFacts.none _
  hbody c := (body_obligation W c).loose
  hwaits := Pipeline.hwaits_of_owed_zero _ _ _ _ _ _ 0 fun _ _ => rfl
  pre c := iprop(unscopedBufs c (W c) ∗ owesDone (F := F) c)
  post c := regPost W c
  X _ := iprop(emp)
  Y _ := iprop(emp)
  Z c := Pipeline.unscopedRest spec1 c (W c)
  hentry c := by
    have hsplit := Pipeline.arrays_of_unscopedBufs (pcfgs (F := F)) adm (dats W) Gen.launch1.win Gen.launch1.arr_whole c
      ((dats W 0 c).share_full fun _ => rfl) (W c) fun _ => rfl
    beta_reduce
    iintro ⟨⟨Hub, HO⟩, -, -⟩
    ihave H := hsplit $$ Hub
    icases H with ⟨Ha, Hrest⟩
    imodintro
    isplitl [Ha]; · iexact Ha
    isplitr; · rw [prefHeld_emp]; iempintro
    isplitl [HO]
    · unfold Pipeline.Dat.owesAt Pipeline.owesWithin
      icases HO with ⟨%Wt, %hW, HO⟩; iexists Wt; isplitr
      · ipureintro; exact fun p hp => Or.inl (hW p hp)
      iexact HO
    isplitr; · iempintro
    iexact Hrest
  hin c := by
    rw [show (dats W 0 c).Φ 0 = Pipeline.scopedRest (Ix := HIx 1) (Name := ℕ) (U := UU) (Lvl := ℕ) (Val := Elt F) spec1 c from rfl]
    iintro ⟨-, -, Hr⟩; iexact Hr
  hout c := by
    rw [show (dats W 0 c).Φ (Fin.last cfg1.N) = Pipeline.scopedRest (Ix := HIx 1) (Name := ℕ) (U := UU) (Lvl := ℕ) (Val := Elt F) spec1 c from rfl]
    iintro Hr
    isplitr; · iempintro
    isplitr
    · unfold Pipeline.ownSems0; rw [show (Finset.univ : Finset PEmpty) = ∅ from rfl, BI.bigSep_empty]; iempintro
    iexact Hr
  hexit c := by
    beta_reduce
    iintro ⟨Ha, HO, -, HZ⟩
    imodintro
    isplitl [Ha]; · iexact Ha
    isplitl [HZ]; · iexact HZ
    unfold Pipeline.Dat.owesAt Pipeline.owesWithin
    icases HO with ⟨%Wt, %hW, HO⟩; iexists Wt; isplitr
    · ipureintro
      intro p hp
      rcases hW hp with h | ⟨w, s, rfl⟩
      · exact h
      · exact Nat.zero_le _
    iexact HO

end Cert.Kernel.Hand

end
-- ==== Proof.BitsMainCall.lean ====
/-
  The TensorCore call's line of @main: entered from the region boundary with the core's arrays at given contents and
  nothing owed, it runs to the boundary and the arrays after every write-back.
-/
import proofs.«207065_g23029614641262_cont_8to1_115_36_alg».proof.Proof.BitsSetup
import proofs.«207065_g23029614641262_cont_8to1_115_36_alg».proof.Proof.Gen.Kernel.Launch
import proofs.«207065_g23029614641262_cont_8to1_115_36_alg».proof.Proof.Gen.Kernel.Skeleton
import proofs.«207065_g23029614641262_cont_8to1_115_36_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.BitsMainRegion
set_option maxRecDepth 16384

noncomputable section

namespace Cert.Kernel.Hand

open Cert.Kernel

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- What the core's arrays hold when the call is entered: any contents, fixed per device.
variable (W : (d : Dev nD) → (b : Ref sig .tc) → Buf (Elt F) ((d.tc : Thread nD τ).loc b))

/-! ## The call's step in @main -/

/-- What the launch deals the pipeline's staging cells on core `c`. -/
abbrev cellsFund (c : Dev nD) : sProp 𝕄 :=
  iprop(Pipeline.cellsGhost (Pipeline.pin (pcfgs (F := F)) adm) EP 0 c ∗ Pipeline.toksInit (Pipeline.pin (pcfgs (F := F)) adm) EP 0 c)

set_option backward.isDefEq.respectTransparency.types false in
/-- The call under the program's own body table: from the region boundary, the core's arrays at `W`, nothing owed, the
    level facts and the staging cells' ghost state, it runs to the boundary and `regPost`. -/
theorem region_core (d : Dev nD) (Φ : PUnit.{1} → sProp 𝕄) :
    iprop(((boundary (T d) ∗ regPost W d) -∗ Φ ⟨⟩)
        ∗ boundary (T d) ∗ (unscopedBufs d (W d) ∗ owesDone (F := F) d) ∗ levAts (K (F := F)).L (K (F := F)).lev ∗ cellsFund (F := F) d)
      ⊢ wp frame (wpE (D (F := F)) 𝒱 (T d) none) Set.univ
          (Prog.op (.customCall (Pipeline.entry 0) ()) fun _ => .ret ⟨⟩) Φ := by
  have h := Pipeline.RegionSeg.wp (pcfgs (F := F)) adm (dats W) (none : HIx 1) Gen.cellOf_inj EP defs₀ 𝒱₀ (K (F := F)).L (K (F := F)).lev (reg W) d none
    (fun _ h => nomatch h) (fun _ => .ret ⟨⟩) Φ
  have epre : (reg W).pre d = iprop(unscopedBufs d (W d) ∗ owesDone (F := F) d) := rfl
  have epost : (reg W).post d = regPost W d := rfl
  rw [epre, epost] at h
  have h2 : iprop(((boundary (T d) ∗ regPost W d) -∗ Φ ⟨⟩)
        ∗ boundary (T d) ∗ (unscopedBufs d (W d) ∗ owesDone (F := F) d) ∗ levAts (K (F := F)).L (K (F := F)).lev ∗ cellsFund (F := F) d)
      ⊢ iprop((iprop(boundary (T d) ∗ regPost W d) -∗ wp frame (wpE (D (F := F)) 𝒱 (T d) none) Set.univ (Prog.ret PUnit.unit) Φ)
        ∗ boundary (T d) ∗ (unscopedBufs d (W d) ∗ owesDone (F := F) d) ∗ levAts (K (F := F)).L (K (F := F)).lev ∗ cellsFund (F := F) d) := by
    iintro ⟨Hk, Hb, Hpre, Hlv, Hg, Ht⟩
    isplitl [Hk]
    · iintro H; rw [wp_ret]; imodintro; iapply Hk; iexact H
    isplitl [Hb]; · iexact Hb
    isplitl [Hpre]; · iexact Hpre
    isplitl [Hlv]; · iexact Hlv
    isplitl [Hg]; · iexact Hg
    iexact Ht
  exact h2.trans h

/-- The call's line of @main is that call, lifted to the program's extended body table. -/
theorem call_eq_lift :
    (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) fun _ => .ret ⟨⟩) := rfl

/-- The call in @main. -/
theorem region_step (d : Dev nD) (Φ : PUnit.{1} → sProp 𝕄) :
    iprop(((boundary (T d) ∗ regPost W d) -∗ Φ ⟨⟩)
        ∗ boundary (T d) ∗ (unscopedBufs d (W d) ∗ owesDone (F := F) d) ∗ levAts (K (F := F)).L (K (F := F)).lev ∗ cellsFund (F := F) d)
      ⊢ wp frame (wpE ((K (F := F)).defs (D (F := F))) 𝒱 (T d) none) Set.univ
          (Prog.lift (.customCall (SparseCore.inner (Pipeline.entry 0)) ())) Φ := by
  rw [call_eq_lift]
  exact (region_core W d Φ).trans ((K (F := F)).wp_liftProg (D (F := F)) 𝒱 (T d) Set.univ none _ Φ)

/-- The four windows' arrays, one by one. -/
theorem arrays_chain (c : Dev nD) (Fv : (w : Fin cfg1.W) → Buf (Elt F) ((cfg1.win w).arr.view.loc (c.tc : Thread nD τ))) :
    ((dats W 0 c).arrays Fv : sProp 𝕄) = iprop((x2Loc c ↦{fullShare} Fv 0) ∗ (oLoc c ↦{fullShare} Fv 1) ∗ (bLoc c ↦{fullShare} Fv 2) ∗ (rLoc c ↦{fullShare} Fv 3)) := by
  rw [Pipeline.arrays_eq (Pipeline.pin (pcfgs (F := F)) adm) (dats W) 0 c Gen.launch1.arr_whole ((dats W 0 c).share_full fun _ => rfl) Fv, Gen.bigSep_W1]

/-- The operands' arrays are never written. -/
theorem arrAt_x (c : Dev nD) (t : Nat) : (dats W 0 c).arrAt 0 t = W c main_v2 := ((dats W 0 c).arrAt_in 0 rfl t).trans (A_eq W c 0)
theorem arrAt_o (c : Dev nD) (t : Nat) : (dats W 0 c).arrAt 1 t = W c main_v1 := ((dats W 0 c).arrAt_in 1 rfl t).trans (A_eq W c 1)
theorem arrAt_b (c : Dev nD) (t : Nat) : (dats W 0 c).arrAt 2 t = W c main_arg3 := ((dats W 0 c).arrAt_in 2 rfl t).trans (A_eq W c 2)

end Cert.Kernel.Hand

end
-- ==== Proof.BitsMainValue.lean ====
/-
  What the second kernel writes back at a grid point, as a block of ONE whole-array function.

  At point `t` the body sees the whole matrix of activations, rows `256 t …` of `mt` and entries `256 t …` of the bias, and
  stores one block of 256 result columns; that block is block `t` of the whole-array function `outArr`, whose column
  `256 t + q` is column `q` of block `t`.  The eight blocks tile the result.
-/
import proofs.«207065_g23029614641262_cont_8to1_115_36_alg».proof.Proof.BitsMainBody
import proofs.«207065_g23029614641262_cont_8to1_115_36_alg».proof.Proof.BitsSpec
import Idealize.ShloMosaic.Lib.Pipeline.Value

noncomputable section

namespace Cert.Kernel.Hand

open Cert.Kernel

open Idealize.ShloMosaic Idealize.ShloMosaic.TcCoe Idealize.ShloMosaic.ValueIdx
open Idealize.SL Idealize.SL.Sem

variable {F : FTy → Type} [FloatOps F]

variable (W : (d : Dev nD) → (b : Ref sig .tc) → Buf (Elt F) ((d.tc : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's stored value is the block function of its three loaded blocks. -/
theorem pay_eq (x0 : Vec F S2048x2048 .f32) (x1 : Vec F S256x2048 .f32) (x2 : Vec F S256 .f32) :
    Gen.k1_pay1 x0 x1 x2 = tcBlock x0 x1 x2 := rfl

/-- The printed index maps, decided over the grid: the activations' block is always block (0, 0), and the other three
    windows move with the point along their blocked axis. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 3) = 0 ∧ win1_3.index t (1 : Fin 3) = 0 ∧ win1_3.index t (2 : Fin 3) = t.val :=
  (by decide +kernel : ∀ t : Fin grid1.N, _)

theorem N_eq : cfg1.N = 8 := rfl

/-- Column `256 t + q` of the whole result is column `q` of block `t`. -/
theorem outArr_block (x2 mt : FVec F S2048x2048 .f32) (b : FVec F S2048 .f32) (t : Fin 8) (a : Fin 2048) (q : Fin 256) :
    outArr x2 mt b (ix3 (0 : Fin 1) a (⟨256 * t.val + q.val, by omega⟩ : Fin 2048))
      = tcBlock x2 (mtBlock mt t) (bBlock b t) (ix3 (0 : Fin 1) a q) := by
  have h1 : (256 * t.val + q.val) / 256 = t.val := by omega
  have h2 : (256 * t.val + q.val) % 256 = q.val := by omega
  have e1 : (⟨(256 * t.val + q.val) / 256, by omega⟩ : Fin 8) = t := Fin.ext h1
  have e2 : (⟨(256 * t.val + q.val) % 256, Nat.mod_lt _ (by decide)⟩ : Fin 256) = q := Fin.ext h2
  show tcBlock x2 (mtBlock mt ⟨(256 * t.val + q.val) / 256, _⟩) (bBlock b ⟨(256 * t.val + q.val) / 256, _⟩)
      (ix3 (0 : Fin 1) (⟨a.val, _⟩ : Fin 2048) (⟨(256 * t.val + q.val) % 256, _⟩ : Fin 256)) = _
  rw [e1, e2]

/-- The activations' window is the whole matrix at every point. -/
theorem iblk0_eq (c : Dev nD) (t : Fin cfg1.N) : iblk W c 0 t = W c main_v2 := by
  obtain ⟨e0, e1, -⟩ := idx_facts t
  funext y
  show W c main_v2 (((cfg1.win 0).blk t).view.emb y) = W c main_v2 y
  refine congrArg _ (funext fun a => Fin.ext ?_)
  match a with
  | ⟨0, _⟩ => show win1_0.index t (0 : Fin 2) * 2048 + 1 * (y 0).val = (y 0).val; omega
  | ⟨1, _⟩ => show win1_0.index t (1 : Fin 2) * 2048 + 1 * (y 1).val = (y 1).val; omega

/-- The window on `mt` at point `t` holds rows `256 t …`. -/
theorem iblk1_eq (c : Dev nD) (t : Fin cfg1.N) : iblk W c 1 t = mtBlock (W c main_v1) (Fin.cast N_eq t) := by
  obtain ⟨-, -, e2, e3, -⟩ := idx_facts t
  funext y
  show W c main_v1 (((cfg1.win 1).blk t).view.emb y) = W c main_v1 (ix2 (⟨256 * t.val + (y 0).val, _⟩ : Fin 2048) (⟨(y 1).val, _⟩ : Fin 2048))
  refine congrArg _ (funext fun a => Fin.ext ?_)
  match a with
  | ⟨0, _⟩ => show win1_1.index t (0 : Fin 2) * 256 + 1 * (y 0).val = 256 * t.val + (y 0).val; omega
  | ⟨1, _⟩ => show win1_1.index t (1 : Fin 2) * 2048 + 1 * (y 1).val = (y 1).val; omega

/-- The window on the bias at point `t` holds entries `256 t …`. -/
theorem iblk2_eq (c : Dev nD) (t : Fin cfg1.N) : iblk W c 2 t = bBlock (W c main_arg3) (Fin.cast N_eq t) := by
  obtain ⟨-, -, -, -, e4, -⟩ := idx_facts t
  funext y
  show W c main_arg3 (((cfg1.win 2).blk t).view.emb y) = W c main_arg3 (ix1 (⟨256 * t.val + (y 0).val, _⟩ : Fin 2048))
  refine congrArg _ (funext fun a => Fin.ext ?_)
  match a with
  | ⟨0, _⟩ => show win1_2.index t (0 : Fin 1) * 256 + 1 * (y 0).val = 256 * t.val + (y 0).val; omega

/-- WHAT POINT `t` WRITES BACK is block `t` of `outArr` of the arrays as the call finds them. -/
theorem blk3_eq (c : Dev nD) (t : Fin cfg1.N) :
    (cfg1.win 3).cut (grid1.coords t) (outBlk (iblk W c 0 t) (iblk W c 1 t) (iblk W c 2 t))
      = ((cfg1.win 3).blk t).view.read (Elt F) (outArr (F := F) (W c main_v2) (W c main_v1) (W c main_arg3)) := by
  unfold outBlk
  rw [View.canon_unit_zero hz3]
  simp only [View.ld_unit_zero (S := S2048x2048) hz2, View.ld_unit_zero (S := S256x2048) hz2, View.ld_unit_zero (S := S256) hz1]
  rw [pay_eq, iblk0_eq, iblk1_eq, iblk2_eq]
  obtain ⟨-, -, -, -, -, e5, e6, e7⟩ := idx_facts t
  funext y
  show tcBlock (W c main_v2) (mtBlock (W c main_v1) (Fin.cast N_eq t)) (bBlock (W c main_arg3) (Fin.cast N_eq t)) y
    = outArr (F := F) (W c main_v2) (W c main_v1) (W c main_arg3) (((cfg1.win 3).blk t).view.emb y)
  have hy2 : (y 2).val < 256 := (y 2).isLt
  have hy1 : (y 1).val < 2048 := (y 1).isLt
  have hy0 : (y 0).val < 1 := (y 0).isLt
  have ht : t.val < 8 := t.isLt
  have hemb : ((cfg1.win 3).blk t).view.emb y
      = ix3 (0 : Fin 1) (⟨(y 1).val, hy1⟩ : Fin 2048) (⟨256 * (Fin.cast N_eq t).val + (⟨(y 2).val, hy2⟩ : Fin 256).val, by show 256 * t.val + (y 2).val < 2048; omega⟩ : Fin 2048) := by
    funext a; apply Fin.ext
    match a with
    | ⟨0, _⟩ => show win1_3.index t (0 : Fin 3) * 1 + 1 * (y 0).val = 0; omega
    | ⟨1, _⟩ => show win1_3.index t (1 : Fin 3) * 2048 + 1 * (y 1).val = (y 1).val; omega
    | ⟨2, _⟩ => show win1_3.index t (2 : Fin 3) * 256 + 1 * (y 2).val = 256 * t.val + (y 2).val; omega
  rw [hemb, outArr_block]
  refine congrArg _ (funext fun a => Fin.ext ?_)
  match a with
  | ⟨0, _⟩ => show (y 0).val = 0; omega
  | ⟨1, _⟩ => rfl
  | ⟨2, _⟩ => rfl

/-- An index of the result is in point `t`'s block iff each coordinate is in the block's range on its axis. -/
theorem mem_blk3 (t : Fin cfg1.N) (i : S1x2048x2048.Idx) :
    i ∈ ((cfg1.win 3).blk t).view.set ↔ ∀ a : Fin 3, win1_3.index t a * S1x2048x256.size a ≤ (i a).val ∧ (i a).val < win1_3.index t a * S1x2048x256.size a + S1x2048x256.size a := by
  show i ∈ ((View.whole main_v3).slice (win1_3.rect t)).set ↔ _
  rw [View.set_slice_whole, Rect.mem_set_unit]
  exact Iff.rfl

/-- The eight blocks cover the result: column `j` is in the block of point `j / 256`. -/
theorem covered3 (i : S1x2048x2048.Idx) : ∃ t : Fin cfg1.N, (cfg1.win 3).flush t = true ∧ i ∈ ((cfg1.win 3).blk t).view.set := by
  have hi0 : (i 0).val < 1 := (i 0).isLt
  have hi1 : (i 1).val < 2048 := (i 1).isLt
  have hi2 : (i 2).val < 2048 := (i 2).isLt
  refine ⟨(⟨(i 2).val / 256, by show (i 2).val / 256 < 8; omega⟩ : Fin cfg1.N), Gen.flush1_3 _, ?_⟩
  obtain ⟨-, -, -, -, -, e5, e6, e7⟩ := idx_facts (⟨(i 2).val / 256, by show (i 2).val / 256 < 8; omega⟩ : Fin cfg1.N)
  rw [mem_blk3]
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 2048 ≤ (i 1).val ∧ (i 1).val < win1_3.index _ (1 : Fin 3) * 2048 + 2048; omega
  | ⟨2, _⟩ =>
    show win1_3.index _ (2 : Fin 3) * 256 ≤ (i 2).val ∧ (i 2).val < win1_3.index _ (2 : Fin 3) * 256 + 256
    have e7' : win1_3.index (⟨(i 2).val / 256, by show (i 2).val / 256 < 8; omega⟩ : Fin cfg1.N) (2 : Fin 3) = (i 2).val / 256 := e7
    omega

end Cert.Kernel.Hand

end
-- ==== Proof.BitsMainLaunch.lean ====
/-
  The launch: the element of the ghost state the program starts from, @main on the TensorCore — two host operations,
  the SparseCore call, a reshape, the TensorCore call —, what the final memory holds, and the program's run.
-/
import proofs.«207065_g23029614641262_cont_8to1_115_36_alg».proof.Proof.BitsSetup
import proofs.«207065_g23029614641262_cont_8to1_115_36_alg».proof.Proof.Gen.Kernel.Launch
import proofs.«207065_g23029614641262_cont_8to1_115_36_alg».proof.Proof.Gen.Kernel.Skeleton
import proofs.«207065_g23029614641262_cont_8to1_115_36_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic
import proofs.«207065_g23029614641262_cont_8to1_115_36_alg».proof.Proof.BitsMainHost
import proofs.«207065_g23029614641262_cont_8to1_115_36_alg».proof.Proof.BitsMainCall
import proofs.«207065_g23029614641262_cont_8to1_115_36_alg».proof.Proof.BitsMainValue
set_option maxRecDepth 16384

noncomputable section

namespace Cert.Kernel.Hand

open Cert.Kernel

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## The launch element: the handshakes' rounds, the pipeline's cells' rounds, no counter yet -/

def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

theorem bigSep_emp' {I : Type} (s : Finset I) : (bigSep s fun _ => iprop(emp)) = (iprop(emp) : sProp 𝕄) := bigSep_emp_const s

set_option backward.isDefEq.respectTransparency.types false in
theorem fund_deal :
    iprop((bigSep Finset.univ fun c : Dev nD => bigSep Finset.univ fun p : Fin 1 => (Pipeline.cellsGhost cfgs (EP (F := F)) p c : sProp 𝕄))
        ∗ (bigSep Finset.univ fun c : Dev nD => bigSep Finset.univ fun p : Fin 1 => (Pipeline.toksInit cfgs (EP (F := F)) p c : sProp 𝕄)))
      ⊢ (bigSep Finset.univ fun d : Dev nD => cellsFund (F := F) d : sProp 𝕄) := by
  have e1 : ∀ c : Dev nD, (bigSep Finset.univ fun p : Fin 1 => (Pipeline.cellsGhost cfgs (EP (F := F)) p c : sProp 𝕄)) = Pipeline.cellsGhost cfgs (EP (F := F)) 0 c :=
    fun c => bigSep_univ_of_subsingleton (0 : Fin 1)
  have e2 : ∀ c : Dev nD, (bigSep Finset.univ fun p : Fin 1 => (Pipeline.toksInit cfgs (EP (F := F)) p c : sProp 𝕄)) = Pipeline.toksInit cfgs (EP (F := F)) 0 c :=
    fun c => bigSep_univ_of_subsingleton (0 : Fin 1)
  rw [bigSep_congr fun c _ => e1 c, bigSep_congr fun c _ => e2 c, ← bigSep_sep']

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => cellsFund (F := F) d)
        ∗ bigSep Finset.univ fun thr : Thread nD τ => bigSep Finset.univ fun q : Fin 1 => (P m hpre).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  imod (Pipeline.fund_ghost (nD := nD) (τ := τ) cfgs (EP (F := F)) Gen.cellOf_inj) $$ [HP] with ⟨Hg, Ht⟩
  · iexact HP
  imodintro
  isplitl [HH]; · iexact HH
  isplitl [Hg Ht]
  · iapply (fund_deal (F := F)); isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (hpre : PreOK m)

/-- What @main leaves the claim: the four arguments as launched, the result at what the call's eight points wrote. -/
abbrev FINr (d : Dev nD) : sProp 𝕄 :=
  iprop((aLoc d ↦{fullShare} m (aLoc d)) ∗ (cLoc d ↦{fullShare} m (cLoc d)) ∗ (wLoc d ↦{fullShare} m (wLoc d)) ∗ (bLoc d ↦{fullShare} m (bLoc d))
    ∗ (rLoc d ↦{fullShare} (dats (WR m hpre) 0 d).arrAt 3 cfg1.N))

/-- After the one SparseCore call the TensorCore owes nothing: that, taken out of its state and put back. -/
theorem tcSt_open (d : Dev nD) :
    ((K (F := F)).tcSt EH d 1 : sProp 𝕄) ⊢ iprop(owesDone (F := F) d ∗ (owesDone (F := F) d -∗ (K (F := F)).tcSt EH d 1)) := by
  unfold SparseCore.Cfg.tcSt
  rw [(K (F := F)).Otc_end d (n := 1) (le_refl 1)]
  iintro ⟨HO, Hrest⟩
  isplitl [HO]; · iexact HO
  iintro HO
  isplitl [HO]; · iexact HO
  iexact Hrest

/-- The arrays the call leaves, read at the launch contents. -/
theorem fin_of_parts (d : Dev nD) :
    iprop((aLoc d ↦{fullShare} WR m hpre d main_arg0) ∗ (cLoc d ↦{fullShare} WR m hpre d main_arg1) ∗ (wLoc d ↦{fullShare} WR m hpre d main_arg2)
        ∗ (bLoc d ↦{fullShare} (dats (WR m hpre) 0 d).arrAt 2 cfg1.N) ∗ (rLoc d ↦{fullShare} (dats (WR m hpre) 0 d).arrAt 3 cfg1.N))
      ⊢ (FINr m hpre d : sProp 𝕄) := by
  rw [arrAt_b]
  show iprop((aLoc d ↦{fullShare} V3 m hpre d a') ∗ (cLoc d ↦{fullShare} V3 m hpre d c') ∗ (wLoc d ↦{fullShare} V3 m hpre d w')
        ∗ (bLoc d ↦{fullShare} V3 m hpre d b') ∗ (rLoc d ↦{fullShare} (dats (WR m hpre) 0 d).arrAt 3 cfg1.N)) ⊢ _
  rw [V3_a, V3_c, V3_w, V3_b]

theorem hmain (κ : GSem nD τ sig → ℕ) (d : Dev nD) :
    iprop((K (F := F)).ctx EH (P m hpre) κ ∗ (K (F := F)).tcSt EH d 0 ∗ (K (F := F)).tcRes m ρ d ∗ cellsFund (F := F) d)
      ⊢ wp frame (wpE ((K (F := F)).defs (D (F := F))) 𝒱 (SparseCore.T d) none) Set.univ (main d)
          fun _ => iprop((K (F := F)).tcSt EH d 1 ∗ FINr m hpre d) := by
  unfold SparseCore.Cfg.tcRes
  have e0 : (unscopedBufs d (fun b => m ((SparseCore.T d).loc b)) : sProp 𝕄) = held (T d) S9refs (V0 m d) := unscoped_held d (V0 m d)
  rw [e0]
  simp only [main, wp_bind, wp_pure]
  iintro ⟨#Hctx, Hst, ⟨Hb, Hheld, -, -⟩, Hfund⟩
  -- the constant zero
  iapply (wp_hlo_within 𝒱 (SparseCore.T d) none Set.univ (op := opCst) (S := S9refs) hCst (V := V0 m d)) $$ [Hb Hheld]
  · isplitl [Hb]; · iexact Hb
    iexact Hheld
  iintro ⟨Hb, Hheld⟩
  rw [wp_ret]; imodintro
  -- its broadcast to the block of zeros
  iapply (wp_hlo_within 𝒱 (SparseCore.T d) none Set.univ (op := opBc) (S := S9refs) hBc (V := V1 m d)) $$ [Hb Hheld]
  · isplitl [Hb]; · iexact Hb
    iexact Hheld
  iintro ⟨Hb, Hheld⟩
  rw [wp_ret]; imodintro
  ihave Hh := (Entails.of_eq ((congrArg (held (T d) S9refs) (show (opBc (F := F)).result (V1 m d) = V2 m d from rfl)).trans (held_V2 (F := F) m d))) $$ Hheld
  icases Hh with ⟨Ha, Hc, Hw, Hbb, Hk, Hz, Ho, Hx, Hr⟩
  -- the SparseCore call: the arrays dealt to the thirty-two tiles, and back with the matrix
  ihave Hs := (splitTiles m hpre d) $$ [Hc Hw Hz Ho]
  · isplitl [Hc]; · iexact Hc
    isplitl [Hw]; · iexact Hw
    isplitl [Hz]; · iexact Hz
    iexists _; iexact Ho
  icases Hs with ⟨Hzr, Hst0⟩
  iapply ((K (F := F)).wp_run (D (F := F)) 𝒱 (EH := EH) (P := P m hpre) κ d 0) $$ [Hst Hst0 Hzr Ha Hbb Hk Hx Hr Hb Hfund]
  isplitr; · iexact Hctx
  isplitl [Hst]; · iexact Hst
  isplitl [Hst0]; · iexact Hst0
  iintro ⟨Hst, Hdn⟩
  ihave Hj := (joinTiles m hpre d) $$ [Hzr Hdn]
  · isplitl [Hzr]; · iexact Hzr
    iexact Hdn
  icases Hj with ⟨Hc, Hw, Hz, Ho⟩
  -- the activations reshaped to a matrix
  ihave Hheld := (Entails.of_eq (held_V2' (F := F) m hpre d).symm) $$ [Ha Hc Hw Hbb Hk Hz Ho Hx Hr]
  · isplitl [Ha]; · iexact Ha
    isplitl [Hc]; · iexact Hc
    isplitl [Hw]; · iexact Hw
    isplitl [Hbb]; · iexact Hbb
    isplitl [Hk]; · iexact Hk
    isplitl [Hz]; · iexact Hz
    isplitl [Ho]; · iexact Ho
    isplitl [Hx]; · iexact Hx
    iexact Hr
  iapply (wp_hlo_within 𝒱 (SparseCore.T d) none Set.univ (op := opRs) (S := S9refs) hRs (V := V2' m hpre d)) $$ [Hb Hheld]
  · isplitl [Hb]; · iexact Hb
    iexact Hheld
  iintro ⟨Hb, Hheld⟩
  rw [wp_ret]; imodintro
  -- the TensorCore call
  ihave Hub := (Entails.of_eq ((congrArg (held (T d) S9refs) (show (opRs (F := F)).result (V2' m hpre d) = V3 m hpre d from rfl)).trans (unscoped_held (F := F) d (V3 m hpre d)).symm)) $$ Hheld
  ihave HO := (show ((K (F := F)).tcSt EH d ((0 : Fin 1).val + 1) : sProp 𝕄) ⊢ iprop(owesDone (F := F) d ∗ (owesDone (F := F) d -∗ (K (F := F)).tcSt EH d 1)) from tcSt_open (F := F) d) $$ Hst
  icases HO with ⟨HO, Hclose⟩
  ihave Hlv := (SparseCore.Cfg.ctx_levAts κ) $$ Hctx
  iapply (region_step (WR m hpre) d _) $$ [Hb Hub HO Hlv Hfund Hclose]
  isplitl [Hclose]
  swap
  · isplitl [Hb]; · iexact Hb
    isplitl [Hub HO]
    · isplitl [Hub]; · iexact Hub
      iexact HO
    isplitl [Hlv]; · iexact Hlv
    iexact Hfund
  iintro ⟨Hb, Harr, Hrest, HO⟩
  ihave Harr' := (Entails.of_eq (arrays_chain (WR m hpre) d _)) $$ Harr
  icases Harr' with ⟨-, -, Hbb, Hr⟩
  ihave Hrest' := (Entails.of_eq (Gen.unscopedRest1_eq d (WR m hpre d))) $$ Hrest
  icases Hrest' with ⟨Ha, Hc, Hw, -, -⟩
  imodintro
  isplitl [Hclose HO]
  · iapply Hclose; iexact HO
  iapply (fin_of_parts m hpre d)
  isplitl [Ha]; · iexact Ha
  isplitl [Hc]; · iexact Hc
  isplitl [Hw]; · iexact Hw
  isplitl [Hbb]; · iexact Hbb
  iexact Hr

/-! ## The result array, from its eight blocks -/

/-- Every point writes back its block of the one whole-array function, and the eight blocks cover the array. -/
theorem out_final (W : (d : Dev nD) → (b : Ref sig .tc) → Buf (Elt F) ((d.tc : Thread nD τ).loc b)) (c : Dev nD) :
    (dats W 0 c).arrAt 3 cfg1.N = outArr (F := F) (W c main_v2) (W c main_v1) (W c main_arg3) :=
  (dats W 0 c).arrAt_eq_of_cover 3 _
    (fun t _ => by
      show (cfg1.win 3).cut (grid1.coords t) ((dats W 0 c).after 3 t) = _
      rw [after_3]; exact blk3_eq W c t)
    covered3

/-- The result, as a function of the launch contents of the arguments. -/
theorem result_eq (d : Dev nD) :
    (dats (WR m hpre) 0 d).arrAt 3 cfg1.N
      = outArr (F := F) (x2Arr (F := F) (m (aLoc d))) (mtArr (F := F) (m (cLoc d)) (hpre d) (m (wLoc d))) (m (bLoc d)) := by
  rw [out_final]
  show outArr (F := F) (V3 m hpre d x') (V3 m hpre d o') (V3 m hpre d b') = _
  rw [V3_x, V3_o, V3_b]

/-! ## What the final memory holds -/

def fq (d : Dev nD) (s' : Phys nD τ sig (Elt F)) : Prop :=
  s'.mem.mem (rLoc d) = (dats (WR m hpre) 0 d).arrAt 3 cfg1.N ∧ s'.mem.mem (aLoc d) = m (aLoc d) ∧ s'.mem.mem (cLoc d) = m (cLoc d)
    ∧ s'.mem.mem (wLoc d) = m (wLoc d) ∧ s'.mem.mem (bLoc d) = m (bLoc d)

theorem hfin (d : Dev nD) (s' : Phys nD τ sig (Elt F)) : iprop(FINr m hpre d ∗ SI s') ⊢ (⌜fq m hpre d s'⌝ : sProp 𝕄) := by
  iintro ⟨⟨Ha, Hc, Hw, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (SI_pointsTo_agree (st := s') (ℓ := rLoc d) (I := Finset.univ) (q := fullShare) (f := (dats (WR m hpre) 0 d).arrAt 3 cfg1.N)) $$ [HSI Hr]
  · isplitl [HSI] <;> iassumption
  icases H with %hr
  ipureintro
  exact ⟨funext fun i => hr i (Finset.mem_univ i), funext fun i => ha i (Finset.mem_univ i), funext fun i => hc i (Finset.mem_univ i),
    funext fun i => hw i (Finset.mem_univ i), funext fun i => hb i (Finset.mem_univ i)⟩

/-! ## The program's run -/

/-- The result at its function of the arguments, the four arguments unchanged, on every device. -/
def QC : PUnit × MemSt nD τ sig (Elt F) → Prop := fun r => ∀ c : Dev nD,
  r.2.mem (rLoc c) = outArr (F := F) (x2Arr (F := F) (m (aLoc c))) (mtArr (F := F) (m (cLoc c)) (hpre c) (m (wLoc c))) (m (bLoc c))
    ∧ r.2.mem (aLoc c) = m (aLoc c) ∧ r.2.mem (cLoc c) = m (cLoc c) ∧ r.2.mem (wLoc c) = m (wLoc c) ∧ r.2.mem (bLoc c) = m (bLoc c)

theorem run_main [∀ e, Nonempty (Elt F e)] (htile : (K (F := F)).TileObl (D (F := F)) 𝒱 (P m hpre) v₀ 0) :
    θ_run (Cert.Kernel.defs (F := F)) (Cert.Kernel.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => htile)
    (fun q _ => match q with | 0 => SparseCore.Cfg.VecSplit.of_plain (vecSplit m hpre))
    m ρ main (fun d => cellsFund (F := F) d) (FINr m hpre) (u₀ (F := F)) (sep_elim_left.trans (hu₀ m hpre)) (hmain m ρ hpre) (fq m hpre) (hfin m hpre) (QC m hpre)
    (fun _ h c => ⟨(h c).1.trans (result_eq m hpre c), (h c).2⟩)

end Cert.Kernel.Hand

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.PreOpen.lean ====
/-
  The precondition opened.

  The printed predicate is a conjunction of four all-true tests: for each of the three float arrays, that every
  entry's absolute value compares below the word of +∞, and for the integer array, that every word read signed lies
  between 0 and 2047. An "and" of one-bit words is 1 exactly when both are; an all-true reduction that came out 1
  met a 1 at every index. The integer part holds at every float instance; the float part is read at the extended
  reals, where an entry whose absolute value is below ⊤ is a real number.
-/
import proofs.«207065_g23029614641262_cont_8to1_115_36_alg».proof.Pre_input_domain
import proofs.«207065_g23029614641262_cont_8to1_115_36_alg».proof.Proof.LibFiniteEntry
import Idealize.ShloMosaic.Lib.ReduceAll
import Idealize.ShloMosaic.Lib.ValueIdx
import Idealize.ShloMosaic.PureOps.Ideal
import Idealize.ShloMosaic.PureOps.Ideal.Laws

noncomputable section

namespace Cert.PreOpen

open Idealize.ShloMosaic Cert.Pre_input_domain

variable [Facts]

/-- The four all-true tests, separately: the predicate is 1 exactly when each of them is (one direction). -/
theorem split {F : FTy → Type} [FloatOps F]
    (x : FVec F S1x2048x2048 .f32) (conn : IVec S32768 32) (w : FVec F S2048x16 .f32) (b : FVec F S2048 .f32)
    (h : fn (F := F) x conn w b = fun _ => 1#1) :
    (∀ i, FloatOps.cmpf (F := F) (φ := .f32) .olt (FloatOps.hostAbsf (x i)) (FloatOps.ofBits .f32 0x7F800000#32) = 1#1)
    ∧ (∀ i, FloatOps.cmpf (F := F) (φ := .f32) .olt (FloatOps.hostAbsf (w i)) (FloatOps.ofBits .f32 0x7F800000#32) = 1#1)
    ∧ (∀ i, FloatOps.cmpf (F := F) (φ := .f32) .olt (FloatOps.hostAbsf (b i)) (FloatOps.ofBits .f32 0x7F800000#32) = 1#1)
    ∧ (∀ i, IntOp.cmpi .sge (conn i) 0#32 = 1#1)
    ∧ (∀ i, IntOp.cmpi .sle (conn i) 2047#32 = 1#1) := by
  have h0 := congrFun h ValueIdx.ix0
  dsimp only [fn, fn_part1] at h0
  obtain ⟨h13, h19⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, fun i => ?_, fun i => ?_⟩
  · exact Host.reduce_andi_all _ _ _ _ _ h3 i
  · exact Host.reduce_andi_all _ _ _ _ _ h7 i
  · exact Host.reduce_andi_all _ _ _ _ _ h12 i
  · exact (IntOp.andi_eq_one.1 (Host.reduce_andi_all _ _ _ _ _ h19 i)).1
  · exact (IntOp.andi_eq_one.1 (Host.reduce_andi_all _ _ _ _ _ h19 i)).2

/-- Every word of the integer array, read signed, lies in [0, 2047]; read unsigned it is below 2048. At every float
    instance. -/
theorem conn_range {F : FTy → Type} [FloatOps F]
    (x : FVec F S1x2048x2048 .f32) (conn : IVec S32768 32) (w : FVec F S2048x16 .f32) (b : FVec F S2048 .f32)
    (h : fn (F := F) x conn w b = fun _ => 1#1) (i : S32768.Idx) :
    0 ≤ (conn i).toInt ∧ (conn i).toInt ≤ 2047 ∧ (conn i).toNat < 2048 := by
  obtain ⟨-, -, -, hge, hle⟩ := split x conn w b h
  have h1 := IntOp.cmpi_sge.1 (hge i)
  have h2 := IntOp.cmpi_sle.1 (hle i)
  rw [show (0#32 : BitVec 32).toInt = 0 from by decide] at h1
  rw [show (2047#32 : BitVec 32).toInt = 2047 from by decide] at h2
  refine ⟨h1, h2, ?_⟩
  have := BitVec.toInt_eq_toNat_cond (conn i)
  split at this <;> omega

/-- At the extended reals every entry of the three float arrays is a real number. -/
theorem finite (x : FVec Ideal S1x2048x2048 .f32) (conn : IVec S32768 32) (w : FVec Ideal S2048x16 .f32)
    (b : FVec Ideal S2048 .f32) (h : fn (F := Ideal) x conn w b = fun _ => 1#1) :
    (∀ i, ∃ r : ℝ, x i = (r : EReal)) ∧ (∀ i, ∃ r : ℝ, w i = (r : EReal)) ∧ (∀ i, ∃ r : ℝ, b i = (r : EReal)) := by
  obtain ⟨hx, hw, hb, -, -⟩ := split x conn w b h
  exact ⟨fun i => Cert.FiniteEntry.real_of_abs_lt_top _ (hx i), fun i => Cert.FiniteEntry.real_of_abs_lt_top _ (hw i),
    fun i => Cert.FiniteEntry.real_of_abs_lt_top _ (hb i)⟩

end Cert.PreOpen

end
-- ==== Proof.LibStoreIdxRows.lean ====
/-
  Scatter-add into a rank-two array, read at one cell.

  A scatter-add takes the lanes of the stored vector in ascending order and adds each lane's value onto the cell its
  two index words (row, column) name.  Read at cell `(r, c)` of the base, the result is the old cell plus the sum of the
  values of the lanes whose indices are `(r, c)`: addition on the extended reals is associative, so the fold's running
  sum is the old cell plus the partial sum, and a lane that names another cell leaves `(r, c)` alone (it contributes `0`).
-/
import Idealize.ShloMosaic.PureOps.Ideal
import Idealize.ShloMosaic.Lib.ValueIdx

noncomputable section

open scoped BigOperators

namespace Idealize.ShloMosaic.StoreIdxRows

open Idealize.ShloMosaic Idealize.ShloMosaic.ValueIdx

/-- Lane `k` of a rank-one shape is the index with coordinate `k`. -/
theorem ofLane_eq_ix1 {d : ℕ} (k : Fin d) :
    (Shape.ofLane (d := ![d]) k : (⟨1, ![d]⟩ : Shape).Idx) = ix1 k := by
  funext a
  match a with
  | ⟨0, _⟩ => rfl

/-- One lane of an unmasked scatter-add, read at cell `(r, c)`: the lane's value is added when its indices are `(r, c)`,
    and nothing changes otherwise. -/
theorem lane_add_apply {R C d : ℕ} (ridx cidx : IVec ⟨1, ![d]⟩ 32) (v : Vec Ideal ⟨1, ![d]⟩ .f32)
    (h : ∀ a x, ((![ridx, cidx] : Fin 2 → IVec ⟨1, ![d]⟩ 32) a x).toNat < (⟨2, ![R, C]⟩ : Shape).size a)
    (g : Vec Ideal ⟨2, ![R, C]⟩ .f32) (k : Fin d) (r : Fin R) (c : Fin C) :
    (if (∀ a, ((ix2 r c : (⟨2, ![R, C]⟩ : Shape).Idx) a).val
          = ((idxAt (s := ⟨2, ![R, C]⟩) ![ridx, cidx] h (ix1 k)) a).val)
      then Elt.idxAdd (F := Ideal) .f32 (g (idxAt (s := ⟨2, ![R, C]⟩) ![ridx, cidx] h (ix1 k))) (v (ix1 k))
      else g (ix2 r c))
      = g (ix2 r c) + if (ridx (ix1 k)).toNat = r.val ∧ (cidx (ix1 k)).toNat = c.val then v (ix1 k) else 0 := by
  by_cases hb : (ridx (ix1 k)).toNat = r.val ∧ (cidx (ix1 k)).toNat = c.val
  · have hi : idxAt (s := ⟨2, ![R, C]⟩) ![ridx, cidx] h (ix1 k) = ix2 r c := by
      funext a
      match a with
      | ⟨0, _⟩ => exact Fin.ext hb.1
      | ⟨1, _⟩ => exact Fin.ext hb.2
    have hc : ∀ a, ((ix2 r c : (⟨2, ![R, C]⟩ : Shape).Idx) a).val
        = ((idxAt (s := ⟨2, ![R, C]⟩) ![ridx, cidx] h (ix1 k)) a).val := by
      intro a; rw [hi]
    rw [if_pos hc, if_pos hb, hi]
    rfl
  · have hc : ¬ ∀ a, ((ix2 r c : (⟨2, ![R, C]⟩ : Shape).Idx) a).val
        = ((idxAt (s := ⟨2, ![R, C]⟩) ![ridx, cidx] h (ix1 k)) a).val := by
      intro hall
      exact hb ⟨(hall 0).symm, (hall 1).symm⟩
    rw [if_neg hc, if_neg hb, add_zero]

/-- The fold of an unmasked scatter-add over any list of lanes, read at cell `(r, c)`: the accumulator's cell plus the
    values of the listed lanes whose indices are `(r, c)`. -/
theorem foldl_add_apply {R C d : ℕ} (ridx cidx : IVec ⟨1, ![d]⟩ 32) (v : Vec Ideal ⟨1, ![d]⟩ .f32)
    (h : ∀ a x, ((![ridx, cidx] : Fin 2 → IVec ⟨1, ![d]⟩ 32) a x).toNat < (⟨2, ![R, C]⟩ : Shape).size a)
    (r : Fin R) (c : Fin C) (l : List (Fin d)) (g : Vec Ideal ⟨2, ![R, C]⟩ .f32) :
    (l.foldl (fun (g : Vec Ideal ⟨2, ![R, C]⟩ .f32) (k : Fin d) =>
        fun j => if (∀ a, (j a).val = ((idxAt (s := ⟨2, ![R, C]⟩) ![ridx, cidx] h (ix1 k)) a).val)
          then Elt.idxAdd (F := Ideal) .f32 (g (idxAt (s := ⟨2, ![R, C]⟩) ![ridx, cidx] h (ix1 k))) (v (ix1 k))
          else g j) g) (ix2 r c)
      = g (ix2 r c) + (l.map fun k => if (ridx (ix1 k)).toNat = r.val ∧ (cidx (ix1 k)).toNat = c.val then v (ix1 k) else 0).sum := by
  induction l generalizing g with
  | nil => simp
  | cons k l ih =>
    rw [List.foldl_cons, ih, List.map_cons, List.sum_cons, ← add_assoc]
    congr 1
    exact lane_add_apply ridx cidx v h g k r c

/-- An unmasked scatter-add into a rank-two array, read at cell `(r, c)`: the old cell plus the sum of the values of
    the lanes whose indices are `(r, c)`. -/
theorem storeIdx_add_apply {R C d : ℕ} (f : Vec Ideal ⟨2, ![R, C]⟩ .f32) (ridx cidx : IVec ⟨1, ![d]⟩ 32)
    (v : Vec Ideal ⟨1, ![d]⟩ .f32)
    (h : ∀ a x, ((![ridx, cidx] : Fin 2 → IVec ⟨1, ![d]⟩ 32) a x).toNat < (⟨2, ![R, C]⟩ : Shape).size a)
    (r : Fin R) (c : Fin C) :
    storeIdx (F := Ideal) (s := ⟨2, ![R, C]⟩) (d := ![d]) f ![ridx, cidx] v (fun _ => 1#1) true h (ix2 r c)
      = f (ix2 r c) + ∑ k : Fin d, if (ridx (ix1 k)).toNat = r.val ∧ (cidx (ix1 k)).toNat = c.val then v (ix1 k) else 0 := by
  have hfold := foldl_add_apply ridx cidx v h r c (List.finRange d) f
  have hone : (1#1 : BitVec 1) = 1 := rfl
  have hl : ∀ k : Fin ((![d] : Fin 1 → ℕ) 0), Shape.ofLane (d := ![d]) k = ix1 (n := d) k :=
    fun k => ofLane_eq_ix1 (d := d) k
  rw [Fin.sum_univ_def, ← hfold]
  unfold storeIdx
  simp only [if_pos hone, if_true, hl]
  rfl

end Idealize.ShloMosaic.StoreIdxRows

end
-- ==== Proof.IdealMt.lean ====
/-
  The matrix the first kernel builds, read at a cell, on the extended reals.

  Cell `(j, i)` of `mt` is the sum, over the sixteen connections `k` of row `j`, of the weight `w j k` when connection
  `k` of row `j` names column `i`, and of zero otherwise.  Row `j` sits in row `j % 2` of the block of its pair of rows;
  the block starts at zero, the adds of the other row of the pair land in the other row of the block.
-/
import proofs.«207065_g23029614641262_cont_8to1_115_36_alg».proof.Proof.Spec
import proofs.«207065_g23029614641262_cont_8to1_115_36_alg».proof.Proof.LibStoreIdxRows
import Idealize.ShloMosaic.PureOps.Ideal.Laws

noncomputable section

open scoped BigOperators

namespace Cert.KernelIdeal.HandIdeal

open Cert.KernelIdeal Cert.KernelIdeal.Hand
open Idealize.ShloMosaic Idealize.ShloMosaic.ValueIdx

/-- The block of zeros holds the real zero. -/
theorem zeroBlk_apply (y : S2x2048.Idx) : zeroBlk (F := Ideal) y = 0 := by
  unfold zeroBlk
  simp only [broadcastInDim, constant]
  exact Ideal.ofBits_zero_f32

/-- One row's adds into a block, read at a cell. -/
theorem rowAdd_apply (f : FVec Ideal S2x2048 .f32) (conn : IVec S32768 32) (hconn : ∀ i, (conn i).toNat < 2048) (w : FVec Ideal S2048x16 .f32)
    (r0 : BitVec 32) (hr : r0.toNat < 2) (ρ : Fin 2048) (r : Fin 2) (c : Fin 2048) :
    storeIdx (F := Ideal) (e := .f32) f (rowIdxs conn r0 ρ) (wRow w ρ) (fun _ => 1#1) true (rowIdxs_inb conn hconn r0 hr ρ) (ix2 r c)
      = f (ix2 r c) + ∑ k : Fin 16, if r0.toNat = r.val ∧ (idxRow conn ρ (ix1 k)).toNat = c.val then wRow w ρ (ix1 k) else 0 :=
  StoreIdxRows.storeIdx_add_apply (R := 2) (C := 2048) (d := 16) f (broadcast S16 r0) (idxRow conn ρ) (wRow w ρ)
    (rowIdxs_inb conn hconn r0 hr ρ) r c

/-- A block of two rows read at a cell: the adds of the row the cell is in. -/
theorem mtBlk_apply (conn : IVec S32768 32) (hconn : ∀ i, (conn i).toNat < 2048) (w : FVec Ideal S2048x16 .f32) (ρ0 ρ1 : Fin 2048)
    (r : Fin 2) (c : Fin 2048) :
    mtBlk (F := Ideal) conn hconn w ρ0 ρ1 (ix2 r c)
      = (∑ k : Fin 16, if (0 : ℕ) = r.val ∧ (idxRow conn ρ0 (ix1 k)).toNat = c.val then wRow w ρ0 (ix1 k) else 0)
        + ∑ k : Fin 16, if (1 : ℕ) = r.val ∧ (idxRow conn ρ1 (ix1 k)).toNat = c.val then wRow w ρ1 (ix1 k) else 0 := by
  unfold mtBlk
  rw [rowAdd_apply _ conn hconn w 1#32 (by decide) ρ1, rowAdd_apply _ conn hconn w 0#32 (by decide) ρ0, zeroBlk_apply, zero_add]
  rfl

/-- A block of two rows read in the row that holds row `j` of the matrix: row `j`'s adds. -/
theorem mtBlk_row (conn : IVec S32768 32) (hconn : ∀ i, (conn i).toNat < 2048) (w : FVec Ideal S2048x16 .f32) (ρ0 ρ1 j : Fin 2048)
    (r : Fin 2) (h : (r.val = 0 ∧ ρ0 = j) ∨ (r.val = 1 ∧ ρ1 = j)) (c : Fin 2048) :
    mtBlk (F := Ideal) conn hconn w ρ0 ρ1 (ix2 r c)
      = ∑ k : Fin 16, if (idxRow conn j (ix1 k)).toNat = c.val then wRow w j (ix1 k) else 0 := by
  rw [mtBlk_apply]
  rcases h with ⟨hr, rfl⟩ | ⟨hr, rfl⟩
  · simp [hr]
  · simp [hr]

/-- Cell `(j, i)` of the matrix: the weights of the connections of row `j` that name column `i`. -/
theorem mtArr_apply (conn : IVec S32768 32) (hconn : ∀ i, (conn i).toNat < 2048) (w : FVec Ideal S2048x16 .f32) (j i : Fin 2048) :
    mtArr (F := Ideal) conn hconn w (ix2 j i)
      = ∑ k : Fin 16, if (idxRow conn j (ix1 k)).toNat = i.val then wRow w j (ix1 k) else 0 := by
  refine (mtBlk_row conn hconn w ⟨2 * (j.val / 2), by omega⟩ ⟨2 * (j.val / 2) + 1, by omega⟩ j
    ⟨j.val % 2, Nat.mod_lt _ (by decide)⟩ ?_ i)
  rcases Nat.mod_two_eq_zero_or_one j.val with h | h
  · exact Or.inl ⟨h, Fin.ext (by show 2 * (j.val / 2) = j.val; omega)⟩
  · exact Or.inr ⟨h, Fin.ext (by show 2 * (j.val / 2) + 1 = j.val; omega)⟩

end Cert.KernelIdeal.HandIdeal

end
-- ==== Proof.LibTransposedMatmul.lean ====
/-
  A matrix product whose right operand is contracted on its second axis, read at coordinates.

  For the contraction `[M, K] × [N, K] → [M, N]` (each operand contracted on its second axis, no batch axis),
  accumulated into the zero matrix, the entry `(r, c)` of the result is `Σ_k lhs (r, k) · rhs (c, k)` on the extended
  reals, at any extents: row `r` of the left operand against row `c` of the right one — the product `A · Bᵀ` with no
  transpose ever formed. The one contraction coordinate `k` runs over `Fin K`.
-/
import Idealize.ShloMosaic.Lib.ValueIdx
import Idealize.ShloMosaic.PureOps.Ideal.Laws

namespace Cert.TransposedMatmul

open Idealize.ShloMosaic Idealize.ShloMosaic.ValueIdx

variable {M K N : ℕ}

/-- The left operand's row coordinate is the result's row coordinate. -/
theorem lhs_row (j : (⟨2, ![M, N]⟩ : Shape).Idx) (q : (DotDims.transposedRhs M K N).contr.Idx) :
    ((DotDims.transposedRhs M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand's row coordinate is the result's column coordinate. -/
theorem rhs_row (j : (⟨2, ![M, N]⟩ : Shape).Idx) (q : (DotDims.transposedRhs M K N).contr.Idx) :
    ((DotDims.transposedRhs M K N).rhsIdx j q (0 : Fin (⟨2, ![N, K]⟩ : Shape).rank)).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The product into the zero matrix, at `(r, c)`: the sum over `k` of `lhs (r, k) · rhs (c, k)`. -/
theorem transposedRhs_apply {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k)
      = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.TransposedMatmul
-- ==== Proof.LibRowOfVector.lean ====
/-
  A vector laid along the lanes and repeated over the rows, read at an entry.

  A bias, a scale or a per-column statistic of extent b meets an a × b matrix through two layout steps: the vector
  is viewed as a 1 × b row, and the row is repeated over the a rows. Neither step moves a value: the repeated row at
  (p, q) is the row at (0, q), which is the vector at q, whatever the row p. The lemmas below compose the library's
  reading of the two steps, at indices written by coordinates, for any extents.
-/
import Idealize.ShloMosaic.Lib.ValueLayout
import Idealize.ShloMosaic.Lib.ValueIdx

namespace RowOfVector

open Idealize.ShloMosaic Idealize.ShloMosaic.ValueIdx

variable {α : Type}

/-- A vector of extent b viewed as a 1 × b row and repeated over a rows reads, at (p, q), the vector at q. -/
theorem vecRow_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) :=
  (broadcastTo_1b_ab_apply _ h2 p q).trans (shapeCast_a_1a_apply x h1 0 q)

/-- The same when the vector first passes through a cast to its own shape, which is the identity. -/
theorem vecSelfRow_apply {a b : ℕ} (x : (⟨1, ![b]⟩ : Shape).Idx → α)
    (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ x h0) h1) h2 (ix2 p q) = x (ix1 q) :=
  (vecRow_apply _ h1 h2 p q).trans (congrFun (shapeCast_self x h0) (ix1 q))

/-- A 1 × b row, cast to its own shape and repeated over a rows, reads at (p, q) the row at (0, q). -/
theorem rowSelfRow_apply {a b : ℕ} (x : (⟨2, ![1, b]⟩ : Shape).Idx → α)
    (h0 : (⟨2, ![1, b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h0) h2 (ix2 p q) = x (ix2 (0 : Fin 1) q) :=
  (broadcastTo_1b_ab_apply _ h2 p q).trans (congrFun (shapeCast_self x h0) (ix2 (0 : Fin 1) q))

end RowOfVector
-- ==== Proof.IdealOut.lean ====
/-
  The second kernel's result, read at a cell, on the extended reals.

  Column `j` of the result lies in block `j / 256` at column `j % 256`; a block is the product of the activations with
  the transpose of 256 rows of `mt`, plus those rows' biases.  So cell `(0, a, j)` is `Σ_i x2 (a, i) · mt (j, i) + b j`.
-/
import proofs.«207065_g23029614641262_cont_8to1_115_36_alg».proof.Proof.Spec
import proofs.«207065_g23029614641262_cont_8to1_115_36_alg».proof.Proof.LibTransposedMatmul
import proofs.«207065_g23029614641262_cont_8to1_115_36_alg».proof.Proof.LibRowOfVector
import Idealize.ShloMosaic.Lib.ValueLayout
import Idealize.ShloMosaic.Lib.Pipeline.Value
import Idealize.ShloMosaic.PureOps.Ideal.Laws

noncomputable section

open scoped BigOperators

namespace Cert.KernelIdeal.HandIdeal

open Cert.KernelIdeal Cert.KernelIdeal.Hand
open Idealize.ShloMosaic Idealize.ShloMosaic.ValueIdx

/-- One block of 256 result columns at `(0, a, q)`: row `a` of the activations against row `q` of the block's rows of
    `mt`, plus the block's bias at `q`. -/
theorem tcBlock_apply (x2 : FVec Ideal S2048x2048 .f32) (mtB : FVec Ideal S256x2048 .f32) (bB : FVec Ideal S256 .f32)
    (a : Fin 2048) (q : Fin 256) :
    tcBlock x2 mtB bB (ix3 (0 : Fin 1) a q) = (∑ i : Fin 2048, x2 (ix2 a i) * mtB (ix2 q i)) + bB (ix1 q) := by
  unfold tcBlock
  rw [shapeCast_ab_1ab_apply, addf_apply, shapeCast_self, shapeCast_self, RowOfVector.vecRow_apply]
  congr 1
  exact Cert.TransposedMatmul.transposedRhs_apply (M := 2048) (K := 2048) (N := 256) x2 mtB a q

/-- Cell `(0, a, j)` of the whole result. -/
theorem outArr_apply (x2 mt : FVec Ideal S2048x2048 .f32) (b : FVec Ideal S2048 .f32) (a j : Fin 2048) :
    outArr x2 mt b (ix3 (0 : Fin 1) a j) = (∑ i : Fin 2048, x2 (ix2 a i) * mt (ix2 j i)) + b (ix1 j) := by
  have hj : 256 * (j.val / 256) + j.val % 256 = j.val := Nat.div_add_mod j.val 256
  have hjlt : j.val < 2048 := j.isLt
  show tcBlock x2 (mtBlock mt ⟨j.val / 256, by omega⟩) (bBlock b ⟨j.val / 256, by omega⟩)
      (ix3 (0 : Fin 1) a (⟨j.val % 256, Nat.mod_lt _ (by decide)⟩ : Fin 256)) = _
  rw [tcBlock_apply]
  have e : (⟨256 * (j.val / 256) + j.val % 256, by omega⟩ : Fin 2048) = j := Fin.ext hj
  have e1 : ∀ i : Fin 2048, mtBlock mt ⟨j.val / 256, by omega⟩ (ix2 (⟨j.val % 256, Nat.mod_lt _ (by decide)⟩ : Fin 256) i) = mt (ix2 j i) := by
    intro i
    show mt (ix2 (⟨256 * (j.val / 256) + j.val % 256, _⟩ : Fin 2048) (⟨i.val, _⟩ : Fin 2048)) = _
    rw [e]
  have e2 : bBlock b ⟨j.val / 256, by omega⟩ (ix1 (⟨j.val % 256, Nat.mod_lt _ (by decide)⟩ : Fin 256)) = b (ix1 j) := by
    show b (ix1 (⟨256 * (j.val / 256) + j.val % 256, _⟩ : Fin 2048)) = _
    rw [e]
  rw [e2]
  congr 1
  exact Finset.sum_congr rfl fun i _ => by rw [e1]

end Cert.KernelIdeal.HandIdeal

end
-- ==== Proof.LibScatterDot.lean ====
/-
  The law that joins the two sides: a dot product against a scattered row is the gathered dot product.

  For real `x i` and `w k` and column numbers `c k`,
  `Σ_i x i · (Σ_k [c k = i] w k) = Σ_k x (c k) · w k`: distribute, exchange the two finite sums, and keep the one
  column each connection names.  On the extended reals the distribution needs the factors finite, which is where the
  precondition enters; the sums are carried to the reals and back.
-/
import Idealize.ShloMosaic.PureOps.Ideal.Laws

noncomputable section

open scoped BigOperators

namespace Cert.ScatterDot

/-- A finite real sum read in the extended reals is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity. -/
theorem scatter_dot_real {n K : ℕ} (x : Fin n → ℝ) (w : Fin K → ℝ) (c : Fin K → ℕ) (hc : ∀ k, c k < n) :
    ∑ i : Fin n, x i * (∑ k : Fin K, if c k = i.val then w k else 0) = ∑ k : Fin K, x ⟨c k, hc k⟩ * w k := by
  simp_rw [Finset.mul_sum]
  rw [Finset.sum_comm]
  refine Finset.sum_congr rfl fun k _ => ?_
  rw [Finset.sum_eq_single (⟨c k, hc k⟩ : Fin n)]
  · simp
  · intro i _ hi
    have : c k ≠ i.val := fun e => hi (Fin.ext e.symm)
    simp [this]
  · intro h; exact absurd (Finset.mem_univ _) h

/-- The same on the extended reals, for finite factors. -/
theorem scatter_dot {n K : ℕ} (x : Fin n → EReal) (w : Fin K → EReal) (c : Fin K → ℕ) (hc : ∀ k, c k < n)
    (hx : ∀ i, ∃ r : ℝ, x i = (r : EReal)) (hw : ∀ k, ∃ r : ℝ, w k = (r : EReal)) :
    ∑ i : Fin n, x i * (∑ k : Fin K, if c k = i.val then w k else 0) = ∑ k : Fin K, x ⟨c k, hc k⟩ * w k := by
  choose xr hxr using hx
  choose wr hwr using hw
  have h1 : ∀ i : Fin n, x i * (∑ k : Fin K, if c k = i.val then w k else 0)
      = ((xr i * ∑ k : Fin K, if c k = i.val then wr k else 0 : ℝ) : EReal) := by
    intro i
    rw [EReal.coe_mul, coe_sum, hxr]
    congr 1
    refine Finset.sum_congr rfl fun k _ => ?_
    split_ifs
    · exact hwr k
    · exact EReal.coe_zero.symm
  have h2 : ∀ k : Fin K, x ⟨c k, hc k⟩ * w k = ((xr ⟨c k, hc k⟩ * wr k : ℝ) : EReal) := by
    intro k; rw [EReal.coe_mul, hxr, hwr]
  rw [Finset.sum_congr rfl (fun i _ => h1 i), Finset.sum_congr rfl (fun k _ => h2 k), ← coe_sum, ← coe_sum]
  exact congrArg _ (scatter_dot_real xr wr c hc)

end Cert.ScatterDot

end
-- ==== Proof.IdealBridge.lean ====
/-
  The kernel's result is the reference's formula, cell by cell, for finite activations and weights.

  Cell `(0, a, j)` of the kernel's result is `Σ_i x (0, a, i) · mt (j, i) + b j` with
  `mt (j, i) = Σ_k [conn (16 j + k) = i] w (j, k)`; distributing and exchanging the sums gives
  `Σ_k x (0, a, conn (16 j + k)) · w (j, k) + b j`.
-/
import proofs.«207065_g23029614641262_cont_8to1_115_36_alg».proof.Proof.IdealMt
import proofs.«207065_g23029614641262_cont_8to1_115_36_alg».proof.Proof.IdealOut
import proofs.«207065_g23029614641262_cont_8to1_115_36_alg».proof.Proof.LibScatterDot

noncomputable section

open scoped BigOperators

namespace Cert.KernelIdeal.HandIdeal

open Cert.KernelIdeal Cert.KernelIdeal.Hand
open Idealize.ShloMosaic Idealize.ShloMosaic.ValueIdx

/-- The activations as a matrix, read at `(a, i)`. -/
theorem x2Arr_apply (x : FVec Ideal S1x2048x2048 .f32) (a i : Fin 2048) : x2Arr x (ix2 a i) = x (ix3 (0 : Fin 1) a i) :=
  shapeCast_1ab_ab_apply x Facts₀.shapeCasts_S1x2048x2048_S2048x2048 a i

/-- The kernel's result at `(0, a, j)`: the gathered dot product of row `j`'s connections, plus the bias. -/
theorem kernel_value (x : FVec Ideal S1x2048x2048 .f32) (conn : IVec S32768 32) (hconn : ∀ i, (conn i).toNat < 2048)
    (w : FVec Ideal S2048x16 .f32) (b : FVec Ideal S2048 .f32)
    (hx : ∀ i, ∃ r : ℝ, x i = (r : EReal)) (hw : ∀ i, ∃ r : ℝ, w i = (r : EReal)) (a j : Fin 2048) :
    outArr (x2Arr x) (mtArr conn hconn w) b (ix3 (0 : Fin 1) a j)
      = (∑ k : Fin 16, x (ix3 (0 : Fin 1) a (⟨(conn (ix1 (⟨16 * j.val + k.val, by omega⟩ : Fin 32768))).toNat, hconn _⟩ : Fin 2048)) * w (ix2 j k))
        + b (ix1 j) := by
  rw [outArr_apply]
  congr 1
  refine (Finset.sum_congr rfl fun i _ => ?_).trans
    (Cert.ScatterDot.scatter_dot (n := 2048) (K := 16) (fun i => x (ix3 (0 : Fin 1) a i)) (fun k => w (ix2 j k))
      (fun k => (conn (ix1 (⟨16 * j.val + k.val, by omega⟩ : Fin 32768))).toNat) (fun k => hconn _) (fun i => hx _) (fun k => hw _))
  rw [x2Arr_apply, mtArr_apply]
  rfl

end Cert.KernelIdeal.HandIdeal

end
-- ==== Proof.RefRun.lean ====
/-
  The reference's run.

  The reference is a straight line of host operations once its two calls are unfolded: the index normalisation
  (a negative index gets the axis length added), the gather of the first array along its last axis at the
  normalised indices, the in-bounds mask and the select against the not-a-number word, then the reshape, the
  contraction with the weights, the transpose and the addition of the broadcast bias. Listed in order, the
  program is the sequence of these operations, and each buffer after the run holds the operations' fold over
  the launch contents; at the result buffer that fold is one pure term of the four argument arrays.
-/
import proofs.«207065_g23029614641262_cont_8to1_115_36_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The result as one term -/

/-- The normalised indices: an index below zero gets the axis length 2048 added, any other is kept. -/
def normIdx (conn : IVec S32768 32) : IVec S32768 32 :=
  select (cmpi .slt conn (broadcastInDim S32768 ![] bcast_S_S32768 (constantI S_ 32 0#32)))
    (addi conn (broadcastInDim S32768 ![] bcast_S_S32768 (constantI S_ 32 2048#32))) conn

/-- The normalised indices as a column of start indices. -/
def idxCol (conn : IVec S32768 32) : IVec S32768x1 32 :=
  broadcastInDim S32768x1 ![0] bcast_S32768_S32768x1_0 (normIdx conn)

/-- The in-bounds mask: the start index lies between 0 and 2047. -/
def inBounds (conn : IVec S32768 32) : IVec S32768 1 :=
  Host.reduce IntOp.andi
    (andi (cmpi .sge (idxCol conn) (broadcastInDim S32768x1 ![] bcast_S_S32768x1 (constantI S_ 32 0#32)))
      (cmpi .sle (idxCol conn) (broadcastInDim S32768x1 ![0, 1] bcast_S1x1_S32768x1_0_1
        (broadcastInDim S1x1 ![1] bcast_S1_S1x1_1 (constantI S1 32 2047#32)))))
    (constantI S_ 1 1#1) reducesTo_S32768x1_S32768_d1 h_S_

/-- The take along the last axis: the gathered entry where the index is in bounds, the not-a-number word elsewhere. -/
def taken (x : FVec F S1x2048x2048 .f32) (conn : IVec S32768 32) : FVec F S1x2048x32768 .f32 :=
  select (broadcastInDim S1x2048x32768 ![2] bcast_S32768_S1x2048x32768_2 (inBounds conn))
    (Host.gather gather_S1x2048x2048_S32768x1_S1x2048x32768_01_2_n_n_2_1_120481 x (idxCol conn))
    (broadcastInDim S1x2048x32768 ![] bcast_S_S1x2048x32768 (constant S_ .f32 0x7FC00000#32))

/-- The reference's result as one term of its four argument arrays. -/
def refTerm (x : FVec F S1x2048x2048 .f32) (conn : IVec S32768 32) (w : FVec F S2048x16 .f32) (b : FVec F S2048 .f32) :
    FVec F S1x2048x2048 .f32 :=
  addf
    (transpose S1x2048x2048 [1, 2, 0]
      (Host.dotGeneral dot_S2048x16_S1x2048x2048x16_S2048x1x2048_1_3_n_01_0_2 none w
        (shapeCast S1x2048x2048x16 (taken x conn) shapeCasts_S1x2048x32768_S1x2048x2048x16))
      transposes_S2048x1x2048_S1x2048x2048_1_2_0)
    (broadcastInDim S1x2048x2048 ![0, 1, 2] bcast_S1x1x2048_S1x2048x2048_0_1_2
      (broadcastInDim S1x1x2048 ![2] bcast_S2048_S1x1x2048_2 b))

/-! ## The program as a list of operations -/

/-- The program's 29 operations in order, the two calls unfolded: the take's 23 into its call's buffers (its
    select into the buffer the caller reads), the where's single select among them, then the caller's six. -/
abbrev ops : List (HloOp τ sig (Elt F)) :=
  [ TRef.nullary main_call0.c (constantI S_ 32 0#32),
    TRef.unary main_call0.c main_call0.v0 (broadcastInDim S32768 ![] bcast_S_S32768),
    TRef.binary (.of main_arg1) main_call0.v0 main_call0.v1 (cmpi .slt),
    TRef.nullary main_call0.c_0 (constantI S_ 32 2048#32),
    TRef.unary main_call0.c_0 main_call0.v2 (broadcastInDim S32768 ![] bcast_S_S32768),
    TRef.binary (.of main_arg1) main_call0.v2 main_call0.v3 addi,
    TRef.ternary main_call0.v1 main_call0.v3 (.of main_arg1) main_call0.call0.v0 select,
    TRef.unary main_call0.call0.v0 main_call0.v5 (broadcastInDim S32768x1 ![0] bcast_S32768_S32768x1_0),
    TRef.nullary main_call0.c_1 (constantI S1 32 2047#32),
    TRef.nullary main_call0.c_2 (constantI S_ 32 0#32),
    TRef.unary main_call0.c_2 main_call0.v6 (broadcastInDim S32768x1 ![] bcast_S_S32768x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S32768x1 ![0, 1] bcast_S1x1_S32768x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32768x1_S32768_d1 h_S_),
    TRef.binary (.of main_arg0) main_call0.v5 main_call0.v13 (fun x i => Host.gather gather_S1x2048x2048_S32768x1_S1x2048x32768_01_2_n_n_2_1_120481 x i),
    TRef.unary main_call0.v12 main_call0.v14 (broadcastInDim S1x2048x32768 ![2] bcast_S32768_S1x2048x32768_2),
    TRef.nullary main_call0.cst (constant S_ .f32 0x7FC00000#32),
    TRef.unary main_call0.cst main_call0.v15 (broadcastInDim S1x2048x32768 ![] bcast_S_S1x2048x32768),
    TRef.ternary main_call0.v14 main_call0.v13 main_call0.v15 main_call0.v16 select,
    reshape main_v0 main_v1 rfl shapeCasts_S1x2048x32768_S1x2048x2048x16,
    binary main_arg2 main_v1 main_v2 ((fun l r => Host.dotGeneral dot_S2048x16_S1x2048x2048x16_S2048x1x2048_1_3_n_01_0_2 none l r) : (⟨S2048x16, .f32⟩ : BufTy).Contents (Elt F) → (⟨S1x2048x2048x16, .f32⟩ : BufTy).Contents (Elt F) → (⟨S2048x1x2048, .f32⟩ : BufTy).Contents (Elt F)),
    unary main_v2 main_v3 ((transpose S1x2048x2048 [1, 2, 0] · transposes_S2048x1x2048_S1x2048x2048_1_2_0) : (⟨S2048x1x2048, .f32⟩ : BufTy).Contents (Elt F) → (⟨S1x2048x2048, .f32⟩ : BufTy).Contents (Elt F)),
    unary main_arg3 main_v4 (broadcastInDim S1x1x2048 ![2] bcast_S2048_S1x1x2048_2 : (⟨S2048, .f32⟩ : BufTy).Contents (Elt F) → (⟨S1x1x2048, .f32⟩ : BufTy).Contents (Elt F)),
    unary main_v4 main_v5 (broadcastInDim S1x2048x2048 ![0, 1, 2] bcast_S1x1x2048_S1x2048x2048_0_1_2 : (⟨S1x1x2048, .f32⟩ : BufTy).Contents (Elt F) → (⟨S1x2048x2048, .f32⟩ : BufTy).Contents (Elt F)),
    binary main_v3 main_v5 main_v6 (addf : (⟨S1x2048x2048, .f32⟩ : BufTy).Contents (Elt F) → (⟨S1x2048x2048, .f32⟩ : BufTy).Contents (Elt F) → (⟨S1x2048x2048, .f32⟩ : BufTy).Contents (Elt F)) ]

set_option maxRecDepth 1024 in
/-- The program is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    binary_bufs_sub .., unary_bufs_sub .., unary_bufs_sub .., unary_bufs_sub .., binary_bufs_sub ..⟩

/-- Every weakly fair execution of the program terminates, and every buffer ends at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  The reference's result read at an index.

  When every index word lies in [0, 2047] the index normalisation keeps it, the in-bounds mask is true, and the
  take reads the first array at the word. The reshape splits the gathered axis of length 32768 into 2048 rows of 16,
  the contraction sums the sixteen products of a row of weights with the gathered entries, the transpose puts the
  batch axis last, and the bias is added along it. So the entry at (0, a, j) is the sum over k < 16 of
  weight (j, k) times the first array at (0, a, conn (16 j + k)), plus bias j.
-/
import proofs.«207065_g23029614641262_cont_8to1_115_36_alg».proof.Proof.RefRun
import Idealize.ShloMosaic.Lib.ValueIdx
import Idealize.ShloMosaic.Lib.Affine
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Words -/

/-- A word below 2048 read unsigned reads the same signed. -/
theorem toInt_of_lt (c : BitVec 32) (h : c.toNat < 2048) : c.toInt = (c.toNat : Int) :=
  BitVec.toInt_eq_toNat_of_lt (by omega)

/-- A left fold by "and" from 1 over words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all_one f hf l

/-! ## The take -/

/-- An index word in range is kept by the normalisation. -/
theorem normIdx_apply (conn : IVec S32768 32) (i : S32768.Idx) (h : (conn i).toNat < 2048) : normIdx conn i = conn i := by
  unfold normIdx
  rw [select_apply]
  have hc : cmpi .slt conn (broadcastInDim S32768 ![] bcast_S_S32768 (constantI S_ 32 0#32)) i = 0#1 := by
    apply eq_zero_of_ne_one
    show ¬IntOp.cmpi .slt (conn i) 0#32 = 1#1
    rw [IntOp.cmpi_slt, toInt_of_lt _ h, show (0#32 : BitVec 32).toInt = 0 from by decide]
    omega
  rw [hc, select_zero]

/-- The column of start indices at row p is the normalised index p. -/
theorem idxCol_apply (conn : IVec S32768 32) (p : Fin 32768) : idxCol conn (ix2 p 0) = normIdx conn (ix1 p) := by
  unfold idxCol
  exact broadcastInDim_apply _ _ _ _ _ (fun a => by match a with | ⟨0, _⟩ => rfl)

/-- With every index word in range the in-bounds mask is true everywhere. -/
theorem inBounds_apply (conn : IVec S32768 32) (h : ∀ i, (conn i).toNat < 2048) (i : S32768.Idx) : inBounds conn i = 1#1 := by
  unfold inBounds
  rw [Host.reduce_eq_foldl]
  refine foldl_andi_all_one _ (fun n => ?_) _
  obtain ⟨p, q, rfl⟩ : ∃ (p : Fin 32768) (q : Fin 1), n = ix2 p q := ⟨n 0, n 1, eq_ix2 n⟩
  obtain rfl : q = 0 := Subsingleton.elim _ _
  show IntOp.andi (IntOp.cmpi .sge (idxCol conn (ix2 p 0)) 0#32) (IntOp.cmpi .sle (idxCol conn (ix2 p 0)) 2047#32) = 1#1
  rw [idxCol_apply, normIdx_apply _ _ (h _)]
  refine IntOp.andi_eq_one.2 ⟨IntOp.cmpi_sge.2 ?_, IntOp.cmpi_sle.2 ?_⟩
  · rw [toInt_of_lt _ (h _), show (0#32 : BitVec 32).toInt = 0 from by decide]; omega
  · rw [toInt_of_lt _ (h _), show (2047#32 : BitVec 32).toInt = 2047 from by decide]; have := h (ix1 p); omega

/-- The gather along the last axis read at (0, a, p): the operand at (0, a, ·) at the start index p read signed and
    clamped into [0, 2047]. -/
theorem gather_apply {α : Type} (x : S1x2048x2048.Idx → α) (idx : IVec S32768x1 32) (a : Fin 2048) (p : Fin 32768) :
    Host.gather gather_S1x2048x2048_S32768x1_S1x2048x32768_01_2_n_n_2_1_120481 x idx (ix3 0 a p)
      = x (ix3 0 a ⟨min (idx (ix2 p 0)).toInt.toNat 2047, by omega⟩) := by
  unfold Host.gather
  refine congrArg x (funext fun ax => Fin.ext ?_)
  match ax with
  | ⟨0, _⟩ =>
    show gather_S1x2048x2048_S32768x1_S1x2048x32768_01_2_n_n_2_1_120481.start (ix3 0 a p) idx (0 : Fin 3)
      + gather_S1x2048x2048_S32768x1_S1x2048x32768_01_2_n_n_2_1_120481.batchCoord (ix3 0 a p) (0 : Fin 3)
      + gather_S1x2048x2048_S32768x1_S1x2048x32768_01_2_n_n_2_1_120481.offCoord (ix3 0 a p) (0 : Fin 3) = _
    rw [GatherDims.batchCoord_eq_zero _ _ _ List.not_mem_nil]
    unfold GatherDims.start
    rw [dif_neg (by decide)]
    unfold GatherDims.offCoord
    rw [dif_pos (by decide)]
    rfl
  | ⟨1, _⟩ =>
    show gather_S1x2048x2048_S32768x1_S1x2048x32768_01_2_n_n_2_1_120481.start (ix3 0 a p) idx (1 : Fin 3)
      + gather_S1x2048x2048_S32768x1_S1x2048x32768_01_2_n_n_2_1_120481.batchCoord (ix3 0 a p) (1 : Fin 3)
      + gather_S1x2048x2048_S32768x1_S1x2048x32768_01_2_n_n_2_1_120481.offCoord (ix3 0 a p) (1 : Fin 3) = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨2, _⟩ =>
    show gather_S1x2048x2048_S32768x1_S1x2048x32768_01_2_n_n_2_1_120481.start (ix3 0 a p) idx (2 : Fin 3)
      + gather_S1x2048x2048_S32768x1_S1x2048x32768_01_2_n_n_2_1_120481.batchCoord (ix3 0 a p) (2 : Fin 3)
      + gather_S1x2048x2048_S32768x1_S1x2048x32768_01_2_n_n_2_1_120481.offCoord (ix3 0 a p) (2 : Fin 3) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S1x2048x2048_S32768x1_S1x2048x32768_01_2_n_n_2_1_120481.siIdx (ix3 0 a p)
        ⟨List.idxOf (2 : Fin 3) gather_S1x2048x2048_S32768x1_S1x2048x32768_01_2_n_n_2_1_120481.startIndexMap,
          List.idxOf_lt_length_iff.2 (by decide)⟩ = ix2 p 0 := by
      funext b; refine Fin.ext ?_
      match b with
      | ⟨0, _⟩ => rfl
      | ⟨1, _⟩ => rfl
    rw [hsi]
    rfl

/-- With every index word in range the take at (0, a, p) is the first array at (0, a, conn p). -/
theorem taken_apply {F : FTy → Type} [FloatOps F] (x : FVec F S1x2048x2048 .f32) (conn : IVec S32768 32)
    (h : ∀ i, (conn i).toNat < 2048) (a : Fin 2048) (p : Fin 32768) :
    taken x conn (ix3 0 a p) = x (ix3 0 a ⟨(conn (ix1 p)).toNat, h _⟩) := by
  unfold taken
  rw [select_apply]
  have hm : broadcastInDim S1x2048x32768 ![2] bcast_S32768_S1x2048x32768_2 (inBounds conn) (ix3 0 a p) = 1#1 := by
    rw [broadcastInDim_apply _ _ _ _ (ix1 p) (fun ax => by match ax with | ⟨0, _⟩ => rfl)]
    exact inBounds_apply conn h _
  rw [hm, select_one, gather_apply]
  refine congrArg x (congrArg (ix3 (0 : Fin 1) a) (Fin.ext ?_))
  show min (idxCol conn (ix2 p 0)).toInt.toNat 2047 = (conn (ix1 p)).toNat
  rw [idxCol_apply, normIdx_apply _ _ (h _), toInt_of_lt _ (h _), Int.toNat_natCast]
  have := h (ix1 p); omega

/-! ## The reshape, the contraction, the transpose, the bias -/

/-- The reshape splits the last axis: entry (0, a, j, k) is entry (0, a, 16 j + k). -/
theorem reshaped_apply {α : Type} (v : S1x2048x32768.Idx → α) (a j : Fin 2048) (k : Fin 16) :
    shapeCast S1x2048x2048x16 v shapeCasts_S1x2048x32768_S1x2048x2048x16 (ix4 0 a j k)
      = v (ix3 0 a ⟨16 * j.val + k.val, by omega⟩) := by
  refine shapeCast_apply v _ _ _ ?_
  rw [Shape.rowMajor_val_three, Shape.rowMajor_val_four]
  show (0 * 2048 + a.val) * 32768 + (16 * j.val + k.val) = ((0 * 2048 + a.val) * 2048 + j.val) * 16 + k.val
  omega

/-- The contraction at (j, 0, a): the sum over the sixteen columns of weight (j, k) times the right operand at
    (0, a, j, k). At the extended reals. -/
theorem dot_apply (w : FVec Ideal S2048x16 .f32) (R : FVec Ideal S1x2048x2048x16 .f32) (a j : Fin 2048) :
    Host.dotGeneral dot_S2048x16_S1x2048x2048x16_S2048x1x2048_1_3_n_01_0_2 none w R (ix3 j 0 a) = ∑ k : Fin 16, w (ix2 j k) * R (ix4 0 a j k) := by
  show FloatOps.dotGeneral _ none _ w R (ix3 j 0 a) = _
  rw [Ideal.dotGeneral_apply, ← Equiv.sum_comp (contrEquiv1 dot_S2048x16_S1x2048x2048x16_S2048x1x2048_1_3_n_01_0_2 16 rfl rfl).symm]
  refine Finset.sum_congr rfl fun k _ => ?_
  have hk := contrEquiv1_symm_val dot_S2048x16_S1x2048x2048x16_S2048x1x2048_1_3_n_01_0_2 16 rfl rfl k
  have el : dot_S2048x16_S1x2048x2048x16_S2048x1x2048_1_3_n_01_0_2.lhsIdx (ix3 j 0 a) ((contrEquiv1 dot_S2048x16_S1x2048x2048x16_S2048x1x2048_1_3_n_01_0_2 16 rfl rfl).symm k) = ix2 j k :=
    funext fun ax => Fin.ext (by
      match ax with
      | ⟨0, _⟩ =>
        show (dot_S2048x16_S1x2048x2048x16_S2048x1x2048_1_3_n_01_0_2.lhsIdx (ix3 j 0 a) _ (0 : Fin 2)).val = _
        unfold DotDims.lhsIdx
        rw [dif_pos (show (0 : Fin 2) ∈ dot_S2048x16_S1x2048x2048x16_S2048x1x2048_1_3_n_01_0_2.lhsBatch by decide)]
        rfl
      | ⟨1, _⟩ => exact (dot_S2048x16_S1x2048x2048x16_S2048x1x2048_1_3_n_01_0_2.lhsIdx_val_of_single rfl _ _).trans hk)
  have er : dot_S2048x16_S1x2048x2048x16_S2048x1x2048_1_3_n_01_0_2.rhsIdx (ix3 j 0 a) ((contrEquiv1 dot_S2048x16_S1x2048x2048x16_S2048x1x2048_1_3_n_01_0_2 16 rfl rfl).symm k) = ix4 0 a j k :=
    funext fun ax => Fin.ext (by
      match ax with
      | ⟨0, _⟩ =>
        show (dot_S2048x16_S1x2048x2048x16_S2048x1x2048_1_3_n_01_0_2.rhsIdx (ix3 j 0 a) _ (0 : Fin 4)).val = _
        unfold DotDims.rhsIdx
        rw [dif_neg (show ¬(0 : Fin 4) ∈ dot_S2048x16_S1x2048x2048x16_S2048x1x2048_1_3_n_01_0_2.rhsBatch by decide), dif_pos (show (0 : Fin 4) ∈ dot_S2048x16_S1x2048x2048x16_S2048x1x2048_1_3_n_01_0_2.rhsNonContracting by decide)]
        rfl
      | ⟨1, _⟩ =>
        show (dot_S2048x16_S1x2048x2048x16_S2048x1x2048_1_3_n_01_0_2.rhsIdx (ix3 j 0 a) _ (1 : Fin 4)).val = _
        unfold DotDims.rhsIdx
        rw [dif_neg (show ¬(1 : Fin 4) ∈ dot_S2048x16_S1x2048x2048x16_S2048x1x2048_1_3_n_01_0_2.rhsBatch by decide), dif_pos (show (1 : Fin 4) ∈ dot_S2048x16_S1x2048x2048x16_S2048x1x2048_1_3_n_01_0_2.rhsNonContracting by decide)]
        rfl
      | ⟨2, _⟩ =>
        show (dot_S2048x16_S1x2048x2048x16_S2048x1x2048_1_3_n_01_0_2.rhsIdx (ix3 j 0 a) _ (2 : Fin 4)).val = _
        unfold DotDims.rhsIdx
        rw [dif_pos (show (2 : Fin 4) ∈ dot_S2048x16_S1x2048x2048x16_S2048x1x2048_1_3_n_01_0_2.rhsBatch by decide)]
        rfl
      | ⟨3, _⟩ => exact (dot_S2048x16_S1x2048x2048x16_S2048x1x2048_1_3_n_01_0_2.rhsIdx_val_of_single rfl _ _).trans hk)
  rw [el, er]

/-- The reference's result at (0, a, j), when every index word is below 2048: the sum over k < 16 of weight (j, k) times
    the first array at (0, a, conn (16 j + k)), plus bias j. At the extended reals. -/
theorem refTerm_apply (x : FVec Ideal S1x2048x2048 .f32) (conn : IVec S32768 32) (w : FVec Ideal S2048x16 .f32)
    (b : FVec Ideal S2048 .f32) (hconn : ∀ i, (conn i).toNat < 2048) (a j : Fin 2048) :
    refTerm x conn w b (ix3 0 a j)
      = (∑ k : Fin 16, w (ix2 j k) * x (ix3 0 a ⟨(conn (ix1 ⟨16 * j.val + k.val, by omega⟩)).toNat, hconn _⟩)) + b (ix1 j) := by
  unfold refTerm
  rw [addf_apply]
  congr 1
  · rw [transpose_apply [1, 2, 0] _ transposes_S2048x1x2048_S1x2048x2048_1_2_0 (ix3 0 a j) (ix3 j 0 a)
      (fun bx => by match bx with | ⟨0, _⟩ => rfl | ⟨1, _⟩ => rfl | ⟨2, _⟩ => rfl)]
    rw [dot_apply]
    refine Finset.sum_congr rfl fun k _ => ?_
    rw [reshaped_apply, taken_apply x conn hconn]
  · rw [broadcastInDim_apply _ _ _ _ (ix3 0 0 j) (fun ax => by match ax with | ⟨0, _⟩ => rfl | ⟨1, _⟩ => rfl | ⟨2, _⟩ => rfl)]
    exact broadcastInDim_apply _ _ _ _ (ix1 j) (fun ax => by match ax with | ⟨0, _⟩ => rfl)

/-- The same with the factors in the other order. -/
theorem refTerm_apply' (x : FVec Ideal S1x2048x2048 .f32) (conn : IVec S32768 32) (w : FVec Ideal S2048x16 .f32)
    (b : FVec Ideal S2048 .f32) (hconn : ∀ i, (conn i).toNat < 2048) (a j : Fin 2048) :
    refTerm x conn w b (ix3 0 a j)
      = (∑ k : Fin 16, x (ix3 0 a ⟨(conn (ix1 ⟨16 * j.val + k.val, by omega⟩)).toNat, hconn _⟩) * w (ix2 j k)) + b (ix1 j) := by
  rw [refTerm_apply x conn w b hconn a j]
  exact congrArg (· + b (ix1 j)) (Finset.sum_congr rfl fun k _ => mul_comm _ _)

end Cert.ReferenceIdeal.RefValue

end
-- ==== Proof.IdealEq.lean ====
/-
  The reference's term and the kernel's two-stage function are one function of the arguments, for connection words in
  range and finite activations and weights: at every cell both are `Σ_k x (0, a, conn (16 j + k)) · w (j, k) + b j`.
-/
import proofs.«207065_g23029614641262_cont_8to1_115_36_alg».proof.Proof.IdealBridge
import proofs.«207065_g23029614641262_cont_8to1_115_36_alg».proof.Proof.RefValue

noncomputable section

namespace Cert.KernelIdeal.HandIdeal

open Cert.KernelIdeal.Hand
open Idealize.ShloMosaic Idealize.ShloMosaic.ValueIdx

theorem ref_eq_kernel (x : FVec Ideal Cert.KernelIdeal.S1x2048x2048 .f32) (conn : IVec Cert.KernelIdeal.S32768 32) (hconn : ∀ i, (conn i).toNat < 2048)
    (w : FVec Ideal Cert.KernelIdeal.S2048x16 .f32) (b : FVec Ideal Cert.KernelIdeal.S2048 .f32)
    (hx : ∀ i, ∃ r : ℝ, x i = (r : EReal)) (hw : ∀ i, ∃ r : ℝ, w i = (r : EReal)) :
    Cert.ReferenceIdeal.RefValue.refTerm x conn w b = outArr (x2Arr x) (mtArr conn hconn w) b := by
  funext j
  obtain ⟨u, a, c, rfl⟩ : ∃ (u : Fin 1) (a : Fin 2048) (c : Fin 2048), j = ix3 u a c := ⟨j 0, j 1, j 2, eq_ix3 j⟩
  obtain rfl : u = 0 := Subsingleton.elim _ _
  rw [Cert.ReferenceIdeal.RefValue.refTerm_apply' x conn w b hconn a c, kernel_value x conn hconn w b hx hw a c]

end Cert.KernelIdeal.HandIdeal

end
-- ==== Proof.RefResult.lean ====
/-
  The reference's run read at its result.

  After the run each buffer holds the operations' fold over the launch contents. At the result buffer the fold is
  the one term of the four argument arrays; at an argument buffer, which no operation writes, it is the launch
  contents. So the program runs to the end with its result at that term and its arguments unchanged. The line is read in four
  pieces (the index normalisation, the start indices with their mask, the gather with its select, the caller's
  operations), each a short fold, and the pieces are chained.
-/
import proofs.«207065_g23029614641262_cont_8to1_115_36_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The line in four pieces -/

/-- The caller's six operations. -/
abbrev ops4 : List (HloOp τ sig (Elt F)) :=
  [ reshape main_v0 main_v1 rfl shapeCasts_S1x2048x32768_S1x2048x2048x16,
    binary main_arg2 main_v1 main_v2 ((fun l r => Host.dotGeneral dot_S2048x16_S1x2048x2048x16_S2048x1x2048_1_3_n_01_0_2 none l r) : (⟨S2048x16, .f32⟩ : BufTy).Contents (Elt F) → (⟨S1x2048x2048x16, .f32⟩ : BufTy).Contents (Elt F) → (⟨S2048x1x2048, .f32⟩ : BufTy).Contents (Elt F)),
    unary main_v2 main_v3 ((transpose S1x2048x2048 [1, 2, 0] · transposes_S2048x1x2048_S1x2048x2048_1_2_0) : (⟨S2048x1x2048, .f32⟩ : BufTy).Contents (Elt F) → (⟨S1x2048x2048, .f32⟩ : BufTy).Contents (Elt F)),
    unary main_arg3 main_v4 (broadcastInDim S1x1x2048 ![2] bcast_S2048_S1x1x2048_2 : (⟨S2048, .f32⟩ : BufTy).Contents (Elt F) → (⟨S1x1x2048, .f32⟩ : BufTy).Contents (Elt F)),
    unary main_v4 main_v5 (broadcastInDim S1x2048x2048 ![0, 1, 2] bcast_S1x1x2048_S1x2048x2048_0_1_2 : (⟨S1x1x2048, .f32⟩ : BufTy).Contents (Elt F) → (⟨S1x2048x2048, .f32⟩ : BufTy).Contents (Elt F)),
    binary main_v3 main_v5 main_v6 (addf : (⟨S1x2048x2048, .f32⟩ : BufTy).Contents (Elt F) → (⟨S1x2048x2048, .f32⟩ : BufTy).Contents (Elt F) → (⟨S1x2048x2048, .f32⟩ : BufTy).Contents (Elt F)) ]

theorem d_v6 (W : Valuation τ sig (Elt F)) :
    after ops4 W (main_v6 : DevRef τ sig)
      = addf
        (transpose S1x2048x2048 [1, 2, 0]
          (Host.dotGeneral dot_S2048x16_S1x2048x2048x16_S2048x1x2048_1_3_n_01_0_2 none (W (main_arg2 : DevRef τ sig))
            (shapeCast S1x2048x2048x16 (W (main_v0 : DevRef τ sig)) shapeCasts_S1x2048x32768_S1x2048x2048x16))
          transposes_S2048x1x2048_S1x2048x2048_1_2_0)
        (broadcastInDim S1x2048x2048 ![0, 1, 2] bcast_S1x1x2048_S1x2048x2048_0_1_2
          (broadcastInDim S1x1x2048 ![2] bcast_S2048_S1x1x2048_2 (W (main_arg3 : DevRef τ sig)))) := by
  simp only [after_cons, after_nil]
  rfl

/-- The index normalisation: seven operations, the last the callee's select. -/
abbrev ops1 : List (HloOp τ sig (Elt F)) :=
  [ TRef.nullary main_call0.c (constantI S_ 32 0#32),
    TRef.unary main_call0.c main_call0.v0 (broadcastInDim S32768 ![] bcast_S_S32768),
    TRef.binary (.of main_arg1) main_call0.v0 main_call0.v1 (cmpi .slt),
    TRef.nullary main_call0.c_0 (constantI S_ 32 2048#32),
    TRef.unary main_call0.c_0 main_call0.v2 (broadcastInDim S32768 ![] bcast_S_S32768),
    TRef.binary (.of main_arg1) main_call0.v2 main_call0.v3 addi,
    TRef.ternary main_call0.v1 main_call0.v3 (.of main_arg1) main_call0.call0.v0 select ]

theorem a_v4 (V : Valuation τ sig (Elt F)) :
    after ops1 V (main_call0_v4 : DevRef τ sig) = normIdx (V (main_arg1 : DevRef τ sig)) := by
  simp only [after_cons, after_nil]
  rfl

theorem a_arg0 (V : Valuation τ sig (Elt F)) : after ops1 V (main_arg0 : DevRef τ sig) = V (main_arg0 : DevRef τ sig) := by
  simp only [after_cons, after_nil]
  rfl
theorem a_arg2 (V : Valuation τ sig (Elt F)) : after ops1 V (main_arg2 : DevRef τ sig) = V (main_arg2 : DevRef τ sig) := by
  simp only [after_cons, after_nil]
  rfl
theorem a_arg3 (V : Valuation τ sig (Elt F)) : after ops1 V (main_arg3 : DevRef τ sig) = V (main_arg3 : DevRef τ sig) := by
  simp only [after_cons, after_nil]
  rfl

/-- The column of start indices and the in-bounds mask: eleven operations. -/
abbrev ops2 : List (HloOp τ sig (Elt F)) :=
  [ TRef.unary main_call0.call0.v0 main_call0.v5 (broadcastInDim S32768x1 ![0] bcast_S32768_S32768x1_0),
    TRef.nullary main_call0.c_1 (constantI S1 32 2047#32),
    TRef.nullary main_call0.c_2 (constantI S_ 32 0#32),
    TRef.unary main_call0.c_2 main_call0.v6 (broadcastInDim S32768x1 ![] bcast_S_S32768x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S32768x1 ![0, 1] bcast_S1x1_S32768x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32768x1_S32768_d1 h_S_) ]

/-- The column of start indices of given normalised indices. -/
def colOf (n : IVec S32768 32) : IVec S32768x1 32 := broadcastInDim S32768x1 ![0] bcast_S32768_S32768x1_0 n

/-- The in-bounds mask of a given column of start indices. -/
def maskOf (col : IVec S32768x1 32) : IVec S32768 1 :=
  Host.reduce IntOp.andi
    (andi (cmpi .sge col (broadcastInDim S32768x1 ![] bcast_S_S32768x1 (constantI S_ 32 0#32)))
      (cmpi .sle col (broadcastInDim S32768x1 ![0, 1] bcast_S1x1_S32768x1_0_1
        (broadcastInDim S1x1 ![1] bcast_S1_S1x1_1 (constantI S1 32 2047#32)))))
    (constantI S_ 1 1#1) reducesTo_S32768x1_S32768_d1 h_S_

theorem b_v5 (W : Valuation τ sig (Elt F)) :
    after ops2 W (main_call0_v5 : DevRef τ sig) = colOf (W (main_call0_v4 : DevRef τ sig)) := by
  simp only [after_cons, after_nil]
  rfl

attribute [local irreducible] Host.reduce in
theorem b_v12 (W : Valuation τ sig (Elt F)) :
    after ops2 W (main_call0_v12 : DevRef τ sig) = maskOf (colOf (W (main_call0_v4 : DevRef τ sig))) := by
  simp only [after_cons, after_nil]
  rfl

theorem b_arg0 (W : Valuation τ sig (Elt F)) : after ops2 W (main_arg0 : DevRef τ sig) = W (main_arg0 : DevRef τ sig) := by
  simp only [after_cons, after_nil]
  rfl
theorem b_arg2 (W : Valuation τ sig (Elt F)) : after ops2 W (main_arg2 : DevRef τ sig) = W (main_arg2 : DevRef τ sig) := by
  simp only [after_cons, after_nil]
  rfl
theorem b_arg3 (W : Valuation τ sig (Elt F)) : after ops2 W (main_arg3 : DevRef τ sig) = W (main_arg3 : DevRef τ sig) := by
  simp only [after_cons, after_nil]
  rfl

/-- The gather and the select against the not-a-number word: five operations. -/
abbrev ops3 : List (HloOp τ sig (Elt F)) :=
  [ TRef.binary (.of main_arg0) main_call0.v5 main_call0.v13 (fun x i => Host.gather gather_S1x2048x2048_S32768x1_S1x2048x32768_01_2_n_n_2_1_120481 x i),
    TRef.unary main_call0.v12 main_call0.v14 (broadcastInDim S1x2048x32768 ![2] bcast_S32768_S1x2048x32768_2),
    TRef.nullary main_call0.cst (constant S_ .f32 0x7FC00000#32),
    TRef.unary main_call0.cst main_call0.v15 (broadcastInDim S1x2048x32768 ![] bcast_S_S1x2048x32768),
    TRef.ternary main_call0.v14 main_call0.v13 main_call0.v15 main_call0.v16 select ]

attribute [local irreducible] Host.gather in
theorem c_v0 (W : Valuation τ sig (Elt F)) :
    after ops3 W (main_v0 : DevRef τ sig)
      = select (broadcastInDim S1x2048x32768 ![2] bcast_S32768_S1x2048x32768_2 (W (main_call0_v12 : DevRef τ sig)))
          (Host.gather gather_S1x2048x2048_S32768x1_S1x2048x32768_01_2_n_n_2_1_120481 (W (main_arg0 : DevRef τ sig)) (W (main_call0_v5 : DevRef τ sig)))
          (broadcastInDim S1x2048x32768 ![] bcast_S_S1x2048x32768 (constant S_ .f32 0x7FC00000#32)) := by
  simp only [after_cons, after_nil]
  rfl

theorem c_arg2 (W : Valuation τ sig (Elt F)) : after ops3 W (main_arg2 : DevRef τ sig) = W (main_arg2 : DevRef τ sig) := by
  simp only [after_cons, after_nil]
  rfl
theorem c_arg3 (W : Valuation τ sig (Elt F)) : after ops3 W (main_arg3 : DevRef τ sig) = W (main_arg3 : DevRef τ sig) := by
  simp only [after_cons, after_nil]
  rfl

/-! ## The whole line -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The program's operations are the four pieces in order. -/
theorem ops_eq : (ops : List (HloOp τ sig (Elt F))) = ops1 ++ (ops2 ++ (ops3 ++ ops4)) := rfl

/-- The fold at the result buffer is the one term: piece by piece, each piece's result read off the piece before. -/
theorem result_eq (V : Valuation τ sig (Elt F)) :
    after ops V (main_v6 : DevRef τ sig)
      = refTerm (V (main_arg0 : DevRef τ sig)) (V (main_arg1 : DevRef τ sig)) (V (main_arg2 : DevRef τ sig))
          (V (main_arg3 : DevRef τ sig)) := by
  rw [ops_eq, after_append, after_append, after_append, d_v6, c_v0, c_arg2, c_arg3, b_v12, b_v5, b_arg0, b_arg2, b_arg3,
    a_v4, a_arg0, a_arg2, a_arg3]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem arg3_eq (V : Valuation τ sig (Elt F)) : after ops V (main_arg3 : DevRef τ sig) = V (main_arg3 : DevRef τ sig) := by
  simp only [after_cons, after_nil]
  rfl

/-- On every device, for any float values, from any memory with zero counters: every weakly fair execution of the
    program terminates with the result buffer at the one term of the arguments' launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (result_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.lean ====
/-
  The claims of this certificate.

  The kernel program builds, on the sparse cores, the dense matrix `mt (j, i) = Σ_k [conn (16 j + k) = i] · w (j, k)`
  (thirty-two tiles, each scattering the weights of its 64 rows into zeroed two-row blocks and copying them out), and then
  computes `out (0, a, j) = Σ_i x (0, a, i) · mt (j, i) + b j` on the tensor core, 256 columns at a time.  The reference
  gathers `x` at the connection words and contracts with the weights: `out (0, a, j) = Σ_k x (0, a, conn (16 j + k)) · w (j, k)
  + b j`.  With every connection word in range and the activations and weights finite the two are equal on the extended
  reals: distribute the product over the sum that defines `mt`, exchange the two finite sums, and keep, for each
  connection, the one column it names.

  The three frames are the programs' runs with the values dropped; the kernel's run is stated once for any float instance
  and read at the word level and at the exact level; nothing was rewritten by the idealization, so `preserves` is trivial.
-/
import proofs.«207065_g23029614641262_cont_8to1_115_36_alg».proof.Defs
import proofs.«207065_g23029614641262_cont_8to1_115_36_alg».proof.Proof.Gen.Kernel
import proofs.«207065_g23029614641262_cont_8to1_115_36_alg».proof.Proof.Gen.Kernel.Skeleton
import proofs.«207065_g23029614641262_cont_8to1_115_36_alg».proof.Proof.Gen.Kernel.Launch
import proofs.«207065_g23029614641262_cont_8to1_115_36_alg».proof.Proof.Gen.Kernel.Points
import proofs.«207065_g23029614641262_cont_8to1_115_36_alg».proof.Proof.Gen.KernelIdeal
import proofs.«207065_g23029614641262_cont_8to1_115_36_alg».proof.Proof.Gen.KernelIdeal.Skeleton
import proofs.«207065_g23029614641262_cont_8to1_115_36_alg».proof.Proof.Gen.KernelIdeal.Launch
import proofs.«207065_g23029614641262_cont_8to1_115_36_alg».proof.Proof.Gen.KernelIdeal.Points
import proofs.«207065_g23029614641262_cont_8to1_115_36_alg».proof.Proof.Gen.ReferenceIdeal
import proofs.«207065_g23029614641262_cont_8to1_115_36_alg».proof.Proof.Gen.Pre_input_domain
import proofs.«207065_g23029614641262_cont_8to1_115_36_alg».proof.Proof.TileObl
import proofs.«207065_g23029614641262_cont_8to1_115_36_alg».proof.Proof.MainLaunch
import proofs.«207065_g23029614641262_cont_8to1_115_36_alg».proof.Proof.BitsTileObl
import proofs.«207065_g23029614641262_cont_8to1_115_36_alg».proof.Proof.BitsMainLaunch
import proofs.«207065_g23029614641262_cont_8to1_115_36_alg».proof.Proof.PreOpen
import proofs.«207065_g23029614641262_cont_8to1_115_36_alg».proof.Proof.IdealEq
import proofs.«207065_g23029614641262_cont_8to1_115_36_alg».proof.Proof.RefResult
import Idealize.ShloMosaic.Adequacy
import Idealize.ShloMosaic.Init

noncomputable section

namespace Cert.Proof

open Idealize.ShloMosaic Idealize.SL.Sem

/-- The precondition puts every connection word in range (word-level program). -/
theorem preOK_kernel (m : (ℓ : Loc Cert.Kernel.nD Cert.Kernel.τ Cert.Kernel.sig) → Buf (Elt Bits) ℓ) (h : Cert.Pre_Kernel m) :
    Cert.Kernel.Hand.PreOK m :=
  fun d i => (Cert.PreOpen.conn_range _ _ _ _ (h d) i).2.2

/-- The precondition puts every connection word in range (exact program). -/
theorem preOK_kernelIdeal (m : (ℓ : Loc Cert.KernelIdeal.nD Cert.KernelIdeal.τ Cert.KernelIdeal.sig) → Buf (Elt Ideal) ℓ)
    (h : Cert.Pre_KernelIdeal m) : Cert.KernelIdeal.Hand.PreOK m :=
  fun d i => (Cert.PreOpen.conn_range _ _ _ _ (h d) i).2.2

theorem frame_kernel : Cert.frame_Kernel := fun m g hpre =>
  (θ_run Cert.Kernel.defs _ _).mono (fun _ h c => (h c).2)
    (Cert.Kernel.Hand.run_main (F := Bits) m g (preOK_kernel m hpre) (Cert.Kernel.Hand.tileObl m _))

theorem frame_kernelIdeal : Cert.frame_KernelIdeal := fun m g hpre =>
  (θ_run Cert.KernelIdeal.defs _ _).mono (fun _ h c => (h c).2)
    (Cert.KernelIdeal.Hand.run_main (F := Ideal) m g (preOK_kernelIdeal m hpre) (Cert.KernelIdeal.Hand.tileObl m _))

theorem frame_referenceIdeal : Cert.frame_ReferenceIdeal := fun m g _ =>
  (θ_run Cert.ReferenceIdeal.defs _ _).mono (fun _ h c => (h c).2) (Cert.ReferenceIdeal.RefValue.run (F := Ideal) m g)

/-- Both programs end with the one function of the arguments: the kernel's two-stage function, which for arguments the
    precondition admits is the reference's term. -/
theorem algebraic : Cert.algebraic_KernelIdeal_ReferenceIdeal := by
  intro m g m' g' hpre hagree
  have hok := preOK_kernelIdeal m hpre
  refine ⟨_, Cert.KernelIdeal.Hand.run_main (F := Ideal) m g hok (Cert.KernelIdeal.Hand.tileObl m hok), ?_⟩
  refine (θ_run Cert.ReferenceIdeal.defs _ _).mono (fun _ h c => ⟨(h c).1.trans ?_, (h c).2⟩)
    (Cert.ReferenceIdeal.RefValue.run (F := Ideal) m' g')
  rw [(hagree c).1, (hagree c).2.1, (hagree c).2.2.1, (hagree c).2.2.2]
  have hfin := Cert.PreOpen.finite _ _ _ _ (hpre c)
  exact Cert.KernelIdeal.HandIdeal.ref_eq_kernel _ _ (hok c) _ _ hfin.1 hfin.2.1

theorem claim : Cert.Claim := ⟨Cert.Kernel.Gen.facts, Cert.KernelIdeal.Gen.facts, Cert.ReferenceIdeal.Gen.facts, Cert.Pre_input_domain.Gen.facts,
  frame_kernel, frame_kernelIdeal, frame_referenceIdeal, trivial, algebraic⟩

end Cert.Proof

end
